-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v215)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v215) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v258) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x3 : Shape := ⟨2, ![50000, 3]⟩
abbrev S2x1600000 : Shape := ⟨2, ![2, 1600000]⟩
abbrev S1600000x6 : Shape := ⟨2, ![1600000, 6]⟩
abbrev S3x3x64 : Shape := ⟨3, ![3, 3, 64]⟩
abbrev S3x64 : Shape := ⟨2, ![3, 64]⟩
abbrev S64 : Shape := ⟨1, ![64]⟩
abbrev S3x64x64 : Shape := ⟨3, ![3, 64, 64]⟩
abbrev S64x64 : Shape := ⟨2, ![64, 64]⟩
abbrev S134x32 : Shape := ⟨2, ![134, 32]⟩
abbrev S32 : Shape := ⟨1, ![32]⟩
abbrev S32x16 : Shape := ⟨2, ![32, 16]⟩
abbrev S16 : Shape := ⟨1, ![16]⟩
abbrev S16x1 : Shape := ⟨2, ![16, 1]⟩
abbrev S1 : Shape := ⟨1, ![1]⟩
abbrev S_ : Shape := ⟨0, ![]⟩

class Facts : Prop where
  bcast_S_S50000x3 : S_.BroadcastsInDim S50000x3 (![] : Fin 0 → Fin S50000x3.rank)
  reducesTo_S50000x3_S_d0_1 : S50000x3.ReducesTo [0, 1] S_
  h_S_ : 0 < S_.numel
  bcast_S_S1600000x6 : S_.BroadcastsInDim S1600000x6 (![] : Fin 0 → Fin S1600000x6.rank)
  reducesTo_S1600000x6_S_d0_1 : S1600000x6.ReducesTo [0, 1] S_
  bcast_S_S3x3x64 : S_.BroadcastsInDim S3x3x64 (![] : Fin 0 → Fin S3x3x64.rank)
  reducesTo_S3x3x64_S_d0_1_2 : S3x3x64.ReducesTo [0, 1, 2] S_
  bcast_S_S3x64 : S_.BroadcastsInDim S3x64 (![] : Fin 0 → Fin S3x64.rank)
  reducesTo_S3x64_S_d0_1 : S3x64.ReducesTo [0, 1] S_
  bcast_S_S64 : S_.BroadcastsInDim S64 (![] : Fin 0 → Fin S64.rank)
  reducesTo_S64_S_d0 : S64.ReducesTo [0] S_
  bcast_S_S3x64x64 : S_.BroadcastsInDim S3x64x64 (![] : Fin 0 → Fin S3x64x64.rank)
  reducesTo_S3x64x64_S_d0_1_2 : S3x64x64.ReducesTo [0, 1, 2] S_
  bcast_S_S64x64 : S_.BroadcastsInDim S64x64 (![] : Fin 0 → Fin S64x64.rank)
  reducesTo_S64x64_S_d0_1 : S64x64.ReducesTo [0, 1] S_
  bcast_S_S134x32 : S_.BroadcastsInDim S134x32 (![] : Fin 0 → Fin S134x32.rank)
  reducesTo_S134x32_S_d0_1 : S134x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_
  bcast_S_S16x1 : S_.BroadcastsInDim S16x1 (![] : Fin 0 → Fin S16x1.rank)
  reducesTo_S16x1_S_d0_1 : S16x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg15 : FVec F S16 .f32) (main_arg16 : FVec F S16x1 .f32) (main_arg17 : FVec F S1 .f32) (main_v63 : IVec S_ 1) (main_v67 : IVec S_ 1) : IVec S_ 1 :=
  let main_v68 : IVec S_ 1 := andi main_v63 main_v67
  let main_v69 : FVec F S16 .f32 := Host.absf main_arg15
  let main_cst_26 : FVec F S_ .f32 := constant S_ .f32 0x7F800000#32
  let main_v70 : FVec F S16 .f32 := broadcastInDim S16 ![] bcast_S_S16 main_cst_26
  let main_v71 : IVec S16 1 := cmpf .olt main_v69 main_v70
  let main_c_27 : IVec S_ 1 := constantI S_ 1 1#1
  let main_v72 : IVec S_ 1 := (fun x v => Host.reduce IntOp.andi x v reducesTo_S16_S_d0 h_S_) main_v71 main_c_27
  let main_v73 : IVec S_ 1 := andi main_v68 main_v72
  let main_v74 : FVec F S16x1 .f32 := Host.absf main_arg16
  let main_cst_28 : FVec F S_ .f32 := constant S_ .f32 0x7F800000#32
  let main_v75 : FVec F S16x1 .f32 := broadcastInDim S16x1 ![] bcast_S_S16x1 main_cst_28
  let main_v76 : IVec S16x1 1 := cmpf .olt main_v74 main_v75
  let main_c_29 : IVec S_ 1 := constantI S_ 1 1#1
  let main_v77 : IVec S_ 1 := (fun x v => Host.reduce IntOp.andi x v reducesTo_S16x1_S_d0_1 h_S_) main_v76 main_c_29
  let main_v78 : IVec S_ 1 := andi main_v73 main_v77
  let main_v79 : FVec F S1 .f32 := Host.absf main_arg17
  let main_cst_30 : FVec F S_ .f32 := constant S_ .f32 0x7F800000#32
  let main_v80 : FVec F S1 .f32 := broadcastInDim S1 ![] bcast_S_S1 main_cst_30
  let main_v81 : IVec S1 1 := cmpf .olt main_v79 main_v80
  let main_c_31 : IVec S_ 1 := constantI S_ 1 1#1
  let main_v82 : IVec S_ 1 := (fun x v => Host.reduce IntOp.andi x v reducesTo_S1_S_d0 h_S_) main_v81 main_c_31
  let main_v83 : IVec S_ 1 := andi main_v78 main_v82
  main_v83

def fn_part3 {F : FTy → Type} [FloatOps F] (main_arg12 : FVec F S134x32 .f32) (main_arg13 : FVec F S32 .f32) (main_arg14 : FVec F S32x16 .f32) (main_arg15 : FVec F S16 .f32) (main_arg16 : FVec F S16x1 .f32) (main_arg17 : FVec F S1 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S134x32 .f32 := Host.absf main_arg12
  let main_cst_20 : FVec F S_ .f32 := constant S_ .f32 0x7F800000#32
  let main_v55 : FVec F S134x32 .f32 := broadcastInDim S134x32 ![] bcast_S_S134x32 main_cst_20
  let main_v56 : IVec S134x32 1 := cmpf .olt main_v54 main_v55
  let main_c_21 : IVec S_ 1 := constantI S_ 1 1#1
  let main_v57 : IVec S_ 1 := (fun x v => Host.reduce IntOp.andi x v reducesTo_S134x32_S_d0_1 h_S_) main_v56 main_c_21
  let main_v58 : IVec S_ 1 := andi main_v53 main_v57
  let main_v59 : FVec F S32 .f32 := Host.absf main_arg13
  let main_cst_22 : FVec F S_ .f32 := constant S_ .f32 0x7F800000#32
  let main_v60 : FVec F S32 .f32 := broadcastInDim S32 ![] bcast_S_S32 main_cst_22
  let main_v61 : IVec S32 1 := cmpf .olt main_v59 main_v60
  let main_c_23 : IVec S_ 1 := constantI S_ 1 1#1
  let main_v62 : IVec S_ 1 := (fun x v => Host.reduce IntOp.andi x v reducesTo_S32_S_d0 h_S_) main_v61 main_c_23
  let main_v63 : IVec S_ 1 := andi main_v58 main_v62
  let main_v64 : FVec F S32x16 .f32 := Host.absf main_arg14
  let main_cst_24 : FVec F S_ .f32 := constant S_ .f32 0x7F800000#32
  let main_v65 : FVec F S32x16 .f32 := broadcastInDim S32x16 ![] bcast_S_S32x16 main_cst_24
  let main_v66 : IVec S32x16 1 := cmpf .olt main_v64 main_v65
  let main_c_25 : IVec S_ 1 := constantI S_ 1 1#1
  let main_v67 : IVec S_ 1 := (fun x v => Host.reduce IntOp.andi x v reducesTo_S32x16_S_d0_1 h_S_) main_v66 main_c_25
  fn_part4 (F := F) main_arg15 main_arg16 main_arg17 main_v63 main_v67

def fn_part2 {F : FTy → Type} [FloatOps F] (main_arg8 : FVec F S64 .f32) (main_arg9 : FVec F S3x64x64 .f32) (main_arg10 : FVec F S64x64 .f32) (main_arg11 : FVec F S64 .f32) (main_arg12 : FVec F S134x32 .f32) (main_arg13 : FVec F S32 .f32) (main_arg14 : FVec F S32x16 .f32) (main_arg15 : FVec F S16 .f32) (main_arg16 : FVec F S16x1 .f32) (main_arg17 : FVec F S1 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S3x64x64 .f32 := Host.absf main_arg9
  let main_cst_14 : FVec F S_ .f32 := constant S_ .f32 0x7F800000#32
  let main_v40 : FVec F S3x64x64 .f32 := broadcastInDim S3x64x64 ![] bcast_S_S3x64x64 main_cst_14
  let main_v41 : IVec S3x64x64 1 := cmpf .olt main_v39 main_v40
  let main_c_15 : IVec S_ 1 := constantI S_ 1 1#1
  let main_v42 : IVec S_ 1 := (fun x v => Host.reduce IntOp.andi x v reducesTo_S3x64x64_S_d0_1_2 h_S_) main_v41 main_c_15
  let main_v43 : IVec S_ 1 := andi main_v38 main_v42
  let main_v44 : FVec F S64x64 .f32 := Host.absf main_arg10
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_arg12 main_arg13 main_arg14 main_arg15 main_arg16 main_arg17 main_v48 main_v49 main_v50

def fn_part1 {F : FTy → Type} [FloatOps F] (main_arg5 : FVec F S64 .f32) (main_arg6 : FVec F S3x64x64 .f32) (main_arg7 : FVec F S64x64 .f32) (main_arg8 : FVec F S64 .f32) (main_arg9 : FVec F S3x64x64 .f32) (main_arg10 : FVec F S64x64 .f32) (main_arg11 : FVec F S64 .f32) (main_arg12 : FVec F S134x32 .f32) (main_arg13 : FVec F S32 .f32) (main_arg14 : FVec F S32x16 .f32) (main_arg15 : FVec F S16 .f32) (main_arg16 : FVec F S16x1 .f32) (main_arg17 : FVec F S1 .f32) (main_v13 : IVec S_ 1) (main_v16 : IVec S3x64 1) : IVec S_ 1 :=
  let main_c_5 : IVec S_ 1 := constantI S_ 1 1#1
  let main_v17 : IVec S_ 1 := (fun x v => Host.reduce IntOp.andi x v reducesTo_S3x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S3x64x64 .f32 := Host.absf main_arg6
  let main_cst_8 : FVec F S_ .f32 := constant S_ .f32 0x7F800000#32
  let main_v25 : FVec F S3x64x64 .f32 := broadcastInDim S3x64x64 ![] bcast_S_S3x64x64 main_cst_8
  let main_v26 : IVec S3x64x64 1 := cmpf .olt main_v24 main_v25
  let main_c_9 : IVec S_ 1 := constantI S_ 1 1#1
  let main_v27 : IVec S_ 1 := (fun x v => Host.reduce IntOp.andi x v reducesTo_S3x64x64_S_d0_1_2 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg8 main_arg9 main_arg10 main_arg11 main_arg12 main_arg13 main_arg14 main_arg15 main_arg16 main_arg17 main_v33

def fn {F : FTy → Type} [FloatOps F] (main_arg0 : FVec F S50000x3 .f32) (main_arg1 : IVec S2x1600000 32) (main_arg2 : FVec F S1600000x6 .f32) (main_arg3 : FVec F S3x3x64 .f32) (main_arg4 : FVec F S3x64 .f32) (main_arg5 : FVec F S64 .f32) (main_arg6 : FVec F S3x64x64 .f32) (main_arg7 : FVec F S64x64 .f32) (main_arg8 : FVec F S64 .f32) (main_arg9 : FVec F S3x64x64 .f32) (main_arg10 : FVec F S64x64 .f32) (main_arg11 : FVec F S64 .f32) (main_arg12 : FVec F S134x32 .f32) (main_arg13 : FVec F S32 .f32) (main_arg14 : FVec F S32x16 .f32) (main_arg15 : FVec F S16 .f32) (main_arg16 : FVec F S16x1 .f32) (main_arg17 : FVec F S1 .f32) : IVec S_ 1 :=
  let main_v0 : FVec F S50000x3 .f32 := Host.absf main_arg0
  let main_cst : FVec F S_ .f32 := constant S_ .f32 0x7F800000#32
  let main_v1 : FVec F S50000x3 .f32 := broadcastInDim S50000x3 ![] bcast_S_S50000x3 main_cst
  let main_v2 : IVec S50000x3 1 := cmpf .olt main_v0 main_v1
  let main_c : IVec S_ 1 := constantI S_ 1 1#1
  let main_v3 : IVec S_ 1 := (fun x v => Host.reduce IntOp.andi x v reducesTo_S50000x3_S_d0_1 h_S_) main_v2 main_c
  let main_v4 : FVec F S1600000x6 .f32 := Host.absf main_arg2
  let main_cst_0 : FVec F S_ .f32 := constant S_ .f32 0x7F800000#32
  let main_v5 : FVec F S1600000x6 .f32 := broadcastInDim S1600000x6 ![] bcast_S_S1600000x6 main_cst_0
  let main_v6 : IVec S1600000x6 1 := cmpf .olt main_v4 main_v5
  let main_c_1 : IVec S_ 1 := constantI S_ 1 1#1
  let main_v7 : IVec S_ 1 := (fun x v => Host.reduce IntOp.andi x v reducesTo_S1600000x6_S_d0_1 h_S_) main_v6 main_c_1
  let main_v8 : IVec S_ 1 := andi main_v3 main_v7
  let main_v9 : FVec F S3x3x64 .f32 := Host.absf main_arg3
  let main_cst_2 : FVec F S_ .f32 := constant S_ .f32 0x7F800000#32
  let main_v10 : FVec F S3x3x64 .f32 := broadcastInDim S3x3x64 ![] bcast_S_S3x3x64 main_cst_2
  let main_v11 : IVec S3x3x64 1 := cmpf .olt main_v9 main_v10
  let main_c_3 : IVec S_ 1 := constantI S_ 1 1#1
  let main_v12 : IVec S_ 1 := (fun x v => Host.reduce IntOp.andi x v reducesTo_S3x3x64_S_d0_1_2 h_S_) main_v11 main_c_3
  let main_v13 : IVec S_ 1 := andi main_v8 main_v12
  let main_v14 : FVec F S3x64 .f32 := Host.absf main_arg4
  let main_cst_4 : FVec F S_ .f32 := constant S_ .f32 0x7F800000#32
  let main_v15 : FVec F S3x64 .f32 := broadcastInDim S3x64 ![] bcast_S_S3x64 main_cst_4
  let main_v16 : IVec S3x64 1 := cmpf .olt main_v14 main_v15
  fn_part1 (F := F) main_arg5 main_arg6 main_arg7 main_arg8 main_arg9 main_arg10 main_arg11 main_arg12 main_arg13 main_arg14 main_arg15 main_arg16 main_arg17 main_v13 main_v16
-- ==== Kernel.lean ====
abbrev S50000x3 : Shape := ⟨2, ![50000, 3]⟩
abbrev S2x1600000 : Shape := ⟨2, ![2, 1600000]⟩
abbrev S1600000x6 : Shape := ⟨2, ![1600000, 6]⟩
abbrev S3x3x64 : Shape := ⟨3, ![3, 3, 64]⟩
abbrev S3x64 : Shape := ⟨2, ![3, 64]⟩
abbrev S64 : Shape := ⟨1, ![64]⟩
abbrev S3x64x64 : Shape := ⟨3, ![3, 64, 64]⟩
abbrev S64x64 : Shape := ⟨2, ![64, 64]⟩
abbrev S134x32 : Shape := ⟨2, ![134, 32]⟩
abbrev S32 : Shape := ⟨1, ![32]⟩
abbrev S32x16 : Shape := ⟨2, ![32, 16]⟩
abbrev S16 : Shape := ⟨1, ![16]⟩
abbrev S16x1 : Shape := ⟨2, ![16, 1]⟩
abbrev S1 : Shape := ⟨1, ![1]⟩
abbrev S1600000x1 : Shape := ⟨2, ![1600000, 1]⟩
abbrev S1600000 : Shape := ⟨1, ![1600000]⟩
abbrev S_ : Shape := ⟨0, ![]⟩
abbrev S1x1600000 : Shape := ⟨2, ![1, 1600000]⟩
abbrev S1600000x3 : Shape := ⟨2, ![1600000, 3]⟩
abbrev S50000x1 : Shape := ⟨2, ![50000, 1]⟩
abbrev S1x3x64 : Shape := ⟨3, ![1, 3, 64]⟩
abbrev S50000x64 : Shape := ⟨2, ![50000, 64]⟩
abbrev S5000x3 : Shape := ⟨2, ![5000, 3]⟩
abbrev S5000x64 : Shape := ⟨2, ![5000, 64]⟩
abbrev S1x64 : Shape := ⟨2, ![1, 64]⟩
abbrev S1600000x64 : Shape := ⟨2, ![1600000, 64]⟩
abbrev S1x64x64 : Shape := ⟨3, ![1, 64, 64]⟩
abbrev S1600000x134 : Shape := ⟨2, ![1600000, 134]⟩
abbrev S16000x134 : Shape := ⟨2, ![16000, 134]⟩
abbrev S16000x1 : Shape := ⟨2, ![16000, 1]⟩
abbrev S16000x32 : Shape := ⟨2, ![16000, 32]⟩
abbrev S1x32 : Shape := ⟨2, ![1, 32]⟩
abbrev S16000x16 : Shape := ⟨2, ![16000, 16]⟩
abbrev S1x16 : Shape := ⟨2, ![1, 16]⟩
abbrev S1x1 : Shape := ⟨2, ![1, 1]⟩

abbrev nBuf : Space → Nat
  | .hbm => 282
  | .vmem => 55
  | .smem => 0
  | _ => 0

abbrev hbmTy0_0 (i : Nat) : BufTy := match i % 128 with
  | 0 => ⟨S50000x3, .f32⟩
  | 1 => ⟨S2x1600000, .i32⟩
  | 2 => ⟨S1600000x6, .f32⟩
  | 3 => ⟨S3x3x64, .f32⟩
  | 4 => ⟨S3x64, .f32⟩
  | 5 => ⟨S64, .f32⟩
  | 6 => ⟨S3x64x64, .f32⟩
  | 7 => ⟨S64x64, .f32⟩
  | 8 => ⟨S64, .f32⟩
  | 9 => ⟨S3x64x64, .f32⟩
  | 10 => ⟨S64x64, .f32⟩
  | 11 => ⟨S64, .f32⟩
  | 12 => ⟨S134x32, .f32⟩
  | 13 => ⟨S32, .f32⟩
  | 14 => ⟨S32x16, .f32⟩
  | 15 => ⟨S16, .f32⟩
  | 16 => ⟨S16x1, .f32⟩
  | 17 => ⟨S1, .f32⟩
  | 18 => ⟨S1600000x1, .f32⟩
  | 19 => ⟨S1600000, .f32⟩
  | 20 => ⟨S_, .f32⟩
  | 21 => ⟨S1600000, .f32⟩
  | 22 => ⟨S1600000, .i1⟩
  | 23 => ⟨S1600000, .i32⟩
  | 24 => ⟨S_, .f32⟩
  | 25 => ⟨S1600000, .f32⟩
  | 26 => ⟨S1600000, .i1⟩
  | 27 => ⟨S1600000, .i32⟩
  | 28 => ⟨S1600000, .i32⟩
  | 29 => ⟨S1x1600000, .i32⟩
  | 30 => ⟨S1600000, .i32⟩
  | 31 => ⟨S1x1600000, .i32⟩
  | 32 => ⟨S1600000, .i32⟩
  | 33 => ⟨S_, .i32⟩
  | 34 => ⟨S1600000, .i32⟩
  | 35 => ⟨S1600000, .i1⟩
  | 36 => ⟨S_, .i32⟩
  | 37 => ⟨S1600000, .i32⟩
  | 38 => ⟨S1600000, .i32⟩
  | 39 => ⟨S1600000, .i32⟩
  | 40 => ⟨S1600000x1, .i32⟩
  | 41 => ⟨S1600000x3, .f32⟩
  | 42 => ⟨S_, .i32⟩
  | 43 => ⟨S1600000, .i32⟩
  | 44 => ⟨S1600000, .i1⟩
  | 45 => ⟨S1600000, .f32⟩
  | 46 => ⟨S1600000x1, .f32⟩
  | 47 => ⟨S1600000x3, .f32⟩
  | 48 => ⟨S1600000x3, .f32⟩
  | 49 => ⟨S_, .f32⟩
  | 50 => ⟨S50000x3, .f32⟩
  | 51 => ⟨S1600000x1, .i32⟩
  | 52 => ⟨S50000x3, .f32⟩
  | 53 => ⟨S_, .f32⟩
  | 54 => ⟨S50000x1, .f32⟩
  | 55 => ⟨S1600000x1, .i32⟩
  | 56 => ⟨S50000x1, .f32⟩
  | 57 => ⟨S_, .f32⟩
  | 58 => ⟨S50000x1, .f32⟩
  | 59 => ⟨S50000x1, .f32⟩
  | 60 => ⟨S50000x3, .f32⟩
  | 61 => ⟨S50000x3, .f32⟩
  | 62 => ⟨S_, .i32⟩
  | 63 => ⟨S1600000, .i32⟩
  | 64 => ⟨S1600000, .i1⟩
  | 65 => ⟨S1600000, .f32⟩
  | 66 => ⟨S1600000x1, .f32⟩
  | 67 => ⟨S1600000x3, .f32⟩
  | 68 => ⟨S1600000x3, .f32⟩
  | 69 => ⟨S_, .f32⟩
  | 70 => ⟨S50000x3, .f32⟩
  | 71 => ⟨S1600000x1, .i32⟩
  | 72 => ⟨S50000x3, .f32⟩
  | 73 => ⟨S_, .f32⟩
  | 74 => ⟨S50000x1, .f32⟩
  | 75 => ⟨S1600000x1, .i32⟩
  | 76 => ⟨S50000x1, .f32⟩
  | 77 => ⟨S_, .f32⟩
  | 78 => ⟨S50000x1, .f32⟩
  | 79 => ⟨S50000x1, .f32⟩
  | 80 => ⟨S50000x3, .f32⟩
  | 81 => ⟨S50000x3, .f32⟩
  | 82 => ⟨S_, .i32⟩
  | 83 => ⟨S1600000, .i32⟩
  | 84 => ⟨S1600000, .i1⟩
  | 85 => ⟨S1600000, .f32⟩
  | 86 => ⟨S1600000x1, .f32⟩
  | 87 => ⟨S1600000x3, .f32⟩
  | 88 => ⟨S1600000x3, .f32⟩
  | 89 => ⟨S_, .f32⟩
  | 90 => ⟨S50000x3, .f32⟩
  | 91 => ⟨S1600000x1, .i32⟩
  | 92 => ⟨S50000x3, .f32⟩
  | 93 => ⟨S_, .f32⟩
  | 94 => ⟨S50000x1, .f32⟩
  | 95 => ⟨S1600000x1, .i32⟩
  | 96 => ⟨S50000x1, .f32⟩
  | 97 => ⟨S_, .f32⟩
  | 98 => ⟨S50000x1, .f32⟩
  | 99 => ⟨S50000x1, .f32⟩
  | 100 => ⟨S50000x3, .f32⟩
  | 101 => ⟨S50000x3, .f32⟩
  | 102 => ⟨S1x3x64, .f32⟩
  | 103 => ⟨S3x64, .f32⟩
  | 104 => ⟨S1x3x64, .f32⟩
  | 105 => ⟨S3x64, .f32⟩
  | 106 => ⟨S1x3x64, .f32⟩
  | 107 => ⟨S3x64, .f32⟩
  | 108 => ⟨S50000x64, .f32⟩
  | 109 => ⟨S_, .i32⟩
  | 110 => ⟨S1600000, .i32⟩
  | 111 => ⟨S1600000, .i1⟩
  | 112 => ⟨S_, .i32⟩
  | 113 => ⟨S1600000, .i32⟩
  | 114 => ⟨S1600000, .i32⟩
  | 115 => ⟨S1600000, .i32⟩
  | 116 => ⟨S1600000x1, .i32⟩
  | 117 => ⟨S1600000x64, .f32⟩
  | 118 => ⟨S_, .i32⟩
  | 119 => ⟨S1600000, .i32⟩
  | 120 => ⟨S1600000, .i1⟩
  | 121 => ⟨S1600000, .f32⟩
  | 122 => ⟨S1600000x1, .f32⟩
  | 123 => ⟨S1600000x64, .f32⟩
  | 124 => ⟨S1600000x64, .f32⟩
  | 125 => ⟨S_, .f32⟩
  | 126 => ⟨S50000x64, .f32⟩
  | 127 => ⟨S1600000x1, .i32⟩
  | _ => ⟨S50000x3, .f32⟩

abbrev hbmTy0_1 (i : Nat) : BufTy := match i % 128 with
  | 0 => ⟨S50000x64, .f32⟩
  | 1 => ⟨S_, .f32⟩
  | 2 => ⟨S50000x1, .f32⟩
  | 3 => ⟨S1600000x1, .i32⟩
  | 4 => ⟨S50000x1, .f32⟩
  | 5 => ⟨S_, .f32⟩
  | 6 => ⟨S50000x1, .f32⟩
  | 7 => ⟨S50000x1, .f32⟩
  | 8 => ⟨S50000x64, .f32⟩
  | 9 => ⟨S50000x64, .f32⟩
  | 10 => ⟨S_, .i32⟩
  | 11 => ⟨S1600000, .i32⟩
  | 12 => ⟨S1600000, .i1⟩
  | 13 => ⟨S1600000, .f32⟩
  | 14 => ⟨S1600000x1, .f32⟩
  | 15 => ⟨S1600000x64, .f32⟩
  | 16 => ⟨S1600000x64, .f32⟩
  | 17 => ⟨S_, .f32⟩
  | 18 => ⟨S50000x64, .f32⟩
  | 19 => ⟨S1600000x1, .i32⟩
  | 20 => ⟨S50000x64, .f32⟩
  | 21 => ⟨S_, .f32⟩
  | 22 => ⟨S50000x1, .f32⟩
  | 23 => ⟨S1600000x1, .i32⟩
  | 24 => ⟨S50000x1, .f32⟩
  | 25 => ⟨S_, .f32⟩
  | 26 => ⟨S50000x1, .f32⟩
  | 27 => ⟨S50000x1, .f32⟩
  | 28 => ⟨S50000x64, .f32⟩
  | 29 => ⟨S50000x64, .f32⟩
  | 30 => ⟨S_, .i32⟩
  | 31 => ⟨S1600000, .i32⟩
  | 32 => ⟨S1600000, .i1⟩
  | 33 => ⟨S1600000, .f32⟩
  | 34 => ⟨S1600000x1, .f32⟩
  | 35 => ⟨S1600000x64, .f32⟩
  | 36 => ⟨S1600000x64, .f32⟩
  | 37 => ⟨S_, .f32⟩
  | 38 => ⟨S50000x64, .f32⟩
  | 39 => ⟨S1600000x1, .i32⟩
  | 40 => ⟨S50000x64, .f32⟩
  | 41 => ⟨S_, .f32⟩
  | 42 => ⟨S50000x1, .f32⟩
  | 43 => ⟨S1600000x1, .i32⟩
  | 44 => ⟨S50000x1, .f32⟩
  | 45 => ⟨S_, .f32⟩
  | 46 => ⟨S50000x1, .f32⟩
  | 47 => ⟨S50000x1, .f32⟩
  | 48 => ⟨S50000x64, .f32⟩
  | 49 => ⟨S50000x64, .f32⟩
  | 50 => ⟨S1x64x64, .f32⟩
  | 51 => ⟨S64x64, .f32⟩
  | 52 => ⟨S1x64x64, .f32⟩
  | 53 => ⟨S64x64, .f32⟩
  | 54 => ⟨S1x64x64, .f32⟩
  | 55 => ⟨S64x64, .f32⟩
  | 56 => ⟨S50000x64, .f32⟩
  | 57 => ⟨S_, .i32⟩
  | 58 => ⟨S1600000, .i32⟩
  | 59 => ⟨S1600000, .i1⟩
  | 60 => ⟨S_, .i32⟩
  | 61 => ⟨S1600000, .i32⟩
  | 62 => ⟨S1600000, .i32⟩
  | 63 => ⟨S1600000, .i32⟩
  | 64 => ⟨S1600000x1, .i32⟩
  | 65 => ⟨S1600000x64, .f32⟩
  | 66 => ⟨S_, .i32⟩
  | 67 => ⟨S1600000, .i32⟩
  | 68 => ⟨S1600000, .i1⟩
  | 69 => ⟨S1600000, .f32⟩
  | 70 => ⟨S1600000x1, .f32⟩
  | 71 => ⟨S1600000x64, .f32⟩
  | 72 => ⟨S1600000x64, .f32⟩
  | 73 => ⟨S_, .f32⟩
  | 74 => ⟨S50000x64, .f32⟩
  | 75 => ⟨S1600000x1, .i32⟩
  | 76 => ⟨S50000x64, .f32⟩
  | 77 => ⟨S_, .f32⟩
  | 78 => ⟨S50000x1, .f32⟩
  | 79 => ⟨S1600000x1, .i32⟩
  | 80 => ⟨S50000x1, .f32⟩
  | 81 => ⟨S_, .f32⟩
  | 82 => ⟨S50000x1, .f32⟩
  | 83 => ⟨S50000x1, .f32⟩
  | 84 => ⟨S50000x64, .f32⟩
  | 85 => ⟨S50000x64, .f32⟩
  | 86 => ⟨S_, .i32⟩
  | 87 => ⟨S1600000, .i32⟩
  | 88 => ⟨S1600000, .i1⟩
  | 89 => ⟨S1600000, .f32⟩
  | 90 => ⟨S1600000x1, .f32⟩
  | 91 => ⟨S1600000x64, .f32⟩
  | 92 => ⟨S1600000x64, .f32⟩
  | 93 => ⟨S_, .f32⟩
  | 94 => ⟨S50000x64, .f32⟩
  | 95 => ⟨S1600000x1, .i32⟩
  | 96 => ⟨S50000x64, .f32⟩
  | 97 => ⟨S_, .f32⟩
  | 98 => ⟨S50000x1, .f32⟩
  | 99 => ⟨S1600000x1, .i32⟩
  | 100 => ⟨S50000x1, .f32⟩
  | 101 => ⟨S_, .f32⟩
  | 102 => ⟨S50000x1, .f32⟩
  | 103 => ⟨S50000x1, .f32⟩
  | 104 => ⟨S50000x64, .f32⟩
  | 105 => ⟨S50000x64, .f32⟩
  | 106 => ⟨S_, .i32⟩
  | 107 => ⟨S1600000, .i32⟩
  | 108 => ⟨S1600000, .i1⟩
  | 109 => ⟨S1600000, .f32⟩
  | 110 => ⟨S1600000x1, .f32⟩
  | 111 => ⟨S1600000x64, .f32⟩
  | 112 => ⟨S1600000x64, .f32⟩
  | 113 => ⟨S_, .f32⟩
  | 114 => ⟨S50000x64, .f32⟩
  | 115 => ⟨S1600000x1, .i32⟩
  | 116 => ⟨S50000x64, .f32⟩
  | 117 => ⟨S_, .f32⟩
  | 118 => ⟨S50000x1, .f32⟩
  | 119 => ⟨S1600000x1, .i32⟩
  | 120 => ⟨S50000x1, .f32⟩
  | 121 => ⟨S_, .f32⟩
  | 122 => ⟨S50000x1, .f32⟩
  | 123 => ⟨S50000x1, .f32⟩
  | 124 => ⟨S50000x64, .f32⟩
  | 125 => ⟨S50000x64, .f32⟩
  | 126 => ⟨S1x64x64, .f32⟩
  | 127 => ⟨S64x64, .f32⟩
  | _ => ⟨S50000x3, .f32⟩

abbrev hbmTy0_2 (i : Nat) : BufTy := match i % 128 with
  | 0 => ⟨S1x64x64, .f32⟩
  | 1 => ⟨S64x64, .f32⟩
  | 2 => ⟨S1x64x64, .f32⟩
  | 3 => ⟨S64x64, .f32⟩
  | 4 => ⟨S50000x64, .f32⟩
  | 5 => ⟨S_, .i32⟩
  | 6 => ⟨S1600000, .i32⟩
  | 7 => ⟨S1600000, .i1⟩
  | 8 => ⟨S_, .i32⟩
  | 9 => ⟨S1600000, .i32⟩
  | 10 => ⟨S1600000, .i32⟩
  | 11 => ⟨S1600000, .i32⟩
  | 12 => ⟨S1600000x1, .i32⟩
  | 13 => ⟨S1600000x64, .f32⟩
  | 14 => ⟨S_, .i32⟩
  | 15 => ⟨S1600000, .i32⟩
  | 16 => ⟨S1600000, .i1⟩
  | 17 => ⟨S_, .i32⟩
  | 18 => ⟨S1600000, .i32⟩
  | 19 => ⟨S1600000, .i32⟩
  | 20 => ⟨S1600000, .i32⟩
  | 21 => ⟨S1600000x1, .i32⟩
  | 22 => ⟨S1600000x64, .f32⟩
  | 23 => ⟨S1600000x134, .f32⟩
  | 24 => ⟨S1600000x1, .f32⟩
  | 25 => ⟨S1600000, .f32⟩
  | _ => ⟨S50000x3, .f32⟩

abbrev hbmTy (i : Nat) : BufTy := match i / 128 with
  | 0 => hbmTy0_0 i
  | 1 => hbmTy0_1 i
  | 2 => hbmTy0_2 i
  | _ => ⟨S50000x3, .f32⟩

abbrev bufTy : (tb : Table) → Fin (tcTables nBuf tb) → BufTy
  | .hbm, ⟨i, _⟩ => hbmTy i
  | .local _ .vmem, ⟨0, _⟩ => ⟨S5000x3, .f32⟩
  | .local _ .vmem, ⟨1, _⟩ => ⟨S5000x3, .f32⟩
  | .local _ .vmem, ⟨2, _⟩ => ⟨S3x64, .f32⟩
  | .local _ .vmem, ⟨3, _⟩ => ⟨S64, .f32⟩
  | .local _ .vmem, ⟨4, _⟩ => ⟨S5000x3, .f32⟩
  | .local _ .vmem, ⟨5, _⟩ => ⟨S5000x3, .f32⟩
  | .local _ .vmem, ⟨6, _⟩ => ⟨S5000x3, .f32⟩
  | .local _ .vmem, ⟨7, _⟩ => ⟨S5000x3, .f32⟩
  | .local _ .vmem, ⟨8, _⟩ => ⟨S5000x3, .f32⟩
  | .local _ .vmem, ⟨9, _⟩ => ⟨S5000x3, .f32⟩
  | .local _ .vmem, ⟨10, _⟩ => ⟨S3x64, .f32⟩
  | .local _ .vmem, ⟨11, _⟩ => ⟨S3x64, .f32⟩
  | .local _ .vmem, ⟨12, _⟩ => ⟨S3x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S64x64, .f32⟩
  | .local _ .vmem, ⟨18, _⟩ => ⟨S64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S64x64, .f32⟩
  | .local _ .vmem, ⟨26, _⟩ => ⟨S64x64, .f32⟩
  | .local _ .vmem, ⟨27, _⟩ => ⟨S64x64, .f32⟩
  | .local _ .vmem, ⟨28, _⟩ => ⟨S5000x64, .f32⟩
  | .local _ .vmem, ⟨29, _⟩ => ⟨S5000x64, .f32⟩
  | .local _ .vmem, ⟨30, _⟩ => ⟨S5000x64, .f32⟩
  | .local _ .vmem, ⟨31, _⟩ => ⟨S5000x64, .f32⟩
  | .local _ .vmem, ⟨32, _⟩ => ⟨S64x64, .f32⟩
  | .local _ .vmem, ⟨33, _⟩ => ⟨S64, .f32⟩
  | .local _ .vmem, ⟨34, _⟩ => ⟨S5000x64, .f32⟩
  | .local _ .vmem, ⟨35, _⟩ => ⟨S5000x64, .f32⟩
  | .local _ .vmem, ⟨36, _⟩ => ⟨S5000x64, .f32⟩
  | .local _ .vmem, ⟨37, _⟩ => ⟨S5000x64, .f32⟩
  | .local _ .vmem, ⟨38, _⟩ => ⟨S5000x64, .f32⟩
  | .local _ .vmem, ⟨39, _⟩ => ⟨S5000x64, .f32⟩
  | .local _ .vmem, ⟨40, _⟩ => ⟨S64x64, .f32⟩
  | .local _ .vmem, ⟨41, _⟩ => ⟨S64x64, .f32⟩
  | .local _ .vmem, ⟨42, _⟩ => ⟨S64x64, .f32⟩
  | .local _ .vmem, ⟨43, _⟩ => ⟨S5000x64, .f32⟩
  | .local _ .vmem, ⟨44, _⟩ => ⟨S5000x64, .f32⟩
  | .local _ .vmem, ⟨45, _⟩ => ⟨S16000x134, .f32⟩
  | .local _ .vmem, ⟨46, _⟩ => ⟨S16000x134, .f32⟩
  | .local _ .vmem, ⟨47, _⟩ => ⟨S134x32, .f32⟩
  | .local _ .vmem, ⟨48, _⟩ => ⟨S32, .f32⟩
  | .local _ .vmem, ⟨49, _⟩ => ⟨S32x16, .f32⟩
  | .local _ .vmem, ⟨50, _⟩ => ⟨S16, .f32⟩
  | .local _ .vmem, ⟨51, _⟩ => ⟨S16x1, .f32⟩
  | .local _ .vmem, ⟨52, _⟩ => ⟨S1, .f32⟩
  | .local _ .vmem, ⟨53, _⟩ => ⟨S16000x1, .f32⟩
  | .local _ .vmem, ⟨54, _⟩ => ⟨S16000x1, .f32⟩
  | _, _ => ⟨S50000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | _, _ => false

abbrev semScoped : Fin 0 → Bool
  | ⟨_, h⟩ => absurd h (Nat.not_lt_zero _)

abbrev dmaSemScoped : Fin 55 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | _ => false

abbrev sig : RefSig :=
  ofTc nBuf bufTy 0 55 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_cst : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_cst_0 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_c : Ref sig .tc := ⟨.hbm, 33, rfl⟩
abbrev main_v13 : Ref sig .tc := ⟨.hbm, 34, rfl⟩
abbrev main_v14 : Ref sig .tc := ⟨.hbm, 35, rfl⟩
abbrev main_c_1 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_c_2 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_cst_3 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_cst_4 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_cst_5 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_c_6 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_cst_7 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_cst_8 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_cst_9 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_c_10 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_cst_11 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_cst_12 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_cst_13 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_c_14 : Ref sig .tc := ⟨.hbm, 109, rfl⟩
abbrev main_v75 : Ref sig .tc := ⟨.hbm, 110, rfl⟩
abbrev main_v76 : Ref sig .tc := ⟨.hbm, 111, rfl⟩
abbrev main_c_15 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_c_16 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_cst_17 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_cst_18 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_cst_19 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_c_20 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_cst_21 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_cst_22 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_cst_23 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_c_24 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_cst_25 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_cst_26 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_cst_27 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩
abbrev main_c_28 : Ref sig .tc := ⟨.hbm, 185, rfl⟩
abbrev main_v137 : Ref sig .tc := ⟨.hbm, 186, rfl⟩
abbrev main_v138 : Ref sig .tc := ⟨.hbm, 187, rfl⟩
abbrev main_c_29 : Ref sig .tc := ⟨.hbm, 188, rfl⟩
abbrev main_v139 : Ref sig .tc := ⟨.hbm, 189, rfl⟩
abbrev main_v140 : Ref sig .tc := ⟨.hbm, 190, rfl⟩
abbrev main_v141 : Ref sig .tc := ⟨.hbm, 191, rfl⟩
abbrev main_v142 : Ref sig .tc := ⟨.hbm, 192, rfl⟩
abbrev main_v143 : Ref sig .tc := ⟨.hbm, 193, rfl⟩
abbrev main_c_30 : Ref sig .tc := ⟨.hbm, 194, rfl⟩
abbrev main_v144 : Ref sig .tc := ⟨.hbm, 195, rfl⟩
abbrev main_v145 : Ref sig .tc := ⟨.hbm, 196, rfl⟩
abbrev main_v146 : Ref sig .tc := ⟨.hbm, 197, rfl⟩
abbrev main_v147 : Ref sig .tc := ⟨.hbm, 198, rfl⟩
abbrev main_v148 : Ref sig .tc := ⟨.hbm, 199, rfl⟩
abbrev main_v149 : Ref sig .tc := ⟨.hbm, 200, rfl⟩
abbrev main_cst_31 : Ref sig .tc := ⟨.hbm, 201, rfl⟩
abbrev main_v150 : Ref sig .tc := ⟨.hbm, 202, rfl⟩
abbrev main_v151 : Ref sig .tc := ⟨.hbm, 203, rfl⟩
abbrev main_v152 : Ref sig .tc := ⟨.hbm, 204, rfl⟩
abbrev main_cst_32 : Ref sig .tc := ⟨.hbm, 205, rfl⟩
abbrev main_v153 : Ref sig .tc := ⟨.hbm, 206, rfl⟩
abbrev main_v154 : Ref sig .tc := ⟨.hbm, 207, rfl⟩
abbrev main_v155 : Ref sig .tc := ⟨.hbm, 208, rfl⟩
abbrev main_cst_33 : Ref sig .tc := ⟨.hbm, 209, rfl⟩
abbrev main_v156 : Ref sig .tc := ⟨.hbm, 210, rfl⟩
abbrev main_v157 : Ref sig .tc := ⟨.hbm, 211, rfl⟩
abbrev main_v158 : Ref sig .tc := ⟨.hbm, 212, rfl⟩
abbrev main_v159 : Ref sig .tc := ⟨.hbm, 213, rfl⟩
abbrev main_c_34 : Ref sig .tc := ⟨.hbm, 214, rfl⟩
abbrev main_v160 : Ref sig .tc := ⟨.hbm, 215, rfl⟩
abbrev main_v161 : Ref sig .tc := ⟨.hbm, 216, rfl⟩
abbrev main_v162 : Ref sig .tc := ⟨.hbm, 217, rfl⟩
abbrev main_v163 : Ref sig .tc := ⟨.hbm, 218, rfl⟩
abbrev main_v164 : Ref sig .tc := ⟨.hbm, 219, rfl⟩
abbrev main_v165 : Ref sig .tc := ⟨.hbm, 220, rfl⟩
abbrev main_cst_35 : Ref sig .tc := ⟨.hbm, 221, rfl⟩
abbrev main_v166 : Ref sig .tc := ⟨.hbm, 222, rfl⟩
abbrev main_v167 : Ref sig .tc := ⟨.hbm, 223, rfl⟩
abbrev main_v168 : Ref sig .tc := ⟨.hbm, 224, rfl⟩
abbrev main_cst_36 : Ref sig .tc := ⟨.hbm, 225, rfl⟩
abbrev main_v169 : Ref sig .tc := ⟨.hbm, 226, rfl⟩
abbrev main_v170 : Ref sig .tc := ⟨.hbm, 227, rfl⟩
abbrev main_v171 : Ref sig .tc := ⟨.hbm, 228, rfl⟩
abbrev main_cst_37 : Ref sig .tc := ⟨.hbm, 229, rfl⟩
abbrev main_v172 : Ref sig .tc := ⟨.hbm, 230, rfl⟩
abbrev main_v173 : Ref sig .tc := ⟨.hbm, 231, rfl⟩
abbrev main_v174 : Ref sig .tc := ⟨.hbm, 232, rfl⟩
abbrev main_v175 : Ref sig .tc := ⟨.hbm, 233, rfl⟩
abbrev main_c_38 : Ref sig .tc := ⟨.hbm, 234, rfl⟩
abbrev main_v176 : Ref sig .tc := ⟨.hbm, 235, rfl⟩
abbrev main_v177 : Ref sig .tc := ⟨.hbm, 236, rfl⟩
abbrev main_v178 : Ref sig .tc := ⟨.hbm, 237, rfl⟩
abbrev main_v179 : Ref sig .tc := ⟨.hbm, 238, rfl⟩
abbrev main_v180 : Ref sig .tc := ⟨.hbm, 239, rfl⟩
abbrev main_v181 : Ref sig .tc := ⟨.hbm, 240, rfl⟩
abbrev main_cst_39 : Ref sig .tc := ⟨.hbm, 241, rfl⟩
abbrev main_v182 : Ref sig .tc := ⟨.hbm, 242, rfl⟩
abbrev main_v183 : Ref sig .tc := ⟨.hbm, 243, rfl⟩
abbrev main_v184 : Ref sig .tc := ⟨.hbm, 244, rfl⟩
abbrev main_cst_40 : Ref sig .tc := ⟨.hbm, 245, rfl⟩
abbrev main_v185 : Ref sig .tc := ⟨.hbm, 246, rfl⟩
abbrev main_v186 : Ref sig .tc := ⟨.hbm, 247, rfl⟩
abbrev main_v187 : Ref sig .tc := ⟨.hbm, 248, rfl⟩
abbrev main_cst_41 : Ref sig .tc := ⟨.hbm, 249, rfl⟩
abbrev main_v188 : Ref sig .tc := ⟨.hbm, 250, rfl⟩
abbrev main_v189 : Ref sig .tc := ⟨.hbm, 251, rfl⟩
abbrev main_v190 : Ref sig .tc := ⟨.hbm, 252, rfl⟩
abbrev main_v191 : Ref sig .tc := ⟨.hbm, 253, rfl⟩
abbrev main_v192 : Ref sig .tc := ⟨.hbm, 254, rfl⟩
abbrev main_v193 : Ref sig .tc := ⟨.hbm, 255, rfl⟩
abbrev main_v194 : Ref sig .tc := ⟨.hbm, 256, rfl⟩
abbrev main_v195 : Ref sig .tc := ⟨.hbm, 257, rfl⟩
abbrev main_v196 : Ref sig .tc := ⟨.hbm, 258, rfl⟩
abbrev main_v197 : Ref sig .tc := ⟨.hbm, 259, rfl⟩
abbrev main_v198 : Ref sig .tc := ⟨.hbm, 260, rfl⟩
abbrev main_c_42 : Ref sig .tc := ⟨.hbm, 261, rfl⟩
abbrev main_v199 : Ref sig .tc := ⟨.hbm, 262, rfl⟩
abbrev main_v200 : Ref sig .tc := ⟨.hbm, 263, rfl⟩
abbrev main_c_43 : Ref sig .tc := ⟨.hbm, 264, rfl⟩
abbrev main_v201 : Ref sig .tc := ⟨.hbm, 265, rfl⟩
abbrev main_v202 : Ref sig .tc := ⟨.hbm, 266, rfl⟩
abbrev main_v203 : Ref sig .tc := ⟨.hbm, 267, rfl⟩
abbrev main_v204 : Ref sig .tc := ⟨.hbm, 268, rfl⟩
abbrev main_v205 : Ref sig .tc := ⟨.hbm, 269, rfl⟩
abbrev main_c_44 : Ref sig .tc := ⟨.hbm, 270, rfl⟩
abbrev main_v206 : Ref sig .tc := ⟨.hbm, 271, rfl⟩
abbrev main_v207 : Ref sig .tc := ⟨.hbm, 272, rfl⟩
abbrev main_c_45 : Ref sig .tc := ⟨.hbm, 273, rfl⟩
abbrev main_v208 : Ref sig .tc := ⟨.hbm, 274, rfl⟩
abbrev main_v209 : Ref sig .tc := ⟨.hbm, 275, rfl⟩
abbrev main_v210 : Ref sig .tc := ⟨.hbm, 276, rfl⟩
abbrev main_v211 : Ref sig .tc := ⟨.hbm, 277, rfl⟩
abbrev main_v212 : Ref sig .tc := ⟨.hbm, 278, rfl⟩
abbrev main_v213 : Ref sig .tc := ⟨.hbm, 279, rfl⟩
abbrev main_v214 : Ref sig .tc := ⟨.hbm, 280, rfl⟩
abbrev main_v215 : Ref sig .tc := ⟨.hbm, 281, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg3_1 : Ref sig .tc := ⟨.vmem, 20, rfl⟩
abbrev cc1_stg4_0 : Ref sig .tc := ⟨.vmem, 21, rfl⟩
abbrev cc1_stg4_1 : Ref sig .tc := ⟨.vmem, 22, rfl⟩
abbrev cc1_stg5_0 : Ref sig .tc := ⟨.vmem, 23, rfl⟩
abbrev cc1_stg5_1 : Ref sig .tc := ⟨.vmem, 24, rfl⟩
abbrev cc1_stg6_0 : Ref sig .tc := ⟨.vmem, 25, rfl⟩
abbrev cc1_stg7_0 : Ref sig .tc := ⟨.vmem, 26, rfl⟩
abbrev cc1_stg8_0 : Ref sig .tc := ⟨.vmem, 27, rfl⟩
abbrev cc1_stg9_0 : Ref sig .tc := ⟨.vmem, 28, rfl⟩
abbrev cc1_stg9_1 : Ref sig .tc := ⟨.vmem, 29, rfl⟩
abbrev cc2_stg0_0 : Ref sig .tc := ⟨.vmem, 30, rfl⟩
abbrev cc2_stg0_1 : Ref sig .tc := ⟨.vmem, 31, rfl⟩
abbrev cc2_stg1_0 : Ref sig .tc := ⟨.vmem, 32, rfl⟩
abbrev cc2_stg2_0 : Ref sig .tc := ⟨.vmem, 33, rfl⟩
abbrev cc2_stg3_0 : Ref sig .tc := ⟨.vmem, 34, rfl⟩
abbrev cc2_stg3_1 : Ref sig .tc := ⟨.vmem, 35, rfl⟩
abbrev cc2_stg4_0 : Ref sig .tc := ⟨.vmem, 36, rfl⟩
abbrev cc2_stg4_1 : Ref sig .tc := ⟨.vmem, 37, rfl⟩
abbrev cc2_stg5_0 : Ref sig .tc := ⟨.vmem, 38, rfl⟩
abbrev cc2_stg5_1 : Ref sig .tc := ⟨.vmem, 39, rfl⟩
abbrev cc2_stg6_0 : Ref sig .tc := ⟨.vmem, 40, rfl⟩
abbrev cc2_stg7_0 : Ref sig .tc := ⟨.vmem, 41, rfl⟩
abbrev cc2_stg8_0 : Ref sig .tc := ⟨.vmem, 42, rfl⟩
abbrev cc2_stg9_0 : Ref sig .tc := ⟨.vmem, 43, rfl⟩
abbrev cc2_stg9_1 : Ref sig .tc := ⟨.vmem, 44, rfl⟩
abbrev cc3_stg0_0 : Ref sig .tc := ⟨.vmem, 45, rfl⟩
abbrev cc3_stg0_1 : Ref sig .tc := ⟨.vmem, 46, rfl⟩
abbrev cc3_stg1_0 : Ref sig .tc := ⟨.vmem, 47, rfl⟩
abbrev cc3_stg2_0 : Ref sig .tc := ⟨.vmem, 48, rfl⟩
abbrev cc3_stg3_0 : Ref sig .tc := ⟨.vmem, 49, rfl⟩
abbrev cc3_stg4_0 : Ref sig .tc := ⟨.vmem, 50, rfl⟩
abbrev cc3_stg5_0 : Ref sig .tc := ⟨.vmem, 51, rfl⟩
abbrev cc3_stg6_0 : Ref sig .tc := ⟨.vmem, 52, rfl⟩
abbrev cc3_stg7_0 : Ref sig .tc := ⟨.vmem, 53, rfl⟩
abbrev cc3_stg7_1 : Ref sig .tc := ⟨.vmem, 54, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc1_sem0_0 : DmaSem sig := 15
abbrev cc1_sem0_1 : DmaSem sig := 16
abbrev cc1_sem1_0 : DmaSem sig := 17
abbrev cc1_sem2_0 : DmaSem sig := 18
abbrev cc1_sem3_0 : DmaSem sig := 19
abbrev cc1_sem3_1 : DmaSem sig := 20
abbrev cc1_sem4_0 : DmaSem sig := 21
abbrev cc1_sem4_1 : DmaSem sig := 22
abbrev cc1_sem5_0 : DmaSem sig := 23
abbrev cc1_sem5_1 : DmaSem sig := 24
abbrev cc1_sem6_0 : DmaSem sig := 25
abbrev cc1_sem7_0 : DmaSem sig := 26
abbrev cc1_sem8_0 : DmaSem sig := 27
abbrev cc1_sem9_0 : DmaSem sig := 28
abbrev cc1_sem9_1 : DmaSem sig := 29
abbrev cc2_sem0_0 : DmaSem sig := 30
abbrev cc2_sem0_1 : DmaSem sig := 31
abbrev cc2_sem1_0 : DmaSem sig := 32
abbrev cc2_sem2_0 : DmaSem sig := 33
abbrev cc2_sem3_0 : DmaSem sig := 34
abbrev cc2_sem3_1 : DmaSem sig := 35
abbrev cc2_sem4_0 : DmaSem sig := 36
abbrev cc2_sem4_1 : DmaSem sig := 37
abbrev cc2_sem5_0 : DmaSem sig := 38
abbrev cc2_sem5_1 : DmaSem sig := 39
abbrev cc2_sem6_0 : DmaSem sig := 40
abbrev cc2_sem7_0 : DmaSem sig := 41
abbrev cc2_sem8_0 : DmaSem sig := 42
abbrev cc2_sem9_0 : DmaSem sig := 43
abbrev cc2_sem9_1 : DmaSem sig := 44
abbrev cc3_sem0_0 : DmaSem sig := 45
abbrev cc3_sem0_1 : DmaSem sig := 46
abbrev cc3_sem1_0 : DmaSem sig := 47
abbrev cc3_sem2_0 : DmaSem sig := 48
abbrev cc3_sem3_0 : DmaSem sig := 49
abbrev cc3_sem4_0 : DmaSem sig := 50
abbrev cc3_sem5_0 : DmaSem sig := 51
abbrev cc3_sem6_0 : DmaSem sig := 52
abbrev cc3_sem7_0 : DmaSem sig := 53
abbrev cc3_sem7_1 : DmaSem sig := 54

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x3 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x3 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S5000x3 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S3x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S5000x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S64x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S64x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S64x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S5000x64 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S5000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 1 → Memref sig .tc .vmem S64x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S64x64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S64x64 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S5000x64 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev grid3 : Pipeline.Grid := ⟨1, ![100], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S16000x134 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S134x32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S32 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S32x16 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S16 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S16x1 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S16000x1 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

class Facts₀ : Prop where
  slices_S1600000x6_S1600000x1_0_0 : S1600000x6.Slices ![0, 0] S1600000x1
  shapeCasts_S1600000x1_S1600000 : S1600000x1.ShapeCasts S1600000
  bcast_S_S1600000 : S_.BroadcastsInDim S1600000 (![] : Fin 0 → Fin S1600000.rank)
  natLt_1_32 : 1 < 32
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S1600000_S1600000x1_0 : S1600000.BroadcastsInDim S1600000x1 (![0] : Fin 1 → Fin S1600000x1.rank)
  bcast_S1600000x1_S1600000x3_0_1 : S1600000x1.BroadcastsInDim S1600000x3 (![0, 1] : Fin 2 → Fin S1600000x3.rank)
  bcast_S_S50000x3 : S_.BroadcastsInDim S50000x3 (![] : Fin 0 → Fin S50000x3.rank)
  bcast_S_S50000x1 : S_.BroadcastsInDim S50000x1 (![] : Fin 0 → Fin S50000x1.rank)
  bcast_S50000x1_S50000x3_0_1 : S50000x1.BroadcastsInDim S50000x3 (![0, 1] : Fin 2 → Fin S50000x3.rank)
  slices_S3x3x64_S1x3x64_0_0_0 : S3x3x64.Slices ![0, 0, 0] S1x3x64
  shapeCasts_S1x3x64_S3x64 : S1x3x64.ShapeCasts S3x64
  slices_S3x3x64_S1x3x64_1_0_0 : S3x3x64.Slices ![1, 0, 0] S1x3x64
  slices_S3x3x64_S1x3x64_2_0_0 : S3x3x64.Slices ![2, 0, 0] S1x3x64
  inb_S5000x3_S5000x3_0_0 : ∀ a, (![0, 0] : Fin 2 → Nat) a + S5000x3.size a ≤ S5000x3.size a
  h_S5000x3 : 0 < S5000x3.numel
  inb_S3x64_S3x64_0_0 : ∀ a, (![0, 0] : Fin 2 → Nat) a + S3x64.size a ≤ S3x64.size a
  h_S3x64 : 0 < S3x64.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  shapeCasts_S5000x3_S5000x3 : S5000x3.ShapeCasts S5000x3
  shapeCasts_S3x64_S3x64 : S3x64.ShapeCasts S3x64
  inb_S5000x64_S5000x64_0_0 : ∀ a, (![0, 0] : Fin 2 → Nat) a + S5000x64.size a ≤ S5000x64.size a
  h_S5000x64 : 0 < S5000x64.numel
  bcast_S1600000x1_S1600000x64_0_1 : S1600000x1.BroadcastsInDim S1600000x64 (![0, 1] : Fin 2 → Fin S1600000x64.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  slices_S3x64x64_S1x64x64_0_0_0 : S3x64x64.Slices ![0, 0, 0] S1x64x64
  shapeCasts_S1x64x64_S64x64 : S1x64x64.ShapeCasts S64x64
  slices_S3x64x64_S1x64x64_1_0_0 : S3x64x64.Slices ![1, 0, 0] S1x64x64
  slices_S3x64x64_S1x64x64_2_0_0 : S3x64x64.Slices ![2, 0, 0] S1x64x64
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  concatenates_S1600000x64_S1600000x64_S1600000x6_S1600000x134_d1 : Shape.Concatenates [S1600000x64, S1600000x64, S1600000x6] S1600000x134 1
  inb_S16000x134_S16000x134_0_0 : ∀ a, (![0, 0] : Fin 2 → Nat) a + S16000x134.size a ≤ S16000x134.size a
  h_S16000x134 : 0 < S16000x134.numel
  shapeCasts_S16000x134_S16000x134 : S16000x134.ShapeCasts S16000x134
  inb_S134x32_S134x32_0_0 : ∀ a, (![0, 0] : Fin 2 → Nat) a + S134x32.size a ≤ S134x32.size a
  h_S134x32 : 0 < S134x32.numel
  inb_S32_S32_0 : ∀ a, (![0] : Fin 1 → Nat) a + S32.size a ≤ S32.size a
  h_S32 : 0 < S32.numel
  shapeCasts_S32_S1x32 : S32.ShapeCasts S1x32
  broadcasts_S1x32_S16000x32 : S1x32.Broadcasts S16000x32
  inb_S32x16_S32x16_0_0 : ∀ a, (![0, 0] : Fin 2 → Nat) a + S32x16.size a ≤ S32x16.size a
  h_S32x16 : 0 < S32x16.numel
  inb_S16_S16_0 : ∀ a, (![0] : Fin 1 → Nat) a + S16.size a ≤ S16.size a
  h_S16 : 0 < S16.numel
  shapeCasts_S16_S1x16 : S16.ShapeCasts S1x16
  broadcasts_S1x16_S16000x16 : S1x16.Broadcasts S16000x16
  inb_S16x1_S16x1_0_0 : ∀ a, (![0, 0] : Fin 2 → Nat) a + S16x1.size a ≤ S16x1.size a
  h_S16x1 : 0 < S16x1.numel
  inb_S1_S1_0 : ∀ a, (![0] : Fin 1 → Nat) a + S1.size a ≤ S1.size a
  h_S1 : 0 < S1.numel
  shapeCasts_S1_S1x1 : S1.ShapeCasts S1x1
  broadcasts_S1x1_S16000x1 : S1x1.Broadcasts S16000x1
  inb_S16000x1_S16000x1_0_0 : ∀ a, (![0, 0] : Fin 2 → Nat) a + S16000x1.size a ≤ S16000x1.size a
  h_S16000x1 : 0 < S16000x1.numel
  gather_S50000x3_S1600000x1_S1600000x3_1_0_n_n_0_1_13_wf : GatherDims.WF S50000x3 S1600000x1 S1600000x3 [1] [0] [] [0] [] 1 ![1, 3]
  scatter_S50000x3_S1600000x1_S1600000x3_1_0_0_1_wf : ScatterDims.WF S50000x3 S1600000x1 S1600000x3 [1] [0] [0] 1
  scatter_S50000x1_S1600000x1_S1600000x1_1_0_0_1_wf : ScatterDims.WF S50000x1 S1600000x1 S1600000x1 [1] [0] [0] 1
  dot_S5000x3_S3x64_S5000x64_1_0_0_1_n_n_wf : DotDims.WF S5000x3 S3x64 S5000x64 [1] [0] [0] [1] [] []
  gather_S50000x64_S1600000x1_S1600000x64_1_0_n_n_0_1_164_wf : GatherDims.WF S50000x64 S1600000x1 S1600000x64 [1] [0] [] [0] [] 1 ![1, 64]
  scatter_S50000x64_S1600000x1_S1600000x64_1_0_0_1_wf : ScatterDims.WF S50000x64 S1600000x1 S1600000x64 [1] [0] [0] 1
  dot_S5000x64_S64x64_S5000x64_1_0_0_1_n_n_wf : DotDims.WF S5000x64 S64x64 S5000x64 [1] [0] [0] [1] [] []
  dot_S16000x134_S134x32_S16000x32_1_0_0_1_n_n_wf : DotDims.WF S16000x134 S134x32 S16000x32 [1] [0] [0] [1] [] []
  dot_S16000x32_S32x16_S16000x16_1_0_0_1_n_n_wf : DotDims.WF S16000x32 S32x16 S16000x16 [1] [0] [0] [1] [] []
  dot_S16000x16_S16x1_S16000x1_1_0_0_1_n_n_wf : DotDims.WF S16000x16 S16x1 S16000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x3.size a ≤ S50000x3.size a
  hwx0_0 : ∀ i : grid0.Coords, EltTy.bits .f32 = 32 ∨ (Rect.block (s := S50000x3) S5000x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x64.size a ≤ S3x64.size a
  hwx0_1 : ∀ i : grid0.Coords, EltTy.bits .f32 = 32 ∨ (Rect.block (s := S3x64) S3x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x3.size a ≤ S50000x3.size a
  hwx0_3 : ∀ i : grid0.Coords, EltTy.bits .f32 = 32 ∨ (Rect.block (s := S50000x3) S5000x3.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x3.size a ≤ S50000x3.size a
  hwx0_4 : ∀ i : grid0.Coords, EltTy.bits .f32 = 32 ∨ (Rect.block (s := S50000x3) S5000x3.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x3.size a ≤ S50000x3.size a
  hwx0_5 : ∀ i : grid0.Coords, EltTy.bits .f32 = 32 ∨ (Rect.block (s := S50000x3) S5000x3.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S3x64.size a ≤ S3x64.size a
  hwx0_6 : ∀ i : grid0.Coords, EltTy.bits .f32 = 32 ∨ (Rect.block (s := S3x64) S3x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S3x64.size a ≤ S3x64.size a
  hwx0_7 : ∀ i : grid0.Coords, EltTy.bits .f32 = 32 ∨ (Rect.block (s := S3x64) S3x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S3x64.size a ≤ S3x64.size a
  hwx0_8 : ∀ i : grid0.Coords, EltTy.bits .f32 = 32 ∨ (Rect.block (s := S3x64) S3x64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S5000x64.size a ≤ S50000x64.size a
  hwx0_9 : ∀ i : grid0.Coords, EltTy.bits .f32 = 32 ∨ (Rect.block (s := S50000x64) S5000x64.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64.size a ≤ S64.size a
  hwx1_2 : ∀ i : grid1.Coords, EltTy.bits .f32 = 32 ∨ (Rect.block (s := S64) S64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S50000x64.size a
  hwx1_3 : ∀ i : grid1.Coords, EltTy.bits .f32 = 32 ∨ (Rect.block (s := S50000x64) S5000x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S50000x64.size a
  hwx1_4 : ∀ i : grid1.Coords, EltTy.bits .f32 = 32 ∨ (Rect.block (s := S50000x64) S5000x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S50000x64.size a
  hwx1_5 : ∀ i : grid1.Coords, EltTy.bits .f32 = 32 ∨ (Rect.block (s := S50000x64) S5000x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64x64.size a ≤ S64x64.size a
  hwx1_6 : ∀ i : grid1.Coords, EltTy.bits .f32 = 32 ∨ (Rect.block (s := S64x64) S64x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S64x64.size a ≤ S64x64.size a
  hwx1_7 : ∀ i : grid1.Coords, EltTy.bits .f32 = 32 ∨ (Rect.block (s := S64x64) S64x64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S64x64.size a ≤ S64x64.size a
  hwx1_8 : ∀ i : grid1.Coords, EltTy.bits .f32 = 32 ∨ (Rect.block (s := S64x64) S64x64.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S5000x64.size a ≤ S50000x64.size a
  hwx1_9 : ∀ i : grid1.Coords, EltTy.bits .f32 = 32 ∨ (Rect.block (s := S50000x64) S5000x64.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64.size a ≤ S64.size a
  hwx2_2 : ∀ i : grid2.Coords, EltTy.bits .f32 = 32 ∨ (Rect.block (s := S64) S64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S50000x64.size a
  hwx2_3 : ∀ i : grid2.Coords, EltTy.bits .f32 = 32 ∨ (Rect.block (s := S50000x64) S5000x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x64.size a ≤ S50000x64.size a
  hwx2_4 : ∀ i : grid2.Coords, EltTy.bits .f32 = 32 ∨ (Rect.block (s := S50000x64) S5000x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S50000x64.size a
  hwx2_5 : ∀ i : grid2.Coords, EltTy.bits .f32 = 32 ∨ (Rect.block (s := S50000x64) S5000x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S64x64.size a ≤ S64x64.size a
  hwx2_6 : ∀ i : grid2.Coords, EltTy.bits .f32 = 32 ∨ (Rect.block (s := S64x64) S64x64.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S64x64.size a ≤ S64x64.size a
  hwx2_7 : ∀ i : grid2.Coords, EltTy.bits .f32 = 32 ∨ (Rect.block (s := S64x64) S64x64.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S64x64.size a ≤ S64x64.size a
  hwx2_8 : ∀ i : grid2.Coords, EltTy.bits .f32 = 32 ∨ (Rect.block (s := S64x64) S64x64.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S5000x64.size a ≤ S50000x64.size a
  hwx2_9 : ∀ i : grid2.Coords, EltTy.bits .f32 = 32 ∨ (Rect.block (s := S50000x64) S5000x64.size (cc2_transform_9 i) (hinb2_9 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S16000x134.size a ≤ S1600000x134.size a
  hwx3_0 : ∀ i : grid3.Coords, EltTy.bits .f32 = 32 ∨ (Rect.block (s := S1600000x134) S16000x134.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S134x32.size a ≤ S134x32.size a
  hwx3_1 : ∀ i : grid3.Coords, EltTy.bits .f32 = 32 ∨ (Rect.block (s := S134x32) S134x32.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S32.size a ≤ S32.size a
  hwx3_2 : ∀ i : grid3.Coords, EltTy.bits .f32 = 32 ∨ (Rect.block (s := S32) S32.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S32x16.size a ≤ S32x16.size a
  hwx3_3 : ∀ i : grid3.Coords, EltTy.bits .f32 = 32 ∨ (Rect.block (s := S32x16) S32x16.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S16.size a ≤ S16.size a
  hwx3_4 : ∀ i : grid3.Coords, EltTy.bits .f32 = 32 ∨ (Rect.block (s := S16) S16.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S16x1.size a ≤ S16x1.size a
  hwx3_5 : ∀ i : grid3.Coords, EltTy.bits .f32 = 32 ∨ (Rect.block (s := S16x1) S16x1.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1.size a ≤ S1.size a
  hwx3_6 : ∀ i : grid3.Coords, EltTy.bits .f32 = 32 ∨ (Rect.block (s := S1) S1.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S16000x1.size a ≤ S1600000x1.size a
  hwx3_7 : ∀ i : grid3.Coords, EltTy.bits .f32 = 32 ∨ (Rect.block (s := S1600000x1) S16000x1.size (cc3_transform_7 i) (hinb3_7 i)).WholeWords (EltTy.packing .f32)

variable [Facts₀]

def gather_S50000x3_S1600000x1_S1600000x3_1_0_n_n_0_1_13 : GatherDims S50000x3 S1600000x1 S1600000x3 where
  offsetDims := [1]
  collapsedSliceDims := [0]
  operandBatchingDims := []
  startIndicesBatchingDims := []
  startIndexMap := [0]
  indexVectorDim := 1
  sliceSizes := ![1, 3]
  wf := gather_S50000x3_S1600000x1_S1600000x3_1_0_n_n_0_1_13_wf
def scatter_S50000x3_S1600000x1_S1600000x3_1_0_0_1 : ScatterDims S50000x3 S1600000x1 S1600000x3 where
  updateWindowDims := [1]
  insertedWindowDims := [0]
  scatterDimsToOperandDims := [0]
  indexVectorDim := 1
  wf := scatter_S50000x3_S1600000x1_S1600000x3_1_0_0_1_wf
def scatter_S50000x1_S1600000x1_S1600000x1_1_0_0_1 : ScatterDims S50000x1 S1600000x1 S1600000x1 where
  updateWindowDims := [1]
  insertedWindowDims := [0]
  scatterDimsToOperandDims := [0]
  indexVectorDim := 1
  wf := scatter_S50000x1_S1600000x1_S1600000x1_1_0_0_1_wf
def dot_S5000x3_S3x64_S5000x64_1_0_0_1_n_n : DotDims S5000x3 S3x64 S5000x64 where
  lhsContracting := [1]
  rhsContracting := [0]
  lhsNonContracting := [0]
  rhsNonContracting := [1]
  lhsBatch := []
  rhsBatch := []
  wf := dot_S5000x3_S3x64_S5000x64_1_0_0_1_n_n_wf
def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S16000x134_S134x32_S16000x32_1_0_0_1_n_n : DotDims S16000x134 S134x32 S16000x32 where
  lhsContracting := [1]
  rhsContracting := [0]
  lhsNonContracting := [0]
  rhsNonContracting := [1]
  lhsBatch := []
  rhsBatch := []
  wf := dot_S16000x134_S134x32_S16000x32_1_0_0_1_n_n_wf
def dot_S16000x32_S32x16_S16000x16_1_0_0_1_n_n : DotDims S16000x32 S32x16 S16000x16 where
  lhsContracting := [1]
  rhsContracting := [0]
  lhsNonContracting := [0]
  rhsNonContracting := [1]
  lhsBatch := []
  rhsBatch := []
  wf := dot_S16000x32_S32x16_S16000x16_1_0_0_1_n_n_wf
def dot_S16000x16_S16x1_S16000x1_1_0_0_1_n_n : DotDims S16000x16 S16x1 S16000x1 where
  lhsContracting := [1]
  rhsContracting := [0]
  lhsNonContracting := [0]
  rhsNonContracting := [1]
  lhsBatch := []
  rhsBatch := []
  wf := dot_S16000x16_S16x1_S16000x1_1_0_0_1_n_n_wf

abbrev win0_0 : Pipeline.Window sig grid0 :=
  Pipeline.Window.ofSpec (Memref.whole main_arg0) S5000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S3x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v35) S5000x3.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v51) S5000x3.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v67) S5000x3.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v69) S3x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v71) S3x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v73) S3x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v74) S5000x64.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v74) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg7) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v97) S5000x64.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v113) S5000x64.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v129) S5000x64.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v131) S64x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v133) S64x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v135) S64x64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v136) S5000x64.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v136) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg10) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg11) S64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v159) S5000x64.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v175) S5000x64.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v191) S5000x64.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_v193) S64x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v195) S64x64.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v197) S64x64.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v198) S5000x64.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

abbrev win3_0 : Pipeline.Window sig grid3 :=
  Pipeline.Window.ofSpec (Memref.whole main_v213) S16000x134.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg12) S134x32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg13) S32.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg14) S32x16.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg15) S16.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg16) S16x1.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_arg17) S1.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v214) S16000x1.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

class Facts : Prop extends Facts₀ where

variable [Facts]
-- ==== ReferenceIdeal.lean ====
abbrev S50000x3 : Shape := ⟨2, ![50000, 3]⟩
abbrev S2x1600000 : Shape := ⟨2, ![2, 1600000]⟩
abbrev S1600000x6 : Shape := ⟨2, ![1600000, 6]⟩
abbrev S3x3x64 : Shape := ⟨3, ![3, 3, 64]⟩
abbrev S3x64 : Shape := ⟨2, ![3, 64]⟩
abbrev S64 : Shape := ⟨1, ![64]⟩
abbrev S3x64x64 : Shape := ⟨3, ![3, 64, 64]⟩
abbrev S64x64 : Shape := ⟨2, ![64, 64]⟩
abbrev S134x32 : Shape := ⟨2, ![134, 32]⟩
abbrev S32 : Shape := ⟨1, ![32]⟩
abbrev S32x16 : Shape := ⟨2, ![32, 16]⟩
abbrev S16 : Shape := ⟨1, ![16]⟩
abbrev S16x1 : Shape := ⟨2, ![16, 1]⟩
abbrev S1 : Shape := ⟨1, ![1]⟩
abbrev S1600000x1 : Shape := ⟨2, ![1600000, 1]⟩
abbrev S1600000 : Shape := ⟨1, ![1600000]⟩
abbrev S_ : Shape := ⟨0, ![]⟩
abbrev S1x1600000 : Shape := ⟨2, ![1, 1600000]⟩
abbrev S1600000x3 : Shape := ⟨2, ![1600000, 3]⟩
abbrev S50000x64 : Shape := ⟨2, ![50000, 64]⟩
abbrev S1x64 : Shape := ⟨2, ![1, 64]⟩
abbrev S50000x1 : Shape := ⟨2, ![50000, 1]⟩
abbrev S1x3x64 : Shape := ⟨3, ![1, 3, 64]⟩
abbrev S1600000x64 : Shape := ⟨2, ![1600000, 64]⟩
abbrev S1x64x64 : Shape := ⟨3, ![1, 64, 64]⟩
abbrev S1600000x134 : Shape := ⟨2, ![1600000, 134]⟩
abbrev S1600000x32 : Shape := ⟨2, ![1600000, 32]⟩
abbrev S1x32 : Shape := ⟨2, ![1, 32]⟩
abbrev S1600000x16 : Shape := ⟨2, ![1600000, 16]⟩
abbrev S1x16 : Shape := ⟨2, ![1, 16]⟩
abbrev S1x1 : Shape := ⟨2, ![1, 1]⟩

abbrev nBuf : Space → Nat
  | .hbm => 335
  | .vmem => 0
  | .smem => 0
  | _ => 0

abbrev hbmTy0_0 (i : Nat) : BufTy := match i % 128 with
  | 0 => ⟨S50000x3, .f32⟩
  | 1 => ⟨S2x1600000, .i32⟩
  | 2 => ⟨S1600000x6, .f32⟩
  | 3 => ⟨S3x3x64, .f32⟩
  | 4 => ⟨S3x64, .f32⟩
  | 5 => ⟨S64, .f32⟩
  | 6 => ⟨S3x64x64, .f32⟩
  | 7 => ⟨S64x64, .f32⟩
  | 8 => ⟨S64, .f32⟩
  | 9 => ⟨S3x64x64, .f32⟩
  | 10 => ⟨S64x64, .f32⟩
  | 11 => ⟨S64, .f32⟩
  | 12 => ⟨S134x32, .f32⟩
  | 13 => ⟨S32, .f32⟩
  | 14 => ⟨S32x16, .f32⟩
  | 15 => ⟨S16, .f32⟩
  | 16 => ⟨S16x1, .f32⟩
  | 17 => ⟨S1, .f32⟩
  | 18 => ⟨S1600000x1, .f32⟩
  | 19 => ⟨S1600000, .f32⟩
  | 20 => ⟨S_, .f32⟩
  | 21 => ⟨S1600000, .f32⟩
  | 22 => ⟨S1600000, .i1⟩
  | 23 => ⟨S1600000, .i32⟩
  | 24 => ⟨S_, .f32⟩
  | 25 => ⟨S1600000, .f32⟩
  | 26 => ⟨S1600000, .i1⟩
  | 27 => ⟨S1600000, .i32⟩
  | 28 => ⟨S1600000, .i32⟩
  | 29 => ⟨S1x1600000, .i32⟩
  | 30 => ⟨S1600000, .i32⟩
  | 31 => ⟨S1x1600000, .i32⟩
  | 32 => ⟨S1600000, .i32⟩
  | 33 => ⟨S_, .i32⟩
  | 34 => ⟨S1600000, .i32⟩
  | 35 => ⟨S1600000, .i1⟩
  | 36 => ⟨S_, .i32⟩
  | 37 => ⟨S1600000, .i32⟩
  | 38 => ⟨S1600000, .i32⟩
  | 39 => ⟨S1600000, .i32⟩
  | 40 => ⟨S1600000x1, .i32⟩
  | 41 => ⟨S1600000x3, .f32⟩
  | 42 => ⟨S50000x64, .f32⟩
  | 43 => ⟨S1x64, .f32⟩
  | 44 => ⟨S50000x64, .f32⟩
  | 45 => ⟨S50000x64, .f32⟩
  | 46 => ⟨S_, .i32⟩
  | 47 => ⟨S1600000, .i32⟩
  | 48 => ⟨S1600000, .i1⟩
  | 49 => ⟨S1600000, .f32⟩
  | 50 => ⟨S1600000x1, .f32⟩
  | 51 => ⟨S1600000x3, .f32⟩
  | 52 => ⟨S1600000x3, .f32⟩
  | 53 => ⟨S_, .f32⟩
  | 54 => ⟨S50000x3, .f32⟩
  | 55 => ⟨S1600000x1, .i32⟩
  | 56 => ⟨S50000x3, .f32⟩
  | 57 => ⟨S_, .f32⟩
  | 58 => ⟨S50000x1, .f32⟩
  | 59 => ⟨S1600000x1, .i32⟩
  | 60 => ⟨S50000x1, .f32⟩
  | 61 => ⟨S_, .f32⟩
  | 62 => ⟨S50000x1, .f32⟩
  | 63 => ⟨S50000x1, .f32⟩
  | 64 => ⟨S50000x3, .f32⟩
  | 65 => ⟨S50000x3, .f32⟩
  | 66 => ⟨S1x3x64, .f32⟩
  | 67 => ⟨S3x64, .f32⟩
  | 68 => ⟨S50000x64, .f32⟩
  | 69 => ⟨S50000x64, .f32⟩
  | 70 => ⟨S_, .i32⟩
  | 71 => ⟨S1600000, .i32⟩
  | 72 => ⟨S1600000, .i1⟩
  | 73 => ⟨S1600000, .f32⟩
  | 74 => ⟨S1600000x1, .f32⟩
  | 75 => ⟨S1600000x3, .f32⟩
  | 76 => ⟨S1600000x3, .f32⟩
  | 77 => ⟨S_, .f32⟩
  | 78 => ⟨S50000x3, .f32⟩
  | 79 => ⟨S1600000x1, .i32⟩
  | 80 => ⟨S50000x3, .f32⟩
  | 81 => ⟨S_, .f32⟩
  | 82 => ⟨S50000x1, .f32⟩
  | 83 => ⟨S1600000x1, .i32⟩
  | 84 => ⟨S50000x1, .f32⟩
  | 85 => ⟨S_, .f32⟩
  | 86 => ⟨S50000x1, .f32⟩
  | 87 => ⟨S50000x1, .f32⟩
  | 88 => ⟨S50000x3, .f32⟩
  | 89 => ⟨S50000x3, .f32⟩
  | 90 => ⟨S1x3x64, .f32⟩
  | 91 => ⟨S3x64, .f32⟩
  | 92 => ⟨S50000x64, .f32⟩
  | 93 => ⟨S50000x64, .f32⟩
  | 94 => ⟨S_, .i32⟩
  | 95 => ⟨S1600000, .i32⟩
  | 96 => ⟨S1600000, .i1⟩
  | 97 => ⟨S1600000, .f32⟩
  | 98 => ⟨S1600000x1, .f32⟩
  | 99 => ⟨S1600000x3, .f32⟩
  | 100 => ⟨S1600000x3, .f32⟩
  | 101 => ⟨S_, .f32⟩
  | 102 => ⟨S50000x3, .f32⟩
  | 103 => ⟨S1600000x1, .i32⟩
  | 104 => ⟨S50000x3, .f32⟩
  | 105 => ⟨S_, .f32⟩
  | 106 => ⟨S50000x1, .f32⟩
  | 107 => ⟨S1600000x1, .i32⟩
  | 108 => ⟨S50000x1, .f32⟩
  | 109 => ⟨S_, .f32⟩
  | 110 => ⟨S50000x1, .f32⟩
  | 111 => ⟨S50000x1, .f32⟩
  | 112 => ⟨S50000x3, .f32⟩
  | 113 => ⟨S50000x3, .f32⟩
  | 114 => ⟨S1x3x64, .f32⟩
  | 115 => ⟨S3x64, .f32⟩
  | 116 => ⟨S50000x64, .f32⟩
  | 117 => ⟨S50000x64, .f32⟩
  | 118 => ⟨S_, .f32⟩
  | 119 => ⟨S50000x64, .f32⟩
  | 120 => ⟨S50000x64, .f32⟩
  | 121 => ⟨S_, .i32⟩
  | 122 => ⟨S1600000, .i32⟩
  | 123 => ⟨S1600000, .i1⟩
  | 124 => ⟨S_, .i32⟩
  | 125 => ⟨S1600000, .i32⟩
  | 126 => ⟨S1600000, .i32⟩
  | 127 => ⟨S1600000, .i32⟩
  | _ => ⟨S50000x3, .f32⟩

abbrev hbmTy0_1 (i : Nat) : BufTy := match i % 128 with
  | 0 => ⟨S1600000x1, .i32⟩
  | 1 => ⟨S1600000x64, .f32⟩
  | 2 => ⟨S50000x64, .f32⟩
  | 3 => ⟨S1x64, .f32⟩
  | 4 => ⟨S50000x64, .f32⟩
  | 5 => ⟨S50000x64, .f32⟩
  | 6 => ⟨S_, .i32⟩
  | 7 => ⟨S1600000, .i32⟩
  | 8 => ⟨S1600000, .i1⟩
  | 9 => ⟨S1600000, .f32⟩
  | 10 => ⟨S1600000x1, .f32⟩
  | 11 => ⟨S1600000x64, .f32⟩
  | 12 => ⟨S1600000x64, .f32⟩
  | 13 => ⟨S_, .f32⟩
  | 14 => ⟨S50000x64, .f32⟩
  | 15 => ⟨S1600000x1, .i32⟩
  | 16 => ⟨S50000x64, .f32⟩
  | 17 => ⟨S_, .f32⟩
  | 18 => ⟨S50000x1, .f32⟩
  | 19 => ⟨S1600000x1, .i32⟩
  | 20 => ⟨S50000x1, .f32⟩
  | 21 => ⟨S_, .f32⟩
  | 22 => ⟨S50000x1, .f32⟩
  | 23 => ⟨S50000x1, .f32⟩
  | 24 => ⟨S50000x64, .f32⟩
  | 25 => ⟨S50000x64, .f32⟩
  | 26 => ⟨S1x64x64, .f32⟩
  | 27 => ⟨S64x64, .f32⟩
  | 28 => ⟨S50000x64, .f32⟩
  | 29 => ⟨S50000x64, .f32⟩
  | 30 => ⟨S_, .i32⟩
  | 31 => ⟨S1600000, .i32⟩
  | 32 => ⟨S1600000, .i1⟩
  | 33 => ⟨S1600000, .f32⟩
  | 34 => ⟨S1600000x1, .f32⟩
  | 35 => ⟨S1600000x64, .f32⟩
  | 36 => ⟨S1600000x64, .f32⟩
  | 37 => ⟨S_, .f32⟩
  | 38 => ⟨S50000x64, .f32⟩
  | 39 => ⟨S1600000x1, .i32⟩
  | 40 => ⟨S50000x64, .f32⟩
  | 41 => ⟨S_, .f32⟩
  | 42 => ⟨S50000x1, .f32⟩
  | 43 => ⟨S1600000x1, .i32⟩
  | 44 => ⟨S50000x1, .f32⟩
  | 45 => ⟨S_, .f32⟩
  | 46 => ⟨S50000x1, .f32⟩
  | 47 => ⟨S50000x1, .f32⟩
  | 48 => ⟨S50000x64, .f32⟩
  | 49 => ⟨S50000x64, .f32⟩
  | 50 => ⟨S1x64x64, .f32⟩
  | 51 => ⟨S64x64, .f32⟩
  | 52 => ⟨S50000x64, .f32⟩
  | 53 => ⟨S50000x64, .f32⟩
  | 54 => ⟨S_, .i32⟩
  | 55 => ⟨S1600000, .i32⟩
  | 56 => ⟨S1600000, .i1⟩
  | 57 => ⟨S1600000, .f32⟩
  | 58 => ⟨S1600000x1, .f32⟩
  | 59 => ⟨S1600000x64, .f32⟩
  | 60 => ⟨S1600000x64, .f32⟩
  | 61 => ⟨S_, .f32⟩
  | 62 => ⟨S50000x64, .f32⟩
  | 63 => ⟨S1600000x1, .i32⟩
  | 64 => ⟨S50000x64, .f32⟩
  | 65 => ⟨S_, .f32⟩
  | 66 => ⟨S50000x1, .f32⟩
  | 67 => ⟨S1600000x1, .i32⟩
  | 68 => ⟨S50000x1, .f32⟩
  | 69 => ⟨S_, .f32⟩
  | 70 => ⟨S50000x1, .f32⟩
  | 71 => ⟨S50000x1, .f32⟩
  | 72 => ⟨S50000x64, .f32⟩
  | 73 => ⟨S50000x64, .f32⟩
  | 74 => ⟨S1x64x64, .f32⟩
  | 75 => ⟨S64x64, .f32⟩
  | 76 => ⟨S50000x64, .f32⟩
  | 77 => ⟨S50000x64, .f32⟩
  | 78 => ⟨S_, .f32⟩
  | 79 => ⟨S50000x64, .f32⟩
  | 80 => ⟨S50000x64, .f32⟩
  | 81 => ⟨S_, .i32⟩
  | 82 => ⟨S1600000, .i32⟩
  | 83 => ⟨S1600000, .i1⟩
  | 84 => ⟨S_, .i32⟩
  | 85 => ⟨S1600000, .i32⟩
  | 86 => ⟨S1600000, .i32⟩
  | 87 => ⟨S1600000, .i32⟩
  | 88 => ⟨S1600000x1, .i32⟩
  | 89 => ⟨S1600000x64, .f32⟩
  | 90 => ⟨S50000x64, .f32⟩
  | 91 => ⟨S1x64, .f32⟩
  | 92 => ⟨S50000x64, .f32⟩
  | 93 => ⟨S50000x64, .f32⟩
  | 94 => ⟨S_, .i32⟩
  | 95 => ⟨S1600000, .i32⟩
  | 96 => ⟨S1600000, .i1⟩
  | 97 => ⟨S1600000, .f32⟩
  | 98 => ⟨S1600000x1, .f32⟩
  | 99 => ⟨S1600000x64, .f32⟩
  | 100 => ⟨S1600000x64, .f32⟩
  | 101 => ⟨S_, .f32⟩
  | 102 => ⟨S50000x64, .f32⟩
  | 103 => ⟨S1600000x1, .i32⟩
  | 104 => ⟨S50000x64, .f32⟩
  | 105 => ⟨S_, .f32⟩
  | 106 => ⟨S50000x1, .f32⟩
  | 107 => ⟨S1600000x1, .i32⟩
  | 108 => ⟨S50000x1, .f32⟩
  | 109 => ⟨S_, .f32⟩
  | 110 => ⟨S50000x1, .f32⟩
  | 111 => ⟨S50000x1, .f32⟩
  | 112 => ⟨S50000x64, .f32⟩
  | 113 => ⟨S50000x64, .f32⟩
  | 114 => ⟨S1x64x64, .f32⟩
  | 115 => ⟨S64x64, .f32⟩
  | 116 => ⟨S50000x64, .f32⟩
  | 117 => ⟨S50000x64, .f32⟩
  | 118 => ⟨S_, .i32⟩
  | 119 => ⟨S1600000, .i32⟩
  | 120 => ⟨S1600000, .i1⟩
  | 121 => ⟨S1600000, .f32⟩
  | 122 => ⟨S1600000x1, .f32⟩
  | 123 => ⟨S1600000x64, .f32⟩
  | 124 => ⟨S1600000x64, .f32⟩
  | 125 => ⟨S_, .f32⟩
  | 126 => ⟨S50000x64, .f32⟩
  | 127 => ⟨S1600000x1, .i32⟩
  | _ => ⟨S50000x3, .f32⟩

abbrev hbmTy0_2 (i : Nat) : BufTy := match i % 128 with
  | 0 => ⟨S50000x64, .f32⟩
  | 1 => ⟨S_, .f32⟩
  | 2 => ⟨S50000x1, .f32⟩
  | 3 => ⟨S1600000x1, .i32⟩
  | 4 => ⟨S50000x1, .f32⟩
  | 5 => ⟨S_, .f32⟩
  | 6 => ⟨S50000x1, .f32⟩
  | 7 => ⟨S50000x1, .f32⟩
  | 8 => ⟨S50000x64, .f32⟩
  | 9 => ⟨S50000x64, .f32⟩
  | 10 => ⟨S1x64x64, .f32⟩
  | 11 => ⟨S64x64, .f32⟩
  | 12 => ⟨S50000x64, .f32⟩
  | 13 => ⟨S50000x64, .f32⟩
  | 14 => ⟨S_, .i32⟩
  | 15 => ⟨S1600000, .i32⟩
  | 16 => ⟨S1600000, .i1⟩
  | 17 => ⟨S1600000, .f32⟩
  | 18 => ⟨S1600000x1, .f32⟩
  | 19 => ⟨S1600000x64, .f32⟩
  | 20 => ⟨S1600000x64, .f32⟩
  | 21 => ⟨S_, .f32⟩
  | 22 => ⟨S50000x64, .f32⟩
  | 23 => ⟨S1600000x1, .i32⟩
  | 24 => ⟨S50000x64, .f32⟩
  | 25 => ⟨S_, .f32⟩
  | 26 => ⟨S50000x1, .f32⟩
  | 27 => ⟨S1600000x1, .i32⟩
  | 28 => ⟨S50000x1, .f32⟩
  | 29 => ⟨S_, .f32⟩
  | 30 => ⟨S50000x1, .f32⟩
  | 31 => ⟨S50000x1, .f32⟩
  | 32 => ⟨S50000x64, .f32⟩
  | 33 => ⟨S50000x64, .f32⟩
  | 34 => ⟨S1x64x64, .f32⟩
  | 35 => ⟨S64x64, .f32⟩
  | 36 => ⟨S50000x64, .f32⟩
  | 37 => ⟨S50000x64, .f32⟩
  | 38 => ⟨S_, .f32⟩
  | 39 => ⟨S50000x64, .f32⟩
  | 40 => ⟨S50000x64, .f32⟩
  | 41 => ⟨S_, .i32⟩
  | 42 => ⟨S1600000, .i32⟩
  | 43 => ⟨S1600000, .i1⟩
  | 44 => ⟨S_, .i32⟩
  | 45 => ⟨S1600000, .i32⟩
  | 46 => ⟨S1600000, .i32⟩
  | 47 => ⟨S1600000, .i32⟩
  | 48 => ⟨S1600000x1, .i32⟩
  | 49 => ⟨S1600000x64, .f32⟩
  | 50 => ⟨S_, .i32⟩
  | 51 => ⟨S1600000, .i32⟩
  | 52 => ⟨S1600000, .i1⟩
  | 53 => ⟨S_, .i32⟩
  | 54 => ⟨S1600000, .i32⟩
  | 55 => ⟨S1600000, .i32⟩
  | 56 => ⟨S1600000, .i32⟩
  | 57 => ⟨S1600000x1, .i32⟩
  | 58 => ⟨S1600000x64, .f32⟩
  | 59 => ⟨S1600000x134, .f32⟩
  | 60 => ⟨S1600000x32, .f32⟩
  | 61 => ⟨S1x32, .f32⟩
  | 62 => ⟨S1600000x32, .f32⟩
  | 63 => ⟨S1600000x32, .f32⟩
  | 64 => ⟨S_, .f32⟩
  | 65 => ⟨S1600000x32, .f32⟩
  | 66 => ⟨S1600000x32, .f32⟩
  | 67 => ⟨S1600000x16, .f32⟩
  | 68 => ⟨S1x16, .f32⟩
  | 69 => ⟨S1600000x16, .f32⟩
  | 70 => ⟨S1600000x16, .f32⟩
  | 71 => ⟨S_, .f32⟩
  | 72 => ⟨S1600000x16, .f32⟩
  | 73 => ⟨S1600000x16, .f32⟩
  | 74 => ⟨S1600000x1, .f32⟩
  | 75 => ⟨S1x1, .f32⟩
  | 76 => ⟨S1600000x1, .f32⟩
  | 77 => ⟨S1600000x1, .f32⟩
  | 78 => ⟨S1600000, .f32⟩
  | _ => ⟨S50000x3, .f32⟩

abbrev hbmTy (i : Nat) : BufTy := match i / 128 with
  | 0 => hbmTy0_0 i
  | 1 => hbmTy0_1 i
  | 2 => hbmTy0_2 i
  | _ => ⟨S50000x3, .f32⟩

abbrev bufTy : (tb : Table) → Fin (tcTables nBuf tb) → BufTy
  | .hbm, ⟨i, _⟩ => hbmTy i
  | _, _ => ⟨S50000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_cst : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_cst_0 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_c : Ref sig .tc := ⟨.hbm, 33, rfl⟩
abbrev main_v13 : Ref sig .tc := ⟨.hbm, 34, rfl⟩
abbrev main_v14 : Ref sig .tc := ⟨.hbm, 35, rfl⟩
abbrev main_c_1 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_c_2 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_cst_3 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_cst_4 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_cst_5 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_c_6 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_cst_7 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_cst_8 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_cst_9 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_c_10 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_cst_11 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_cst_12 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_cst_13 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_call0_cst : Ref sig .tc := ⟨.hbm, 118, rfl⟩
abbrev main_call0_v0 : Ref sig .tc := ⟨.hbm, 119, rfl⟩
abbrev main_v84 : Ref sig .tc := ⟨.hbm, 120, rfl⟩
abbrev main_c_14 : Ref sig .tc := ⟨.hbm, 121, rfl⟩
abbrev main_v85 : Ref sig .tc := ⟨.hbm, 122, rfl⟩
abbrev main_v86 : Ref sig .tc := ⟨.hbm, 123, rfl⟩
abbrev main_c_15 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_c_16 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_cst_17 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_cst_18 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_cst_19 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_c_20 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_cst_21 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_cst_22 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_cst_23 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_c_24 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_cst_25 : Ref sig .tc := ⟨.hbm, 189, rfl⟩
abbrev main_v142 : Ref sig .tc := ⟨.hbm, 190, rfl⟩
abbrev main_v143 : Ref sig .tc := ⟨.hbm, 191, rfl⟩
abbrev main_v144 : Ref sig .tc := ⟨.hbm, 192, rfl⟩
abbrev main_cst_26 : Ref sig .tc := ⟨.hbm, 193, rfl⟩
abbrev main_v145 : Ref sig .tc := ⟨.hbm, 194, rfl⟩
abbrev main_v146 : Ref sig .tc := ⟨.hbm, 195, rfl⟩
abbrev main_v147 : Ref sig .tc := ⟨.hbm, 196, rfl⟩
abbrev main_cst_27 : Ref sig .tc := ⟨.hbm, 197, rfl⟩
abbrev main_v148 : Ref sig .tc := ⟨.hbm, 198, rfl⟩
abbrev main_v149 : Ref sig .tc := ⟨.hbm, 199, rfl⟩
abbrev main_v150 : Ref sig .tc := ⟨.hbm, 200, rfl⟩
abbrev main_v151 : Ref sig .tc := ⟨.hbm, 201, rfl⟩
abbrev main_v152 : Ref sig .tc := ⟨.hbm, 202, rfl⟩
abbrev main_v153 : Ref sig .tc := ⟨.hbm, 203, rfl⟩
abbrev main_v154 : Ref sig .tc := ⟨.hbm, 204, rfl⟩
abbrev main_v155 : Ref sig .tc := ⟨.hbm, 205, rfl⟩
abbrev main_call1_cst : Ref sig .tc := ⟨.hbm, 206, rfl⟩
abbrev main_call1_v0 : Ref sig .tc := ⟨.hbm, 207, rfl⟩
abbrev main_v156 : Ref sig .tc := ⟨.hbm, 208, rfl⟩
abbrev main_c_28 : Ref sig .tc := ⟨.hbm, 209, rfl⟩
abbrev main_v157 : Ref sig .tc := ⟨.hbm, 210, rfl⟩
abbrev main_v158 : Ref sig .tc := ⟨.hbm, 211, rfl⟩
abbrev main_c_29 : Ref sig .tc := ⟨.hbm, 212, rfl⟩
abbrev main_v159 : Ref sig .tc := ⟨.hbm, 213, rfl⟩
abbrev main_v160 : Ref sig .tc := ⟨.hbm, 214, rfl⟩
abbrev main_v161 : Ref sig .tc := ⟨.hbm, 215, rfl⟩
abbrev main_v162 : Ref sig .tc := ⟨.hbm, 216, rfl⟩
abbrev main_v163 : Ref sig .tc := ⟨.hbm, 217, rfl⟩
abbrev main_v164 : Ref sig .tc := ⟨.hbm, 218, rfl⟩
abbrev main_v165 : Ref sig .tc := ⟨.hbm, 219, rfl⟩
abbrev main_v166 : Ref sig .tc := ⟨.hbm, 220, rfl⟩
abbrev main_v167 : Ref sig .tc := ⟨.hbm, 221, rfl⟩
abbrev main_c_30 : Ref sig .tc := ⟨.hbm, 222, rfl⟩
abbrev main_v168 : Ref sig .tc := ⟨.hbm, 223, rfl⟩
abbrev main_v169 : Ref sig .tc := ⟨.hbm, 224, rfl⟩
abbrev main_v170 : Ref sig .tc := ⟨.hbm, 225, rfl⟩
abbrev main_v171 : Ref sig .tc := ⟨.hbm, 226, rfl⟩
abbrev main_v172 : Ref sig .tc := ⟨.hbm, 227, rfl⟩
abbrev main_v173 : Ref sig .tc := ⟨.hbm, 228, rfl⟩
abbrev main_cst_31 : Ref sig .tc := ⟨.hbm, 229, rfl⟩
abbrev main_v174 : Ref sig .tc := ⟨.hbm, 230, rfl⟩
abbrev main_v175 : Ref sig .tc := ⟨.hbm, 231, rfl⟩
abbrev main_v176 : Ref sig .tc := ⟨.hbm, 232, rfl⟩
abbrev main_cst_32 : Ref sig .tc := ⟨.hbm, 233, rfl⟩
abbrev main_v177 : Ref sig .tc := ⟨.hbm, 234, rfl⟩
abbrev main_v178 : Ref sig .tc := ⟨.hbm, 235, rfl⟩
abbrev main_v179 : Ref sig .tc := ⟨.hbm, 236, rfl⟩
abbrev main_cst_33 : Ref sig .tc := ⟨.hbm, 237, rfl⟩
abbrev main_v180 : Ref sig .tc := ⟨.hbm, 238, rfl⟩
abbrev main_v181 : Ref sig .tc := ⟨.hbm, 239, rfl⟩
abbrev main_v182 : Ref sig .tc := ⟨.hbm, 240, rfl⟩
abbrev main_v183 : Ref sig .tc := ⟨.hbm, 241, rfl⟩
abbrev main_v184 : Ref sig .tc := ⟨.hbm, 242, rfl⟩
abbrev main_v185 : Ref sig .tc := ⟨.hbm, 243, rfl⟩
abbrev main_v186 : Ref sig .tc := ⟨.hbm, 244, rfl⟩
abbrev main_v187 : Ref sig .tc := ⟨.hbm, 245, rfl⟩
abbrev main_c_34 : Ref sig .tc := ⟨.hbm, 246, rfl⟩
abbrev main_v188 : Ref sig .tc := ⟨.hbm, 247, rfl⟩
abbrev main_v189 : Ref sig .tc := ⟨.hbm, 248, rfl⟩
abbrev main_v190 : Ref sig .tc := ⟨.hbm, 249, rfl⟩
abbrev main_v191 : Ref sig .tc := ⟨.hbm, 250, rfl⟩
abbrev main_v192 : Ref sig .tc := ⟨.hbm, 251, rfl⟩
abbrev main_v193 : Ref sig .tc := ⟨.hbm, 252, rfl⟩
abbrev main_cst_35 : Ref sig .tc := ⟨.hbm, 253, rfl⟩
abbrev main_v194 : Ref sig .tc := ⟨.hbm, 254, rfl⟩
abbrev main_v195 : Ref sig .tc := ⟨.hbm, 255, rfl⟩
abbrev main_v196 : Ref sig .tc := ⟨.hbm, 256, rfl⟩
abbrev main_cst_36 : Ref sig .tc := ⟨.hbm, 257, rfl⟩
abbrev main_v197 : Ref sig .tc := ⟨.hbm, 258, rfl⟩
abbrev main_v198 : Ref sig .tc := ⟨.hbm, 259, rfl⟩
abbrev main_v199 : Ref sig .tc := ⟨.hbm, 260, rfl⟩
abbrev main_cst_37 : Ref sig .tc := ⟨.hbm, 261, rfl⟩
abbrev main_v200 : Ref sig .tc := ⟨.hbm, 262, rfl⟩
abbrev main_v201 : Ref sig .tc := ⟨.hbm, 263, rfl⟩
abbrev main_v202 : Ref sig .tc := ⟨.hbm, 264, rfl⟩
abbrev main_v203 : Ref sig .tc := ⟨.hbm, 265, rfl⟩
abbrev main_v204 : Ref sig .tc := ⟨.hbm, 266, rfl⟩
abbrev main_v205 : Ref sig .tc := ⟨.hbm, 267, rfl⟩
abbrev main_v206 : Ref sig .tc := ⟨.hbm, 268, rfl⟩
abbrev main_v207 : Ref sig .tc := ⟨.hbm, 269, rfl⟩
abbrev main_c_38 : Ref sig .tc := ⟨.hbm, 270, rfl⟩
abbrev main_v208 : Ref sig .tc := ⟨.hbm, 271, rfl⟩
abbrev main_v209 : Ref sig .tc := ⟨.hbm, 272, rfl⟩
abbrev main_v210 : Ref sig .tc := ⟨.hbm, 273, rfl⟩
abbrev main_v211 : Ref sig .tc := ⟨.hbm, 274, rfl⟩
abbrev main_v212 : Ref sig .tc := ⟨.hbm, 275, rfl⟩
abbrev main_v213 : Ref sig .tc := ⟨.hbm, 276, rfl⟩
abbrev main_cst_39 : Ref sig .tc := ⟨.hbm, 277, rfl⟩
abbrev main_v214 : Ref sig .tc := ⟨.hbm, 278, rfl⟩
abbrev main_v215 : Ref sig .tc := ⟨.hbm, 279, rfl⟩
abbrev main_v216 : Ref sig .tc := ⟨.hbm, 280, rfl⟩
abbrev main_cst_40 : Ref sig .tc := ⟨.hbm, 281, rfl⟩
abbrev main_v217 : Ref sig .tc := ⟨.hbm, 282, rfl⟩
abbrev main_v218 : Ref sig .tc := ⟨.hbm, 283, rfl⟩
abbrev main_v219 : Ref sig .tc := ⟨.hbm, 284, rfl⟩
abbrev main_cst_41 : Ref sig .tc := ⟨.hbm, 285, rfl⟩
abbrev main_v220 : Ref sig .tc := ⟨.hbm, 286, rfl⟩
abbrev main_v221 : Ref sig .tc := ⟨.hbm, 287, rfl⟩
abbrev main_v222 : Ref sig .tc := ⟨.hbm, 288, rfl⟩
abbrev main_v223 : Ref sig .tc := ⟨.hbm, 289, rfl⟩
abbrev main_v224 : Ref sig .tc := ⟨.hbm, 290, rfl⟩
abbrev main_v225 : Ref sig .tc := ⟨.hbm, 291, rfl⟩
abbrev main_v226 : Ref sig .tc := ⟨.hbm, 292, rfl⟩
abbrev main_v227 : Ref sig .tc := ⟨.hbm, 293, rfl⟩
abbrev main_call2_cst : Ref sig .tc := ⟨.hbm, 294, rfl⟩
abbrev main_call2_v0 : Ref sig .tc := ⟨.hbm, 295, rfl⟩
abbrev main_v228 : Ref sig .tc := ⟨.hbm, 296, rfl⟩
abbrev main_c_42 : Ref sig .tc := ⟨.hbm, 297, rfl⟩
abbrev main_v229 : Ref sig .tc := ⟨.hbm, 298, rfl⟩
abbrev main_v230 : Ref sig .tc := ⟨.hbm, 299, rfl⟩
abbrev main_c_43 : Ref sig .tc := ⟨.hbm, 300, rfl⟩
abbrev main_v231 : Ref sig .tc := ⟨.hbm, 301, rfl⟩
abbrev main_v232 : Ref sig .tc := ⟨.hbm, 302, rfl⟩
abbrev main_v233 : Ref sig .tc := ⟨.hbm, 303, rfl⟩
abbrev main_v234 : Ref sig .tc := ⟨.hbm, 304, rfl⟩
abbrev main_v235 : Ref sig .tc := ⟨.hbm, 305, rfl⟩
abbrev main_c_44 : Ref sig .tc := ⟨.hbm, 306, rfl⟩
abbrev main_v236 : Ref sig .tc := ⟨.hbm, 307, rfl⟩
abbrev main_v237 : Ref sig .tc := ⟨.hbm, 308, rfl⟩
abbrev main_c_45 : Ref sig .tc := ⟨.hbm, 309, rfl⟩
abbrev main_v238 : Ref sig .tc := ⟨.hbm, 310, rfl⟩
abbrev main_v239 : Ref sig .tc := ⟨.hbm, 311, rfl⟩
abbrev main_v240 : Ref sig .tc := ⟨.hbm, 312, rfl⟩
abbrev main_v241 : Ref sig .tc := ⟨.hbm, 313, rfl⟩
abbrev main_v242 : Ref sig .tc := ⟨.hbm, 314, rfl⟩
abbrev main_v243 : Ref sig .tc := ⟨.hbm, 315, rfl⟩
abbrev main_v244 : Ref sig .tc := ⟨.hbm, 316, rfl⟩
abbrev main_v245 : Ref sig .tc := ⟨.hbm, 317, rfl⟩
abbrev main_v246 : Ref sig .tc := ⟨.hbm, 318, rfl⟩
abbrev main_v247 : Ref sig .tc := ⟨.hbm, 319, rfl⟩
abbrev main_call3_cst : Ref sig .tc := ⟨.hbm, 320, rfl⟩
abbrev main_call3_v0 : Ref sig .tc := ⟨.hbm, 321, rfl⟩
abbrev main_v248 : Ref sig .tc := ⟨.hbm, 322, rfl⟩
abbrev main_v249 : Ref sig .tc := ⟨.hbm, 323, rfl⟩
abbrev main_v250 : Ref sig .tc := ⟨.hbm, 324, rfl⟩
abbrev main_v251 : Ref sig .tc := ⟨.hbm, 325, rfl⟩
abbrev main_v252 : Ref sig .tc := ⟨.hbm, 326, rfl⟩
abbrev main_call4_cst : Ref sig .tc := ⟨.hbm, 327, rfl⟩
abbrev main_call4_v0 : Ref sig .tc := ⟨.hbm, 328, rfl⟩
abbrev main_v253 : Ref sig .tc := ⟨.hbm, 329, rfl⟩
abbrev main_v254 : Ref sig .tc := ⟨.hbm, 330, rfl⟩
abbrev main_v255 : Ref sig .tc := ⟨.hbm, 331, rfl⟩
abbrev main_v256 : Ref sig .tc := ⟨.hbm, 332, rfl⟩
abbrev main_v257 : Ref sig .tc := ⟨.hbm, 333, rfl⟩
abbrev main_v258 : Ref sig .tc := ⟨.hbm, 334, rfl⟩

abbrev nD : Nat := 1
abbrev τ : Topo := Topo.v7x

variable {F : FTy → Type} [FloatOps F]

class Facts₀ : Prop where
  slices_S1600000x6_S1600000x1_0_0 : S1600000x6.Slices ![0, 0] S1600000x1
  shapeCasts_S1600000x1_S1600000 : S1600000x1.ShapeCasts S1600000
  bcast_S_S1600000 : S_.BroadcastsInDim S1600000 (![] : Fin 0 → Fin S1600000.rank)
  natLt_1_32 : 1 < 32
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S1600000_S1600000x1_0 : S1600000.BroadcastsInDim S1600000x1 (![0] : Fin 1 → Fin S1600000x1.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S1600000x1_S1600000x3_0_1 : S1600000x1.BroadcastsInDim S1600000x3 (![0, 1] : Fin 2 → Fin S1600000x3.rank)
  bcast_S_S50000x3 : S_.BroadcastsInDim S50000x3 (![] : Fin 0 → Fin S50000x3.rank)
  bcast_S_S50000x1 : S_.BroadcastsInDim S50000x1 (![] : Fin 0 → Fin S50000x1.rank)
  bcast_S50000x1_S50000x3_0_1 : S50000x1.BroadcastsInDim S50000x3 (![0, 1] : Fin 2 → Fin S50000x3.rank)
  slices_S3x3x64_S1x3x64_0_0_0 : S3x3x64.Slices ![0, 0, 0] S1x3x64
  shapeCasts_S1x3x64_S3x64 : S1x3x64.ShapeCasts S3x64
  slices_S3x3x64_S1x3x64_1_0_0 : S3x3x64.Slices ![1, 0, 0] S1x3x64
  slices_S3x3x64_S1x3x64_2_0_0 : S3x3x64.Slices ![2, 0, 0] S1x3x64
  bcast_S_S50000x64 : S_.BroadcastsInDim S50000x64 (![] : Fin 0 → Fin S50000x64.rank)
  bcast_S1600000x1_S1600000x64_0_1 : S1600000x1.BroadcastsInDim S1600000x64 (![0, 1] : Fin 2 → Fin S1600000x64.rank)
  bcast_S50000x1_S50000x64_0_1 : S50000x1.BroadcastsInDim S50000x64 (![0, 1] : Fin 2 → Fin S50000x64.rank)
  slices_S3x64x64_S1x64x64_0_0_0 : S3x64x64.Slices ![0, 0, 0] S1x64x64
  shapeCasts_S1x64x64_S64x64 : S1x64x64.ShapeCasts S64x64
  slices_S3x64x64_S1x64x64_1_0_0 : S3x64x64.Slices ![1, 0, 0] S1x64x64
  slices_S3x64x64_S1x64x64_2_0_0 : S3x64x64.Slices ![2, 0, 0] S1x64x64
  concatenates_S1600000x64_S1600000x64_S1600000x6_S1600000x134_d1 : Shape.Concatenates [S1600000x64, S1600000x64, S1600000x6] S1600000x134 1
  bcast_S32_S1x32_1 : S32.BroadcastsInDim S1x32 (![1] : Fin 1 → Fin S1x32.rank)
  bcast_S1x32_S1600000x32_0_1 : S1x32.BroadcastsInDim S1600000x32 (![0, 1] : Fin 2 → Fin S1600000x32.rank)
  bcast_S_S1600000x32 : S_.BroadcastsInDim S1600000x32 (![] : Fin 0 → Fin S1600000x32.rank)
  bcast_S16_S1x16_1 : S16.BroadcastsInDim S1x16 (![1] : Fin 1 → Fin S1x16.rank)
  bcast_S1x16_S1600000x16_0_1 : S1x16.BroadcastsInDim S1600000x16 (![0, 1] : Fin 2 → Fin S1600000x16.rank)
  bcast_S_S1600000x16 : S_.BroadcastsInDim S1600000x16 (![] : Fin 0 → Fin S1600000x16.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  gather_S50000x3_S1600000x1_S1600000x3_1_0_n_n_0_1_13_wf : GatherDims.WF S50000x3 S1600000x1 S1600000x3 [1] [0] [] [0] [] 1 ![1, 3]
  dot_S50000x3_S3x64_S50000x64_1_0_0_1_n_n_wf : DotDims.WF S50000x3 S3x64 S50000x64 [1] [0] [0] [1] [] []
  scatter_S50000x3_S1600000x1_S1600000x3_1_0_0_1_wf : ScatterDims.WF S50000x3 S1600000x1 S1600000x3 [1] [0] [0] 1
  scatter_S50000x1_S1600000x1_S1600000x1_1_0_0_1_wf : ScatterDims.WF S50000x1 S1600000x1 S1600000x1 [1] [0] [0] 1
  gather_S50000x64_S1600000x1_S1600000x64_1_0_n_n_0_1_164_wf : GatherDims.WF S50000x64 S1600000x1 S1600000x64 [1] [0] [] [0] [] 1 ![1, 64]
  dot_S50000x64_S64x64_S50000x64_1_0_0_1_n_n_wf : DotDims.WF S50000x64 S64x64 S50000x64 [1] [0] [0] [1] [] []
  scatter_S50000x64_S1600000x1_S1600000x64_1_0_0_1_wf : ScatterDims.WF S50000x64 S1600000x1 S1600000x64 [1] [0] [0] 1
  dot_S1600000x134_S134x32_S1600000x32_1_0_0_1_n_n_wf : DotDims.WF S1600000x134 S134x32 S1600000x32 [1] [0] [0] [1] [] []
  dot_S1600000x32_S32x16_S1600000x16_1_0_0_1_n_n_wf : DotDims.WF S1600000x32 S32x16 S1600000x16 [1] [0] [0] [1] [] []
  dot_S1600000x16_S16x1_S1600000x1_1_0_0_1_n_n_wf : DotDims.WF S1600000x16 S16x1 S1600000x1 [1] [0] [0] [1] [] []

variable [Facts₀]

def gather_S50000x3_S1600000x1_S1600000x3_1_0_n_n_0_1_13 : GatherDims S50000x3 S1600000x1 S1600000x3 where
  offsetDims := [1]
  collapsedSliceDims := [0]
  operandBatchingDims := []
  startIndicesBatchingDims := []
  startIndexMap := [0]
  indexVectorDim := 1
  sliceSizes := ![1, 3]
  wf := gather_S50000x3_S1600000x1_S1600000x3_1_0_n_n_0_1_13_wf
def dot_S50000x3_S3x64_S50000x64_1_0_0_1_n_n : DotDims S50000x3 S3x64 S50000x64 where
  lhsContracting := [1]
  rhsContracting := [0]
  lhsNonContracting := [0]
  rhsNonContracting := [1]
  lhsBatch := []
  rhsBatch := []
  wf := dot_S50000x3_S3x64_S50000x64_1_0_0_1_n_n_wf
def scatter_S50000x3_S1600000x1_S1600000x3_1_0_0_1 : ScatterDims S50000x3 S1600000x1 S1600000x3 where
  updateWindowDims := [1]
  insertedWindowDims := [0]
  scatterDimsToOperandDims := [0]
  indexVectorDim := 1
  wf := scatter_S50000x3_S1600000x1_S1600000x3_1_0_0_1_wf
def scatter_S50000x1_S1600000x1_S1600000x1_1_0_0_1 : ScatterDims S50000x1 S1600000x1 S1600000x1 where
  updateWindowDims := [1]
  insertedWindowDims := [0]
  scatterDimsToOperandDims := [0]
  indexVectorDim := 1
  wf := scatter_S50000x1_S1600000x1_S1600000x1_1_0_0_1_wf
def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf
def dot_S1600000x134_S134x32_S1600000x32_1_0_0_1_n_n : DotDims S1600000x134 S134x32 S1600000x32 where
  lhsContracting := [1]
  rhsContracting := [0]
  lhsNonContracting := [0]
  rhsNonContracting := [1]
  lhsBatch := []
  rhsBatch := []
  wf := dot_S1600000x134_S134x32_S1600000x32_1_0_0_1_n_n_wf
def dot_S1600000x32_S32x16_S1600000x16_1_0_0_1_n_n : DotDims S1600000x32 S32x16 S1600000x16 where
  lhsContracting := [1]
  rhsContracting := [0]
  lhsNonContracting := [0]
  rhsNonContracting := [1]
  lhsBatch := []
  rhsBatch := []
  wf := dot_S1600000x32_S32x16_S1600000x16_1_0_0_1_n_n_wf
def dot_S1600000x16_S16x1_S1600000x1_1_0_0_1_n_n : DotDims S1600000x16 S16x1 S1600000x1 where
  lhsContracting := [1]
  rhsContracting := [0]
  lhsNonContracting := [0]
  rhsNonContracting := [1]
  lhsBatch := []
  rhsBatch := []
  wf := dot_S1600000x16_S16x1_S1600000x1_1_0_0_1_n_n_wf

class Facts : Prop extends Facts₀ where

variable [Facts]
-- ==== Proof.KB.Body0.lean ====
/- Region 0 of @main of the word-level program (custom_call 0, `cc0__rgcn_combine_kernel`, pipeline 0): the body half of
   its frame certificate, at a parameter `V`, the TensorCore's buffer contents when the region is entered. The body
   reads each of its nine input windows' staging buffers whole, reads the output window's staging buffer (a value
   nothing uses) and overwrites it whole with one payload; so the output buffer after the body is a closed function
   of the nine input blocks at the grid point, whatever it held before, and every input buffer is left as found.
   Stated here: each window's block at a point, that closed function, the body's triple, the pipeline's proof data
   and the library's body obligation at every point. Nothing depends on how the element operations are
   interpreted: every statement is generic in the float model. -/
import proofs.«100455_j65352222376641_1_alg».proof.Proof.Gen.Kernel.Launch
import proofs.«100455_j65352222376641_1_alg».proof.Proof.Gen.Kernel.Skeleton
import proofs.«100455_j65352222376641_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents recurses once per coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Regions
-- the TensorCore's buffer contents when the region is entered: the parameter the region's half is stated at
variable (V : (c : Dev nD) → (b : Ref sig .tc) → Buf (Elt F) ((c : Thread nD τ).loc b))

/-! # REGION 0 of @main: custom_call 0, `cc0__rgcn_combine_kernel` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s (`hA`) and whose body leaves the block in place (`hafter`): an input not fetched at a
    point has the block index of the point before, so the block it still holds is this point's; the window is uncut
    and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for any proof
    data whose array is `V`'s (`hA`) and whose body leaves the block in place (`hafter`): an input not fetched at a
    point has the block index of the point before, so the block it still holds is this point's; the window is uncut
    and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for any proof
    data whose array is `V`'s (`hA`) and whose body leaves the block in place (`hafter`): an input not fetched at a
    point has the block index of the point before, so the block it still holds is this point's; the window is uncut
    and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for any proof
    data whose array is `V`'s (`hA`) and whose body leaves the block in place (`hafter`): an input not fetched at a
    point has the block index of the point before, so the block it still holds is this point's; the window is uncut
    and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not, for any proof
    data whose array is `V`'s (`hA`) and whose body leaves the block in place (`hafter`): an input not fetched at a
    point has the block index of the point before, so the block it still holds is this point's; the window is uncut
    and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current staging buffer holds its block at every point, fetched there or not, for any proof
    data whose array is `V`'s (`hA`) and whose body leaves the block in place (`hafter`): an input not fetched at a
    point has the block index of the point before, so the block it still holds is this point's; the window is uncut
    and never idle. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Input window 6's current staging buffer holds its block at every point, fetched there or not, for any proof
    data whose array is `V`'s (`hA`) and whose body leaves the block in place (`hafter`): an input not fetched at a
    point has the block index of the point before, so the block it still holds is this point's; the window is uncut
    and never idle. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
/-- Input window 7's current staging buffer holds its block at every point, fetched there or not, for any proof
    data whose array is `V`'s (`hA`) and whose body leaves the block in place (`hafter`): an input not fetched at a
    point has the block index of the point before, so the block it still holds is this point's; the window is uncut
    and never idle. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
/-- Input window 8's current staging buffer holds its block at every point, fetched there or not, for any proof
    data whose array is `V`'s (`hA`) and whose body leaves the block in place (`hafter`): an input not fetched at a
    point has the block index of the point before, so the block it still holds is this point's; the window is uncut
    and never idle. -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the one store take the whole staging buffer -/

abbrev r0_0 : Rect S5000x3 := Rect.unit (s := S5000x3) ![0, 0] S5000x3.size inb_S5000x3_S5000x3_0_0
abbrev r0_1 : Rect S3x64 := Rect.unit (s := S3x64) ![0, 0] S3x64.size inb_S3x64_S3x64_0_0
abbrev r0_2 : Rect S64 := Rect.unit (s := S64) ![0] S64.size inb_S64_S64_0
abbrev r0_3 : Rect S5000x64 := Rect.unit (s := S5000x64) ![0, 0] S5000x64.size inb_S5000x64_S5000x64_0_0

/-! ## What the body leaves in the output window's buffer -/

/-- Window 9's staging buffer after the body, from the input windows' blocks (in window order): its one store as a
    piece, the payload at what the nine loads read — the payload's arguments in the order the body loads them. -/
def out0_9 (x0 : Vec F S5000x3 .f32) (x1 : Vec F S3x64 .f32) (x2 : Vec F S64 .f32) (x3 : Vec F S5000x3 .f32) (x4 : Vec F S5000x3 .f32) (x5 : Vec F S5000x3 .f32) (x6 : Vec F S3x64 .f32) (x7 : Vec F S3x64 .f32) (x8 : Vec F S3x64 .f32) : Vec F S5000x64 .f32 :=
  View.canon [⟨r0_3, k0_pay1 (View.ld x0 r0_0) (View.ld x1 r0_1) (View.ld x2 r0_2) (View.ld x3 r0_0) (View.ld x6 r0_1) (View.ld x4 r0_0) (View.ld x7 r0_1) (View.ld x5 r0_0) (View.ld x8 r0_1)⟩]

/-- The one store's rectangle is the whole buffer, so it covers it. -/
theorem cover0_9 (p0 : Vec F S5000x64 .f32) (y : S5000x64.Idx) :
    ∃ pc ∈ ([⟨r0_3, p0⟩] : List (View.Piece (Elt F) S5000x64 .f32)), y ∈ pc.1.set :=
  View.cover_of_tiled [⟨r0_3, p0⟩] S5000x64.size (by rfl) y

/-! ## The body's triple -/

set_option maxHeartbeats 1000000 in
/-- The kernel body on whole staging memrefs, the inputs' at read contents `xW` and the output's at anything, runs to
    the continuation holding the inputs' as they were and the output's at `out0_9` of the inputs': the printed function
    is its skeleton of nine whole-buffer loads, a load of the output buffer whose value nothing reads, and one
    whole-buffer store of the payload. -/
theorem sound_kernel0 (c : Dev nD) (E : Set ℕ) (i : grid0.Coords) (arg1 : Memref sig .tc .vmem S5000x3 .f32) (harg1 : arg1.IsWhole) (arg2 : Memref sig .tc .vmem S3x64 .f32) (harg2 : arg2.IsWhole) (arg3 : Memref sig .tc .vmem S64 .f32) (harg3 : arg3.IsWhole) (arg4 : Memref sig .tc .vmem S5000x3 .f32) (harg4 : arg4.IsWhole) (arg5 : Memref sig .tc .vmem S5000x3 .f32) (harg5 : arg5.IsWhole) (arg6 : Memref sig .tc .vmem S5000x3 .f32) (harg6 : arg6.IsWhole) (arg7 : Memref sig .tc .vmem S3x64 .f32) (harg7 : arg7.IsWhole) (arg8 : Memref sig .tc .vmem S3x64 .f32) (harg8 : arg8.IsWhole) (arg9 : Memref sig .tc .vmem S3x64 .f32) (harg9 : arg9.IsWhole) (arg10 : Memref sig .tc .vmem S5000x64 .f32) (harg10 : arg10.IsWhole)
    (x0 : Vec F S5000x3 .f32) (x1 : Vec F S3x64 .f32) (x2 : Vec F S64 .f32) (x3 : Vec F S5000x3 .f32) (x4 : Vec F S5000x3 .f32) (x5 : Vec F S5000x3 .f32) (x6 : Vec F S3x64 .f32) (x7 : Vec F S3x64 .f32) (x8 : Vec F S3x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out0_9 x0 x1 x2 x3 x4 x5 x6 x7 x8)) -∗ K ⟨⟩))
      ⊢ wp frame (wpE (defs₀ (F := F)) Variants.none c none) E (cc0__rgcn_combine_kernel i arg1 harg1 arg2 harg2 arg3 harg3 arg4 harg4 arg5 harg5 arg6 harg6 arg7 harg7 arg8 harg8 arg9 harg9 arg10 harg10) K := by
  rw [cc0__rgcn_combine_kernel_eq_skeleton]; unfold cc0__rgcn_combine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover0_9 _)

/-! ## The pipeline's proof data -/

/-- The proof data of pipeline 0 on core `c`: the arrays as the region finds them (`V`); after the body at
    point `t` each input's buffer at its block and the output's at `out0_9` of the input blocks; the invariant the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => out0_9 (iblk0 V c 0 t) (iblk0 V c 1 t) (iblk0 V c 2 t) (iblk0 V c 3 t) (iblk0 V c 4 t) (iblk0 V c 5 t) (iblk0 V c 6 t) (iblk0 V c 7 t) (iblk0 V c 8 t)
  Φ _ := Pipeline.ΦA spec0 c
  q _ := fullShare
  owed _ := 0

/-- The proof data's arrays are the region-entry contents (the proof data's definition projected). -/
theorem A_eq0 (c : Dev nD) (w : Fin cfg0.W) : (dat0 V c).A w = V c (Pipeline.arrRef spec0 w) := by
  dsimp only [dat0]

/-- What the body leaves, window by window (the proof data's `match` reduced). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = out0_9 (iblk0 V c 0 t) (iblk0 V c 1 t) (iblk0 V c 2 t) (iblk0 V c 3 t) (iblk0 V c 4 t) (iblk0 V c 5 t) (iblk0 V c 6 t) (iblk0 V c 7 t) (iblk0 V c 8 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d

/-! ## The body obligation, at a generic point -/

/-- What the body is called with at point `t` (the library's body obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

/-- The body at any point: the inputs' memrefs hold their blocks (`before0_W`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ (grid0.coords t) _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation0 (c : Dev nD) : BodyObligation (dat0 (F := F) V c) (defs₀ (F := F)) Variants.none () Set.univ := fun t => by
  rw [bigSep_W0, bigSep_W0]
  exact sound_body0 V c t

end Regions

end Cert.Kernel.Hand

end
-- ==== Proof.KB.Body1.lean ====
/- Region 1 of @main of the word-level program (custom_call 1, `cc1__rgcn_combine_kernel`, pipeline 1): the body half of
   its frame certificate, at a parameter `V`, the TensorCore's buffer contents when the region is entered. The body
   reads each of its nine input windows' staging buffers whole, reads the output window's staging buffer (a value
   nothing uses) and overwrites it whole with one payload; so the output buffer after the body is a closed function
   of the nine input blocks at the grid point, whatever it held before, and every input buffer is left as found.
   Stated here: each window's block at a point, that closed function, the body's triple, the pipeline's proof data
   and the library's body obligation at every point. Nothing depends on how the element operations are
   interpreted: every statement is generic in the float model. -/
import proofs.«100455_j65352222376641_1_alg».proof.Proof.Gen.Kernel.Launch
import proofs.«100455_j65352222376641_1_alg».proof.Proof.Gen.Kernel.Skeleton
import proofs.«100455_j65352222376641_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents recurses once per coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Regions
-- the TensorCore's buffer contents when the region is entered: the parameter the region's half is stated at
variable (V : (c : Dev nD) → (b : Ref sig .tc) → Buf (Elt F) ((c : Thread nD τ).loc b))

/-! # REGION 1 of @main: custom_call 1, `cc1__rgcn_combine_kernel` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s (`hA`) and whose body leaves the block in place (`hafter`): an input not fetched at a
    point has the block index of the point before, so the block it still holds is this point's; the window is uncut
    and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for any proof
    data whose array is `V`'s (`hA`) and whose body leaves the block in place (`hafter`): an input not fetched at a
    point has the block index of the point before, so the block it still holds is this point's; the window is uncut
    and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for any proof
    data whose array is `V`'s (`hA`) and whose body leaves the block in place (`hafter`): an input not fetched at a
    point has the block index of the point before, so the block it still holds is this point's; the window is uncut
    and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for any proof
    data whose array is `V`'s (`hA`) and whose body leaves the block in place (`hafter`): an input not fetched at a
    point has the block index of the point before, so the block it still holds is this point's; the window is uncut
    and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for any proof
    data whose array is `V`'s (`hA`) and whose body leaves the block in place (`hafter`): an input not fetched at a
    point has the block index of the point before, so the block it still holds is this point's; the window is uncut
    and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not, for any proof
    data whose array is `V`'s (`hA`) and whose body leaves the block in place (`hafter`): an input not fetched at a
    point has the block index of the point before, so the block it still holds is this point's; the window is uncut
    and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Input window 6's current staging buffer holds its block at every point, fetched there or not, for any proof
    data whose array is `V`'s (`hA`) and whose body leaves the block in place (`hafter`): an input not fetched at a
    point has the block index of the point before, so the block it still holds is this point's; the window is uncut
    and never idle. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
/-- Input window 7's current staging buffer holds its block at every point, fetched there or not, for any proof
    data whose array is `V`'s (`hA`) and whose body leaves the block in place (`hafter`): an input not fetched at a
    point has the block index of the point before, so the block it still holds is this point's; the window is uncut
    and never idle. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
/-- Input window 8's current staging buffer holds its block at every point, fetched there or not, for any proof
    data whose array is `V`'s (`hA`) and whose body leaves the block in place (`hafter`): an input not fetched at a
    point has the block index of the point before, so the block it still holds is this point's; the window is uncut
    and never idle. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the one store take the whole staging buffer -/

abbrev r1_0 : Rect S5000x64 := Rect.unit (s := S5000x64) ![0, 0] S5000x64.size inb_S5000x64_S5000x64_0_0
abbrev r1_1 : Rect S64x64 := Rect.unit (s := S64x64) ![0, 0] S64x64.size inb_S64x64_S64x64_0_0
abbrev r1_2 : Rect S64 := Rect.unit (s := S64) ![0] S64.size inb_S64_S64_0

/-! ## What the body leaves in the output window's buffer -/

/-- Window 9's staging buffer after the body, from the input windows' blocks (in window order): its one store as a
    piece, the payload at what the nine loads read — the payload's arguments in the order the body loads them. -/
def out1_9 (x0 : Vec F S5000x64 .f32) (x1 : Vec F S64x64 .f32) (x2 : Vec F S64 .f32) (x3 : Vec F S5000x64 .f32) (x4 : Vec F S5000x64 .f32) (x5 : Vec F S5000x64 .f32) (x6 : Vec F S64x64 .f32) (x7 : Vec F S64x64 .f32) (x8 : Vec F S64x64 .f32) : Vec F S5000x64 .f32 :=
  View.canon [⟨r1_0, k1_pay1 (View.ld x0 r1_0) (View.ld x1 r1_1) (View.ld x2 r1_2) (View.ld x3 r1_0) (View.ld x6 r1_1) (View.ld x4 r1_0) (View.ld x7 r1_1) (View.ld x5 r1_0) (View.ld x8 r1_1)⟩]

/-- The one store's rectangle is the whole buffer, so it covers it. -/
theorem cover1_9 (p0 : Vec F S5000x64 .f32) (y : S5000x64.Idx) :
    ∃ pc ∈ ([⟨r1_0, p0⟩] : List (View.Piece (Elt F) S5000x64 .f32)), y ∈ pc.1.set :=
  View.cover_of_tiled [⟨r1_0, p0⟩] S5000x64.size (by rfl) y

/-! ## The body's triple -/

set_option maxHeartbeats 1000000 in
/-- The kernel body on whole staging memrefs, the inputs' at read contents `xW` and the output's at anything, runs to
    the continuation holding the inputs' as they were and the output's at `out1_9` of the inputs': the printed function
    is its skeleton of nine whole-buffer loads, a load of the output buffer whose value nothing reads, and one
    whole-buffer store of the payload. -/
theorem sound_kernel1 (c : Dev nD) (E : Set ℕ) (i : grid1.Coords) (arg1 : Memref sig .tc .vmem S5000x64 .f32) (harg1 : arg1.IsWhole) (arg2 : Memref sig .tc .vmem S64x64 .f32) (harg2 : arg2.IsWhole) (arg3 : Memref sig .tc .vmem S64 .f32) (harg3 : arg3.IsWhole) (arg4 : Memref sig .tc .vmem S5000x64 .f32) (harg4 : arg4.IsWhole) (arg5 : Memref sig .tc .vmem S5000x64 .f32) (harg5 : arg5.IsWhole) (arg6 : Memref sig .tc .vmem S5000x64 .f32) (harg6 : arg6.IsWhole) (arg7 : Memref sig .tc .vmem S64x64 .f32) (harg7 : arg7.IsWhole) (arg8 : Memref sig .tc .vmem S64x64 .f32) (harg8 : arg8.IsWhole) (arg9 : Memref sig .tc .vmem S64x64 .f32) (harg9 : arg9.IsWhole) (arg10 : Memref sig .tc .vmem S5000x64 .f32) (harg10 : arg10.IsWhole)
    (x0 : Vec F S5000x64 .f32) (x1 : Vec F S64x64 .f32) (x2 : Vec F S64 .f32) (x3 : Vec F S5000x64 .f32) (x4 : Vec F S5000x64 .f32) (x5 : Vec F S5000x64 .f32) (x6 : Vec F S64x64 .f32) (x7 : Vec F S64x64 .f32) (x8 : Vec F S64x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out1_9 x0 x1 x2 x3 x4 x5 x6 x7 x8)) -∗ K ⟨⟩))
      ⊢ wp frame (wpE (defs₀ (F := F)) Variants.none c none) E (cc1__rgcn_combine_kernel i arg1 harg1 arg2 harg2 arg3 harg3 arg4 harg4 arg5 harg5 arg6 harg6 arg7 harg7 arg8 harg8 arg9 harg9 arg10 harg10) K := by
  rw [cc1__rgcn_combine_kernel_eq_skeleton]; unfold cc1__rgcn_combine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover1_9 _)

/-! ## The pipeline's proof data -/

/-- The proof data of pipeline 1 on core `c`: the arrays as the region finds them (`V`); after the body at
    point `t` each input's buffer at its block and the output's at `out1_9` of the input blocks; the invariant the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => out1_9 (iblk1 V c 0 t) (iblk1 V c 1 t) (iblk1 V c 2 t) (iblk1 V c 3 t) (iblk1 V c 4 t) (iblk1 V c 5 t) (iblk1 V c 6 t) (iblk1 V c 7 t) (iblk1 V c 8 t)
  Φ _ := Pipeline.ΦA spec1 c
  q _ := fullShare
  owed _ := 0

/-- The proof data's arrays are the region-entry contents (the proof data's definition projected). -/
theorem A_eq1 (c : Dev nD) (w : Fin cfg1.W) : (dat1 V c).A w = V c (Pipeline.arrRef spec1 w) := by
  dsimp only [dat1]

/-- What the body leaves, window by window (the proof data's `match` reduced). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = out1_9 (iblk1 V c 0 t) (iblk1 V c 1 t) (iblk1 V c 2 t) (iblk1 V c 3 t) (iblk1 V c 4 t) (iblk1 V c 5 t) (iblk1 V c 6 t) (iblk1 V c 7 t) (iblk1 V c 8 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d

/-! ## The body obligation, at a generic point -/

/-- What the body is called with at point `t` (the library's body obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t))

/-- The body at any point: the inputs' memrefs hold their blocks (`before1_W`), so `sound_kernel1` applies; the
    invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel1 c Set.univ (grid1.coords t) _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation1 (c : Dev nD) : BodyObligation (dat1 (F := F) V c) (defs₀ (F := F)) Variants.none () Set.univ := fun t => by
  rw [bigSep_W1, bigSep_W1]
  exact sound_body1 V c t

end Regions

end Cert.Kernel.Hand

end
-- ==== Proof.KB.Body2.lean ====
/- Region 2 of @main of the word-level program (custom_call 2, `cc2__rgcn_combine_kernel`, pipeline 2): the body half of
   its frame certificate, at a parameter `V`, the TensorCore's buffer contents when the region is entered. The body
   reads each of its nine input windows' staging buffers whole, reads the output window's staging buffer (a value
   nothing uses) and overwrites it whole with one payload; so the output buffer after the body is a closed function
   of the nine input blocks at the grid point, whatever it held before, and every input buffer is left as found.
   Stated here: each window's block at a point, that closed function, the body's triple, the pipeline's proof data
   and the library's body obligation at every point. Nothing depends on how the element operations are
   interpreted: every statement is generic in the float model. -/
import proofs.«100455_j65352222376641_1_alg».proof.Proof.Gen.Kernel.Launch
import proofs.«100455_j65352222376641_1_alg».proof.Proof.Gen.Kernel.Skeleton
import proofs.«100455_j65352222376641_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents recurses once per coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Regions
-- the TensorCore's buffer contents when the region is entered: the parameter the region's half is stated at
variable (V : (c : Dev nD) → (b : Ref sig .tc) → Buf (Elt F) ((c : Thread nD τ).loc b))

/-! # REGION 2 of @main: custom_call 2, `cc2__rgcn_combine_kernel` (pipeline 2), at the entry contents `V` -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s (`hA`) and whose body leaves the block in place (`hafter`): an input not fetched at a
    point has the block index of the point before, so the block it still holds is this point's; the window is uncut
    and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not, for any proof
    data whose array is `V`'s (`hA`) and whose body leaves the block in place (`hafter`): an input not fetched at a
    point has the block index of the point before, so the block it still holds is this point's; the window is uncut
    and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not, for any proof
    data whose array is `V`'s (`hA`) and whose body leaves the block in place (`hafter`): an input not fetched at a
    point has the block index of the point before, so the block it still holds is this point's; the window is uncut
    and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's current staging buffer holds its block at every point, fetched there or not, for any proof
    data whose array is `V`'s (`hA`) and whose body leaves the block in place (`hafter`): an input not fetched at a
    point has the block index of the point before, so the block it still holds is this point's; the window is uncut
    and never idle. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4's current staging buffer holds its block at every point, fetched there or not, for any proof
    data whose array is `V`'s (`hA`) and whose body leaves the block in place (`hafter`): an input not fetched at a
    point has the block index of the point before, so the block it still holds is this point's; the window is uncut
    and never idle. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
/-- Input window 5's current staging buffer holds its block at every point, fetched there or not, for any proof
    data whose array is `V`'s (`hA`) and whose body leaves the block in place (`hafter`): an input not fetched at a
    point has the block index of the point before, so the block it still holds is this point's; the window is uncut
    and never idle. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
/-- Input window 6's current staging buffer holds its block at every point, fetched there or not, for any proof
    data whose array is `V`'s (`hA`) and whose body leaves the block in place (`hafter`): an input not fetched at a
    point has the block index of the point before, so the block it still holds is this point's; the window is uncut
    and never idle. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)
/-- Input window 7's current staging buffer holds its block at every point, fetched there or not, for any proof
    data whose array is `V`'s (`hA`) and whose body leaves the block in place (`hafter`): an input not fetched at a
    point has the block index of the point before, so the block it still holds is this point's; the window is uncut
    and never idle. -/
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)
/-- Input window 8's current staging buffer holds its block at every point, fetched there or not, for any proof
    data whose array is `V`'s (`hA`) and whose body leaves the block in place (`hafter`): an input not fetched at a
    point has the block index of the point before, so the block it still holds is this point's; the window is uncut
    and never idle. -/
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and the one store take the whole staging buffer -/

abbrev r2_0 : Rect S5000x64 := Rect.unit (s := S5000x64) ![0, 0] S5000x64.size inb_S5000x64_S5000x64_0_0
abbrev r2_1 : Rect S64x64 := Rect.unit (s := S64x64) ![0, 0] S64x64.size inb_S64x64_S64x64_0_0
abbrev r2_2 : Rect S64 := Rect.unit (s := S64) ![0] S64.size inb_S64_S64_0

/-! ## What the body leaves in the output window's buffer -/

/-- Window 9's staging buffer after the body, from the input windows' blocks (in window order): its one store as a
    piece, the payload at what the nine loads read — the payload's arguments in the order the body loads them. -/
def out2_9 (x0 : Vec F S5000x64 .f32) (x1 : Vec F S64x64 .f32) (x2 : Vec F S64 .f32) (x3 : Vec F S5000x64 .f32) (x4 : Vec F S5000x64 .f32) (x5 : Vec F S5000x64 .f32) (x6 : Vec F S64x64 .f32) (x7 : Vec F S64x64 .f32) (x8 : Vec F S64x64 .f32) : Vec F S5000x64 .f32 :=
  View.canon [⟨r2_0, k2_pay1 (View.ld x0 r2_0) (View.ld x1 r2_1) (View.ld x2 r2_2) (View.ld x3 r2_0) (View.ld x6 r2_1) (View.ld x4 r2_0) (View.ld x7 r2_1) (View.ld x5 r2_0) (View.ld x8 r2_1)⟩]

/-- The one store's rectangle is the whole buffer, so it covers it. -/
theorem cover2_9 (p0 : Vec F S5000x64 .f32) (y : S5000x64.Idx) :
    ∃ pc ∈ ([⟨r2_0, p0⟩] : List (View.Piece (Elt F) S5000x64 .f32)), y ∈ pc.1.set :=
  View.cover_of_tiled [⟨r2_0, p0⟩] S5000x64.size (by rfl) y

/-! ## The body's triple -/

set_option maxHeartbeats 1000000 in
/-- The kernel body on whole staging memrefs, the inputs' at read contents `xW` and the output's at anything, runs to
    the continuation holding the inputs' as they were and the output's at `out2_9` of the inputs': the printed function
    is its skeleton of nine whole-buffer loads, a load of the output buffer whose value nothing reads, and one
    whole-buffer store of the payload. -/
theorem sound_kernel2 (c : Dev nD) (E : Set ℕ) (i : grid2.Coords) (arg1 : Memref sig .tc .vmem S5000x64 .f32) (harg1 : arg1.IsWhole) (arg2 : Memref sig .tc .vmem S64x64 .f32) (harg2 : arg2.IsWhole) (arg3 : Memref sig .tc .vmem S64 .f32) (harg3 : arg3.IsWhole) (arg4 : Memref sig .tc .vmem S5000x64 .f32) (harg4 : arg4.IsWhole) (arg5 : Memref sig .tc .vmem S5000x64 .f32) (harg5 : arg5.IsWhole) (arg6 : Memref sig .tc .vmem S5000x64 .f32) (harg6 : arg6.IsWhole) (arg7 : Memref sig .tc .vmem S64x64 .f32) (harg7 : arg7.IsWhole) (arg8 : Memref sig .tc .vmem S64x64 .f32) (harg8 : arg8.IsWhole) (arg9 : Memref sig .tc .vmem S64x64 .f32) (harg9 : arg9.IsWhole) (arg10 : Memref sig .tc .vmem S5000x64 .f32) (harg10 : arg10.IsWhole)
    (x0 : Vec F S5000x64 .f32) (x1 : Vec F S64x64 .f32) (x2 : Vec F S64 .f32) (x3 : Vec F S5000x64 .f32) (x4 : Vec F S5000x64 .f32) (x5 : Vec F S5000x64 .f32) (x6 : Vec F S64x64 .f32) (x7 : Vec F S64x64 .f32) (x8 : Vec F S64x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out2_9 x0 x1 x2 x3 x4 x5 x6 x7 x8)) -∗ K ⟨⟩))
      ⊢ wp frame (wpE (defs₀ (F := F)) Variants.none c none) E (cc2__rgcn_combine_kernel i arg1 harg1 arg2 harg2 arg3 harg3 arg4 harg4 arg5 harg5 arg6 harg6 arg7 harg7 arg8 harg8 arg9 harg9 arg10 harg10) K := by
  rw [cc2__rgcn_combine_kernel_eq_skeleton]; unfold cc2__rgcn_combine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover2_9 _)

/-! ## The pipeline's proof data -/

/-- The proof data of pipeline 2 on core `c`: the arrays as the region finds them (`V`); after the body at
    point `t` each input's buffer at its block and the output's at `out2_9` of the input blocks; the invariant the
    scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => out2_9 (iblk2 V c 0 t) (iblk2 V c 1 t) (iblk2 V c 2 t) (iblk2 V c 3 t) (iblk2 V c 4 t) (iblk2 V c 5 t) (iblk2 V c 6 t) (iblk2 V c 7 t) (iblk2 V c 8 t)
  Φ _ := Pipeline.ΦA spec2 c
  q _ := fullShare
  owed _ := 0

/-- The proof data's arrays are the region-entry contents (the proof data's definition projected). -/
theorem A_eq2 (c : Dev nD) (w : Fin cfg2.W) : (dat2 V c).A w = V c (Pipeline.arrRef spec2 w) := by
  dsimp only [dat2]

/-- What the body leaves, window by window (the proof data's `match` reduced). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = out2_9 (iblk2 V c 0 t) (iblk2 V c 1 t) (iblk2 V c 2 t) (iblk2 V c 3 t) (iblk2 V c 4 t) (iblk2 V c 5 t) (iblk2 V c 6 t) (iblk2 V c 7 t) (iblk2 V c 8 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d

/-! ## The body obligation, at a generic point -/

/-- What the body is called with at point `t` (the library's body obligation's precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t))

/-- The body at any point: the inputs' memrefs hold their blocks (`before2_W`), so `sound_kernel2` applies; the
    invariant and the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel2 c Set.univ (grid2.coords t) _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation2 (c : Dev nD) : BodyObligation (dat2 (F := F) V c) (defs₀ (F := F)) Variants.none () Set.univ := fun t => by
  rw [bigSep_W2, bigSep_W2]
  exact sound_body2 V c t

end Regions

end Cert.Kernel.Hand

end
-- ==== Proof.KB.Body3.lean ====
/- Region 3 (custom_call 3, the decode kernel) of the word-level program, the body half of its frame certificate.
   The region's windows are seven inputs (window 0 a 16000x134 block moving with the grid point; windows 1..6 the
   weights and biases, whole arrays under constant index maps, so transferred at the first of the 100 points only)
   and one output (window 7, a 16000x1 block moving with the point). At a parameter `V`, the TensorCore's buffer
   contents on entry: `iblk3` reads each window's block off its array; every input's staging buffer holds that block
   at every point, transferred there or kept from the point before (`before3_W`); the body reads the seven blocks
   whole, reads the output buffer once without using the value, and overwrites the whole output buffer with the
   payload of the seven, so the buffer is left at `out3_7` of the blocks whatever it held (`sound_kernel3`); with
   these the proof data `dat3` meet the pipeline's body obligation at every point (`body_obligation3`).
   Everything is stated at any float model `F`; no float operation is unfolded. -/
import proofs.«100455_j65352222376641_1_alg».proof.Proof.Gen.Kernel.Launch
import proofs.«100455_j65352222376641_1_alg».proof.Proof.Gen.Kernel.Skeleton
import proofs.«100455_j65352222376641_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents: the elaborator's structural look recurses once per coordinate
set_option maxRecDepth 65536

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered: the parameter the region's half is stated at
variable (V : (c : Dev nD) → (b : Ref sig .tc) → Buf (Elt F) ((c : Thread nD τ).loc b))

/-! # REGION 3 of @main: custom_call 3, `cc3__decode_kernel` (pipeline 3), at the entry contents `V` -/

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for any proof
    data whose array is `V`'s (`hA`) and whose body leaves the block in place (`hafter`): unfetched, the block index
    has not moved, so the block kept from the point before is this point's; the window is uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's current staging buffer holds its block at every point, fetched there or not, for any proof
    data whose array is `V`'s (`hA`) and whose body leaves the block in place (`hafter`): unfetched, the block index
    has not moved, so the block kept from the point before is this point's; the window is uncut and never idle. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's current staging buffer holds its block at every point, fetched there or not, for any proof
    data whose array is `V`'s (`hA`) and whose body leaves the block in place (`hafter`): unfetched, the block index
    has not moved, so the block kept from the point before is this point's; the window is uncut and never idle. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- Input window 3's current staging buffer holds its block at every point, fetched there or not, for any proof
    data whose array is `V`'s (`hA`) and whose body leaves the block in place (`hafter`): unfetched, the block index
    has not moved, so the block kept from the point before is this point's; the window is uncut and never idle. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
/-- Input window 4's current staging buffer holds its block at every point, fetched there or not, for any proof
    data whose array is `V`'s (`hA`) and whose body leaves the block in place (`hafter`): unfetched, the block index
    has not moved, so the block kept from the point before is this point's; the window is uncut and never idle. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
/-- Input window 5's current staging buffer holds its block at every point, fetched there or not, for any proof
    data whose array is `V`'s (`hA`) and whose body leaves the block in place (`hafter`): unfetched, the block index
    has not moved, so the block kept from the point before is this point's; the window is uncut and never idle. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)
/-- Input window 6's current staging buffer holds its block at every point, fetched there or not, for any proof
    data whose array is `V`'s (`hA`) and whose body leaves the block in place (`hafter`): unfetched, the block index
    has not moved, so the block kept from the point before is this point's; the window is uncut and never idle. -/
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each memref read, and the output's written, through its whole-buffer rectangle -/

abbrev r3_0 : Rect S16000x134 := Rect.unit (s := S16000x134) ![0, 0] S16000x134.size inb_S16000x134_S16000x134_0_0
abbrev r3_1 : Rect S134x32 := Rect.unit (s := S134x32) ![0, 0] S134x32.size inb_S134x32_S134x32_0_0
abbrev r3_2 : Rect S32 := Rect.unit (s := S32) ![0] S32.size inb_S32_S32_0
abbrev r3_3 : Rect S32x16 := Rect.unit (s := S32x16) ![0, 0] S32x16.size inb_S32x16_S32x16_0_0
abbrev r3_4 : Rect S16 := Rect.unit (s := S16) ![0] S16.size inb_S16_S16_0
abbrev r3_5 : Rect S16x1 := Rect.unit (s := S16x1) ![0, 0] S16x1.size inb_S16x1_S16x1_0_0
abbrev r3_6 : Rect S1 := Rect.unit (s := S1) ![0] S1.size inb_S1_S1_0
abbrev r3_7 : Rect S16000x1 := Rect.unit (s := S16000x1) ![0, 0] S16000x1.size inb_S16000x1_S16000x1_0_0

/-! ## What the body leaves in the output window's buffer -/

/-- Window 7's staging buffer after the body, from the input windows' blocks: its one store as a piece, the payload
    the skeleton's over the seven loaded blocks (in the order the body loads them, which is window order). -/
def out3_7 (x0 : Vec F S16000x134 .f32) (x1 : Vec F S134x32 .f32) (x2 : Vec F S32 .f32) (x3 : Vec F S32x16 .f32) (x4 : Vec F S16 .f32) (x5 : Vec F S16x1 .f32) (x6 : Vec F S1 .f32) : Vec F S16000x1 .f32 :=
  View.canon [⟨r3_7, k3_pay1 (View.ld x0 r3_0) (View.ld x1 r3_1) (View.ld x2 r3_2) (View.ld x3 r3_3) (View.ld x4 r3_4) (View.ld x5 r3_5) (View.ld x6 r3_6)⟩]

/-- The one store's rectangle is the whole buffer, so it covers it. -/
theorem cover3_7 (p0 : Vec F S16000x1 .f32) (y : S16000x1.Idx) :
    ∃ pc ∈ ([⟨r3_7, p0⟩] : List (View.Piece (Elt F) S16000x1 .f32)), y ∈ pc.1.set :=
  View.cover_of_tiled [⟨r3_7, p0⟩] S16000x1.size (by rfl) y

/-! ## The body's triple -/

set_option maxHeartbeats 4000000 in
/-- The kernel body on whole staging memrefs, the inputs' at read contents `xW` and the output's at anything, runs to
    the continuation holding the inputs' as they were and the output's at `out3_7` of the inputs': the printed function
    is its skeleton, eight whole-buffer loads (the last of the output's own buffer, its value unused) and one
    whole-buffer store. -/
theorem sound_kernel3 (c : Dev nD) (E : Set ℕ) (i : grid3.Coords) (arg1 : Memref sig .tc .vmem S16000x134 .f32) (harg1 : arg1.IsWhole) (arg2 : Memref sig .tc .vmem S134x32 .f32) (harg2 : arg2.IsWhole) (arg3 : Memref sig .tc .vmem S32 .f32) (harg3 : arg3.IsWhole) (arg4 : Memref sig .tc .vmem S32x16 .f32) (harg4 : arg4.IsWhole) (arg5 : Memref sig .tc .vmem S16 .f32) (harg5 : arg5.IsWhole) (arg6 : Memref sig .tc .vmem S16x1 .f32) (harg6 : arg6.IsWhole) (arg7 : Memref sig .tc .vmem S1 .f32) (harg7 : arg7.IsWhole) (arg8 : Memref sig .tc .vmem S16000x1 .f32) (harg8 : arg8.IsWhole)
    (x0 : Vec F S16000x134 .f32) (x1 : Vec F S134x32 .f32) (x2 : Vec F S32 .f32) (x3 : Vec F S32x16 .f32) (x4 : Vec F S16 .f32) (x5 : Vec F S16x1 .f32) (x6 : Vec F S1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out3_7 x0 x1 x2 x3 x4 x5 x6)) -∗ K ⟨⟩))
      ⊢ wp frame (wpE (defs₀ (F := F)) Variants.none c none) E (cc3__decode_kernel i arg1 harg1 arg2 harg2 arg3 harg3 arg4 harg4 arg5 harg5 arg6 harg6 arg7 harg7 arg8 harg8) K := by
  simp only [cc3__decode_kernel_eq_skeleton]; unfold cc3__decode_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover3_7 _)

/-! ## The pipeline's proof data -/

/-- The proof data of pipeline 3 on core `c`: the arrays as the region finds them (`V`); after the body at
    point `t` each input's buffer at its block and the output's at `out3_7` of the input blocks; the invariant the
    scoped rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => out3_7 (iblk3 V c 0 t) (iblk3 V c 1 t) (iblk3 V c 2 t) (iblk3 V c 3 t) (iblk3 V c 4 t) (iblk3 V c 5 t) (iblk3 V c 6 t)
  Φ _ := Pipeline.ΦA spec3 c
  q _ := fullShare
  owed _ := 0

/-- The proof data's arrays are the region-entry contents (the proof data's definition projected). -/
theorem A_eq3 (c : Dev nD) (w : Fin cfg3.W) : (dat3 V c).A w = V c (Pipeline.arrRef spec3 w) := by
  dsimp only [dat3]

/-- What the body leaves, window by window (the proof data's `match` reduced). -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = out3_7 (iblk3 V c 0 t) (iblk3 V c 1 t) (iblk3 V c 2 t) (iblk3 V c 3 t) (iblk3 V c 4 t) (iblk3 V c 5 t) (iblk3 V c 6 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d

/-! ## The body obligation, at a generic point -/

/-- What the body is called with at point `t` (the body obligation's precondition, the windows one by one), -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t))

set_option maxHeartbeats 4000000 in
/-- The body at any point: the inputs' memrefs hold their blocks (`before3_W`), so `sound_kernel3` applies; the
    invariant and the core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel3 c Set.univ (grid3.coords t) _ _ _ _ _ _ _ _ _ _ _ _ _ _ _ _ (iblk3 V c 0 t) (iblk3 V c 1 t) (iblk3 V c 2 t) (iblk3 V c 3 t) (iblk3 V c 4 t) (iblk3 V c 5 t) (iblk3 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation3 (c : Dev nD) : BodyObligation (dat3 (F := F) V c) (defs₀ (F := F)) Variants.none () Set.univ := fun t => by
  rw [bigSep_W3, bigSep_W3]
  exact sound_body3 V c t

end Regions

end Cert.Kernel.Hand

end
-- ==== Proof.KB.Run.lean ====
/- The run of the word-level program, from the launch to the return, at any float model.
   @main is five stretches of host operations separated by four pipelined regions, so there are nine segments and
   ten boundaries between the launch and the return. The buffer contents at the boundaries are computed by a fold
   from the launch memory: across a host stretch the contents become the stretch's result; across a region each
   window's array becomes what the pipeline leaves in it — an input window's array is unchanged, the output window's
   array has the write-back of every grid point folded in — and every other buffer is unchanged. A host stretch is a
   segment over the thread state "every unscoped buffer holds the boundary's contents, the generator register is at
   some state, nothing is owed"; a region is a segment whose entry separates its arrays from the unscoped buffers
   and whose exit joins them back at the exit contents. The launch theorem over the nine segments yields that every
   weakly fair execution terminates without fault and that the final memory equals the fold's last contents at
   every unscoped buffer. At the result buffer that equation is the value the run computes; at an argument array,
   written by no host operation and only read (through an input window) or bypassed by a region, the fold walks
   back to the launch memory, which is the frame property. -/
import proofs.«100455_j65352222376641_1_alg».proof.Proof.KB.Body0
import proofs.«100455_j65352222376641_1_alg».proof.Proof.KB.Body1
import proofs.«100455_j65352222376641_1_alg».proof.Proof.KB.Body2
import proofs.«100455_j65352222376641_1_alg».proof.Proof.KB.Body3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return

## The buffer contents at each segment boundary: a fold through @main -/

/-- Core `c`'s buffers at launch. -/
abbrev W0 : Dev nD → Valuation τ sig (Elt F) := fun c b => (s₀ m ρ).mem ((c : Dev nD), b)

/-- After `hostOps0` (region 0's entry). -/
abbrev W1 : Dev nD → Valuation τ sig (Elt F) := fun c => StableHlo.after hostOps0 (W0 m ρ c)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, the output's write-backs
    folded over the grid), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`). -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, the output's write-backs
    folded over the grid), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`). -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2` (region 2's entry). -/
abbrev W5 : Dev nD → Valuation τ sig (Elt F) := fun c => StableHlo.after hostOps2 (W4 m ρ c)
/-- The same read at the TensorCore's references (what region 2's proof data take). -/
abbrev V5 : (c : Dev nD) → (b : Ref sig .tc) → Buf (Elt F) ((c : Thread nD τ).loc b) := fun c b => W5 m ρ c b
/-- At region 2's exit: its arrays at what the pipeline leaves (the inputs as entered, the output's write-backs
    folded over the grid), every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references (region 2's exit contents). -/
abbrev V6 : (c : Dev nD) → (b : Ref sig .tc) → Buf (Elt F) ((c : Thread nD τ).loc b) := fun c b => W6 m ρ c b
/-- At region 2's exit each of its arrays holds what the pipeline leaves (`hF2`) and every other buffer what it
    held at entry (`hrest2`). -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After `hostOps3` (region 3's entry). -/
abbrev W7 : Dev nD → Valuation τ sig (Elt F) := fun c => StableHlo.after hostOps3 (W6 m ρ c)
/-- The same read at the TensorCore's references (what region 3's proof data take). -/
abbrev V7 : (c : Dev nD) → (b : Ref sig .tc) → Buf (Elt F) ((c : Thread nD τ).loc b) := fun c b => W7 m ρ c b
/-- At region 3's exit: its arrays at what the pipeline leaves (the inputs as entered, the output's write-backs
    folded over the grid), every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
/-- The same read at the TensorCore's references (region 3's exit contents). -/
abbrev V8 : (c : Dev nD) → (b : Ref sig .tc) → Buf (Elt F) ((c : Thread nD τ).loc b) := fun c b => W8 m ρ c b
/-- At region 3's exit each of its arrays holds what the pipeline leaves (`hF3`) and every other buffer what it
    held at entry (`hrest3`). -/
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-- After `hostOps4`: the contents @main returns with. -/
abbrev W9 : Dev nD → Valuation τ sig (Elt F) := fun c => StableHlo.after hostOps4 (W8 m ρ c)

/-! ## What the host stretches write

Each host operation writes one buffer, its result. A stretch's results are listed once (`hostWK`), every operation's
write set is shown to lie in the list (`hostOpsK_writes`), and a buffer whose reference is not in the list keeps its
contents through the stretch (`after_hostOpsK`). -/

/-- An operation whose write set is the single buffer of a listed reference writes within the list. -/
theorem wsub {Wl : List (Ref sig .tc)} {y : Ref sig .tc} (h : y ∈ Wl) :
    ({Proc.devRef .tc y} : Finset (DevRef τ sig)) ⊆ (Wl.map (Proc.devRef (τ := τ) .tc)).toFinset :=
  Finset.singleton_subset_iff.mpr (List.mem_toFinset.mpr (List.mem_map_of_mem h))

/-- The references `hostOps0` writes, in order. -/
noncomputable def hostW0 : List (Ref sig .tc) :=
  [
    main_v0, main_v1, main_cst, main_v2, main_v3, main_v4, main_cst_0, main_v5,
    main_v6, main_v7, main_v8, main_v9, main_v10, main_v11, main_v12, main_c,
    main_v13, main_v14, main_c_1, main_v15, main_v16, main_v17, main_v18, main_v19,
    main_c_2, main_v20, main_v21, main_v22, main_v23, main_v24, main_v25, main_cst_3,
    main_v26, main_v27, main_v28, main_cst_4, main_v29, main_v30, main_v31, main_cst_5,
    main_v32, main_v33, main_v34, main_v35, main_c_6, main_v36, main_v37, main_v38,
    main_v39, main_v40, main_v41, main_cst_7, main_v42, main_v43, main_v44, main_cst_8,
    main_v45, main_v46, main_v47, main_cst_9, main_v48, main_v49, main_v50, main_v51,
    main_c_10, main_v52, main_v53, main_v54, main_v55, main_v56, main_v57, main_cst_11,
    main_v58, main_v59, main_v60, main_cst_12, main_v61, main_v62, main_v63, main_cst_13,
    main_v64, main_v65, main_v66, main_v67, main_v68, main_v69, main_v70, main_v71,
    main_v72, main_v73 ]
set_option maxHeartbeats 4000000 in
theorem hostOps0_writes : (hostOps0 : List (HloOp τ sig (Elt F))).Forall fun op =>
    op.writes ⊆ (hostW0.map (Proc.devRef (τ := τ) .tc)).toFinset :=
  ⟨
    wsub (y := main_v0) (by decide), wsub (y := main_v1) (by decide), wsub (y := main_cst) (by decide),
    wsub (y := main_v2) (by decide), wsub (y := main_v3) (by decide), wsub (y := main_v4) (by decide),
    wsub (y := main_cst_0) (by decide), wsub (y := main_v5) (by decide), wsub (y := main_v6) (by decide),
    wsub (y := main_v7) (by decide), wsub (y := main_v8) (by decide), wsub (y := main_v9) (by decide),
    wsub (y := main_v10) (by decide), wsub (y := main_v11) (by decide), wsub (y := main_v12) (by decide),
    wsub (y := main_c) (by decide), wsub (y := main_v13) (by decide), wsub (y := main_v14) (by decide),
    wsub (y := main_c_1) (by decide), wsub (y := main_v15) (by decide), wsub (y := main_v16) (by decide),
    wsub (y := main_v17) (by decide), wsub (y := main_v18) (by decide), wsub (y := main_v19) (by decide),
    wsub (y := main_c_2) (by decide), wsub (y := main_v20) (by decide), wsub (y := main_v21) (by decide),
    wsub (y := main_v22) (by decide), wsub (y := main_v23) (by decide), wsub (y := main_v24) (by decide),
    wsub (y := main_v25) (by decide), wsub (y := main_cst_3) (by decide), wsub (y := main_v26) (by decide),
    wsub (y := main_v27) (by decide), wsub (y := main_v28) (by decide), wsub (y := main_cst_4) (by decide),
    wsub (y := main_v29) (by decide), wsub (y := main_v30) (by decide), wsub (y := main_v31) (by decide),
    wsub (y := main_cst_5) (by decide), wsub (y := main_v32) (by decide), wsub (y := main_v33) (by decide),
    wsub (y := main_v34) (by decide), wsub (y := main_v35) (by decide), wsub (y := main_c_6) (by decide),
    wsub (y := main_v36) (by decide), wsub (y := main_v37) (by decide), wsub (y := main_v38) (by decide),
    wsub (y := main_v39) (by decide), wsub (y := main_v40) (by decide), wsub (y := main_v41) (by decide),
    wsub (y := main_cst_7) (by decide), wsub (y := main_v42) (by decide), wsub (y := main_v43) (by decide),
    wsub (y := main_v44) (by decide), wsub (y := main_cst_8) (by decide), wsub (y := main_v45) (by decide),
    wsub (y := main_v46) (by decide), wsub (y := main_v47) (by decide), wsub (y := main_cst_9) (by decide),
    wsub (y := main_v48) (by decide), wsub (y := main_v49) (by decide), wsub (y := main_v50) (by decide),
    wsub (y := main_v51) (by decide), wsub (y := main_c_10) (by decide), wsub (y := main_v52) (by decide),
    wsub (y := main_v53) (by decide), wsub (y := main_v54) (by decide), wsub (y := main_v55) (by decide),
    wsub (y := main_v56) (by decide), wsub (y := main_v57) (by decide), wsub (y := main_cst_11) (by decide),
    wsub (y := main_v58) (by decide), wsub (y := main_v59) (by decide), wsub (y := main_v60) (by decide),
    wsub (y := main_cst_12) (by decide), wsub (y := main_v61) (by decide), wsub (y := main_v62) (by decide),
    wsub (y := main_v63) (by decide), wsub (y := main_cst_13) (by decide), wsub (y := main_v64) (by decide),
    wsub (y := main_v65) (by decide), wsub (y := main_v66) (by decide), wsub (y := main_v67) (by decide),
    wsub (y := main_v68) (by decide), wsub (y := main_v69) (by decide), wsub (y := main_v70) (by decide),
    wsub (y := main_v71) (by decide), wsub (y := main_v72) (by decide), wsub (y := main_v73) (by decide) ⟩
/-- A buffer `hostOps0` does not write keeps its contents. -/
theorem after_hostOps0 (V : Valuation τ sig (Elt F)) {r : Ref sig .tc} (hr : r ∉ hostW0) :
    StableHlo.after hostOps0 V (Proc.devRef .tc r) = V (Proc.devRef .tc r) :=
  StableHlo.after_of_writes_sub hostOps0 V hostOps0_writes hr

/-- The references `hostOps1` writes, in order. -/
noncomputable def hostW1 : List (Ref sig .tc) :=
  [
    main_c_14, main_v75, main_v76, main_c_15, main_v77, main_v78, main_v79, main_v80,
    main_v81, main_c_16, main_v82, main_v83, main_v84, main_v85, main_v86, main_v87,
    main_cst_17, main_v88, main_v89, main_v90, main_cst_18, main_v91, main_v92, main_v93,
    main_cst_19, main_v94, main_v95, main_v96, main_v97, main_c_20, main_v98, main_v99,
    main_v100, main_v101, main_v102, main_v103, main_cst_21, main_v104, main_v105, main_v106,
    main_cst_22, main_v107, main_v108, main_v109, main_cst_23, main_v110, main_v111, main_v112,
    main_v113, main_c_24, main_v114, main_v115, main_v116, main_v117, main_v118, main_v119,
    main_cst_25, main_v120, main_v121, main_v122, main_cst_26, main_v123, main_v124, main_v125,
    main_cst_27, main_v126, main_v127, main_v128, main_v129, main_v130, main_v131, main_v132,
    main_v133, main_v134, main_v135 ]
set_option maxHeartbeats 4000000 in
theorem hostOps1_writes : (hostOps1 : List (HloOp τ sig (Elt F))).Forall fun op =>
    op.writes ⊆ (hostW1.map (Proc.devRef (τ := τ) .tc)).toFinset :=
  ⟨
    wsub (y := main_c_14) (by decide), wsub (y := main_v75) (by decide), wsub (y := main_v76) (by decide),
    wsub (y := main_c_15) (by decide), wsub (y := main_v77) (by decide), wsub (y := main_v78) (by decide),
    wsub (y := main_v79) (by decide), wsub (y := main_v80) (by decide), wsub (y := main_v81) (by decide),
    wsub (y := main_c_16) (by decide), wsub (y := main_v82) (by decide), wsub (y := main_v83) (by decide),
    wsub (y := main_v84) (by decide), wsub (y := main_v85) (by decide), wsub (y := main_v86) (by decide),
    wsub (y := main_v87) (by decide), wsub (y := main_cst_17) (by decide), wsub (y := main_v88) (by decide),
    wsub (y := main_v89) (by decide), wsub (y := main_v90) (by decide), wsub (y := main_cst_18) (by decide),
    wsub (y := main_v91) (by decide), wsub (y := main_v92) (by decide), wsub (y := main_v93) (by decide),
    wsub (y := main_cst_19) (by decide), wsub (y := main_v94) (by decide), wsub (y := main_v95) (by decide),
    wsub (y := main_v96) (by decide), wsub (y := main_v97) (by decide), wsub (y := main_c_20) (by decide),
    wsub (y := main_v98) (by decide), wsub (y := main_v99) (by decide), wsub (y := main_v100) (by decide),
    wsub (y := main_v101) (by decide), wsub (y := main_v102) (by decide), wsub (y := main_v103) (by decide),
    wsub (y := main_cst_21) (by decide), wsub (y := main_v104) (by decide), wsub (y := main_v105) (by decide),
    wsub (y := main_v106) (by decide), wsub (y := main_cst_22) (by decide), wsub (y := main_v107) (by decide),
    wsub (y := main_v108) (by decide), wsub (y := main_v109) (by decide), wsub (y := main_cst_23) (by decide),
    wsub (y := main_v110) (by decide), wsub (y := main_v111) (by decide), wsub (y := main_v112) (by decide),
    wsub (y := main_v113) (by decide), wsub (y := main_c_24) (by decide), wsub (y := main_v114) (by decide),
    wsub (y := main_v115) (by decide), wsub (y := main_v116) (by decide), wsub (y := main_v117) (by decide),
    wsub (y := main_v118) (by decide), wsub (y := main_v119) (by decide), wsub (y := main_cst_25) (by decide),
    wsub (y := main_v120) (by decide), wsub (y := main_v121) (by decide), wsub (y := main_v122) (by decide),
    wsub (y := main_cst_26) (by decide), wsub (y := main_v123) (by decide), wsub (y := main_v124) (by decide),
    wsub (y := main_v125) (by decide), wsub (y := main_cst_27) (by decide), wsub (y := main_v126) (by decide),
    wsub (y := main_v127) (by decide), wsub (y := main_v128) (by decide), wsub (y := main_v129) (by decide),
    wsub (y := main_v130) (by decide), wsub (y := main_v131) (by decide), wsub (y := main_v132) (by decide),
    wsub (y := main_v133) (by decide), wsub (y := main_v134) (by decide), wsub (y := main_v135) (by decide) ⟩
/-- A buffer `hostOps1` does not write keeps its contents. -/
theorem after_hostOps1 (V : Valuation τ sig (Elt F)) {r : Ref sig .tc} (hr : r ∉ hostW1) :
    StableHlo.after hostOps1 V (Proc.devRef .tc r) = V (Proc.devRef .tc r) :=
  StableHlo.after_of_writes_sub hostOps1 V hostOps1_writes hr

/-- The references `hostOps2` writes, in order. -/
noncomputable def hostW2 : List (Ref sig .tc) :=
  [
    main_c_28, main_v137, main_v138, main_c_29, main_v139, main_v140, main_v141, main_v142,
    main_v143, main_c_30, main_v144, main_v145, main_v146, main_v147, main_v148, main_v149,
    main_cst_31, main_v150, main_v151, main_v152, main_cst_32, main_v153, main_v154, main_v155,
    main_cst_33, main_v156, main_v157, main_v158, main_v159, main_c_34, main_v160, main_v161,
    main_v162, main_v163, main_v164, main_v165, main_cst_35, main_v166, main_v167, main_v168,
    main_cst_36, main_v169, main_v170, main_v171, main_cst_37, main_v172, main_v173, main_v174,
    main_v175, main_c_38, main_v176, main_v177, main_v178, main_v179, main_v180, main_v181,
    main_cst_39, main_v182, main_v183, main_v184, main_cst_40, main_v185, main_v186, main_v187,
    main_cst_41, main_v188, main_v189, main_v190, main_v191, main_v192, main_v193, main_v194,
    main_v195, main_v196, main_v197 ]
set_option maxHeartbeats 4000000 in
theorem hostOps2_writes : (hostOps2 : List (HloOp τ sig (Elt F))).Forall fun op =>
    op.writes ⊆ (hostW2.map (Proc.devRef (τ := τ) .tc)).toFinset :=
  ⟨
    wsub (y := main_c_28) (by decide), wsub (y := main_v137) (by decide), wsub (y := main_v138) (by decide),
    wsub (y := main_c_29) (by decide), wsub (y := main_v139) (by decide), wsub (y := main_v140) (by decide),
    wsub (y := main_v141) (by decide), wsub (y := main_v142) (by decide), wsub (y := main_v143) (by decide),
    wsub (y := main_c_30) (by decide), wsub (y := main_v144) (by decide), wsub (y := main_v145) (by decide),
    wsub (y := main_v146) (by decide), wsub (y := main_v147) (by decide), wsub (y := main_v148) (by decide),
    wsub (y := main_v149) (by decide), wsub (y := main_cst_31) (by decide), wsub (y := main_v150) (by decide),
    wsub (y := main_v151) (by decide), wsub (y := main_v152) (by decide), wsub (y := main_cst_32) (by decide),
    wsub (y := main_v153) (by decide), wsub (y := main_v154) (by decide), wsub (y := main_v155) (by decide),
    wsub (y := main_cst_33) (by decide), wsub (y := main_v156) (by decide), wsub (y := main_v157) (by decide),
    wsub (y := main_v158) (by decide), wsub (y := main_v159) (by decide), wsub (y := main_c_34) (by decide),
    wsub (y := main_v160) (by decide), wsub (y := main_v161) (by decide), wsub (y := main_v162) (by decide),
    wsub (y := main_v163) (by decide), wsub (y := main_v164) (by decide), wsub (y := main_v165) (by decide),
    wsub (y := main_cst_35) (by decide), wsub (y := main_v166) (by decide), wsub (y := main_v167) (by decide),
    wsub (y := main_v168) (by decide), wsub (y := main_cst_36) (by decide), wsub (y := main_v169) (by decide),
    wsub (y := main_v170) (by decide), wsub (y := main_v171) (by decide), wsub (y := main_cst_37) (by decide),
    wsub (y := main_v172) (by decide), wsub (y := main_v173) (by decide), wsub (y := main_v174) (by decide),
    wsub (y := main_v175) (by decide), wsub (y := main_c_38) (by decide), wsub (y := main_v176) (by decide),
    wsub (y := main_v177) (by decide), wsub (y := main_v178) (by decide), wsub (y := main_v179) (by decide),
    wsub (y := main_v180) (by decide), wsub (y := main_v181) (by decide), wsub (y := main_cst_39) (by decide),
    wsub (y := main_v182) (by decide), wsub (y := main_v183) (by decide), wsub (y := main_v184) (by decide),
    wsub (y := main_cst_40) (by decide), wsub (y := main_v185) (by decide), wsub (y := main_v186) (by decide),
    wsub (y := main_v187) (by decide), wsub (y := main_cst_41) (by decide), wsub (y := main_v188) (by decide),
    wsub (y := main_v189) (by decide), wsub (y := main_v190) (by decide), wsub (y := main_v191) (by decide),
    wsub (y := main_v192) (by decide), wsub (y := main_v193) (by decide), wsub (y := main_v194) (by decide),
    wsub (y := main_v195) (by decide), wsub (y := main_v196) (by decide), wsub (y := main_v197) (by decide) ⟩
/-- A buffer `hostOps2` does not write keeps its contents. -/
theorem after_hostOps2 (V : Valuation τ sig (Elt F)) {r : Ref sig .tc} (hr : r ∉ hostW2) :
    StableHlo.after hostOps2 V (Proc.devRef .tc r) = V (Proc.devRef .tc r) :=
  StableHlo.after_of_writes_sub hostOps2 V hostOps2_writes hr

/-- The references `hostOps3` writes, in order. -/
noncomputable def hostW3 : List (Ref sig .tc) :=
  [
    main_c_42, main_v199, main_v200, main_c_43, main_v201, main_v202, main_v203, main_v204,
    main_v205, main_c_44, main_v206, main_v207, main_c_45, main_v208, main_v209, main_v210,
    main_v211, main_v212, main_v213 ]
set_option maxHeartbeats 4000000 in
theorem hostOps3_writes : (hostOps3 : List (HloOp τ sig (Elt F))).Forall fun op =>
    op.writes ⊆ (hostW3.map (Proc.devRef (τ := τ) .tc)).toFinset :=
  ⟨
    wsub (y := main_c_42) (by decide), wsub (y := main_v199) (by decide), wsub (y := main_v200) (by decide),
    wsub (y := main_c_43) (by decide), wsub (y := main_v201) (by decide), wsub (y := main_v202) (by decide),
    wsub (y := main_v203) (by decide), wsub (y := main_v204) (by decide), wsub (y := main_v205) (by decide),
    wsub (y := main_c_44) (by decide), wsub (y := main_v206) (by decide), wsub (y := main_v207) (by decide),
    wsub (y := main_c_45) (by decide), wsub (y := main_v208) (by decide), wsub (y := main_v209) (by decide),
    wsub (y := main_v210) (by decide), wsub (y := main_v211) (by decide), wsub (y := main_v212) (by decide),
    wsub (y := main_v213) (by decide) ⟩
/-- A buffer `hostOps3` does not write keeps its contents. -/
theorem after_hostOps3 (V : Valuation τ sig (Elt F)) {r : Ref sig .tc} (hr : r ∉ hostW3) :
    StableHlo.after hostOps3 V (Proc.devRef .tc r) = V (Proc.devRef .tc r) :=
  StableHlo.after_of_writes_sub hostOps3 V hostOps3_writes hr

/-- The references `hostOps4` writes, in order. -/
noncomputable def hostW4 : List (Ref sig .tc) :=
  [
    main_v215 ]
set_option maxHeartbeats 4000000 in
theorem hostOps4_writes : (hostOps4 : List (HloOp τ sig (Elt F))).Forall fun op =>
    op.writes ⊆ (hostW4.map (Proc.devRef (τ := τ) .tc)).toFinset :=
  wsub (y := main_v215) (by decide)
/-- A buffer `hostOps4` does not write keeps its contents. -/
theorem after_hostOps4 (V : Valuation τ sig (Elt F)) {r : Ref sig .tc} (hr : r ∉ hostW4) :
    StableHlo.after hostOps4 V (Proc.devRef .tc r) = V (Proc.devRef .tc r) :=
  StableHlo.after_of_writes_sub hostOps4 V hostOps4_writes hr

/-! ### The arguments end as launched: no host operation writes one, and a region reads it through an input window
    (whose array the pipeline never writes) or bypasses it, so the fold at an argument's buffer walks back to the launch
    memory -/

theorem W9_main_arg0 (c : Dev nD) : W9 m ρ c (Proc.devRef .tc main_arg0) = m ((c : Thread nD τ).loc main_arg0) :=
  calc W9 m ρ c (Proc.devRef .tc main_arg0)
    _ = W8 m ρ c (Proc.devRef .tc main_arg0) := after_hostOps4 _ (by decide)
    _ = W7 m ρ c (Proc.devRef .tc main_arg0) := W8_of_ne m ρ c main_arg0 (by decide)
    _ = W6 m ρ c (Proc.devRef .tc main_arg0) := after_hostOps3 _ (by decide)
    _ = W5 m ρ c (Proc.devRef .tc main_arg0) := W6_of_ne m ρ c main_arg0 (by decide)
    _ = W4 m ρ c (Proc.devRef .tc main_arg0) := after_hostOps2 _ (by decide)
    _ = W3 m ρ c (Proc.devRef .tc main_arg0) := W4_of_ne m ρ c main_arg0 (by decide)
    _ = W2 m ρ c (Proc.devRef .tc main_arg0) := after_hostOps1 _ (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := after_hostOps0 _ (by decide)
    _ = m ((c : Thread nD τ).loc main_arg0) := rfl

theorem W9_main_arg1 (c : Dev nD) : W9 m ρ c (Proc.devRef .tc main_arg1) = m ((c : Thread nD τ).loc main_arg1) :=
  calc W9 m ρ c (Proc.devRef .tc main_arg1)
    _ = W8 m ρ c (Proc.devRef .tc main_arg1) := after_hostOps4 _ (by decide)
    _ = W7 m ρ c (Proc.devRef .tc main_arg1) := W8_of_ne m ρ c main_arg1 (by decide)
    _ = W6 m ρ c (Proc.devRef .tc main_arg1) := after_hostOps3 _ (by decide)
    _ = W5 m ρ c (Proc.devRef .tc main_arg1) := W6_of_ne m ρ c main_arg1 (by decide)
    _ = W4 m ρ c (Proc.devRef .tc main_arg1) := after_hostOps2 _ (by decide)
    _ = W3 m ρ c (Proc.devRef .tc main_arg1) := W4_of_ne m ρ c main_arg1 (by decide)
    _ = W2 m ρ c (Proc.devRef .tc main_arg1) := after_hostOps1 _ (by decide)
    _ = W1 m ρ c (Proc.devRef .tc main_arg1) := W2_of_ne m ρ c main_arg1 (by decide)
    _ = W0 m ρ c (Proc.devRef .tc main_arg1) := after_hostOps0 _ (by decide)
    _ = m ((c : Thread nD τ).loc main_arg1) := rfl

theorem W9_main_arg2 (c : Dev nD) : W9 m ρ c (Proc.devRef .tc main_arg2) = m ((c : Thread nD τ).loc main_arg2) :=
  calc W9 m ρ c (Proc.devRef .tc main_arg2)
    _ = W8 m ρ c (Proc.devRef .tc main_arg2) := after_hostOps4 _ (by decide)
    _ = W7 m ρ c (Proc.devRef .tc main_arg2) := W8_of_ne m ρ c main_arg2 (by decide)
    _ = W6 m ρ c (Proc.devRef .tc main_arg2) := after_hostOps3 _ (by decide)
    _ = W5 m ρ c (Proc.devRef .tc main_arg2) := W6_of_ne m ρ c main_arg2 (by decide)
    _ = W4 m ρ c (Proc.devRef .tc main_arg2) := after_hostOps2 _ (by decide)
    _ = W3 m ρ c (Proc.devRef .tc main_arg2) := W4_of_ne m ρ c main_arg2 (by decide)
    _ = W2 m ρ c (Proc.devRef .tc main_arg2) := after_hostOps1 _ (by decide)
    _ = W1 m ρ c (Proc.devRef .tc main_arg2) := W2_of_ne m ρ c main_arg2 (by decide)
    _ = W0 m ρ c (Proc.devRef .tc main_arg2) := after_hostOps0 _ (by decide)
    _ = m ((c : Thread nD τ).loc main_arg2) := rfl

theorem W9_main_arg3 (c : Dev nD) : W9 m ρ c (Proc.devRef .tc main_arg3) = m ((c : Thread nD τ).loc main_arg3) :=
  calc W9 m ρ c (Proc.devRef .tc main_arg3)
    _ = W8 m ρ c (Proc.devRef .tc main_arg3) := after_hostOps4 _ (by decide)
    _ = W7 m ρ c (Proc.devRef .tc main_arg3) := W8_of_ne m ρ c main_arg3 (by decide)
    _ = W6 m ρ c (Proc.devRef .tc main_arg3) := after_hostOps3 _ (by decide)
    _ = W5 m ρ c (Proc.devRef .tc main_arg3) := W6_of_ne m ρ c main_arg3 (by decide)
    _ = W4 m ρ c (Proc.devRef .tc main_arg3) := after_hostOps2 _ (by decide)
    _ = W3 m ρ c (Proc.devRef .tc main_arg3) := W4_of_ne m ρ c main_arg3 (by decide)
    _ = W2 m ρ c (Proc.devRef .tc main_arg3) := after_hostOps1 _ (by decide)
    _ = W1 m ρ c (Proc.devRef .tc main_arg3) := W2_of_ne m ρ c main_arg3 (by decide)
    _ = W0 m ρ c (Proc.devRef .tc main_arg3) := after_hostOps0 _ (by decide)
    _ = m ((c : Thread nD τ).loc main_arg3) := rfl

theorem W9_main_arg4 (c : Dev nD) : W9 m ρ c (Proc.devRef .tc main_arg4) = m ((c : Thread nD τ).loc main_arg4) :=
  calc W9 m ρ c (Proc.devRef .tc main_arg4)
    _ = W8 m ρ c (Proc.devRef .tc main_arg4) := after_hostOps4 _ (by decide)
    _ = W7 m ρ c (Proc.devRef .tc main_arg4) := W8_of_ne m ρ c main_arg4 (by decide)
    _ = W6 m ρ c (Proc.devRef .tc main_arg4) := after_hostOps3 _ (by decide)
    _ = W5 m ρ c (Proc.devRef .tc main_arg4) := W6_of_ne m ρ c main_arg4 (by decide)
    _ = W4 m ρ c (Proc.devRef .tc main_arg4) := after_hostOps2 _ (by decide)
    _ = W3 m ρ c (Proc.devRef .tc main_arg4) := W4_of_ne m ρ c main_arg4 (by decide)
    _ = W2 m ρ c (Proc.devRef .tc main_arg4) := after_hostOps1 _ (by decide)
    _ = W1 m ρ c (Proc.devRef .tc main_arg4) := (W2_arr m ρ c 1).trans (((dat0 (V1 m ρ) c).arrAt_in 1 rfl _).trans (A_eq0 (V1 m ρ) c 1))
    _ = W0 m ρ c (Proc.devRef .tc main_arg4) := after_hostOps0 _ (by decide)
    _ = m ((c : Thread nD τ).loc main_arg4) := rfl

theorem W9_main_arg5 (c : Dev nD) : W9 m ρ c (Proc.devRef .tc main_arg5) = m ((c : Thread nD τ).loc main_arg5) :=
  calc W9 m ρ c (Proc.devRef .tc main_arg5)
    _ = W8 m ρ c (Proc.devRef .tc main_arg5) := after_hostOps4 _ (by decide)
    _ = W7 m ρ c (Proc.devRef .tc main_arg5) := W8_of_ne m ρ c main_arg5 (by decide)
    _ = W6 m ρ c (Proc.devRef .tc main_arg5) := after_hostOps3 _ (by decide)
    _ = W5 m ρ c (Proc.devRef .tc main_arg5) := W6_of_ne m ρ c main_arg5 (by decide)
    _ = W4 m ρ c (Proc.devRef .tc main_arg5) := after_hostOps2 _ (by decide)
    _ = W3 m ρ c (Proc.devRef .tc main_arg5) := W4_of_ne m ρ c main_arg5 (by decide)
    _ = W2 m ρ c (Proc.devRef .tc main_arg5) := after_hostOps1 _ (by decide)
    _ = W1 m ρ c (Proc.devRef .tc main_arg5) := (W2_arr m ρ c 2).trans (((dat0 (V1 m ρ) c).arrAt_in 2 rfl _).trans (A_eq0 (V1 m ρ) c 2))
    _ = W0 m ρ c (Proc.devRef .tc main_arg5) := after_hostOps0 _ (by decide)
    _ = m ((c : Thread nD τ).loc main_arg5) := rfl

theorem W9_main_arg6 (c : Dev nD) : W9 m ρ c (Proc.devRef .tc main_arg6) = m ((c : Thread nD τ).loc main_arg6) :=
  calc W9 m ρ c (Proc.devRef .tc main_arg6)
    _ = W8 m ρ c (Proc.devRef .tc main_arg6) := after_hostOps4 _ (by decide)
    _ = W7 m ρ c (Proc.devRef .tc main_arg6) := W8_of_ne m ρ c main_arg6 (by decide)
    _ = W6 m ρ c (Proc.devRef .tc main_arg6) := after_hostOps3 _ (by decide)
    _ = W5 m ρ c (Proc.devRef .tc main_arg6) := W6_of_ne m ρ c main_arg6 (by decide)
    _ = W4 m ρ c (Proc.devRef .tc main_arg6) := after_hostOps2 _ (by decide)
    _ = W3 m ρ c (Proc.devRef .tc main_arg6) := W4_of_ne m ρ c main_arg6 (by decide)
    _ = W2 m ρ c (Proc.devRef .tc main_arg6) := after_hostOps1 _ (by decide)
    _ = W1 m ρ c (Proc.devRef .tc main_arg6) := W2_of_ne m ρ c main_arg6 (by decide)
    _ = W0 m ρ c (Proc.devRef .tc main_arg6) := after_hostOps0 _ (by decide)
    _ = m ((c : Thread nD τ).loc main_arg6) := rfl

theorem W9_main_arg7 (c : Dev nD) : W9 m ρ c (Proc.devRef .tc main_arg7) = m ((c : Thread nD τ).loc main_arg7) :=
  calc W9 m ρ c (Proc.devRef .tc main_arg7)
    _ = W8 m ρ c (Proc.devRef .tc main_arg7) := after_hostOps4 _ (by decide)
    _ = W7 m ρ c (Proc.devRef .tc main_arg7) := W8_of_ne m ρ c main_arg7 (by decide)
    _ = W6 m ρ c (Proc.devRef .tc main_arg7) := after_hostOps3 _ (by decide)
    _ = W5 m ρ c (Proc.devRef .tc main_arg7) := W6_of_ne m ρ c main_arg7 (by decide)
    _ = W4 m ρ c (Proc.devRef .tc main_arg7) := after_hostOps2 _ (by decide)
    _ = W3 m ρ c (Proc.devRef .tc main_arg7) := (W4_arr m ρ c 1).trans (((dat1 (V3 m ρ) c).arrAt_in 1 rfl _).trans (A_eq1 (V3 m ρ) c 1))
    _ = W2 m ρ c (Proc.devRef .tc main_arg7) := after_hostOps1 _ (by decide)
    _ = W1 m ρ c (Proc.devRef .tc main_arg7) := W2_of_ne m ρ c main_arg7 (by decide)
    _ = W0 m ρ c (Proc.devRef .tc main_arg7) := after_hostOps0 _ (by decide)
    _ = m ((c : Thread nD τ).loc main_arg7) := rfl

theorem W9_main_arg8 (c : Dev nD) : W9 m ρ c (Proc.devRef .tc main_arg8) = m ((c : Thread nD τ).loc main_arg8) :=
  calc W9 m ρ c (Proc.devRef .tc main_arg8)
    _ = W8 m ρ c (Proc.devRef .tc main_arg8) := after_hostOps4 _ (by decide)
    _ = W7 m ρ c (Proc.devRef .tc main_arg8) := W8_of_ne m ρ c main_arg8 (by decide)
    _ = W6 m ρ c (Proc.devRef .tc main_arg8) := after_hostOps3 _ (by decide)
    _ = W5 m ρ c (Proc.devRef .tc main_arg8) := W6_of_ne m ρ c main_arg8 (by decide)
    _ = W4 m ρ c (Proc.devRef .tc main_arg8) := after_hostOps2 _ (by decide)
    _ = W3 m ρ c (Proc.devRef .tc main_arg8) := (W4_arr m ρ c 2).trans (((dat1 (V3 m ρ) c).arrAt_in 2 rfl _).trans (A_eq1 (V3 m ρ) c 2))
    _ = W2 m ρ c (Proc.devRef .tc main_arg8) := after_hostOps1 _ (by decide)
    _ = W1 m ρ c (Proc.devRef .tc main_arg8) := W2_of_ne m ρ c main_arg8 (by decide)
    _ = W0 m ρ c (Proc.devRef .tc main_arg8) := after_hostOps0 _ (by decide)
    _ = m ((c : Thread nD τ).loc main_arg8) := rfl

theorem W9_main_arg9 (c : Dev nD) : W9 m ρ c (Proc.devRef .tc main_arg9) = m ((c : Thread nD τ).loc main_arg9) :=
  calc W9 m ρ c (Proc.devRef .tc main_arg9)
    _ = W8 m ρ c (Proc.devRef .tc main_arg9) := after_hostOps4 _ (by decide)
    _ = W7 m ρ c (Proc.devRef .tc main_arg9) := W8_of_ne m ρ c main_arg9 (by decide)
    _ = W6 m ρ c (Proc.devRef .tc main_arg9) := after_hostOps3 _ (by decide)
    _ = W5 m ρ c (Proc.devRef .tc main_arg9) := W6_of_ne m ρ c main_arg9 (by decide)
    _ = W4 m ρ c (Proc.devRef .tc main_arg9) := after_hostOps2 _ (by decide)
    _ = W3 m ρ c (Proc.devRef .tc main_arg9) := W4_of_ne m ρ c main_arg9 (by decide)
    _ = W2 m ρ c (Proc.devRef .tc main_arg9) := after_hostOps1 _ (by decide)
    _ = W1 m ρ c (Proc.devRef .tc main_arg9) := W2_of_ne m ρ c main_arg9 (by decide)
    _ = W0 m ρ c (Proc.devRef .tc main_arg9) := after_hostOps0 _ (by decide)
    _ = m ((c : Thread nD τ).loc main_arg9) := rfl

theorem W9_main_arg10 (c : Dev nD) : W9 m ρ c (Proc.devRef .tc main_arg10) = m ((c : Thread nD τ).loc main_arg10) :=
  calc W9 m ρ c (Proc.devRef .tc main_arg10)
    _ = W8 m ρ c (Proc.devRef .tc main_arg10) := after_hostOps4 _ (by decide)
    _ = W7 m ρ c (Proc.devRef .tc main_arg10) := W8_of_ne m ρ c main_arg10 (by decide)
    _ = W6 m ρ c (Proc.devRef .tc main_arg10) := after_hostOps3 _ (by decide)
    _ = W5 m ρ c (Proc.devRef .tc main_arg10) := (W6_arr m ρ c 1).trans (((dat2 (V5 m ρ) c).arrAt_in 1 rfl _).trans (A_eq2 (V5 m ρ) c 1))
    _ = W4 m ρ c (Proc.devRef .tc main_arg10) := after_hostOps2 _ (by decide)
    _ = W3 m ρ c (Proc.devRef .tc main_arg10) := W4_of_ne m ρ c main_arg10 (by decide)
    _ = W2 m ρ c (Proc.devRef .tc main_arg10) := after_hostOps1 _ (by decide)
    _ = W1 m ρ c (Proc.devRef .tc main_arg10) := W2_of_ne m ρ c main_arg10 (by decide)
    _ = W0 m ρ c (Proc.devRef .tc main_arg10) := after_hostOps0 _ (by decide)
    _ = m ((c : Thread nD τ).loc main_arg10) := rfl

theorem W9_main_arg11 (c : Dev nD) : W9 m ρ c (Proc.devRef .tc main_arg11) = m ((c : Thread nD τ).loc main_arg11) :=
  calc W9 m ρ c (Proc.devRef .tc main_arg11)
    _ = W8 m ρ c (Proc.devRef .tc main_arg11) := after_hostOps4 _ (by decide)
    _ = W7 m ρ c (Proc.devRef .tc main_arg11) := W8_of_ne m ρ c main_arg11 (by decide)
    _ = W6 m ρ c (Proc.devRef .tc main_arg11) := after_hostOps3 _ (by decide)
    _ = W5 m ρ c (Proc.devRef .tc main_arg11) := (W6_arr m ρ c 2).trans (((dat2 (V5 m ρ) c).arrAt_in 2 rfl _).trans (A_eq2 (V5 m ρ) c 2))
    _ = W4 m ρ c (Proc.devRef .tc main_arg11) := after_hostOps2 _ (by decide)
    _ = W3 m ρ c (Proc.devRef .tc main_arg11) := W4_of_ne m ρ c main_arg11 (by decide)
    _ = W2 m ρ c (Proc.devRef .tc main_arg11) := after_hostOps1 _ (by decide)
    _ = W1 m ρ c (Proc.devRef .tc main_arg11) := W2_of_ne m ρ c main_arg11 (by decide)
    _ = W0 m ρ c (Proc.devRef .tc main_arg11) := after_hostOps0 _ (by decide)
    _ = m ((c : Thread nD τ).loc main_arg11) := rfl

theorem W9_main_arg12 (c : Dev nD) : W9 m ρ c (Proc.devRef .tc main_arg12) = m ((c : Thread nD τ).loc main_arg12) :=
  calc W9 m ρ c (Proc.devRef .tc main_arg12)
    _ = W8 m ρ c (Proc.devRef .tc main_arg12) := after_hostOps4 _ (by decide)
    _ = W7 m ρ c (Proc.devRef .tc main_arg12) := (W8_arr m ρ c 1).trans (((dat3 (V7 m ρ) c).arrAt_in 1 rfl _).trans (A_eq3 (V7 m ρ) c 1))
    _ = W6 m ρ c (Proc.devRef .tc main_arg12) := after_hostOps3 _ (by decide)
    _ = W5 m ρ c (Proc.devRef .tc main_arg12) := W6_of_ne m ρ c main_arg12 (by decide)
    _ = W4 m ρ c (Proc.devRef .tc main_arg12) := after_hostOps2 _ (by decide)
    _ = W3 m ρ c (Proc.devRef .tc main_arg12) := W4_of_ne m ρ c main_arg12 (by decide)
    _ = W2 m ρ c (Proc.devRef .tc main_arg12) := after_hostOps1 _ (by decide)
    _ = W1 m ρ c (Proc.devRef .tc main_arg12) := W2_of_ne m ρ c main_arg12 (by decide)
    _ = W0 m ρ c (Proc.devRef .tc main_arg12) := after_hostOps0 _ (by decide)
    _ = m ((c : Thread nD τ).loc main_arg12) := rfl

theorem W9_main_arg13 (c : Dev nD) : W9 m ρ c (Proc.devRef .tc main_arg13) = m ((c : Thread nD τ).loc main_arg13) :=
  calc W9 m ρ c (Proc.devRef .tc main_arg13)
    _ = W8 m ρ c (Proc.devRef .tc main_arg13) := after_hostOps4 _ (by decide)
    _ = W7 m ρ c (Proc.devRef .tc main_arg13) := (W8_arr m ρ c 2).trans (((dat3 (V7 m ρ) c).arrAt_in 2 rfl _).trans (A_eq3 (V7 m ρ) c 2))
    _ = W6 m ρ c (Proc.devRef .tc main_arg13) := after_hostOps3 _ (by decide)
    _ = W5 m ρ c (Proc.devRef .tc main_arg13) := W6_of_ne m ρ c main_arg13 (by decide)
    _ = W4 m ρ c (Proc.devRef .tc main_arg13) := after_hostOps2 _ (by decide)
    _ = W3 m ρ c (Proc.devRef .tc main_arg13) := W4_of_ne m ρ c main_arg13 (by decide)
    _ = W2 m ρ c (Proc.devRef .tc main_arg13) := after_hostOps1 _ (by decide)
    _ = W1 m ρ c (Proc.devRef .tc main_arg13) := W2_of_ne m ρ c main_arg13 (by decide)
    _ = W0 m ρ c (Proc.devRef .tc main_arg13) := after_hostOps0 _ (by decide)
    _ = m ((c : Thread nD τ).loc main_arg13) := rfl

theorem W9_main_arg14 (c : Dev nD) : W9 m ρ c (Proc.devRef .tc main_arg14) = m ((c : Thread nD τ).loc main_arg14) :=
  calc W9 m ρ c (Proc.devRef .tc main_arg14)
    _ = W8 m ρ c (Proc.devRef .tc main_arg14) := after_hostOps4 _ (by decide)
    _ = W7 m ρ c (Proc.devRef .tc main_arg14) := (W8_arr m ρ c 3).trans (((dat3 (V7 m ρ) c).arrAt_in 3 rfl _).trans (A_eq3 (V7 m ρ) c 3))
    _ = W6 m ρ c (Proc.devRef .tc main_arg14) := after_hostOps3 _ (by decide)
    _ = W5 m ρ c (Proc.devRef .tc main_arg14) := W6_of_ne m ρ c main_arg14 (by decide)
    _ = W4 m ρ c (Proc.devRef .tc main_arg14) := after_hostOps2 _ (by decide)
    _ = W3 m ρ c (Proc.devRef .tc main_arg14) := W4_of_ne m ρ c main_arg14 (by decide)
    _ = W2 m ρ c (Proc.devRef .tc main_arg14) := after_hostOps1 _ (by decide)
    _ = W1 m ρ c (Proc.devRef .tc main_arg14) := W2_of_ne m ρ c main_arg14 (by decide)
    _ = W0 m ρ c (Proc.devRef .tc main_arg14) := after_hostOps0 _ (by decide)
    _ = m ((c : Thread nD τ).loc main_arg14) := rfl

theorem W9_main_arg15 (c : Dev nD) : W9 m ρ c (Proc.devRef .tc main_arg15) = m ((c : Thread nD τ).loc main_arg15) :=
  calc W9 m ρ c (Proc.devRef .tc main_arg15)
    _ = W8 m ρ c (Proc.devRef .tc main_arg15) := after_hostOps4 _ (by decide)
    _ = W7 m ρ c (Proc.devRef .tc main_arg15) := (W8_arr m ρ c 4).trans (((dat3 (V7 m ρ) c).arrAt_in 4 rfl _).trans (A_eq3 (V7 m ρ) c 4))
    _ = W6 m ρ c (Proc.devRef .tc main_arg15) := after_hostOps3 _ (by decide)
    _ = W5 m ρ c (Proc.devRef .tc main_arg15) := W6_of_ne m ρ c main_arg15 (by decide)
    _ = W4 m ρ c (Proc.devRef .tc main_arg15) := after_hostOps2 _ (by decide)
    _ = W3 m ρ c (Proc.devRef .tc main_arg15) := W4_of_ne m ρ c main_arg15 (by decide)
    _ = W2 m ρ c (Proc.devRef .tc main_arg15) := after_hostOps1 _ (by decide)
    _ = W1 m ρ c (Proc.devRef .tc main_arg15) := W2_of_ne m ρ c main_arg15 (by decide)
    _ = W0 m ρ c (Proc.devRef .tc main_arg15) := after_hostOps0 _ (by decide)
    _ = m ((c : Thread nD τ).loc main_arg15) := rfl

theorem W9_main_arg16 (c : Dev nD) : W9 m ρ c (Proc.devRef .tc main_arg16) = m ((c : Thread nD τ).loc main_arg16) :=
  calc W9 m ρ c (Proc.devRef .tc main_arg16)
    _ = W8 m ρ c (Proc.devRef .tc main_arg16) := after_hostOps4 _ (by decide)
    _ = W7 m ρ c (Proc.devRef .tc main_arg16) := (W8_arr m ρ c 5).trans (((dat3 (V7 m ρ) c).arrAt_in 5 rfl _).trans (A_eq3 (V7 m ρ) c 5))
    _ = W6 m ρ c (Proc.devRef .tc main_arg16) := after_hostOps3 _ (by decide)
    _ = W5 m ρ c (Proc.devRef .tc main_arg16) := W6_of_ne m ρ c main_arg16 (by decide)
    _ = W4 m ρ c (Proc.devRef .tc main_arg16) := after_hostOps2 _ (by decide)
    _ = W3 m ρ c (Proc.devRef .tc main_arg16) := W4_of_ne m ρ c main_arg16 (by decide)
    _ = W2 m ρ c (Proc.devRef .tc main_arg16) := after_hostOps1 _ (by decide)
    _ = W1 m ρ c (Proc.devRef .tc main_arg16) := W2_of_ne m ρ c main_arg16 (by decide)
    _ = W0 m ρ c (Proc.devRef .tc main_arg16) := after_hostOps0 _ (by decide)
    _ = m ((c : Thread nD τ).loc main_arg16) := rfl

theorem W9_main_arg17 (c : Dev nD) : W9 m ρ c (Proc.devRef .tc main_arg17) = m ((c : Thread nD τ).loc main_arg17) :=
  calc W9 m ρ c (Proc.devRef .tc main_arg17)
    _ = W8 m ρ c (Proc.devRef .tc main_arg17) := after_hostOps4 _ (by decide)
    _ = W7 m ρ c (Proc.devRef .tc main_arg17) := (W8_arr m ρ c 6).trans (((dat3 (V7 m ρ) c).arrAt_in 6 rfl _).trans (A_eq3 (V7 m ρ) c 6))
    _ = W6 m ρ c (Proc.devRef .tc main_arg17) := after_hostOps3 _ (by decide)
    _ = W5 m ρ c (Proc.devRef .tc main_arg17) := W6_of_ne m ρ c main_arg17 (by decide)
    _ = W4 m ρ c (Proc.devRef .tc main_arg17) := after_hostOps2 _ (by decide)
    _ = W3 m ρ c (Proc.devRef .tc main_arg17) := W4_of_ne m ρ c main_arg17 (by decide)
    _ = W2 m ρ c (Proc.devRef .tc main_arg17) := after_hostOps1 _ (by decide)
    _ = W1 m ρ c (Proc.devRef .tc main_arg17) := W2_of_ne m ρ c main_arg17 (by decide)
    _ = W0 m ρ c (Proc.devRef .tc main_arg17) := after_hostOps0 _ (by decide)
    _ = m ((c : Thread nD τ).loc main_arg17) := rfl

/-! ## The proof data family and the thread state -/

/-- The prefetched tables' admissible contents: no pipeline has a table. -/
abbrev adm : (p : Fin 4) → (pcfgs (F := F) p).Adm := fun p => (cfgs p).toPCfg_adm
/-- Every pipeline's proof data, each at its region's entry contents — a literal `match`, so that the pinned
    configuration at a numeral reduces to the printed one. -/
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: over the unscoped references from the contents `W`, `R` riding along (its post is
    then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

set_option maxHeartbeats 4000000 in
/-- No operation of `hostOps0` allocates a buffer. -/
theorem hostOps0_fresh : (hostOps0 : List (HloOp τ sig (Elt F))).Forall fun op => op.fresh = ∅ := by
  simp only [List.Forall]; repeat' constructor
set_option maxHeartbeats 4000000 in
/-- No operation of `hostOps1` allocates a buffer. -/
theorem hostOps1_fresh : (hostOps1 : List (HloOp τ sig (Elt F))).Forall fun op => op.fresh = ∅ := by
  simp only [List.Forall]; repeat' constructor
set_option maxHeartbeats 4000000 in
/-- No operation of `hostOps2` allocates a buffer. -/
theorem hostOps2_fresh : (hostOps2 : List (HloOp τ sig (Elt F))).Forall fun op => op.fresh = ∅ := by
  simp only [List.Forall]; repeat' constructor
/-- No operation of `hostOps3` allocates a buffer. -/
theorem hostOps3_fresh : (hostOps3 : List (HloOp τ sig (Elt F))).Forall fun op => op.fresh = ∅ := by
  simp only [List.Forall]; repeat' constructor
/-- No operation of `hostOps4` allocates a buffer. -/
theorem hostOps4_fresh : (hostOps4 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents `W9`, the
    generator register at some state. -/
abbrev Tₙ (c : Dev nD) : sProp 𝕄 := iprop(StableHlo.held (c : Thread nD τ) (Pipeline.ucRefs τ sig) (W9 m ρ c) ∗ ∃ r, prngReg c r)

/-! ## The regions as segments -/

-- a library lemma stated over the pinned configuration unifies with it only when unification may unfold plain
-- definitions in a metavariable's type
set_option backward.isDefEq.respectTransparency.types false in
/-- REGION 0 over the thread state: entered from every unscoped buffer at `W1`, left at `W2` (what the next
    host stretch is entered from). Its arrays are split out of the unscoped buffers and put back at the exit contents;
    the generator register goes into the class invariant and comes out; nothing is owed; the kernel has no semaphore
    of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with it only when unification may unfold plain
-- definitions in a metavariable's type
set_option backward.isDefEq.respectTransparency.types false in
/-- REGION 1 over the thread state: entered from every unscoped buffer at `W3`, left at `W4` (what the next
    host stretch is entered from). Its arrays are split out of the unscoped buffers and put back at the exit contents;
    the generator register goes into the class invariant and comes out; nothing is owed; the kernel has no semaphore
    of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with it only when unification may unfold plain
-- definitions in a metavariable's type
set_option backward.isDefEq.respectTransparency.types false in
/-- REGION 2 over the thread state: entered from every unscoped buffer at `W5`, left at `W6` (what the next
    host stretch is entered from). Its arrays are split out of the unscoped buffers and put back at the exit contents;
    the generator register goes into the class invariant and comes out; nothing is owed; the kernel has no semaphore
    of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with it only when unification may unfold plain
-- definitions in a metavariable's type
set_option backward.isDefEq.respectTransparency.types false in
/-- REGION 3 over the thread state: entered from every unscoped buffer at `W7`, left at `W8` (what the next
    host stretch is entered from). Its arrays are split out of the unscoped buffers and put back at the exit contents;
    the generator register goes into the class invariant and comes out; nothing is owed; the kernel has no semaphore
    of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- The last host stretch's post is the last thread state beside the core owing nothing (a re-association). -/
theorem hlast (c : Dev nD) :
    iprop(StableHlo.held (c : Thread nD τ) (Pipeline.ucRefs τ sig) (W9 m ρ c) ∗ R c)
      ⊢ iprop(Tₙ m ρ c ∗ ∃ W, owes (c : Thread nD τ) (0 : CellTallies nD τ sig Unit) W) := by
  iintro ⟨Hh, Hp, HO⟩
  isplitl [Hh Hp]
  · isplitl [Hh]; · iexact Hh
    iexact Hp
  iexact HO

/-- @main's 9 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)) ]
/-- @main IS the run of the segments: @main as the chain of its items, then the segments' run against that chain
    by definitional unfolding. -/
theorem main_run (c : Dev nD) : main (F := F) c = Pipeline.Seg.run (segs m ρ) := (main_chain c).trans (by chain_rfl)

-- the launch theorem's implicit arguments are found by unifying its conclusion with this one, which takes unfolding
-- plain definitions in a metavariable's type
set_option backward.isDefEq.respectTransparency.types false in
/-- THE RUN'S RESULT: at the compiled mesh, from any memory with zero counters, every weakly fair execution of @main
    on the TensorCores terminates, nothing faulting, and every final state has the result buffer at the fold's last
    contents `W9` and the argument arrays as launched: the last thread state read against the final state, the result
    buffer as it stands and each argument walked back through the fold (`W9_main_argI`). -/
theorem run_val : θ_run defs (onTc (τ := τ) (main (F := F))) ⟨m, fun _ => 0, ρ⟩ (fun r => ∀ c : Dev nD,
      r.2.mem ((c.tc : Thread nD τ).loc main_v215) = W9 m ρ c (Proc.devRef .tc main_v215)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun c => hlast m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v215 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c),
       (h c _ (mem_uc main_arg11 (by decide))).trans (W9_main_arg11 m ρ c),
       (h c _ (mem_uc main_arg12 (by decide))).trans (W9_main_arg12 m ρ c),
       (h c _ (mem_uc main_arg13 (by decide))).trans (W9_main_arg13 m ρ c),
       (h c _ (mem_uc main_arg14 (by decide))).trans (W9_main_arg14 m ρ c),
       (h c _ (mem_uc main_arg15 (by decide))).trans (W9_main_arg15 m ρ c),
       (h c _ (mem_uc main_arg16 (by decide))).trans (W9_main_arg16 m ρ c),
       (h c _ (mem_uc main_arg17 (by decide))).trans (W9_main_arg17 m ρ c)⟩)

/-- THE FRAME: the run terminates, nothing faulting, and every final state has the argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun _ h c => (h c).2) (run_val m ρ)

end Cert.Kernel.Hand

end
-- ==== Proof.KI.Body0.lean ====
/- The body half of the frame certificate of region 0 of @main (custom_call 0, `cc0__rgcn_combine_kernel`, pipeline 0),
   stated at a parameter `V`, the TensorCore's buffer contents when the region is entered: each window's block at
   a grid point, what the body leaves in the output window's staging buffer as a closed function of the nine input
   blocks, the body's triple, the pipeline's proof data and the library's body obligation at every point. -/
import proofs.«100455_j65352222376641_1_alg».proof.Proof.Gen.KernelIdeal.Launch
import proofs.«100455_j65352222376641_1_alg».proof.Proof.Gen.KernelIdeal.Skeleton
import proofs.«100455_j65352222376641_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents recurses once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Regions
-- the TensorCore's buffer contents when the region is entered: the parameter the region's half is stated at
variable (V : (c : Dev nD) → (b : Ref sig .tc) → Buf (Elt F) ((c : Thread nD τ).loc b))

/-! # REGION 0 of @main: custom_call 0, `cc0__rgcn_combine_kernel` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s (`hA`) and whose body leaves the block in place (`hafter`): an input not fetched at a
    point has the block index of the point before, so the block it still holds is this point's; the window is uncut
    and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for any proof
    data whose array is `V`'s (`hA`) and whose body leaves the block in place (`hafter`): an input not fetched at a
    point has the block index of the point before, so the block it still holds is this point's; the window is uncut
    and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for any proof
    data whose array is `V`'s (`hA`) and whose body leaves the block in place (`hafter`): an input not fetched at a
    point has the block index of the point before, so the block it still holds is this point's; the window is uncut
    and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for any proof
    data whose array is `V`'s (`hA`) and whose body leaves the block in place (`hafter`): an input not fetched at a
    point has the block index of the point before, so the block it still holds is this point's; the window is uncut
    and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not, for any proof
    data whose array is `V`'s (`hA`) and whose body leaves the block in place (`hafter`): an input not fetched at a
    point has the block index of the point before, so the block it still holds is this point's; the window is uncut
    and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current staging buffer holds its block at every point, fetched there or not, for any proof
    data whose array is `V`'s (`hA`) and whose body leaves the block in place (`hafter`): an input not fetched at a
    point has the block index of the point before, so the block it still holds is this point's; the window is uncut
    and never idle. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Input window 6's current staging buffer holds its block at every point, fetched there or not, for any proof
    data whose array is `V`'s (`hA`) and whose body leaves the block in place (`hafter`): an input not fetched at a
    point has the block index of the point before, so the block it still holds is this point's; the window is uncut
    and never idle. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
/-- Input window 7's current staging buffer holds its block at every point, fetched there or not, for any proof
    data whose array is `V`'s (`hA`) and whose body leaves the block in place (`hafter`): an input not fetched at a
    point has the block index of the point before, so the block it still holds is this point's; the window is uncut
    and never idle. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
/-- Input window 8's current staging buffer holds its block at every point, fetched there or not, for any proof
    data whose array is `V`'s (`hA`) and whose body leaves the block in place (`hafter`): an input not fetched at a
    point has the block index of the point before, so the block it still holds is this point's; the window is uncut
    and never idle. -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the one store take the whole staging buffer -/

abbrev r0_0 : Rect S5000x3 := Rect.unit (s := S5000x3) ![0, 0] S5000x3.size inb_S5000x3_S5000x3_0_0
abbrev r0_1 : Rect S3x64 := Rect.unit (s := S3x64) ![0, 0] S3x64.size inb_S3x64_S3x64_0_0
abbrev r0_2 : Rect S64 := Rect.unit (s := S64) ![0] S64.size inb_S64_S64_0
abbrev r0_3 : Rect S5000x64 := Rect.unit (s := S5000x64) ![0, 0] S5000x64.size inb_S5000x64_S5000x64_0_0

/-! ## What the body leaves in the output window's buffer -/

/-- Window 9's staging buffer after the body, from the input windows' blocks (in window order): its one store as a
    piece, the payload at what the nine loads read — the payload's arguments in the order the body loads them. -/
def out0_9 (x0 : Vec F S5000x3 .f32) (x1 : Vec F S3x64 .f32) (x2 : Vec F S64 .f32) (x3 : Vec F S5000x3 .f32) (x4 : Vec F S5000x3 .f32) (x5 : Vec F S5000x3 .f32) (x6 : Vec F S3x64 .f32) (x7 : Vec F S3x64 .f32) (x8 : Vec F S3x64 .f32) : Vec F S5000x64 .f32 :=
  View.canon [⟨r0_3, k0_pay1 (View.ld x0 r0_0) (View.ld x1 r0_1) (View.ld x2 r0_2) (View.ld x3 r0_0) (View.ld x6 r0_1) (View.ld x4 r0_0) (View.ld x7 r0_1) (View.ld x5 r0_0) (View.ld x8 r0_1)⟩]

/-- The one store's rectangle is the whole buffer, so it covers it. -/
theorem cover0_9 (p0 : Vec F S5000x64 .f32) (y : S5000x64.Idx) :
    ∃ pc ∈ ([⟨r0_3, p0⟩] : List (View.Piece (Elt F) S5000x64 .f32)), y ∈ pc.1.set :=
  View.cover_of_tiled [⟨r0_3, p0⟩] S5000x64.size (by rfl) y

/-! ## The body's triple -/

set_option maxHeartbeats 1000000 in
/-- The kernel body on whole staging memrefs, the inputs' at read contents `xW` and the output's at anything, runs to
    the continuation holding the inputs' as they were and the output's at `out0_9` of the inputs': the printed function
    is its skeleton of nine whole-buffer loads, a load of the output buffer whose value nothing reads, and one
    whole-buffer store of the payload. -/
theorem sound_kernel0 (c : Dev nD) (E : Set ℕ) (i : grid0.Coords) (arg1 : Memref sig .tc .vmem S5000x3 .f32) (harg1 : arg1.IsWhole) (arg2 : Memref sig .tc .vmem S3x64 .f32) (harg2 : arg2.IsWhole) (arg3 : Memref sig .tc .vmem S64 .f32) (harg3 : arg3.IsWhole) (arg4 : Memref sig .tc .vmem S5000x3 .f32) (harg4 : arg4.IsWhole) (arg5 : Memref sig .tc .vmem S5000x3 .f32) (harg5 : arg5.IsWhole) (arg6 : Memref sig .tc .vmem S5000x3 .f32) (harg6 : arg6.IsWhole) (arg7 : Memref sig .tc .vmem S3x64 .f32) (harg7 : arg7.IsWhole) (arg8 : Memref sig .tc .vmem S3x64 .f32) (harg8 : arg8.IsWhole) (arg9 : Memref sig .tc .vmem S3x64 .f32) (harg9 : arg9.IsWhole) (arg10 : Memref sig .tc .vmem S5000x64 .f32) (harg10 : arg10.IsWhole)
    (x0 : Vec F S5000x3 .f32) (x1 : Vec F S3x64 .f32) (x2 : Vec F S64 .f32) (x3 : Vec F S5000x3 .f32) (x4 : Vec F S5000x3 .f32) (x5 : Vec F S5000x3 .f32) (x6 : Vec F S3x64 .f32) (x7 : Vec F S3x64 .f32) (x8 : Vec F S3x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out0_9 x0 x1 x2 x3 x4 x5 x6 x7 x8)) -∗ K ⟨⟩))
      ⊢ wp frame (wpE (defs₀ (F := F)) Variants.none c none) E (cc0__rgcn_combine_kernel i arg1 harg1 arg2 harg2 arg3 harg3 arg4 harg4 arg5 harg5 arg6 harg6 arg7 harg7 arg8 harg8 arg9 harg9 arg10 harg10) K := by
  rw [cc0__rgcn_combine_kernel_eq_skeleton]; unfold cc0__rgcn_combine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover0_9 _)

/-! ## The pipeline's proof data -/

/-- The proof data of pipeline 0 on core `c`: the arrays as the region finds them (`V`); after the body at
    point `t` each input's buffer at its block and the output's at `out0_9` of the input blocks; the invariant the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => out0_9 (iblk0 V c 0 t) (iblk0 V c 1 t) (iblk0 V c 2 t) (iblk0 V c 3 t) (iblk0 V c 4 t) (iblk0 V c 5 t) (iblk0 V c 6 t) (iblk0 V c 7 t) (iblk0 V c 8 t)
  Φ _ := Pipeline.ΦA spec0 c
  q _ := fullShare
  owed _ := 0

/-- The proof data's arrays are the region-entry contents (the proof data's definition projected). -/
theorem A_eq0 (c : Dev nD) (w : Fin cfg0.W) : (dat0 V c).A w = V c (Pipeline.arrRef spec0 w) := by
  dsimp only [dat0]

/-- What the body leaves, window by window (the proof data's `match` reduced). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = out0_9 (iblk0 V c 0 t) (iblk0 V c 1 t) (iblk0 V c 2 t) (iblk0 V c 3 t) (iblk0 V c 4 t) (iblk0 V c 5 t) (iblk0 V c 6 t) (iblk0 V c 7 t) (iblk0 V c 8 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d

/-! ## The body obligation, at a generic point -/

/-- What the body is called with at point `t` (the library's body obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

/-- The body at any point: the inputs' memrefs hold their blocks (`before0_W`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ (grid0.coords t) _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation0 (c : Dev nD) : BodyObligation (dat0 (F := F) V c) (defs₀ (F := F)) Variants.none () Set.univ := fun t => by
  rw [bigSep_W0, bigSep_W0]
  exact sound_body0 V c t

end Regions

end Cert.KernelIdeal.Hand

end
-- ==== Proof.KI.Body1.lean ====
/- The body half of the frame certificate of region 1 of @main (custom_call 1, `cc1__rgcn_combine_kernel`, pipeline 1),
   stated at a parameter `V`, the TensorCore's buffer contents when the region is entered: each window's block at
   a grid point, what the body leaves in the output window's staging buffer as a closed function of the nine input
   blocks, the body's triple, the pipeline's proof data and the library's body obligation at every point. -/
import proofs.«100455_j65352222376641_1_alg».proof.Proof.Gen.KernelIdeal.Launch
import proofs.«100455_j65352222376641_1_alg».proof.Proof.Gen.KernelIdeal.Skeleton
import proofs.«100455_j65352222376641_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents recurses once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Regions
-- the TensorCore's buffer contents when the region is entered: the parameter the region's half is stated at
variable (V : (c : Dev nD) → (b : Ref sig .tc) → Buf (Elt F) ((c : Thread nD τ).loc b))

/-! # REGION 1 of @main: custom_call 1, `cc1__rgcn_combine_kernel` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s (`hA`) and whose body leaves the block in place (`hafter`): an input not fetched at a
    point has the block index of the point before, so the block it still holds is this point's; the window is uncut
    and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for any proof
    data whose array is `V`'s (`hA`) and whose body leaves the block in place (`hafter`): an input not fetched at a
    point has the block index of the point before, so the block it still holds is this point's; the window is uncut
    and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for any proof
    data whose array is `V`'s (`hA`) and whose body leaves the block in place (`hafter`): an input not fetched at a
    point has the block index of the point before, so the block it still holds is this point's; the window is uncut
    and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for any proof
    data whose array is `V`'s (`hA`) and whose body leaves the block in place (`hafter`): an input not fetched at a
    point has the block index of the point before, so the block it still holds is this point's; the window is uncut
    and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for any proof
    data whose array is `V`'s (`hA`) and whose body leaves the block in place (`hafter`): an input not fetched at a
    point has the block index of the point before, so the block it still holds is this point's; the window is uncut
    and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not, for any proof
    data whose array is `V`'s (`hA`) and whose body leaves the block in place (`hafter`): an input not fetched at a
    point has the block index of the point before, so the block it still holds is this point's; the window is uncut
    and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Input window 6's current staging buffer holds its block at every point, fetched there or not, for any proof
    data whose array is `V`'s (`hA`) and whose body leaves the block in place (`hafter`): an input not fetched at a
    point has the block index of the point before, so the block it still holds is this point's; the window is uncut
    and never idle. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
/-- Input window 7's current staging buffer holds its block at every point, fetched there or not, for any proof
    data whose array is `V`'s (`hA`) and whose body leaves the block in place (`hafter`): an input not fetched at a
    point has the block index of the point before, so the block it still holds is this point's; the window is uncut
    and never idle. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
/-- Input window 8's current staging buffer holds its block at every point, fetched there or not, for any proof
    data whose array is `V`'s (`hA`) and whose body leaves the block in place (`hafter`): an input not fetched at a
    point has the block index of the point before, so the block it still holds is this point's; the window is uncut
    and never idle. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the one store take the whole staging buffer -/

abbrev r1_0 : Rect S5000x64 := Rect.unit (s := S5000x64) ![0, 0] S5000x64.size inb_S5000x64_S5000x64_0_0
abbrev r1_1 : Rect S64x64 := Rect.unit (s := S64x64) ![0, 0] S64x64.size inb_S64x64_S64x64_0_0
abbrev r1_2 : Rect S64 := Rect.unit (s := S64) ![0] S64.size inb_S64_S64_0

/-! ## What the body leaves in the output window's buffer -/

/-- Window 9's staging buffer after the body, from the input windows' blocks (in window order): its one store as a
    piece, the payload at what the nine loads read — the payload's arguments in the order the body loads them. -/
def out1_9 (x0 : Vec F S5000x64 .f32) (x1 : Vec F S64x64 .f32) (x2 : Vec F S64 .f32) (x3 : Vec F S5000x64 .f32) (x4 : Vec F S5000x64 .f32) (x5 : Vec F S5000x64 .f32) (x6 : Vec F S64x64 .f32) (x7 : Vec F S64x64 .f32) (x8 : Vec F S64x64 .f32) : Vec F S5000x64 .f32 :=
  View.canon [⟨r1_0, k1_pay1 (View.ld x0 r1_0) (View.ld x1 r1_1) (View.ld x2 r1_2) (View.ld x3 r1_0) (View.ld x6 r1_1) (View.ld x4 r1_0) (View.ld x7 r1_1) (View.ld x5 r1_0) (View.ld x8 r1_1)⟩]

/-- The one store's rectangle is the whole buffer, so it covers it. -/
theorem cover1_9 (p0 : Vec F S5000x64 .f32) (y : S5000x64.Idx) :
    ∃ pc ∈ ([⟨r1_0, p0⟩] : List (View.Piece (Elt F) S5000x64 .f32)), y ∈ pc.1.set :=
  View.cover_of_tiled [⟨r1_0, p0⟩] S5000x64.size (by rfl) y

/-! ## The body's triple -/

set_option maxHeartbeats 1000000 in
/-- The kernel body on whole staging memrefs, the inputs' at read contents `xW` and the output's at anything, runs to
    the continuation holding the inputs' as they were and the output's at `out1_9` of the inputs': the printed function
    is its skeleton of nine whole-buffer loads, a load of the output buffer whose value nothing reads, and one
    whole-buffer store of the payload. -/
theorem sound_kernel1 (c : Dev nD) (E : Set ℕ) (i : grid1.Coords) (arg1 : Memref sig .tc .vmem S5000x64 .f32) (harg1 : arg1.IsWhole) (arg2 : Memref sig .tc .vmem S64x64 .f32) (harg2 : arg2.IsWhole) (arg3 : Memref sig .tc .vmem S64 .f32) (harg3 : arg3.IsWhole) (arg4 : Memref sig .tc .vmem S5000x64 .f32) (harg4 : arg4.IsWhole) (arg5 : Memref sig .tc .vmem S5000x64 .f32) (harg5 : arg5.IsWhole) (arg6 : Memref sig .tc .vmem S5000x64 .f32) (harg6 : arg6.IsWhole) (arg7 : Memref sig .tc .vmem S64x64 .f32) (harg7 : arg7.IsWhole) (arg8 : Memref sig .tc .vmem S64x64 .f32) (harg8 : arg8.IsWhole) (arg9 : Memref sig .tc .vmem S64x64 .f32) (harg9 : arg9.IsWhole) (arg10 : Memref sig .tc .vmem S5000x64 .f32) (harg10 : arg10.IsWhole)
    (x0 : Vec F S5000x64 .f32) (x1 : Vec F S64x64 .f32) (x2 : Vec F S64 .f32) (x3 : Vec F S5000x64 .f32) (x4 : Vec F S5000x64 .f32) (x5 : Vec F S5000x64 .f32) (x6 : Vec F S64x64 .f32) (x7 : Vec F S64x64 .f32) (x8 : Vec F S64x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out1_9 x0 x1 x2 x3 x4 x5 x6 x7 x8)) -∗ K ⟨⟩))
      ⊢ wp frame (wpE (defs₀ (F := F)) Variants.none c none) E (cc1__rgcn_combine_kernel i arg1 harg1 arg2 harg2 arg3 harg3 arg4 harg4 arg5 harg5 arg6 harg6 arg7 harg7 arg8 harg8 arg9 harg9 arg10 harg10) K := by
  rw [cc1__rgcn_combine_kernel_eq_skeleton]; unfold cc1__rgcn_combine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover1_9 _)

/-! ## The pipeline's proof data -/

/-- The proof data of pipeline 1 on core `c`: the arrays as the region finds them (`V`); after the body at
    point `t` each input's buffer at its block and the output's at `out1_9` of the input blocks; the invariant the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => out1_9 (iblk1 V c 0 t) (iblk1 V c 1 t) (iblk1 V c 2 t) (iblk1 V c 3 t) (iblk1 V c 4 t) (iblk1 V c 5 t) (iblk1 V c 6 t) (iblk1 V c 7 t) (iblk1 V c 8 t)
  Φ _ := Pipeline.ΦA spec1 c
  q _ := fullShare
  owed _ := 0

/-- The proof data's arrays are the region-entry contents (the proof data's definition projected). -/
theorem A_eq1 (c : Dev nD) (w : Fin cfg1.W) : (dat1 V c).A w = V c (Pipeline.arrRef spec1 w) := by
  dsimp only [dat1]

/-- What the body leaves, window by window (the proof data's `match` reduced). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = out1_9 (iblk1 V c 0 t) (iblk1 V c 1 t) (iblk1 V c 2 t) (iblk1 V c 3 t) (iblk1 V c 4 t) (iblk1 V c 5 t) (iblk1 V c 6 t) (iblk1 V c 7 t) (iblk1 V c 8 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d

/-! ## The body obligation, at a generic point -/

/-- What the body is called with at point `t` (the library's body obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t))

/-- The body at any point: the inputs' memrefs hold their blocks (`before1_W`), so `sound_kernel1` applies; the
    invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel1 c Set.univ (grid1.coords t) _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation1 (c : Dev nD) : BodyObligation (dat1 (F := F) V c) (defs₀ (F := F)) Variants.none () Set.univ := fun t => by
  rw [bigSep_W1, bigSep_W1]
  exact sound_body1 V c t

end Regions

end Cert.KernelIdeal.Hand

end
-- ==== Proof.KI.Body2.lean ====
/- The body half of the frame certificate of region 2 of @main (custom_call 2, `cc2__rgcn_combine_kernel`, pipeline 2),
   stated at a parameter `V`, the TensorCore's buffer contents when the region is entered: each window's block at
   a grid point, what the body leaves in the output window's staging buffer as a closed function of the nine input
   blocks, the body's triple, the pipeline's proof data and the library's body obligation at every point. -/
import proofs.«100455_j65352222376641_1_alg».proof.Proof.Gen.KernelIdeal.Launch
import proofs.«100455_j65352222376641_1_alg».proof.Proof.Gen.KernelIdeal.Skeleton
import proofs.«100455_j65352222376641_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents recurses once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Regions
-- the TensorCore's buffer contents when the region is entered: the parameter the region's half is stated at
variable (V : (c : Dev nD) → (b : Ref sig .tc) → Buf (Elt F) ((c : Thread nD τ).loc b))

/-! # REGION 2 of @main: custom_call 2, `cc2__rgcn_combine_kernel` (pipeline 2), at the entry contents `V` -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s (`hA`) and whose body leaves the block in place (`hafter`): an input not fetched at a
    point has the block index of the point before, so the block it still holds is this point's; the window is uncut
    and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not, for any proof
    data whose array is `V`'s (`hA`) and whose body leaves the block in place (`hafter`): an input not fetched at a
    point has the block index of the point before, so the block it still holds is this point's; the window is uncut
    and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not, for any proof
    data whose array is `V`'s (`hA`) and whose body leaves the block in place (`hafter`): an input not fetched at a
    point has the block index of the point before, so the block it still holds is this point's; the window is uncut
    and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's current staging buffer holds its block at every point, fetched there or not, for any proof
    data whose array is `V`'s (`hA`) and whose body leaves the block in place (`hafter`): an input not fetched at a
    point has the block index of the point before, so the block it still holds is this point's; the window is uncut
    and never idle. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4's current staging buffer holds its block at every point, fetched there or not, for any proof
    data whose array is `V`'s (`hA`) and whose body leaves the block in place (`hafter`): an input not fetched at a
    point has the block index of the point before, so the block it still holds is this point's; the window is uncut
    and never idle. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
/-- Input window 5's current staging buffer holds its block at every point, fetched there or not, for any proof
    data whose array is `V`'s (`hA`) and whose body leaves the block in place (`hafter`): an input not fetched at a
    point has the block index of the point before, so the block it still holds is this point's; the window is uncut
    and never idle. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
/-- Input window 6's current staging buffer holds its block at every point, fetched there or not, for any proof
    data whose array is `V`'s (`hA`) and whose body leaves the block in place (`hafter`): an input not fetched at a
    point has the block index of the point before, so the block it still holds is this point's; the window is uncut
    and never idle. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)
/-- Input window 7's current staging buffer holds its block at every point, fetched there or not, for any proof
    data whose array is `V`'s (`hA`) and whose body leaves the block in place (`hafter`): an input not fetched at a
    point has the block index of the point before, so the block it still holds is this point's; the window is uncut
    and never idle. -/
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)
/-- Input window 8's current staging buffer holds its block at every point, fetched there or not, for any proof
    data whose array is `V`'s (`hA`) and whose body leaves the block in place (`hafter`): an input not fetched at a
    point has the block index of the point before, so the block it still holds is this point's; the window is uncut
    and never idle. -/
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and the one store take the whole staging buffer -/

abbrev r2_0 : Rect S5000x64 := Rect.unit (s := S5000x64) ![0, 0] S5000x64.size inb_S5000x64_S5000x64_0_0
abbrev r2_1 : Rect S64x64 := Rect.unit (s := S64x64) ![0, 0] S64x64.size inb_S64x64_S64x64_0_0
abbrev r2_2 : Rect S64 := Rect.unit (s := S64) ![0] S64.size inb_S64_S64_0

/-! ## What the body leaves in the output window's buffer -/

/-- Window 9's staging buffer after the body, from the input windows' blocks (in window order): its one store as a
    piece, the payload at what the nine loads read — the payload's arguments in the order the body loads them. -/
def out2_9 (x0 : Vec F S5000x64 .f32) (x1 : Vec F S64x64 .f32) (x2 : Vec F S64 .f32) (x3 : Vec F S5000x64 .f32) (x4 : Vec F S5000x64 .f32) (x5 : Vec F S5000x64 .f32) (x6 : Vec F S64x64 .f32) (x7 : Vec F S64x64 .f32) (x8 : Vec F S64x64 .f32) : Vec F S5000x64 .f32 :=
  View.canon [⟨r2_0, k2_pay1 (View.ld x0 r2_0) (View.ld x1 r2_1) (View.ld x2 r2_2) (View.ld x3 r2_0) (View.ld x6 r2_1) (View.ld x4 r2_0) (View.ld x7 r2_1) (View.ld x5 r2_0) (View.ld x8 r2_1)⟩]

/-- The one store's rectangle is the whole buffer, so it covers it. -/
theorem cover2_9 (p0 : Vec F S5000x64 .f32) (y : S5000x64.Idx) :
    ∃ pc ∈ ([⟨r2_0, p0⟩] : List (View.Piece (Elt F) S5000x64 .f32)), y ∈ pc.1.set :=
  View.cover_of_tiled [⟨r2_0, p0⟩] S5000x64.size (by rfl) y

/-! ## The body's triple -/

set_option maxHeartbeats 1000000 in
/-- The kernel body on whole staging memrefs, the inputs' at read contents `xW` and the output's at anything, runs to
    the continuation holding the inputs' as they were and the output's at `out2_9` of the inputs': the printed function
    is its skeleton of nine whole-buffer loads, a load of the output buffer whose value nothing reads, and one
    whole-buffer store of the payload. -/
theorem sound_kernel2 (c : Dev nD) (E : Set ℕ) (i : grid2.Coords) (arg1 : Memref sig .tc .vmem S5000x64 .f32) (harg1 : arg1.IsWhole) (arg2 : Memref sig .tc .vmem S64x64 .f32) (harg2 : arg2.IsWhole) (arg3 : Memref sig .tc .vmem S64 .f32) (harg3 : arg3.IsWhole) (arg4 : Memref sig .tc .vmem S5000x64 .f32) (harg4 : arg4.IsWhole) (arg5 : Memref sig .tc .vmem S5000x64 .f32) (harg5 : arg5.IsWhole) (arg6 : Memref sig .tc .vmem S5000x64 .f32) (harg6 : arg6.IsWhole) (arg7 : Memref sig .tc .vmem S64x64 .f32) (harg7 : arg7.IsWhole) (arg8 : Memref sig .tc .vmem S64x64 .f32) (harg8 : arg8.IsWhole) (arg9 : Memref sig .tc .vmem S64x64 .f32) (harg9 : arg9.IsWhole) (arg10 : Memref sig .tc .vmem S5000x64 .f32) (harg10 : arg10.IsWhole)
    (x0 : Vec F S5000x64 .f32) (x1 : Vec F S64x64 .f32) (x2 : Vec F S64 .f32) (x3 : Vec F S5000x64 .f32) (x4 : Vec F S5000x64 .f32) (x5 : Vec F S5000x64 .f32) (x6 : Vec F S64x64 .f32) (x7 : Vec F S64x64 .f32) (x8 : Vec F S64x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out2_9 x0 x1 x2 x3 x4 x5 x6 x7 x8)) -∗ K ⟨⟩))
      ⊢ wp frame (wpE (defs₀ (F := F)) Variants.none c none) E (cc2__rgcn_combine_kernel i arg1 harg1 arg2 harg2 arg3 harg3 arg4 harg4 arg5 harg5 arg6 harg6 arg7 harg7 arg8 harg8 arg9 harg9 arg10 harg10) K := by
  rw [cc2__rgcn_combine_kernel_eq_skeleton]; unfold cc2__rgcn_combine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover2_9 _)

/-! ## The pipeline's proof data -/

/-- The proof data of pipeline 2 on core `c`: the arrays as the region finds them (`V`); after the body at
    point `t` each input's buffer at its block and the output's at `out2_9` of the input blocks; the invariant the
    scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => out2_9 (iblk2 V c 0 t) (iblk2 V c 1 t) (iblk2 V c 2 t) (iblk2 V c 3 t) (iblk2 V c 4 t) (iblk2 V c 5 t) (iblk2 V c 6 t) (iblk2 V c 7 t) (iblk2 V c 8 t)
  Φ _ := Pipeline.ΦA spec2 c
  q _ := fullShare
  owed _ := 0

/-- The proof data's arrays are the region-entry contents (the proof data's definition projected). -/
theorem A_eq2 (c : Dev nD) (w : Fin cfg2.W) : (dat2 V c).A w = V c (Pipeline.arrRef spec2 w) := by
  dsimp only [dat2]

/-- What the body leaves, window by window (the proof data's `match` reduced). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = out2_9 (iblk2 V c 0 t) (iblk2 V c 1 t) (iblk2 V c 2 t) (iblk2 V c 3 t) (iblk2 V c 4 t) (iblk2 V c 5 t) (iblk2 V c 6 t) (iblk2 V c 7 t) (iblk2 V c 8 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d

/-! ## The body obligation, at a generic point -/

/-- What the body is called with at point `t` (the library's body obligation's precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t))

/-- The body at any point: the inputs' memrefs hold their blocks (`before2_W`), so `sound_kernel2` applies; the
    invariant and the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel2 c Set.univ (grid2.coords t) _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation2 (c : Dev nD) : BodyObligation (dat2 (F := F) V c) (defs₀ (F := F)) Variants.none () Set.univ := fun t => by
  rw [bigSep_W2, bigSep_W2]
  exact sound_body2 V c t

end Regions

end Cert.KernelIdeal.Hand

end
-- ==== Proof.KI.Body3.lean ====
/- The body half of region 3 (custom_call 3, the decode kernel) of the frame certificate: at a
   parameter `V` — the TensorCore's buffer contents when the region is entered — each window's block at a point
   (`iblk3`), what the body leaves in the output window's buffer (`out3_7`), the body's triple (`sound_kernel3`),
   the pipeline's proof data (`dat3`) and the body obligation (`body_obligation3`). Seven input windows (0..6), of
   which 1..6 have constant index maps (fetched at the first point only), and one output window (7) that the body
   loads once and then stores whole. -/
import proofs.«100455_j65352222376641_1_alg».proof.Proof.Gen.KernelIdeal.Launch
import proofs.«100455_j65352222376641_1_alg».proof.Proof.Gen.KernelIdeal.Skeleton
import proofs.«100455_j65352222376641_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents: the elaborator's structural look recurses once per coordinate
set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered: the parameter the region's half is stated at
variable (V : (c : Dev nD) → (b : Ref sig .tc) → Buf (Elt F) ((c : Thread nD τ).loc b))

/-! # REGION 3 of @main: custom_call 3, `cc3__decode_kernel` (pipeline 3), at the entry contents `V` -/

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for any proof
    data whose array is `V`'s (`hA`) and whose body leaves the block in place (`hafter`): unfetched, the block index
    has not moved, so the block kept from the point before is this point's; the window is uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's current staging buffer holds its block at every point, fetched there or not, for any proof
    data whose array is `V`'s (`hA`) and whose body leaves the block in place (`hafter`): unfetched, the block index
    has not moved, so the block kept from the point before is this point's; the window is uncut and never idle. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's current staging buffer holds its block at every point, fetched there or not, for any proof
    data whose array is `V`'s (`hA`) and whose body leaves the block in place (`hafter`): unfetched, the block index
    has not moved, so the block kept from the point before is this point's; the window is uncut and never idle. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- Input window 3's current staging buffer holds its block at every point, fetched there or not, for any proof
    data whose array is `V`'s (`hA`) and whose body leaves the block in place (`hafter`): unfetched, the block index
    has not moved, so the block kept from the point before is this point's; the window is uncut and never idle. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
/-- Input window 4's current staging buffer holds its block at every point, fetched there or not, for any proof
    data whose array is `V`'s (`hA`) and whose body leaves the block in place (`hafter`): unfetched, the block index
    has not moved, so the block kept from the point before is this point's; the window is uncut and never idle. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
/-- Input window 5's current staging buffer holds its block at every point, fetched there or not, for any proof
    data whose array is `V`'s (`hA`) and whose body leaves the block in place (`hafter`): unfetched, the block index
    has not moved, so the block kept from the point before is this point's; the window is uncut and never idle. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)
/-- Input window 6's current staging buffer holds its block at every point, fetched there or not, for any proof
    data whose array is `V`'s (`hA`) and whose body leaves the block in place (`hafter`): unfetched, the block index
    has not moved, so the block kept from the point before is this point's; the window is uncut and never idle. -/
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each memref read, and the output's written, through its whole-buffer rectangle -/

abbrev r3_0 : Rect S16000x134 := Rect.unit (s := S16000x134) ![0, 0] S16000x134.size inb_S16000x134_S16000x134_0_0
abbrev r3_1 : Rect S134x32 := Rect.unit (s := S134x32) ![0, 0] S134x32.size inb_S134x32_S134x32_0_0
abbrev r3_2 : Rect S32 := Rect.unit (s := S32) ![0] S32.size inb_S32_S32_0
abbrev r3_3 : Rect S32x16 := Rect.unit (s := S32x16) ![0, 0] S32x16.size inb_S32x16_S32x16_0_0
abbrev r3_4 : Rect S16 := Rect.unit (s := S16) ![0] S16.size inb_S16_S16_0
abbrev r3_5 : Rect S16x1 := Rect.unit (s := S16x1) ![0, 0] S16x1.size inb_S16x1_S16x1_0_0
abbrev r3_6 : Rect S1 := Rect.unit (s := S1) ![0] S1.size inb_S1_S1_0
abbrev r3_7 : Rect S16000x1 := Rect.unit (s := S16000x1) ![0, 0] S16000x1.size inb_S16000x1_S16000x1_0_0

/-! ## What the body leaves in the output window's buffer -/

/-- Window 7's staging buffer after the body, from the input windows' blocks: its one store as a piece, the payload
    the skeleton's over the seven loaded blocks (in the order the body loads them, which is window order). -/
def out3_7 (x0 : Vec F S16000x134 .f32) (x1 : Vec F S134x32 .f32) (x2 : Vec F S32 .f32) (x3 : Vec F S32x16 .f32) (x4 : Vec F S16 .f32) (x5 : Vec F S16x1 .f32) (x6 : Vec F S1 .f32) : Vec F S16000x1 .f32 :=
  View.canon [⟨r3_7, k3_pay1 (View.ld x0 r3_0) (View.ld x1 r3_1) (View.ld x2 r3_2) (View.ld x3 r3_3) (View.ld x4 r3_4) (View.ld x5 r3_5) (View.ld x6 r3_6)⟩]

/-- The one store's rectangle is the whole buffer, so it covers it. -/
theorem cover3_7 (p0 : Vec F S16000x1 .f32) (y : S16000x1.Idx) :
    ∃ pc ∈ ([⟨r3_7, p0⟩] : List (View.Piece (Elt F) S16000x1 .f32)), y ∈ pc.1.set :=
  View.cover_of_tiled [⟨r3_7, p0⟩] S16000x1.size (by rfl) y

/-! ## The body's triple -/

set_option maxHeartbeats 4000000 in
/-- The kernel body on whole staging memrefs, the inputs' at read contents `xW` and the output's at anything, runs to
    the continuation holding the inputs' as they were and the output's at `out3_7` of the inputs': the printed function
    is its skeleton, eight whole-buffer loads (the last of the output's own buffer, its value unused) and one
    whole-buffer store. -/
theorem sound_kernel3 (c : Dev nD) (E : Set ℕ) (i : grid3.Coords) (arg1 : Memref sig .tc .vmem S16000x134 .f32) (harg1 : arg1.IsWhole) (arg2 : Memref sig .tc .vmem S134x32 .f32) (harg2 : arg2.IsWhole) (arg3 : Memref sig .tc .vmem S32 .f32) (harg3 : arg3.IsWhole) (arg4 : Memref sig .tc .vmem S32x16 .f32) (harg4 : arg4.IsWhole) (arg5 : Memref sig .tc .vmem S16 .f32) (harg5 : arg5.IsWhole) (arg6 : Memref sig .tc .vmem S16x1 .f32) (harg6 : arg6.IsWhole) (arg7 : Memref sig .tc .vmem S1 .f32) (harg7 : arg7.IsWhole) (arg8 : Memref sig .tc .vmem S16000x1 .f32) (harg8 : arg8.IsWhole)
    (x0 : Vec F S16000x134 .f32) (x1 : Vec F S134x32 .f32) (x2 : Vec F S32 .f32) (x3 : Vec F S32x16 .f32) (x4 : Vec F S16 .f32) (x5 : Vec F S16x1 .f32) (x6 : Vec F S1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out3_7 x0 x1 x2 x3 x4 x5 x6)) -∗ K ⟨⟩))
      ⊢ wp frame (wpE (defs₀ (F := F)) Variants.none c none) E (cc3__decode_kernel i arg1 harg1 arg2 harg2 arg3 harg3 arg4 harg4 arg5 harg5 arg6 harg6 arg7 harg7 arg8 harg8) K := by
  simp only [cc3__decode_kernel_eq_skeleton]; unfold cc3__decode_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover3_7 _)

/-! ## The pipeline's proof data -/

/-- The proof data of pipeline 3 on core `c`: the arrays as the region finds them (`V`); after the body at
    point `t` each input's buffer at its block and the output's at `out3_7` of the input blocks; the invariant the
    scoped rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => out3_7 (iblk3 V c 0 t) (iblk3 V c 1 t) (iblk3 V c 2 t) (iblk3 V c 3 t) (iblk3 V c 4 t) (iblk3 V c 5 t) (iblk3 V c 6 t)
  Φ _ := Pipeline.ΦA spec3 c
  q _ := fullShare
  owed _ := 0

/-- The proof data's arrays are the region-entry contents (the proof data's definition projected). -/
theorem A_eq3 (c : Dev nD) (w : Fin cfg3.W) : (dat3 V c).A w = V c (Pipeline.arrRef spec3 w) := by
  dsimp only [dat3]

/-- What the body leaves, window by window (the proof data's `match` reduced). -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = out3_7 (iblk3 V c 0 t) (iblk3 V c 1 t) (iblk3 V c 2 t) (iblk3 V c 3 t) (iblk3 V c 4 t) (iblk3 V c 5 t) (iblk3 V c 6 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d

/-! ## The body obligation, at a generic point -/

/-- What the body is called with at point `t` (the body obligation's precondition, the windows one by one), -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t))

set_option maxHeartbeats 4000000 in
/-- The body at any point: the inputs' memrefs hold their blocks (`before3_W`), so `sound_kernel3` applies; the
    invariant and the core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel3 c Set.univ (grid3.coords t) _ _ _ _ _ _ _ _ _ _ _ _ _ _ _ _ (iblk3 V c 0 t) (iblk3 V c 1 t) (iblk3 V c 2 t) (iblk3 V c 3 t) (iblk3 V c 4 t) (iblk3 V c 5 t) (iblk3 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation3 (c : Dev nD) : BodyObligation (dat3 (F := F) V c) (defs₀ (F := F)) Variants.none () Set.univ := fun t => by
  rw [bigSep_W3, bigSep_W3]
  exact sound_body3 V c t

end Regions

end Cert.KernelIdeal.Hand

end
-- ==== Proof.KI.Run.lean ====
/- THE RUN of the program, from the launch to the return, at any float model.
   @main is five stretches of host operations with four pipelined regions between them. The buffer contents at the
   nine segment boundaries are a fold from the launch memory: a host stretch takes the contents to the stretch's
   result, and a region replaces its windows' arrays by what the pipeline leaves in them (an input window's array
   as it was entered, the output window's array with every grid point's write-back folded in) and leaves every other
   buffer alone. Each stretch is a segment over the thread state "every unscoped buffer at the boundary's contents,
   the generator register at some state, nothing owed"; each region is a segment whose entry splits its arrays out
   of the unscoped buffers and whose exit puts them back at the exit contents. The launch theorem over the nine
   segments gives: every weakly fair execution terminates, nothing faulting, and the final memory agrees with the
   fold's last contents at every unscoped buffer. Read at the result buffer this is the run's value; read at an
   argument array, which no host operation writes and which a region reads through an input window or bypasses,
   it walks back through the fold to the launch memory: the frame. -/
import proofs.«100455_j65352222376641_1_alg».proof.Proof.KI.Body0
import proofs.«100455_j65352222376641_1_alg».proof.Proof.KI.Body1
import proofs.«100455_j65352222376641_1_alg».proof.Proof.KI.Body2
import proofs.«100455_j65352222376641_1_alg».proof.Proof.KI.Body3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return

## The buffer contents at each segment boundary: a fold through @main -/

/-- Core `c`'s buffers at launch. -/
abbrev W0 : Dev nD → Valuation τ sig (Elt F) := fun c b => (s₀ m ρ).mem ((c : Dev nD), b)

/-- After `hostOps0` (region 0's entry). -/
abbrev W1 : Dev nD → Valuation τ sig (Elt F) := fun c => StableHlo.after hostOps0 (W0 m ρ c)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, the output's write-backs
    folded over the grid), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`). -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, the output's write-backs
    folded over the grid), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`). -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2` (region 2's entry). -/
abbrev W5 : Dev nD → Valuation τ sig (Elt F) := fun c => StableHlo.after hostOps2 (W4 m ρ c)
/-- The same read at the TensorCore's references (what region 2's proof data take). -/
abbrev V5 : (c : Dev nD) → (b : Ref sig .tc) → Buf (Elt F) ((c : Thread nD τ).loc b) := fun c b => W5 m ρ c b
/-- At region 2's exit: its arrays at what the pipeline leaves (the inputs as entered, the output's write-backs
    folded over the grid), every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references (region 2's exit contents). -/
abbrev V6 : (c : Dev nD) → (b : Ref sig .tc) → Buf (Elt F) ((c : Thread nD τ).loc b) := fun c b => W6 m ρ c b
/-- At region 2's exit each of its arrays holds what the pipeline leaves (`hF2`) and every other buffer what it
    held at entry (`hrest2`). -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After `hostOps3` (region 3's entry). -/
abbrev W7 : Dev nD → Valuation τ sig (Elt F) := fun c => StableHlo.after hostOps3 (W6 m ρ c)
/-- The same read at the TensorCore's references (what region 3's proof data take). -/
abbrev V7 : (c : Dev nD) → (b : Ref sig .tc) → Buf (Elt F) ((c : Thread nD τ).loc b) := fun c b => W7 m ρ c b
/-- At region 3's exit: its arrays at what the pipeline leaves (the inputs as entered, the output's write-backs
    folded over the grid), every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
/-- The same read at the TensorCore's references (region 3's exit contents). -/
abbrev V8 : (c : Dev nD) → (b : Ref sig .tc) → Buf (Elt F) ((c : Thread nD τ).loc b) := fun c b => W8 m ρ c b
/-- At region 3's exit each of its arrays holds what the pipeline leaves (`hF3`) and every other buffer what it
    held at entry (`hrest3`). -/
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-- After `hostOps4`: the contents @main returns with. -/
abbrev W9 : Dev nD → Valuation τ sig (Elt F) := fun c => StableHlo.after hostOps4 (W8 m ρ c)

/-! ## What the host stretches write

Each host operation writes one buffer, its result. A stretch's results are listed once (`hostWK`), every operation's
write set is shown to lie in the list (`hostOpsK_writes`), and a buffer whose reference is not in the list keeps its
contents through the stretch (`after_hostOpsK`). -/

/-- An operation whose write set is the single buffer of a listed reference writes within the list. -/
theorem wsub {Wl : List (Ref sig .tc)} {y : Ref sig .tc} (h : y ∈ Wl) :
    ({Proc.devRef .tc y} : Finset (DevRef τ sig)) ⊆ (Wl.map (Proc.devRef (τ := τ) .tc)).toFinset :=
  Finset.singleton_subset_iff.mpr (List.mem_toFinset.mpr (List.mem_map_of_mem h))

/-- The references `hostOps0` writes, in order. -/
noncomputable def hostW0 : List (Ref sig .tc) :=
  [
    main_v0, main_v1, main_cst, main_v2, main_v3, main_v4, main_cst_0, main_v5,
    main_v6, main_v7, main_v8, main_v9, main_v10, main_v11, main_v12, main_c,
    main_v13, main_v14, main_c_1, main_v15, main_v16, main_v17, main_v18, main_v19,
    main_c_2, main_v20, main_v21, main_v22, main_v23, main_v24, main_v25, main_cst_3,
    main_v26, main_v27, main_v28, main_cst_4, main_v29, main_v30, main_v31, main_cst_5,
    main_v32, main_v33, main_v34, main_v35, main_c_6, main_v36, main_v37, main_v38,
    main_v39, main_v40, main_v41, main_cst_7, main_v42, main_v43, main_v44, main_cst_8,
    main_v45, main_v46, main_v47, main_cst_9, main_v48, main_v49, main_v50, main_v51,
    main_c_10, main_v52, main_v53, main_v54, main_v55, main_v56, main_v57, main_cst_11,
    main_v58, main_v59, main_v60, main_cst_12, main_v61, main_v62, main_v63, main_cst_13,
    main_v64, main_v65, main_v66, main_v67, main_v68, main_v69, main_v70, main_v71,
    main_v72, main_v73 ]
set_option maxHeartbeats 4000000 in
theorem hostOps0_writes : (hostOps0 : List (HloOp τ sig (Elt F))).Forall fun op =>
    op.writes ⊆ (hostW0.map (Proc.devRef (τ := τ) .tc)).toFinset :=
  ⟨
    wsub (y := main_v0) (by decide), wsub (y := main_v1) (by decide), wsub (y := main_cst) (by decide),
    wsub (y := main_v2) (by decide), wsub (y := main_v3) (by decide), wsub (y := main_v4) (by decide),
    wsub (y := main_cst_0) (by decide), wsub (y := main_v5) (by decide), wsub (y := main_v6) (by decide),
    wsub (y := main_v7) (by decide), wsub (y := main_v8) (by decide), wsub (y := main_v9) (by decide),
    wsub (y := main_v10) (by decide), wsub (y := main_v11) (by decide), wsub (y := main_v12) (by decide),
    wsub (y := main_c) (by decide), wsub (y := main_v13) (by decide), wsub (y := main_v14) (by decide),
    wsub (y := main_c_1) (by decide), wsub (y := main_v15) (by decide), wsub (y := main_v16) (by decide),
    wsub (y := main_v17) (by decide), wsub (y := main_v18) (by decide), wsub (y := main_v19) (by decide),
    wsub (y := main_c_2) (by decide), wsub (y := main_v20) (by decide), wsub (y := main_v21) (by decide),
    wsub (y := main_v22) (by decide), wsub (y := main_v23) (by decide), wsub (y := main_v24) (by decide),
    wsub (y := main_v25) (by decide), wsub (y := main_cst_3) (by decide), wsub (y := main_v26) (by decide),
    wsub (y := main_v27) (by decide), wsub (y := main_v28) (by decide), wsub (y := main_cst_4) (by decide),
    wsub (y := main_v29) (by decide), wsub (y := main_v30) (by decide), wsub (y := main_v31) (by decide),
    wsub (y := main_cst_5) (by decide), wsub (y := main_v32) (by decide), wsub (y := main_v33) (by decide),
    wsub (y := main_v34) (by decide), wsub (y := main_v35) (by decide), wsub (y := main_c_6) (by decide),
    wsub (y := main_v36) (by decide), wsub (y := main_v37) (by decide), wsub (y := main_v38) (by decide),
    wsub (y := main_v39) (by decide), wsub (y := main_v40) (by decide), wsub (y := main_v41) (by decide),
    wsub (y := main_cst_7) (by decide), wsub (y := main_v42) (by decide), wsub (y := main_v43) (by decide),
    wsub (y := main_v44) (by decide), wsub (y := main_cst_8) (by decide), wsub (y := main_v45) (by decide),
    wsub (y := main_v46) (by decide), wsub (y := main_v47) (by decide), wsub (y := main_cst_9) (by decide),
    wsub (y := main_v48) (by decide), wsub (y := main_v49) (by decide), wsub (y := main_v50) (by decide),
    wsub (y := main_v51) (by decide), wsub (y := main_c_10) (by decide), wsub (y := main_v52) (by decide),
    wsub (y := main_v53) (by decide), wsub (y := main_v54) (by decide), wsub (y := main_v55) (by decide),
    wsub (y := main_v56) (by decide), wsub (y := main_v57) (by decide), wsub (y := main_cst_11) (by decide),
    wsub (y := main_v58) (by decide), wsub (y := main_v59) (by decide), wsub (y := main_v60) (by decide),
    wsub (y := main_cst_12) (by decide), wsub (y := main_v61) (by decide), wsub (y := main_v62) (by decide),
    wsub (y := main_v63) (by decide), wsub (y := main_cst_13) (by decide), wsub (y := main_v64) (by decide),
    wsub (y := main_v65) (by decide), wsub (y := main_v66) (by decide), wsub (y := main_v67) (by decide),
    wsub (y := main_v68) (by decide), wsub (y := main_v69) (by decide), wsub (y := main_v70) (by decide),
    wsub (y := main_v71) (by decide), wsub (y := main_v72) (by decide), wsub (y := main_v73) (by decide) ⟩
/-- A buffer `hostOps0` does not write keeps its contents. -/
theorem after_hostOps0 (V : Valuation τ sig (Elt F)) {r : Ref sig .tc} (hr : r ∉ hostW0) :
    StableHlo.after hostOps0 V (Proc.devRef .tc r) = V (Proc.devRef .tc r) :=
  StableHlo.after_of_writes_sub hostOps0 V hostOps0_writes hr

/-- The references `hostOps1` writes, in order. -/
noncomputable def hostW1 : List (Ref sig .tc) :=
  [
    main_c_14, main_v75, main_v76, main_c_15, main_v77, main_v78, main_v79, main_v80,
    main_v81, main_c_16, main_v82, main_v83, main_v84, main_v85, main_v86, main_v87,
    main_cst_17, main_v88, main_v89, main_v90, main_cst_18, main_v91, main_v92, main_v93,
    main_cst_19, main_v94, main_v95, main_v96, main_v97, main_c_20, main_v98, main_v99,
    main_v100, main_v101, main_v102, main_v103, main_cst_21, main_v104, main_v105, main_v106,
    main_cst_22, main_v107, main_v108, main_v109, main_cst_23, main_v110, main_v111, main_v112,
    main_v113, main_c_24, main_v114, main_v115, main_v116, main_v117, main_v118, main_v119,
    main_cst_25, main_v120, main_v121, main_v122, main_cst_26, main_v123, main_v124, main_v125,
    main_cst_27, main_v126, main_v127, main_v128, main_v129, main_v130, main_v131, main_v132,
    main_v133, main_v134, main_v135 ]
set_option maxHeartbeats 4000000 in
theorem hostOps1_writes : (hostOps1 : List (HloOp τ sig (Elt F))).Forall fun op =>
    op.writes ⊆ (hostW1.map (Proc.devRef (τ := τ) .tc)).toFinset :=
  ⟨
    wsub (y := main_c_14) (by decide), wsub (y := main_v75) (by decide), wsub (y := main_v76) (by decide),
    wsub (y := main_c_15) (by decide), wsub (y := main_v77) (by decide), wsub (y := main_v78) (by decide),
    wsub (y := main_v79) (by decide), wsub (y := main_v80) (by decide), wsub (y := main_v81) (by decide),
    wsub (y := main_c_16) (by decide), wsub (y := main_v82) (by decide), wsub (y := main_v83) (by decide),
    wsub (y := main_v84) (by decide), wsub (y := main_v85) (by decide), wsub (y := main_v86) (by decide),
    wsub (y := main_v87) (by decide), wsub (y := main_cst_17) (by decide), wsub (y := main_v88) (by decide),
    wsub (y := main_v89) (by decide), wsub (y := main_v90) (by decide), wsub (y := main_cst_18) (by decide),
    wsub (y := main_v91) (by decide), wsub (y := main_v92) (by decide), wsub (y := main_v93) (by decide),
    wsub (y := main_cst_19) (by decide), wsub (y := main_v94) (by decide), wsub (y := main_v95) (by decide),
    wsub (y := main_v96) (by decide), wsub (y := main_v97) (by decide), wsub (y := main_c_20) (by decide),
    wsub (y := main_v98) (by decide), wsub (y := main_v99) (by decide), wsub (y := main_v100) (by decide),
    wsub (y := main_v101) (by decide), wsub (y := main_v102) (by decide), wsub (y := main_v103) (by decide),
    wsub (y := main_cst_21) (by decide), wsub (y := main_v104) (by decide), wsub (y := main_v105) (by decide),
    wsub (y := main_v106) (by decide), wsub (y := main_cst_22) (by decide), wsub (y := main_v107) (by decide),
    wsub (y := main_v108) (by decide), wsub (y := main_v109) (by decide), wsub (y := main_cst_23) (by decide),
    wsub (y := main_v110) (by decide), wsub (y := main_v111) (by decide), wsub (y := main_v112) (by decide),
    wsub (y := main_v113) (by decide), wsub (y := main_c_24) (by decide), wsub (y := main_v114) (by decide),
    wsub (y := main_v115) (by decide), wsub (y := main_v116) (by decide), wsub (y := main_v117) (by decide),
    wsub (y := main_v118) (by decide), wsub (y := main_v119) (by decide), wsub (y := main_cst_25) (by decide),
    wsub (y := main_v120) (by decide), wsub (y := main_v121) (by decide), wsub (y := main_v122) (by decide),
    wsub (y := main_cst_26) (by decide), wsub (y := main_v123) (by decide), wsub (y := main_v124) (by decide),
    wsub (y := main_v125) (by decide), wsub (y := main_cst_27) (by decide), wsub (y := main_v126) (by decide),
    wsub (y := main_v127) (by decide), wsub (y := main_v128) (by decide), wsub (y := main_v129) (by decide),
    wsub (y := main_v130) (by decide), wsub (y := main_v131) (by decide), wsub (y := main_v132) (by decide),
    wsub (y := main_v133) (by decide), wsub (y := main_v134) (by decide), wsub (y := main_v135) (by decide) ⟩
/-- A buffer `hostOps1` does not write keeps its contents. -/
theorem after_hostOps1 (V : Valuation τ sig (Elt F)) {r : Ref sig .tc} (hr : r ∉ hostW1) :
    StableHlo.after hostOps1 V (Proc.devRef .tc r) = V (Proc.devRef .tc r) :=
  StableHlo.after_of_writes_sub hostOps1 V hostOps1_writes hr

/-- The references `hostOps2` writes, in order. -/
noncomputable def hostW2 : List (Ref sig .tc) :=
  [
    main_c_28, main_v137, main_v138, main_c_29, main_v139, main_v140, main_v141, main_v142,
    main_v143, main_c_30, main_v144, main_v145, main_v146, main_v147, main_v148, main_v149,
    main_cst_31, main_v150, main_v151, main_v152, main_cst_32, main_v153, main_v154, main_v155,
    main_cst_33, main_v156, main_v157, main_v158, main_v159, main_c_34, main_v160, main_v161,
    main_v162, main_v163, main_v164, main_v165, main_cst_35, main_v166, main_v167, main_v168,
    main_cst_36, main_v169, main_v170, main_v171, main_cst_37, main_v172, main_v173, main_v174,
    main_v175, main_c_38, main_v176, main_v177, main_v178, main_v179, main_v180, main_v181,
    main_cst_39, main_v182, main_v183, main_v184, main_cst_40, main_v185, main_v186, main_v187,
    main_cst_41, main_v188, main_v189, main_v190, main_v191, main_v192, main_v193, main_v194,
    main_v195, main_v196, main_v197 ]
set_option maxHeartbeats 4000000 in
theorem hostOps2_writes : (hostOps2 : List (HloOp τ sig (Elt F))).Forall fun op =>
    op.writes ⊆ (hostW2.map (Proc.devRef (τ := τ) .tc)).toFinset :=
  ⟨
    wsub (y := main_c_28) (by decide), wsub (y := main_v137) (by decide), wsub (y := main_v138) (by decide),
    wsub (y := main_c_29) (by decide), wsub (y := main_v139) (by decide), wsub (y := main_v140) (by decide),
    wsub (y := main_v141) (by decide), wsub (y := main_v142) (by decide), wsub (y := main_v143) (by decide),
    wsub (y := main_c_30) (by decide), wsub (y := main_v144) (by decide), wsub (y := main_v145) (by decide),
    wsub (y := main_v146) (by decide), wsub (y := main_v147) (by decide), wsub (y := main_v148) (by decide),
    wsub (y := main_v149) (by decide), wsub (y := main_cst_31) (by decide), wsub (y := main_v150) (by decide),
    wsub (y := main_v151) (by decide), wsub (y := main_v152) (by decide), wsub (y := main_cst_32) (by decide),
    wsub (y := main_v153) (by decide), wsub (y := main_v154) (by decide), wsub (y := main_v155) (by decide),
    wsub (y := main_cst_33) (by decide), wsub (y := main_v156) (by decide), wsub (y := main_v157) (by decide),
    wsub (y := main_v158) (by decide), wsub (y := main_v159) (by decide), wsub (y := main_c_34) (by decide),
    wsub (y := main_v160) (by decide), wsub (y := main_v161) (by decide), wsub (y := main_v162) (by decide),
    wsub (y := main_v163) (by decide), wsub (y := main_v164) (by decide), wsub (y := main_v165) (by decide),
    wsub (y := main_cst_35) (by decide), wsub (y := main_v166) (by decide), wsub (y := main_v167) (by decide),
    wsub (y := main_v168) (by decide), wsub (y := main_cst_36) (by decide), wsub (y := main_v169) (by decide),
    wsub (y := main_v170) (by decide), wsub (y := main_v171) (by decide), wsub (y := main_cst_37) (by decide),
    wsub (y := main_v172) (by decide), wsub (y := main_v173) (by decide), wsub (y := main_v174) (by decide),
    wsub (y := main_v175) (by decide), wsub (y := main_c_38) (by decide), wsub (y := main_v176) (by decide),
    wsub (y := main_v177) (by decide), wsub (y := main_v178) (by decide), wsub (y := main_v179) (by decide),
    wsub (y := main_v180) (by decide), wsub (y := main_v181) (by decide), wsub (y := main_cst_39) (by decide),
    wsub (y := main_v182) (by decide), wsub (y := main_v183) (by decide), wsub (y := main_v184) (by decide),
    wsub (y := main_cst_40) (by decide), wsub (y := main_v185) (by decide), wsub (y := main_v186) (by decide),
    wsub (y := main_v187) (by decide), wsub (y := main_cst_41) (by decide), wsub (y := main_v188) (by decide),
    wsub (y := main_v189) (by decide), wsub (y := main_v190) (by decide), wsub (y := main_v191) (by decide),
    wsub (y := main_v192) (by decide), wsub (y := main_v193) (by decide), wsub (y := main_v194) (by decide),
    wsub (y := main_v195) (by decide), wsub (y := main_v196) (by decide), wsub (y := main_v197) (by decide) ⟩
/-- A buffer `hostOps2` does not write keeps its contents. -/
theorem after_hostOps2 (V : Valuation τ sig (Elt F)) {r : Ref sig .tc} (hr : r ∉ hostW2) :
    StableHlo.after hostOps2 V (Proc.devRef .tc r) = V (Proc.devRef .tc r) :=
  StableHlo.after_of_writes_sub hostOps2 V hostOps2_writes hr

/-- The references `hostOps3` writes, in order. -/
noncomputable def hostW3 : List (Ref sig .tc) :=
  [
    main_c_42, main_v199, main_v200, main_c_43, main_v201, main_v202, main_v203, main_v204,
    main_v205, main_c_44, main_v206, main_v207, main_c_45, main_v208, main_v209, main_v210,
    main_v211, main_v212, main_v213 ]
set_option maxHeartbeats 4000000 in
theorem hostOps3_writes : (hostOps3 : List (HloOp τ sig (Elt F))).Forall fun op =>
    op.writes ⊆ (hostW3.map (Proc.devRef (τ := τ) .tc)).toFinset :=
  ⟨
    wsub (y := main_c_42) (by decide), wsub (y := main_v199) (by decide), wsub (y := main_v200) (by decide),
    wsub (y := main_c_43) (by decide), wsub (y := main_v201) (by decide), wsub (y := main_v202) (by decide),
    wsub (y := main_v203) (by decide), wsub (y := main_v204) (by decide), wsub (y := main_v205) (by decide),
    wsub (y := main_c_44) (by decide), wsub (y := main_v206) (by decide), wsub (y := main_v207) (by decide),
    wsub (y := main_c_45) (by decide), wsub (y := main_v208) (by decide), wsub (y := main_v209) (by decide),
    wsub (y := main_v210) (by decide), wsub (y := main_v211) (by decide), wsub (y := main_v212) (by decide),
    wsub (y := main_v213) (by decide) ⟩
/-- A buffer `hostOps3` does not write keeps its contents. -/
theorem after_hostOps3 (V : Valuation τ sig (Elt F)) {r : Ref sig .tc} (hr : r ∉ hostW3) :
    StableHlo.after hostOps3 V (Proc.devRef .tc r) = V (Proc.devRef .tc r) :=
  StableHlo.after_of_writes_sub hostOps3 V hostOps3_writes hr

/-- The references `hostOps4` writes, in order. -/
noncomputable def hostW4 : List (Ref sig .tc) :=
  [
    main_v215 ]
set_option maxHeartbeats 4000000 in
theorem hostOps4_writes : (hostOps4 : List (HloOp τ sig (Elt F))).Forall fun op =>
    op.writes ⊆ (hostW4.map (Proc.devRef (τ := τ) .tc)).toFinset :=
  wsub (y := main_v215) (by decide)
/-- A buffer `hostOps4` does not write keeps its contents. -/
theorem after_hostOps4 (V : Valuation τ sig (Elt F)) {r : Ref sig .tc} (hr : r ∉ hostW4) :
    StableHlo.after hostOps4 V (Proc.devRef .tc r) = V (Proc.devRef .tc r) :=
  StableHlo.after_of_writes_sub hostOps4 V hostOps4_writes hr

/-! ### The arguments end as launched: no host operation writes one, and a region reads it through an input window
    (whose array the pipeline never writes) or bypasses it, so the fold at an argument's buffer walks back to the launch
    memory -/

theorem W9_main_arg0 (c : Dev nD) : W9 m ρ c (Proc.devRef .tc main_arg0) = m ((c : Thread nD τ).loc main_arg0) :=
  calc W9 m ρ c (Proc.devRef .tc main_arg0)
    _ = W8 m ρ c (Proc.devRef .tc main_arg0) := after_hostOps4 _ (by decide)
    _ = W7 m ρ c (Proc.devRef .tc main_arg0) := W8_of_ne m ρ c main_arg0 (by decide)
    _ = W6 m ρ c (Proc.devRef .tc main_arg0) := after_hostOps3 _ (by decide)
    _ = W5 m ρ c (Proc.devRef .tc main_arg0) := W6_of_ne m ρ c main_arg0 (by decide)
    _ = W4 m ρ c (Proc.devRef .tc main_arg0) := after_hostOps2 _ (by decide)
    _ = W3 m ρ c (Proc.devRef .tc main_arg0) := W4_of_ne m ρ c main_arg0 (by decide)
    _ = W2 m ρ c (Proc.devRef .tc main_arg0) := after_hostOps1 _ (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := after_hostOps0 _ (by decide)
    _ = m ((c : Thread nD τ).loc main_arg0) := rfl

theorem W9_main_arg1 (c : Dev nD) : W9 m ρ c (Proc.devRef .tc main_arg1) = m ((c : Thread nD τ).loc main_arg1) :=
  calc W9 m ρ c (Proc.devRef .tc main_arg1)
    _ = W8 m ρ c (Proc.devRef .tc main_arg1) := after_hostOps4 _ (by decide)
    _ = W7 m ρ c (Proc.devRef .tc main_arg1) := W8_of_ne m ρ c main_arg1 (by decide)
    _ = W6 m ρ c (Proc.devRef .tc main_arg1) := after_hostOps3 _ (by decide)
    _ = W5 m ρ c (Proc.devRef .tc main_arg1) := W6_of_ne m ρ c main_arg1 (by decide)
    _ = W4 m ρ c (Proc.devRef .tc main_arg1) := after_hostOps2 _ (by decide)
    _ = W3 m ρ c (Proc.devRef .tc main_arg1) := W4_of_ne m ρ c main_arg1 (by decide)
    _ = W2 m ρ c (Proc.devRef .tc main_arg1) := after_hostOps1 _ (by decide)
    _ = W1 m ρ c (Proc.devRef .tc main_arg1) := W2_of_ne m ρ c main_arg1 (by decide)
    _ = W0 m ρ c (Proc.devRef .tc main_arg1) := after_hostOps0 _ (by decide)
    _ = m ((c : Thread nD τ).loc main_arg1) := rfl

theorem W9_main_arg2 (c : Dev nD) : W9 m ρ c (Proc.devRef .tc main_arg2) = m ((c : Thread nD τ).loc main_arg2) :=
  calc W9 m ρ c (Proc.devRef .tc main_arg2)
    _ = W8 m ρ c (Proc.devRef .tc main_arg2) := after_hostOps4 _ (by decide)
    _ = W7 m ρ c (Proc.devRef .tc main_arg2) := W8_of_ne m ρ c main_arg2 (by decide)
    _ = W6 m ρ c (Proc.devRef .tc main_arg2) := after_hostOps3 _ (by decide)
    _ = W5 m ρ c (Proc.devRef .tc main_arg2) := W6_of_ne m ρ c main_arg2 (by decide)
    _ = W4 m ρ c (Proc.devRef .tc main_arg2) := after_hostOps2 _ (by decide)
    _ = W3 m ρ c (Proc.devRef .tc main_arg2) := W4_of_ne m ρ c main_arg2 (by decide)
    _ = W2 m ρ c (Proc.devRef .tc main_arg2) := after_hostOps1 _ (by decide)
    _ = W1 m ρ c (Proc.devRef .tc main_arg2) := W2_of_ne m ρ c main_arg2 (by decide)
    _ = W0 m ρ c (Proc.devRef .tc main_arg2) := after_hostOps0 _ (by decide)
    _ = m ((c : Thread nD τ).loc main_arg2) := rfl

theorem W9_main_arg3 (c : Dev nD) : W9 m ρ c (Proc.devRef .tc main_arg3) = m ((c : Thread nD τ).loc main_arg3) :=
  calc W9 m ρ c (Proc.devRef .tc main_arg3)
    _ = W8 m ρ c (Proc.devRef .tc main_arg3) := after_hostOps4 _ (by decide)
    _ = W7 m ρ c (Proc.devRef .tc main_arg3) := W8_of_ne m ρ c main_arg3 (by decide)
    _ = W6 m ρ c (Proc.devRef .tc main_arg3) := after_hostOps3 _ (by decide)
    _ = W5 m ρ c (Proc.devRef .tc main_arg3) := W6_of_ne m ρ c main_arg3 (by decide)
    _ = W4 m ρ c (Proc.devRef .tc main_arg3) := after_hostOps2 _ (by decide)
    _ = W3 m ρ c (Proc.devRef .tc main_arg3) := W4_of_ne m ρ c main_arg3 (by decide)
    _ = W2 m ρ c (Proc.devRef .tc main_arg3) := after_hostOps1 _ (by decide)
    _ = W1 m ρ c (Proc.devRef .tc main_arg3) := W2_of_ne m ρ c main_arg3 (by decide)
    _ = W0 m ρ c (Proc.devRef .tc main_arg3) := after_hostOps0 _ (by decide)
    _ = m ((c : Thread nD τ).loc main_arg3) := rfl

theorem W9_main_arg4 (c : Dev nD) : W9 m ρ c (Proc.devRef .tc main_arg4) = m ((c : Thread nD τ).loc main_arg4) :=
  calc W9 m ρ c (Proc.devRef .tc main_arg4)
    _ = W8 m ρ c (Proc.devRef .tc main_arg4) := after_hostOps4 _ (by decide)
    _ = W7 m ρ c (Proc.devRef .tc main_arg4) := W8_of_ne m ρ c main_arg4 (by decide)
    _ = W6 m ρ c (Proc.devRef .tc main_arg4) := after_hostOps3 _ (by decide)
    _ = W5 m ρ c (Proc.devRef .tc main_arg4) := W6_of_ne m ρ c main_arg4 (by decide)
    _ = W4 m ρ c (Proc.devRef .tc main_arg4) := after_hostOps2 _ (by decide)
    _ = W3 m ρ c (Proc.devRef .tc main_arg4) := W4_of_ne m ρ c main_arg4 (by decide)
    _ = W2 m ρ c (Proc.devRef .tc main_arg4) := after_hostOps1 _ (by decide)
    _ = W1 m ρ c (Proc.devRef .tc main_arg4) := (W2_arr m ρ c 1).trans (((dat0 (V1 m ρ) c).arrAt_in 1 rfl _).trans (A_eq0 (V1 m ρ) c 1))
    _ = W0 m ρ c (Proc.devRef .tc main_arg4) := after_hostOps0 _ (by decide)
    _ = m ((c : Thread nD τ).loc main_arg4) := rfl

theorem W9_main_arg5 (c : Dev nD) : W9 m ρ c (Proc.devRef .tc main_arg5) = m ((c : Thread nD τ).loc main_arg5) :=
  calc W9 m ρ c (Proc.devRef .tc main_arg5)
    _ = W8 m ρ c (Proc.devRef .tc main_arg5) := after_hostOps4 _ (by decide)
    _ = W7 m ρ c (Proc.devRef .tc main_arg5) := W8_of_ne m ρ c main_arg5 (by decide)
    _ = W6 m ρ c (Proc.devRef .tc main_arg5) := after_hostOps3 _ (by decide)
    _ = W5 m ρ c (Proc.devRef .tc main_arg5) := W6_of_ne m ρ c main_arg5 (by decide)
    _ = W4 m ρ c (Proc.devRef .tc main_arg5) := after_hostOps2 _ (by decide)
    _ = W3 m ρ c (Proc.devRef .tc main_arg5) := W4_of_ne m ρ c main_arg5 (by decide)
    _ = W2 m ρ c (Proc.devRef .tc main_arg5) := after_hostOps1 _ (by decide)
    _ = W1 m ρ c (Proc.devRef .tc main_arg5) := (W2_arr m ρ c 2).trans (((dat0 (V1 m ρ) c).arrAt_in 2 rfl _).trans (A_eq0 (V1 m ρ) c 2))
    _ = W0 m ρ c (Proc.devRef .tc main_arg5) := after_hostOps0 _ (by decide)
    _ = m ((c : Thread nD τ).loc main_arg5) := rfl

theorem W9_main_arg6 (c : Dev nD) : W9 m ρ c (Proc.devRef .tc main_arg6) = m ((c : Thread nD τ).loc main_arg6) :=
  calc W9 m ρ c (Proc.devRef .tc main_arg6)
    _ = W8 m ρ c (Proc.devRef .tc main_arg6) := after_hostOps4 _ (by decide)
    _ = W7 m ρ c (Proc.devRef .tc main_arg6) := W8_of_ne m ρ c main_arg6 (by decide)
    _ = W6 m ρ c (Proc.devRef .tc main_arg6) := after_hostOps3 _ (by decide)
    _ = W5 m ρ c (Proc.devRef .tc main_arg6) := W6_of_ne m ρ c main_arg6 (by decide)
    _ = W4 m ρ c (Proc.devRef .tc main_arg6) := after_hostOps2 _ (by decide)
    _ = W3 m ρ c (Proc.devRef .tc main_arg6) := W4_of_ne m ρ c main_arg6 (by decide)
    _ = W2 m ρ c (Proc.devRef .tc main_arg6) := after_hostOps1 _ (by decide)
    _ = W1 m ρ c (Proc.devRef .tc main_arg6) := W2_of_ne m ρ c main_arg6 (by decide)
    _ = W0 m ρ c (Proc.devRef .tc main_arg6) := after_hostOps0 _ (by decide)
    _ = m ((c : Thread nD τ).loc main_arg6) := rfl

theorem W9_main_arg7 (c : Dev nD) : W9 m ρ c (Proc.devRef .tc main_arg7) = m ((c : Thread nD τ).loc main_arg7) :=
  calc W9 m ρ c (Proc.devRef .tc main_arg7)
    _ = W8 m ρ c (Proc.devRef .tc main_arg7) := after_hostOps4 _ (by decide)
    _ = W7 m ρ c (Proc.devRef .tc main_arg7) := W8_of_ne m ρ c main_arg7 (by decide)
    _ = W6 m ρ c (Proc.devRef .tc main_arg7) := after_hostOps3 _ (by decide)
    _ = W5 m ρ c (Proc.devRef .tc main_arg7) := W6_of_ne m ρ c main_arg7 (by decide)
    _ = W4 m ρ c (Proc.devRef .tc main_arg7) := after_hostOps2 _ (by decide)
    _ = W3 m ρ c (Proc.devRef .tc main_arg7) := (W4_arr m ρ c 1).trans (((dat1 (V3 m ρ) c).arrAt_in 1 rfl _).trans (A_eq1 (V3 m ρ) c 1))
    _ = W2 m ρ c (Proc.devRef .tc main_arg7) := after_hostOps1 _ (by decide)
    _ = W1 m ρ c (Proc.devRef .tc main_arg7) := W2_of_ne m ρ c main_arg7 (by decide)
    _ = W0 m ρ c (Proc.devRef .tc main_arg7) := after_hostOps0 _ (by decide)
    _ = m ((c : Thread nD τ).loc main_arg7) := rfl

theorem W9_main_arg8 (c : Dev nD) : W9 m ρ c (Proc.devRef .tc main_arg8) = m ((c : Thread nD τ).loc main_arg8) :=
  calc W9 m ρ c (Proc.devRef .tc main_arg8)
    _ = W8 m ρ c (Proc.devRef .tc main_arg8) := after_hostOps4 _ (by decide)
    _ = W7 m ρ c (Proc.devRef .tc main_arg8) := W8_of_ne m ρ c main_arg8 (by decide)
    _ = W6 m ρ c (Proc.devRef .tc main_arg8) := after_hostOps3 _ (by decide)
    _ = W5 m ρ c (Proc.devRef .tc main_arg8) := W6_of_ne m ρ c main_arg8 (by decide)
    _ = W4 m ρ c (Proc.devRef .tc main_arg8) := after_hostOps2 _ (by decide)
    _ = W3 m ρ c (Proc.devRef .tc main_arg8) := (W4_arr m ρ c 2).trans (((dat1 (V3 m ρ) c).arrAt_in 2 rfl _).trans (A_eq1 (V3 m ρ) c 2))
    _ = W2 m ρ c (Proc.devRef .tc main_arg8) := after_hostOps1 _ (by decide)
    _ = W1 m ρ c (Proc.devRef .tc main_arg8) := W2_of_ne m ρ c main_arg8 (by decide)
    _ = W0 m ρ c (Proc.devRef .tc main_arg8) := after_hostOps0 _ (by decide)
    _ = m ((c : Thread nD τ).loc main_arg8) := rfl

theorem W9_main_arg9 (c : Dev nD) : W9 m ρ c (Proc.devRef .tc main_arg9) = m ((c : Thread nD τ).loc main_arg9) :=
  calc W9 m ρ c (Proc.devRef .tc main_arg9)
    _ = W8 m ρ c (Proc.devRef .tc main_arg9) := after_hostOps4 _ (by decide)
    _ = W7 m ρ c (Proc.devRef .tc main_arg9) := W8_of_ne m ρ c main_arg9 (by decide)
    _ = W6 m ρ c (Proc.devRef .tc main_arg9) := after_hostOps3 _ (by decide)
    _ = W5 m ρ c (Proc.devRef .tc main_arg9) := W6_of_ne m ρ c main_arg9 (by decide)
    _ = W4 m ρ c (Proc.devRef .tc main_arg9) := after_hostOps2 _ (by decide)
    _ = W3 m ρ c (Proc.devRef .tc main_arg9) := W4_of_ne m ρ c main_arg9 (by decide)
    _ = W2 m ρ c (Proc.devRef .tc main_arg9) := after_hostOps1 _ (by decide)
    _ = W1 m ρ c (Proc.devRef .tc main_arg9) := W2_of_ne m ρ c main_arg9 (by decide)
    _ = W0 m ρ c (Proc.devRef .tc main_arg9) := after_hostOps0 _ (by decide)
    _ = m ((c : Thread nD τ).loc main_arg9) := rfl

theorem W9_main_arg10 (c : Dev nD) : W9 m ρ c (Proc.devRef .tc main_arg10) = m ((c : Thread nD τ).loc main_arg10) :=
  calc W9 m ρ c (Proc.devRef .tc main_arg10)
    _ = W8 m ρ c (Proc.devRef .tc main_arg10) := after_hostOps4 _ (by decide)
    _ = W7 m ρ c (Proc.devRef .tc main_arg10) := W8_of_ne m ρ c main_arg10 (by decide)
    _ = W6 m ρ c (Proc.devRef .tc main_arg10) := after_hostOps3 _ (by decide)
    _ = W5 m ρ c (Proc.devRef .tc main_arg10) := (W6_arr m ρ c 1).trans (((dat2 (V5 m ρ) c).arrAt_in 1 rfl _).trans (A_eq2 (V5 m ρ) c 1))
    _ = W4 m ρ c (Proc.devRef .tc main_arg10) := after_hostOps2 _ (by decide)
    _ = W3 m ρ c (Proc.devRef .tc main_arg10) := W4_of_ne m ρ c main_arg10 (by decide)
    _ = W2 m ρ c (Proc.devRef .tc main_arg10) := after_hostOps1 _ (by decide)
    _ = W1 m ρ c (Proc.devRef .tc main_arg10) := W2_of_ne m ρ c main_arg10 (by decide)
    _ = W0 m ρ c (Proc.devRef .tc main_arg10) := after_hostOps0 _ (by decide)
    _ = m ((c : Thread nD τ).loc main_arg10) := rfl

theorem W9_main_arg11 (c : Dev nD) : W9 m ρ c (Proc.devRef .tc main_arg11) = m ((c : Thread nD τ).loc main_arg11) :=
  calc W9 m ρ c (Proc.devRef .tc main_arg11)
    _ = W8 m ρ c (Proc.devRef .tc main_arg11) := after_hostOps4 _ (by decide)
    _ = W7 m ρ c (Proc.devRef .tc main_arg11) := W8_of_ne m ρ c main_arg11 (by decide)
    _ = W6 m ρ c (Proc.devRef .tc main_arg11) := after_hostOps3 _ (by decide)
    _ = W5 m ρ c (Proc.devRef .tc main_arg11) := (W6_arr m ρ c 2).trans (((dat2 (V5 m ρ) c).arrAt_in 2 rfl _).trans (A_eq2 (V5 m ρ) c 2))
    _ = W4 m ρ c (Proc.devRef .tc main_arg11) := after_hostOps2 _ (by decide)
    _ = W3 m ρ c (Proc.devRef .tc main_arg11) := W4_of_ne m ρ c main_arg11 (by decide)
    _ = W2 m ρ c (Proc.devRef .tc main_arg11) := after_hostOps1 _ (by decide)
    _ = W1 m ρ c (Proc.devRef .tc main_arg11) := W2_of_ne m ρ c main_arg11 (by decide)
    _ = W0 m ρ c (Proc.devRef .tc main_arg11) := after_hostOps0 _ (by decide)
    _ = m ((c : Thread nD τ).loc main_arg11) := rfl

theorem W9_main_arg12 (c : Dev nD) : W9 m ρ c (Proc.devRef .tc main_arg12) = m ((c : Thread nD τ).loc main_arg12) :=
  calc W9 m ρ c (Proc.devRef .tc main_arg12)
    _ = W8 m ρ c (Proc.devRef .tc main_arg12) := after_hostOps4 _ (by decide)
    _ = W7 m ρ c (Proc.devRef .tc main_arg12) := (W8_arr m ρ c 1).trans (((dat3 (V7 m ρ) c).arrAt_in 1 rfl _).trans (A_eq3 (V7 m ρ) c 1))
    _ = W6 m ρ c (Proc.devRef .tc main_arg12) := after_hostOps3 _ (by decide)
    _ = W5 m ρ c (Proc.devRef .tc main_arg12) := W6_of_ne m ρ c main_arg12 (by decide)
    _ = W4 m ρ c (Proc.devRef .tc main_arg12) := after_hostOps2 _ (by decide)
    _ = W3 m ρ c (Proc.devRef .tc main_arg12) := W4_of_ne m ρ c main_arg12 (by decide)
    _ = W2 m ρ c (Proc.devRef .tc main_arg12) := after_hostOps1 _ (by decide)
    _ = W1 m ρ c (Proc.devRef .tc main_arg12) := W2_of_ne m ρ c main_arg12 (by decide)
    _ = W0 m ρ c (Proc.devRef .tc main_arg12) := after_hostOps0 _ (by decide)
    _ = m ((c : Thread nD τ).loc main_arg12) := rfl

theorem W9_main_arg13 (c : Dev nD) : W9 m ρ c (Proc.devRef .tc main_arg13) = m ((c : Thread nD τ).loc main_arg13) :=
  calc W9 m ρ c (Proc.devRef .tc main_arg13)
    _ = W8 m ρ c (Proc.devRef .tc main_arg13) := after_hostOps4 _ (by decide)
    _ = W7 m ρ c (Proc.devRef .tc main_arg13) := (W8_arr m ρ c 2).trans (((dat3 (V7 m ρ) c).arrAt_in 2 rfl _).trans (A_eq3 (V7 m ρ) c 2))
    _ = W6 m ρ c (Proc.devRef .tc main_arg13) := after_hostOps3 _ (by decide)
    _ = W5 m ρ c (Proc.devRef .tc main_arg13) := W6_of_ne m ρ c main_arg13 (by decide)
    _ = W4 m ρ c (Proc.devRef .tc main_arg13) := after_hostOps2 _ (by decide)
    _ = W3 m ρ c (Proc.devRef .tc main_arg13) := W4_of_ne m ρ c main_arg13 (by decide)
    _ = W2 m ρ c (Proc.devRef .tc main_arg13) := after_hostOps1 _ (by decide)
    _ = W1 m ρ c (Proc.devRef .tc main_arg13) := W2_of_ne m ρ c main_arg13 (by decide)
    _ = W0 m ρ c (Proc.devRef .tc main_arg13) := after_hostOps0 _ (by decide)
    _ = m ((c : Thread nD τ).loc main_arg13) := rfl

theorem W9_main_arg14 (c : Dev nD) : W9 m ρ c (Proc.devRef .tc main_arg14) = m ((c : Thread nD τ).loc main_arg14) :=
  calc W9 m ρ c (Proc.devRef .tc main_arg14)
    _ = W8 m ρ c (Proc.devRef .tc main_arg14) := after_hostOps4 _ (by decide)
    _ = W7 m ρ c (Proc.devRef .tc main_arg14) := (W8_arr m ρ c 3).trans (((dat3 (V7 m ρ) c).arrAt_in 3 rfl _).trans (A_eq3 (V7 m ρ) c 3))
    _ = W6 m ρ c (Proc.devRef .tc main_arg14) := after_hostOps3 _ (by decide)
    _ = W5 m ρ c (Proc.devRef .tc main_arg14) := W6_of_ne m ρ c main_arg14 (by decide)
    _ = W4 m ρ c (Proc.devRef .tc main_arg14) := after_hostOps2 _ (by decide)
    _ = W3 m ρ c (Proc.devRef .tc main_arg14) := W4_of_ne m ρ c main_arg14 (by decide)
    _ = W2 m ρ c (Proc.devRef .tc main_arg14) := after_hostOps1 _ (by decide)
    _ = W1 m ρ c (Proc.devRef .tc main_arg14) := W2_of_ne m ρ c main_arg14 (by decide)
    _ = W0 m ρ c (Proc.devRef .tc main_arg14) := after_hostOps0 _ (by decide)
    _ = m ((c : Thread nD τ).loc main_arg14) := rfl

theorem W9_main_arg15 (c : Dev nD) : W9 m ρ c (Proc.devRef .tc main_arg15) = m ((c : Thread nD τ).loc main_arg15) :=
  calc W9 m ρ c (Proc.devRef .tc main_arg15)
    _ = W8 m ρ c (Proc.devRef .tc main_arg15) := after_hostOps4 _ (by decide)
    _ = W7 m ρ c (Proc.devRef .tc main_arg15) := (W8_arr m ρ c 4).trans (((dat3 (V7 m ρ) c).arrAt_in 4 rfl _).trans (A_eq3 (V7 m ρ) c 4))
    _ = W6 m ρ c (Proc.devRef .tc main_arg15) := after_hostOps3 _ (by decide)
    _ = W5 m ρ c (Proc.devRef .tc main_arg15) := W6_of_ne m ρ c main_arg15 (by decide)
    _ = W4 m ρ c (Proc.devRef .tc main_arg15) := after_hostOps2 _ (by decide)
    _ = W3 m ρ c (Proc.devRef .tc main_arg15) := W4_of_ne m ρ c main_arg15 (by decide)
    _ = W2 m ρ c (Proc.devRef .tc main_arg15) := after_hostOps1 _ (by decide)
    _ = W1 m ρ c (Proc.devRef .tc main_arg15) := W2_of_ne m ρ c main_arg15 (by decide)
    _ = W0 m ρ c (Proc.devRef .tc main_arg15) := after_hostOps0 _ (by decide)
    _ = m ((c : Thread nD τ).loc main_arg15) := rfl

theorem W9_main_arg16 (c : Dev nD) : W9 m ρ c (Proc.devRef .tc main_arg16) = m ((c : Thread nD τ).loc main_arg16) :=
  calc W9 m ρ c (Proc.devRef .tc main_arg16)
    _ = W8 m ρ c (Proc.devRef .tc main_arg16) := after_hostOps4 _ (by decide)
    _ = W7 m ρ c (Proc.devRef .tc main_arg16) := (W8_arr m ρ c 5).trans (((dat3 (V7 m ρ) c).arrAt_in 5 rfl _).trans (A_eq3 (V7 m ρ) c 5))
    _ = W6 m ρ c (Proc.devRef .tc main_arg16) := after_hostOps3 _ (by decide)
    _ = W5 m ρ c (Proc.devRef .tc main_arg16) := W6_of_ne m ρ c main_arg16 (by decide)
    _ = W4 m ρ c (Proc.devRef .tc main_arg16) := after_hostOps2 _ (by decide)
    _ = W3 m ρ c (Proc.devRef .tc main_arg16) := W4_of_ne m ρ c main_arg16 (by decide)
    _ = W2 m ρ c (Proc.devRef .tc main_arg16) := after_hostOps1 _ (by decide)
    _ = W1 m ρ c (Proc.devRef .tc main_arg16) := W2_of_ne m ρ c main_arg16 (by decide)
    _ = W0 m ρ c (Proc.devRef .tc main_arg16) := after_hostOps0 _ (by decide)
    _ = m ((c : Thread nD τ).loc main_arg16) := rfl

theorem W9_main_arg17 (c : Dev nD) : W9 m ρ c (Proc.devRef .tc main_arg17) = m ((c : Thread nD τ).loc main_arg17) :=
  calc W9 m ρ c (Proc.devRef .tc main_arg17)
    _ = W8 m ρ c (Proc.devRef .tc main_arg17) := after_hostOps4 _ (by decide)
    _ = W7 m ρ c (Proc.devRef .tc main_arg17) := (W8_arr m ρ c 6).trans (((dat3 (V7 m ρ) c).arrAt_in 6 rfl _).trans (A_eq3 (V7 m ρ) c 6))
    _ = W6 m ρ c (Proc.devRef .tc main_arg17) := after_hostOps3 _ (by decide)
    _ = W5 m ρ c (Proc.devRef .tc main_arg17) := W6_of_ne m ρ c main_arg17 (by decide)
    _ = W4 m ρ c (Proc.devRef .tc main_arg17) := after_hostOps2 _ (by decide)
    _ = W3 m ρ c (Proc.devRef .tc main_arg17) := W4_of_ne m ρ c main_arg17 (by decide)
    _ = W2 m ρ c (Proc.devRef .tc main_arg17) := after_hostOps1 _ (by decide)
    _ = W1 m ρ c (Proc.devRef .tc main_arg17) := W2_of_ne m ρ c main_arg17 (by decide)
    _ = W0 m ρ c (Proc.devRef .tc main_arg17) := after_hostOps0 _ (by decide)
    _ = m ((c : Thread nD τ).loc main_arg17) := rfl

/-! ## The proof data family and the thread state -/

/-- The prefetched tables' admissible contents: no pipeline has a table. -/
abbrev adm : (p : Fin 4) → (pcfgs (F := F) p).Adm := fun p => (cfgs p).toPCfg_adm
/-- Every pipeline's proof data, each at its region's entry contents — a literal `match`, so that the pinned
    configuration at a numeral reduces to the printed one. -/
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: over the unscoped references from the contents `W`, `R` riding along (its post is
    then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

set_option maxHeartbeats 4000000 in
/-- No operation of `hostOps0` allocates a buffer. -/
theorem hostOps0_fresh : (hostOps0 : List (HloOp τ sig (Elt F))).Forall fun op => op.fresh = ∅ := by
  simp only [List.Forall]; repeat' constructor
set_option maxHeartbeats 4000000 in
/-- No operation of `hostOps1` allocates a buffer. -/
theorem hostOps1_fresh : (hostOps1 : List (HloOp τ sig (Elt F))).Forall fun op => op.fresh = ∅ := by
  simp only [List.Forall]; repeat' constructor
set_option maxHeartbeats 4000000 in
/-- No operation of `hostOps2` allocates a buffer. -/
theorem hostOps2_fresh : (hostOps2 : List (HloOp τ sig (Elt F))).Forall fun op => op.fresh = ∅ := by
  simp only [List.Forall]; repeat' constructor
/-- No operation of `hostOps3` allocates a buffer. -/
theorem hostOps3_fresh : (hostOps3 : List (HloOp τ sig (Elt F))).Forall fun op => op.fresh = ∅ := by
  simp only [List.Forall]; repeat' constructor
/-- No operation of `hostOps4` allocates a buffer. -/
theorem hostOps4_fresh : (hostOps4 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents `W9`, the
    generator register at some state. -/
abbrev Tₙ (c : Dev nD) : sProp 𝕄 := iprop(StableHlo.held (c : Thread nD τ) (Pipeline.ucRefs τ sig) (W9 m ρ c) ∗ ∃ r, prngReg c r)

/-! ## The regions as segments -/

-- a library lemma stated over the pinned configuration unifies with it only when unification may unfold plain
-- definitions in a metavariable's type
set_option backward.isDefEq.respectTransparency.types false in
/-- REGION 0 over the thread state: entered from every unscoped buffer at `W1`, left at `W2` (what the next
    host stretch is entered from). Its arrays are split out of the unscoped buffers and put back at the exit contents;
    the generator register goes into the class invariant and comes out; nothing is owed; the kernel has no semaphore
    of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with it only when unification may unfold plain
-- definitions in a metavariable's type
set_option backward.isDefEq.respectTransparency.types false in
/-- REGION 1 over the thread state: entered from every unscoped buffer at `W3`, left at `W4` (what the next
    host stretch is entered from). Its arrays are split out of the unscoped buffers and put back at the exit contents;
    the generator register goes into the class invariant and comes out; nothing is owed; the kernel has no semaphore
    of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with it only when unification may unfold plain
-- definitions in a metavariable's type
set_option backward.isDefEq.respectTransparency.types false in
/-- REGION 2 over the thread state: entered from every unscoped buffer at `W5`, left at `W6` (what the next
    host stretch is entered from). Its arrays are split out of the unscoped buffers and put back at the exit contents;
    the generator register goes into the class invariant and comes out; nothing is owed; the kernel has no semaphore
    of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with it only when unification may unfold plain
-- definitions in a metavariable's type
set_option backward.isDefEq.respectTransparency.types false in
/-- REGION 3 over the thread state: entered from every unscoped buffer at `W7`, left at `W8` (what the next
    host stretch is entered from). Its arrays are split out of the unscoped buffers and put back at the exit contents;
    the generator register goes into the class invariant and comes out; nothing is owed; the kernel has no semaphore
    of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- The last host stretch's post is the last thread state beside the core owing nothing (a re-association). -/
theorem hlast (c : Dev nD) :
    iprop(StableHlo.held (c : Thread nD τ) (Pipeline.ucRefs τ sig) (W9 m ρ c) ∗ R c)
      ⊢ iprop(Tₙ m ρ c ∗ ∃ W, owes (c : Thread nD τ) (0 : CellTallies nD τ sig Unit) W) := by
  iintro ⟨Hh, Hp, HO⟩
  isplitl [Hh Hp]
  · isplitl [Hh]; · iexact Hh
    iexact Hp
  iexact HO

/-- @main's 9 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)) ]
/-- @main IS the run of the segments: @main as the chain of its items, then the segments' run against that chain
    by definitional unfolding. -/
theorem main_run (c : Dev nD) : main (F := F) c = Pipeline.Seg.run (segs m ρ) := (main_chain c).trans (by chain_rfl)

-- the launch theorem's implicit arguments are found by unifying its conclusion with this one, which takes unfolding
-- plain definitions in a metavariable's type
set_option backward.isDefEq.respectTransparency.types false in
/-- THE RUN'S RESULT: at the compiled mesh, from any memory with zero counters, every weakly fair execution of @main
    on the TensorCores terminates, nothing faulting, and every final state has the result buffer at the fold's last
    contents `W9` and the argument arrays as launched: the last thread state read against the final state, the result
    buffer as it stands and each argument walked back through the fold (`W9_main_argI`). -/
theorem run_val : θ_run defs (onTc (τ := τ) (main (F := F))) ⟨m, fun _ => 0, ρ⟩ (fun r => ∀ c : Dev nD,
      r.2.mem ((c.tc : Thread nD τ).loc main_v215) = W9 m ρ c (Proc.devRef .tc main_v215)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun c => hlast m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v215 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c),
       (h c _ (mem_uc main_arg11 (by decide))).trans (W9_main_arg11 m ρ c),
       (h c _ (mem_uc main_arg12 (by decide))).trans (W9_main_arg12 m ρ c),
       (h c _ (mem_uc main_arg13 (by decide))).trans (W9_main_arg13 m ρ c),
       (h c _ (mem_uc main_arg14 (by decide))).trans (W9_main_arg14 m ρ c),
       (h c _ (mem_uc main_arg15 (by decide))).trans (W9_main_arg15 m ρ c),
       (h c _ (mem_uc main_arg16 (by decide))).trans (W9_main_arg16 m ρ c),
       (h c _ (mem_uc main_arg17 (by decide))).trans (W9_main_arg17 m ρ c)⟩)

/-- THE FRAME: the run terminates, nothing faulting, and every final state has the argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun _ h c => (h c).2) (run_val m ρ)

end Cert.KernelIdeal.Hand

end
-- ==== Proof.Spec.lean ====
/-
  The two array functions both programs compute between their gathers and scatters, written once, for any float
  instance, with the operations of the reference program.

  One graph-convolution layer on node features `h` (N rows), given the three per-relation neighbour means
  `a0 a1 a2` (N rows each), the root weight, the bias and the three relation weights:
      relu ((((h · root + b) + a0 · w0) + a1 · w1) + a2 · w2)
  with the bias row repeated down the N rows and the additions in this order. The edge decoder on the E rows `x`
  of concatenated features: two affine maps each followed by relu, then a third affine map,
      (relu (relu (x · w1 + b1) · w2 + b2)) · w3 + b3.
  Every row of either result depends on the same row of the row-indexed operands only; that is what lets a kernel
  compute them block of rows by block of rows.
-/
import proofs.«100455_j65352222376641_1_alg».proof.Proof.Gen.ReferenceIdeal

noncomputable section

namespace Cert.Spec

open Cert.ReferenceIdeal Cert.ReferenceIdeal.Gen Idealize.ShloMosaic

variable {F : FTy → Type} [FloatOps F]

/-- The first layer (3 input features per node, 64 output features). -/
def layer3 (h : FVec F S50000x3 .f32) (root : FVec F S3x64 .f32) (b : FVec F S64 .f32)
    (a0 a1 a2 : FVec F S50000x3 .f32) (w0 w1 w2 : FVec F S3x64 .f32) : FVec F S50000x64 .f32 :=
  maximumf
    (addf (addf (addf (addf (Host.dotGeneral dot_S50000x3_S3x64_S50000x64_1_0_0_1_n_n none h root)
        (broadcastInDim S50000x64 ![0, 1] bcast_S1x64_S50000x64_0_1 (broadcastInDim S1x64 ![1] bcast_S64_S1x64_1 b)))
        (Host.dotGeneral dot_S50000x3_S3x64_S50000x64_1_0_0_1_n_n none a0 w0))
        (Host.dotGeneral dot_S50000x3_S3x64_S50000x64_1_0_0_1_n_n none a1 w1))
        (Host.dotGeneral dot_S50000x3_S3x64_S50000x64_1_0_0_1_n_n none a2 w2))
    (broadcastInDim S50000x64 ![] bcast_S_S50000x64 (constant S_ .f32 0x00000000#32))

/-- A later layer (64 input features per node, 64 output features). -/
def layer64 (h : FVec F S50000x64 .f32) (root : FVec F S64x64 .f32) (b : FVec F S64 .f32)
    (a0 a1 a2 : FVec F S50000x64 .f32) (w0 w1 w2 : FVec F S64x64 .f32) : FVec F S50000x64 .f32 :=
  maximumf
    (addf (addf (addf (addf (Host.dotGeneral dot_S50000x64_S64x64_S50000x64_1_0_0_1_n_n none h root)
        (broadcastInDim S50000x64 ![0, 1] bcast_S1x64_S50000x64_0_1 (broadcastInDim S1x64 ![1] bcast_S64_S1x64_1 b)))
        (Host.dotGeneral dot_S50000x64_S64x64_S50000x64_1_0_0_1_n_n none a0 w0))
        (Host.dotGeneral dot_S50000x64_S64x64_S50000x64_1_0_0_1_n_n none a1 w1))
        (Host.dotGeneral dot_S50000x64_S64x64_S50000x64_1_0_0_1_n_n none a2 w2))
    (broadcastInDim S50000x64 ![] bcast_S_S50000x64 (constant S_ .f32 0x00000000#32))

/-- The edge decoder (134 features per edge to one number per edge). -/
def decode (x : FVec F S1600000x134 .f32) (w1 : FVec F S134x32 .f32) (b1 : FVec F S32 .f32)
    (w2 : FVec F S32x16 .f32) (b2 : FVec F S16 .f32) (w3 : FVec F S16x1 .f32) (b3 : FVec F S1 .f32) :
    FVec F S1600000x1 .f32 :=
  addf (Host.dotGeneral dot_S1600000x16_S16x1_S1600000x1_1_0_0_1_n_n none
      (maximumf (addf (Host.dotGeneral dot_S1600000x32_S32x16_S1600000x16_1_0_0_1_n_n none
          (maximumf (addf (Host.dotGeneral dot_S1600000x134_S134x32_S1600000x32_1_0_0_1_n_n none x w1)
              (broadcastInDim S1600000x32 ![0, 1] bcast_S1x32_S1600000x32_0_1 (broadcastInDim S1x32 ![1] bcast_S32_S1x32_1 b1)))
            (broadcastInDim S1600000x32 ![] bcast_S_S1600000x32 (constant S_ .f32 0x00000000#32)))
          w2)
          (broadcastInDim S1600000x16 ![0, 1] bcast_S1x16_S1600000x16_0_1 (broadcastInDim S1x16 ![1] bcast_S16_S1x16_1 b2)))
        (broadcastInDim S1600000x16 ![] bcast_S_S1600000x16 (constant S_ .f32 0x00000000#32)))
      w3)
    (broadcastInDim S1600000x1 ![0, 1] bcast_S1x1_S1600000x1_0_1 (broadcastInDim S1x1 ![1] bcast_S1_S1x1_1 b3))

end Cert.Spec

end
-- ==== Proof.LibPlainDot.lean ====
/-
  A matrix product with plain dimension numbers, read at an index on the extended reals.

  For an `M×K` by `K×N` contraction (left axis 1 against right axis 0, no batch axis) the element at `(r, c)` of
  a matrix-unit product into a zero accumulator, and of the host's `dot_general`, is the sum over `k : Fin K` of
  `l (r, k) * w (k, c)`: the contraction's one-axis index type is re-indexed by its single coordinate.
-/
import Idealize.ShloMosaic.PureOps.Ideal.Laws
import Idealize.ShloMosaic.Lib.ValueIdx

noncomputable section

namespace Cert.PlainDot

open Idealize.ShloMosaic Idealize.ShloMosaic.ValueIdx

/-- The contraction sum of a plain `M×K` by `K×N` product at output index `j`, over `Fin K`. -/
theorem contr_sum (M K N : Nat) (l : (⟨2, ![M, K]⟩ : Shape).Idx → EReal) (w : (⟨2, ![K, N]⟩ : Shape).Idx → EReal)
    (j : (⟨2, ![M, N]⟩ : Shape).Idx) :
    (∑ q : (DotDims.plain M K N).contr.Idx, l ((DotDims.plain M K N).lhsIdx j q) * w ((DotDims.plain M K N).rhsIdx j q))
      = ∑ k : Fin K, l (ix2 (j 0) k) * w (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => rfl
      | ⟨1, _⟩ => exact hk)
  have er : (DotDims.plain M K N).rhsIdx j ((contrEquiv1 (DotDims.plain M K N) K rfl rfl).symm k) = ix2 k (j 1) :=
    funext fun a => Fin.ext (by
      match a with
      | ⟨0, _⟩ => exact hk
      | ⟨1, _⟩ => rfl)
  rw [el, er]
  rfl

/-- A matrix-unit product into the zero accumulator, at an index. -/
theorem matmul_zero_apply (M K N : Nat) {φ₁ φ₂ : FTy} (prec : Option ContractPrecision)
    (l : FVec Ideal (⟨2, ![M, K]⟩ : Shape) φ₁) (w : FVec Ideal (⟨2, ![K, N]⟩ : Shape) φ₂) (j : (⟨2, ![M, N]⟩ : Shape).Idx) :
    FloatOps.matmul (DotDims.plain M K N) prec l w (constant (⟨2, ![M, N]⟩ : Shape) .f32 0x00000000#32) j
      = ∑ k : Fin K, l (ix2 (j 0) k) * w (ix2 k (j 1)) :=
  (Ideal.matmul_constant_zero_apply (DotDims.plain M K N) prec l w j).trans (contr_sum M K N l w j)

/-- The host's `dot_general`, at an index. -/
theorem dotGeneral_apply (M K N : Nat) {φ₁ φ₂ : FTy} (prec : Option ContractPrecision) (sched : HostSchedule)
    (l : FVec Ideal (⟨2, ![M, K]⟩ : Shape) φ₁) (w : FVec Ideal (⟨2, ![K, N]⟩ : Shape) φ₂) (j : (⟨2, ![M, N]⟩ : Shape).Idx) :
    FloatOps.dotGeneral (DotDims.plain M K N) prec sched l w j
      = ∑ k : Fin K, l (ix2 (j 0) k) * w (ix2 k (j 1)) :=
  (Ideal.dotGeneral_apply (DotDims.plain M K N) prec sched l w j).trans (contr_sum M K N l w j)

end Cert.PlainDot

end
-- ==== Proof.BlockMath.lean ====
/-
  Each kernel block's arithmetic is the same rows of the whole-array function.

  A graph-convolution layer's value at row `n` uses row `n` of the node features and of the three neighbour means
  and nothing else of those arrays; the edge decoder's value at row `e` uses row `e` of the edge features only.
  So a block of consecutive rows of the result is that function of the same block of rows of the row-indexed
  operands: read at an index, both sides are the same sums of the same products, added in the same order, with the
  same bias and the same maximum with zero.
-/
import proofs.«100455_j65352222376641_1_alg».proof.Proof.Spec
import proofs.«100455_j65352222376641_1_alg».proof.Proof.LibPlainDot
import proofs.«100455_j65352222376641_1_alg».proof.Proof.Gen.KernelIdeal.Skeleton
import Idealize.ShloMosaic.Lib.ValueIdx
import Idealize.ShloMosaic.Lib.ValueLayout

noncomputable section

namespace Cert.BlockMath

open Idealize.ShloMosaic Idealize.ShloMosaic.ValueIdx

/-- Row `r` of block `t` of ten blocks of 5000 rows. -/
def row5k (t : Fin 10) (r : Fin 5000) : Fin 50000 := ⟨5000 * t.val + r.val, by omega⟩

/-- Row `r` of block `t` of a hundred blocks of 16000 rows. -/
def row16k (t : Fin 100) (r : Fin 16000) : Fin 1600000 := ⟨16000 * t.val + r.val, by omega⟩

/-! ## The operations of both programs, read at an index of a block and of the whole array -/

/-- A maximum at an index of one array is the maximum at an index of another when the operands agree there. -/
theorem max_pair {s s' : Shape} (a z : FVec Ideal s .f32) (a' z' : FVec Ideal s' .f32) (i : s.Idx) (i' : s'.Idx)
    (ha : a i = a' i') (hz : z i = z' i') : maximumf a z i = maximumf a' z' i' := by
  show max (a i) (z i) = max (a' i') (z' i')
  rw [ha, hz]

/-- A sum at an index of one array is the sum at an index of another when the operands agree there. -/
theorem add_pair {s s' : Shape} (a c : FVec Ideal s .f32) (a' c' : FVec Ideal s' .f32) (i : s.Idx) (i' : s'.Idx)
    (ha : a i = a' i') (hc : c i = c' i') : addf a c i = addf a' c' i' := by
  show a i + c i = a' i' + c' i'
  rw [ha, hc]

/-- The block's matrix-unit product into a zero accumulator at row `r` is the host's product of the whole array at row
    `R` when row `r` of the block's left operand is row `R` of the array's and the weights agree: the same sum over
    the contracted axis. -/
theorem dot_pair (M M' K N : Nat) (D : DotDims ⟨2, ![M, K]⟩ ⟨2, ![K, N]⟩ ⟨2, ![M, N]⟩) (hD : D = DotDims.plain M K N)
    (D' : DotDims ⟨2, ![M', K]⟩ ⟨2, ![K, N]⟩ ⟨2, ![M', N]⟩) (hD' : D' = DotDims.plain M' K N)
    (l : FVec Ideal ⟨2, ![M, K]⟩ .f32) (L : FVec Ideal ⟨2, ![M', K]⟩ .f32) (w W : FVec Ideal ⟨2, ![K, N]⟩ .f32)
    (r : Fin M) (R : Fin M') (q : Fin N) (hrow : ∀ k : Fin K, l (ix2 r k) = L (ix2 R k))
    (hw : ∀ k : Fin K, w (ix2 k q) = W (ix2 k q)) :
    matmul D none l w (constant (F := Ideal) ⟨2, ![M, N]⟩ .f32 0x00000000#32) (ix2 r q)
      = Host.dotGeneral D' none L W (ix2 R q) := by
  subst hD hD'
  refine (Cert.PlainDot.matmul_zero_apply M K N none l w (ix2 r q)).trans ?_
  refine Eq.trans ?_ (Cert.PlainDot.dotGeneral_apply M' K N none .single L W (ix2 R q)).symm
  refine Finset.sum_congr rfl fun k _ => ?_
  show l (ix2 r k) * w (ix2 k q) = L (ix2 R k) * W (ix2 k q)
  rw [hrow k, hw k]

/-- The bias row, cast to one row and repeated down the block, is at `(r, q)` the bias at `q`; so is the host's
    bias broadcast to one row and then down the whole array, at `(R, q)`. -/
theorem bias_pair (M M' N : Nat) (b : FVec Ideal ⟨1, ![N]⟩ .f32)
    (hc : (⟨1, ![N]⟩ : Shape).ShapeCasts ⟨2, ![1, N]⟩) (hb : (⟨2, ![1, N]⟩ : Shape).Broadcasts ⟨2, ![M, N]⟩)
    (h1 : (⟨1, ![N]⟩ : Shape).BroadcastsInDim ⟨2, ![1, N]⟩ ![1])
    (h2 : (⟨2, ![1, N]⟩ : Shape).BroadcastsInDim ⟨2, ![M', N]⟩ ![0, 1]) (r : Fin M) (R : Fin M') (q : Fin N) :
    broadcastTo ⟨2, ![M, N]⟩ (shapeCast ⟨2, ![1, N]⟩ b hc) hb (ix2 r q)
      = broadcastInDim ⟨2, ![M', N]⟩ ![0, 1] h2 (broadcastInDim ⟨2, ![1, N]⟩ ![1] h1 b) (ix2 R q) := by
  refine (broadcastTo_1b_ab_apply _ hb r q).trans ?_
  refine (shapeCast_a_1a_apply b hc 0 q).trans ?_
  symm
  refine (broadcastInDim_apply ![0, 1] h2 _ (ix2 R q) (ix2 (0 : Fin 1) q) fun a => ?_).trans ?_
  · match a with
    | ⟨0, _⟩ => rfl
    | ⟨1, _⟩ =>
      show q.val = if N = 1 then 0 else q.val
      split
      · have := q.isLt; omega
      · rfl
  · refine broadcastInDim_apply ![1] h1 b (ix2 (0 : Fin 1) q) (ix1 q) fun a => ?_
    match a with
    | ⟨0, _⟩ =>
      show q.val = if N = 1 then 0 else q.val
      split
      · have := q.isLt; omega
      · rfl

/-- The block's zero (a scalar repeated) and the host's zero (a rank-0 constant broadcast) are the same number. -/
theorem zero_pair (s s' : Shape) (hz : (⟨0, ![]⟩ : Shape).BroadcastsInDim s' ![]) (i : s.Idx) (i' : s'.Idx) :
    broadcast s (Scalar.ofBits (F := Ideal) .f32 0x00000000#32) i
      = broadcastInDim s' ![] hz (constant (F := Ideal) ⟨0, ![]⟩ .f32 0x00000000#32) i' := rfl

/-! ## The four blocks -/

/-- The first layer's block. -/
theorem pay0_eq (X A0 A1 A2 : FVec Ideal ⟨2, ![50000, 3]⟩ .f32) (root w0 w1 w2 : FVec Ideal ⟨2, ![3, 64]⟩ .f32)
    (b : FVec Ideal ⟨1, ![64]⟩ .f32) (xb a0b a1b a2b : FVec Ideal ⟨2, ![5000, 3]⟩ .f32) (t : Fin 10)
    (hx : ∀ (r : Fin 5000) (k : Fin 3), xb (ix2 r k) = X (ix2 (row5k t r) k))
    (h0 : ∀ (r : Fin 5000) (k : Fin 3), a0b (ix2 r k) = A0 (ix2 (row5k t r) k))
    (h1 : ∀ (r : Fin 5000) (k : Fin 3), a1b (ix2 r k) = A1 (ix2 (row5k t r) k))
    (h2 : ∀ (r : Fin 5000) (k : Fin 3), a2b (ix2 r k) = A2 (ix2 (row5k t r) k))
    (r : Fin 5000) (q : Fin 64) :
    Cert.KernelIdeal.Gen.k0_pay1 (F := Ideal) xb root b a0b w0 a1b w1 a2b w2 (ix2 r q)
      = Cert.Spec.layer3 (F := Ideal) X root b A0 A1 A2 w0 w1 w2 (ix2 (row5k t r) q) := by
  unfold Cert.KernelIdeal.Gen.k0_pay1 Cert.Spec.layer3
  refine max_pair _ _ _ _ _ _ ?_ (zero_pair _ _ _ _ _)
  refine add_pair _ _ _ _ _ _ (add_pair _ _ _ _ _ _ (add_pair _ _ _ _ _ _ (add_pair _ _ _ _ _ _ ?_ ?_) ?_) ?_) ?_
  · exact dot_pair 5000 50000 3 64 _ rfl _ rfl xb X root root r (row5k t r) q (hx r) (fun _ => rfl)
  · exact bias_pair 5000 50000 64 b _ _ _ _ r (row5k t r) q
  · exact dot_pair 5000 50000 3 64 _ rfl _ rfl _ A0 _ w0 r (row5k t r) q
      (fun k => (congrFun (shapeCast_self a0b _) (ix2 r k)).trans (h0 r k))
      (fun k => congrFun (shapeCast_self w0 _) (ix2 k q))
  · exact dot_pair 5000 50000 3 64 _ rfl _ rfl _ A1 _ w1 r (row5k t r) q
      (fun k => (congrFun (shapeCast_self a1b _) (ix2 r k)).trans (h1 r k))
      (fun k => congrFun (shapeCast_self w1 _) (ix2 k q))
  · exact dot_pair 5000 50000 3 64 _ rfl _ rfl _ A2 _ w2 r (row5k t r) q
      (fun k => (congrFun (shapeCast_self a2b _) (ix2 r k)).trans (h2 r k))
      (fun k => congrFun (shapeCast_self w2 _) (ix2 k q))

/-- The second layer's block. -/
theorem pay1_eq (X A0 A1 A2 : FVec Ideal ⟨2, ![50000, 64]⟩ .f32) (root w0 w1 w2 : FVec Ideal ⟨2, ![64, 64]⟩ .f32)
    (b : FVec Ideal ⟨1, ![64]⟩ .f32) (xb a0b a1b a2b : FVec Ideal ⟨2, ![5000, 64]⟩ .f32) (t : Fin 10)
    (hx : ∀ (r : Fin 5000) (k : Fin 64), xb (ix2 r k) = X (ix2 (row5k t r) k))
    (h0 : ∀ (r : Fin 5000) (k : Fin 64), a0b (ix2 r k) = A0 (ix2 (row5k t r) k))
    (h1 : ∀ (r : Fin 5000) (k : Fin 64), a1b (ix2 r k) = A1 (ix2 (row5k t r) k))
    (h2 : ∀ (r : Fin 5000) (k : Fin 64), a2b (ix2 r k) = A2 (ix2 (row5k t r) k))
    (r : Fin 5000) (q : Fin 64) :
    Cert.KernelIdeal.Gen.k1_pay1 (F := Ideal) xb root b a0b w0 a1b w1 a2b w2 (ix2 r q)
      = Cert.Spec.layer64 (F := Ideal) X root b A0 A1 A2 w0 w1 w2 (ix2 (row5k t r) q) := by
  unfold Cert.KernelIdeal.Gen.k1_pay1 Cert.Spec.layer64
  refine max_pair _ _ _ _ _ _ ?_ (zero_pair _ _ _ _ _)
  refine add_pair _ _ _ _ _ _ (add_pair _ _ _ _ _ _ (add_pair _ _ _ _ _ _ (add_pair _ _ _ _ _ _ ?_ ?_) ?_) ?_) ?_
  · exact dot_pair 5000 50000 64 64 _ rfl _ rfl _ X root root r (row5k t r) q
      (fun k => (congrFun (shapeCast_self xb _) (ix2 r k)).trans (hx r k)) (fun _ => rfl)
  · exact bias_pair 5000 50000 64 b _ _ _ _ r (row5k t r) q
  · exact dot_pair 5000 50000 64 64 _ rfl _ rfl _ A0 _ w0 r (row5k t r) q
      (fun k => (congrFun (shapeCast_self a0b _) (ix2 r k)).trans (h0 r k))
      (fun k => congrFun (shapeCast_self w0 _) (ix2 k q))
  · exact dot_pair 5000 50000 64 64 _ rfl _ rfl _ A1 _ w1 r (row5k t r) q
      (fun k => (congrFun (shapeCast_self a1b _) (ix2 r k)).trans (h1 r k))
      (fun k => congrFun (shapeCast_self w1 _) (ix2 k q))
  · exact dot_pair 5000 50000 64 64 _ rfl _ rfl _ A2 _ w2 r (row5k t r) q
      (fun k => (congrFun (shapeCast_self a2b _) (ix2 r k)).trans (h2 r k))
      (fun k => congrFun (shapeCast_self w2 _) (ix2 k q))

/-- The third layer's block. -/
theorem pay2_eq (X A0 A1 A2 : FVec Ideal ⟨2, ![50000, 64]⟩ .f32) (root w0 w1 w2 : FVec Ideal ⟨2, ![64, 64]⟩ .f32)
    (b : FVec Ideal ⟨1, ![64]⟩ .f32) (xb a0b a1b a2b : FVec Ideal ⟨2, ![5000, 64]⟩ .f32) (t : Fin 10)
    (hx : ∀ (r : Fin 5000) (k : Fin 64), xb (ix2 r k) = X (ix2 (row5k t r) k))
    (h0 : ∀ (r : Fin 5000) (k : Fin 64), a0b (ix2 r k) = A0 (ix2 (row5k t r) k))
    (h1 : ∀ (r : Fin 5000) (k : Fin 64), a1b (ix2 r k) = A1 (ix2 (row5k t r) k))
    (h2 : ∀ (r : Fin 5000) (k : Fin 64), a2b (ix2 r k) = A2 (ix2 (row5k t r) k))
    (r : Fin 5000) (q : Fin 64) :
    Cert.KernelIdeal.Gen.k2_pay1 (F := Ideal) xb root b a0b w0 a1b w1 a2b w2 (ix2 r q)
      = Cert.Spec.layer64 (F := Ideal) X root b A0 A1 A2 w0 w1 w2 (ix2 (row5k t r) q) := by
  unfold Cert.KernelIdeal.Gen.k2_pay1 Cert.Spec.layer64
  refine max_pair _ _ _ _ _ _ ?_ (zero_pair _ _ _ _ _)
  refine add_pair _ _ _ _ _ _ (add_pair _ _ _ _ _ _ (add_pair _ _ _ _ _ _ (add_pair _ _ _ _ _ _ ?_ ?_) ?_) ?_) ?_
  · exact dot_pair 5000 50000 64 64 _ rfl _ rfl _ X root root r (row5k t r) q
      (fun k => (congrFun (shapeCast_self xb _) (ix2 r k)).trans (hx r k)) (fun _ => rfl)
  · exact bias_pair 5000 50000 64 b _ _ _ _ r (row5k t r) q
  · exact dot_pair 5000 50000 64 64 _ rfl _ rfl _ A0 _ w0 r (row5k t r) q
      (fun k => (congrFun (shapeCast_self a0b _) (ix2 r k)).trans (h0 r k))
      (fun k => congrFun (shapeCast_self w0 _) (ix2 k q))
  · exact dot_pair 5000 50000 64 64 _ rfl _ rfl _ A1 _ w1 r (row5k t r) q
      (fun k => (congrFun (shapeCast_self a1b _) (ix2 r k)).trans (h1 r k))
      (fun k => congrFun (shapeCast_self w1 _) (ix2 k q))
  · exact dot_pair 5000 50000 64 64 _ rfl _ rfl _ A2 _ w2 r (row5k t r) q
      (fun k => (congrFun (shapeCast_self a2b _) (ix2 r k)).trans (h2 r k))
      (fun k => congrFun (shapeCast_self w2 _) (ix2 k q))

/-- The edge decoder's block: three affine maps, the first two each followed by the maximum with zero. Row `r` of each
    stage's result is a function of row `r` of the stage's operand, so the rows agree stage by stage, from the last
    sum inwards to the edge features. -/
theorem pay3_eq (X : FVec Ideal ⟨2, ![1600000, 134]⟩ .f32) (w1 : FVec Ideal ⟨2, ![134, 32]⟩ .f32) (b1 : FVec Ideal ⟨1, ![32]⟩ .f32)
    (w2 : FVec Ideal ⟨2, ![32, 16]⟩ .f32) (b2 : FVec Ideal ⟨1, ![16]⟩ .f32) (w3 : FVec Ideal ⟨2, ![16, 1]⟩ .f32)
    (b3 : FVec Ideal ⟨1, ![1]⟩ .f32) (xb : FVec Ideal ⟨2, ![16000, 134]⟩ .f32) (t : Fin 100)
    (hx : ∀ (r : Fin 16000) (k : Fin 134), xb (ix2 r k) = X (ix2 (row16k t r) k))
    (r : Fin 16000) (q : Fin 1) :
    Cert.KernelIdeal.Gen.k3_pay1 (F := Ideal) xb w1 b1 w2 b2 w3 b3 (ix2 r q)
      = Cert.Spec.decode (F := Ideal) X w1 b1 w2 b2 w3 b3 (ix2 (row16k t r) q) := by
  unfold Cert.KernelIdeal.Gen.k3_pay1 Cert.Spec.decode
  refine add_pair _ _ _ _ _ _ ?_ (bias_pair 16000 1600000 1 b3 _ _ _ _ r (row16k t r) q)
  refine dot_pair 16000 1600000 16 1 _ rfl _ rfl _ _ w3 w3 r (row16k t r) q (fun k2 => ?_) (fun _ => rfl)
  refine max_pair _ _ _ _ _ _ ?_ (zero_pair _ _ _ _ _)
  refine add_pair _ _ _ _ _ _ ?_ (bias_pair 16000 1600000 16 b2 _ _ _ _ r (row16k t r) k2)
  refine dot_pair 16000 1600000 32 16 _ rfl _ rfl _ _ w2 w2 r (row16k t r) k2 (fun k1 => ?_) (fun _ => rfl)
  refine max_pair _ _ _ _ _ _ ?_ (zero_pair _ _ _ _ _)
  refine add_pair _ _ _ _ _ _ ?_ (bias_pair 16000 1600000 32 b1 _ _ _ _ r (row16k t r) k1)
  exact dot_pair 16000 1600000 134 32 _ rfl _ rfl _ X w1 w1 r (row16k t r) k1
    (fun k => (congrFun (shapeCast_self xb _) (ix2 r k)).trans (hx r k)) (fun _ => rfl)

end Cert.BlockMath

end
-- ==== Proof.KI.RegionVal0.lean ====
/-
  Region 0 of the program, read as a value at the extended reals: the array the region's result window ends holding
  is one graph-convolution layer (Cert.Spec.layer3) of the arrays the region finds.

  A grid point's block of a row-blocked operand is the operand's rows of that point's block row, and a weight or bias
  window's block is the whole operand; the body's stored value at a row of its block is therefore the whole-array
  function at the corresponding row of the array (the block lemma of the mathematics module). The blocks of the result
  window tile the result array by block rows, so the array ends holding that function everywhere.
-/
import proofs.«100455_j65352222376641_1_alg».proof.Proof.KI.Body0
import proofs.«100455_j65352222376641_1_alg».proof.Proof.Spec
import proofs.«100455_j65352222376641_1_alg».proof.Proof.BlockMath
import Idealize.ShloMosaic.Lib.Pipeline.Value
import Idealize.ShloMosaic.Lib.ValueIdx

set_option maxRecDepth 16384

noncomputable section

namespace Cert.KernelIdeal.HandVal0

open Cert.KernelIdeal Cert.KernelIdeal.Gen Cert.KernelIdeal.Hand
open Idealize.ShloMosaic Idealize.ShloMosaic.TcCoe Idealize.ShloMosaic.ValueIdx
open Idealize.SL.Sem
open Cert.BlockMath
open Idealize.ShloMosaic.Pipeline (Dat Cfg Window)

theorem hz2 : (![0, 0] : Fin 2 → Nat) = fun _ => 0 := funext fun a => by fin_cases a <;> rfl
theorem hz1 : (![0] : Fin 1 → Nat) = fun _ => 0 := funext fun a => by fin_cases a <;> rfl

variable (V : (c : Dev nD) → (b : Ref sig .tc) → Buf (Elt Ideal) ((c : Thread nD τ).loc b))

/-- The printed index maps over the grid: the row-blocked windows sit at block row `t`, the others at their whole array. -/
theorem idx_facts0 : ∀ t : Fin cfg0.N,
    (win0_0.index t (0 : Fin 2) = t.val ∧ win0_0.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_9.index t (0 : Fin 2) = t.val ∧ win0_9.index t (1 : Fin 2) = 0)
    ∧ (win0_1.index t (0 : Fin 2) = 0 ∧ win0_1.index t (1 : Fin 2) = 0)
    ∧ win0_2.index t (0 : Fin 1) = 0
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0) :=
  (by decide +kernel : ∀ t : Fin grid0.N, _)

/-- The number of a grid point, as a number below the grid's size. -/
def pt0 (t : Fin cfg0.N) : Fin 10 := ⟨t.val, by have h := t.isLt; have hN : cfg0.N = 10 := N_0; omega⟩

/-! A window whose block is its whole array: the block read off the array is the array. -/
theorem iblk0_1 (c : Dev nD) (t : Fin cfg0.N) : iblk0 V c 1 t = V c main_arg4 := by
  have e := idx_facts0 t
  unfold iblk0
  funext y
  rw [View.read_apply]
  refine congrArg (V c main_arg4) ?_
  funext a; apply Fin.ext
  match a with
  | ⟨0, _⟩ => show win0_1.index t (0 : Fin 2) * 3 + 1 * (y 0).val = (y 0).val; omega
  | ⟨1, _⟩ => show win0_1.index t (1 : Fin 2) * 64 + 1 * (y 1).val = (y 1).val; omega
theorem iblk0_2 (c : Dev nD) (t : Fin cfg0.N) : iblk0 V c 2 t = V c main_arg5 := by
  have e := idx_facts0 t
  unfold iblk0
  funext y
  rw [View.read_apply]
  refine congrArg (V c main_arg5) ?_
  funext a; apply Fin.ext
  match a with
  | ⟨0, _⟩ => show win0_2.index t (0 : Fin 1) * 64 + 1 * (y 0).val = (y 0).val; omega
theorem iblk0_6 (c : Dev nD) (t : Fin cfg0.N) : iblk0 V c 6 t = V c main_v69 := by
  have e := idx_facts0 t
  unfold iblk0
  funext y
  rw [View.read_apply]
  refine congrArg (V c main_v69) ?_
  funext a; apply Fin.ext
  match a with
  | ⟨0, _⟩ => show win0_6.index t (0 : Fin 2) * 3 + 1 * (y 0).val = (y 0).val; omega
  | ⟨1, _⟩ => show win0_6.index t (1 : Fin 2) * 64 + 1 * (y 1).val = (y 1).val; omega
theorem iblk0_7 (c : Dev nD) (t : Fin cfg0.N) : iblk0 V c 7 t = V c main_v71 := by
  have e := idx_facts0 t
  unfold iblk0
  funext y
  rw [View.read_apply]
  refine congrArg (V c main_v71) ?_
  funext a; apply Fin.ext
  match a with
  | ⟨0, _⟩ => show win0_7.index t (0 : Fin 2) * 3 + 1 * (y 0).val = (y 0).val; omega
  | ⟨1, _⟩ => show win0_7.index t (1 : Fin 2) * 64 + 1 * (y 1).val = (y 1).val; omega
theorem iblk0_8 (c : Dev nD) (t : Fin cfg0.N) : iblk0 V c 8 t = V c main_v73 := by
  have e := idx_facts0 t
  unfold iblk0
  funext y
  rw [View.read_apply]
  refine congrArg (V c main_v73) ?_
  funext a; apply Fin.ext
  match a with
  | ⟨0, _⟩ => show win0_8.index t (0 : Fin 2) * 3 + 1 * (y 0).val = (y 0).val; omega
  | ⟨1, _⟩ => show win0_8.index t (1 : Fin 2) * 64 + 1 * (y 1).val = (y 1).val; omega

/-! A row-blocked window: the block's rows are the array's rows of block row `t`. -/
theorem iblk0_0 (c : Dev nD) (t : Fin cfg0.N) (r : Fin 5000) (k : Fin 3) :
    iblk0 V c 0 t (ix2 r k) = V c main_arg0 (ix2 (row5k (pt0 t) r) k) := by
  have e := idx_facts0 t
  unfold iblk0
  rw [View.read_apply]
  refine congrArg (V c main_arg0) ?_
  funext a; apply Fin.ext
  match a with
  | ⟨0, _⟩ => show win0_0.index t (0 : Fin 2) * 5000 + 1 * r.val = 5000 * (pt0 t).val + r.val; show _ = 5000 * t.val + r.val; omega
  | ⟨1, _⟩ => show win0_0.index t (1 : Fin 2) * 3 + 1 * k.val = k.val; omega
theorem iblk0_3 (c : Dev nD) (t : Fin cfg0.N) (r : Fin 5000) (k : Fin 3) :
    iblk0 V c 3 t (ix2 r k) = V c main_v35 (ix2 (row5k (pt0 t) r) k) := by
  have e := idx_facts0 t
  unfold iblk0
  rw [View.read_apply]
  refine congrArg (V c main_v35) ?_
  funext a; apply Fin.ext
  match a with
  | ⟨0, _⟩ => show win0_3.index t (0 : Fin 2) * 5000 + 1 * r.val = 5000 * (pt0 t).val + r.val; show _ = 5000 * t.val + r.val; omega
  | ⟨1, _⟩ => show win0_3.index t (1 : Fin 2) * 3 + 1 * k.val = k.val; omega
theorem iblk0_4 (c : Dev nD) (t : Fin cfg0.N) (r : Fin 5000) (k : Fin 3) :
    iblk0 V c 4 t (ix2 r k) = V c main_v51 (ix2 (row5k (pt0 t) r) k) := by
  have e := idx_facts0 t
  unfold iblk0
  rw [View.read_apply]
  refine congrArg (V c main_v51) ?_
  funext a; apply Fin.ext
  match a with
  | ⟨0, _⟩ => show win0_4.index t (0 : Fin 2) * 5000 + 1 * r.val = 5000 * (pt0 t).val + r.val; show _ = 5000 * t.val + r.val; omega
  | ⟨1, _⟩ => show win0_4.index t (1 : Fin 2) * 3 + 1 * k.val = k.val; omega
theorem iblk0_5 (c : Dev nD) (t : Fin cfg0.N) (r : Fin 5000) (k : Fin 3) :
    iblk0 V c 5 t (ix2 r k) = V c main_v67 (ix2 (row5k (pt0 t) r) k) := by
  have e := idx_facts0 t
  unfold iblk0
  rw [View.read_apply]
  refine congrArg (V c main_v67) ?_
  funext a; apply Fin.ext
  match a with
  | ⟨0, _⟩ => show win0_5.index t (0 : Fin 2) * 5000 + 1 * r.val = 5000 * (pt0 t).val + r.val; show _ = 5000 * t.val + r.val; omega
  | ⟨1, _⟩ => show win0_5.index t (1 : Fin 2) * 3 + 1 * k.val = k.val; omega

/-- What point `t` writes back is block `t` of the layer applied to the whole arrays. -/
theorem flushed0_eq (c : Dev nD) (t : Fin cfg0.N) :
    (dat0 V c).flushed 9 t = ((cfg0.win 9).blk t).view.read (Elt Ideal)
      (Cert.Spec.layer3 (F := Ideal) (V c main_arg0) (V c main_arg4) (V c main_arg5) (V c main_v35) (V c main_v51) (V c main_v67) (V c main_v69) (V c main_v71) (V c main_v73)) := by
  show (cfg0.win 9).cut (grid0.coords t) ((dat0 V c).after 9 t) = _
  rw [after0_9]
  unfold out0_9
  rw [View.canon_unit_zero hz2]
  simp only [View.ld_unit_zero (S := S5000x3) hz2, View.ld_unit_zero (S := S3x64) hz2, View.ld_unit_zero (S := S64) hz1]
  rw [iblk0_1, iblk0_2, iblk0_6, iblk0_7, iblk0_8]
  have e := idx_facts0 t
  funext j
  obtain ⟨p, q, rfl⟩ : ∃ (p : Fin 5000) (q : Fin 64), j = ix2 p q := ⟨j 0, j 1, eq_ix2 j⟩
  rw [View.read_apply]
  refine (pay0_eq (V c main_arg0) (V c main_v35) (V c main_v51) (V c main_v67) (V c main_arg4) (V c main_v69) (V c main_v71) (V c main_v73) (V c main_arg5)
    (iblk0 V c 0 t) (iblk0 V c 3 t) (iblk0 V c 4 t) (iblk0 V c 5 t) (pt0 t)
    (fun r k => iblk0_0 V c t r k) (fun r k => iblk0_3 V c t r k) (fun r k => iblk0_4 V c t r k) (fun r k => iblk0_5 V c t r k) p q).trans ?_
  refine congrArg (Cert.Spec.layer3 (F := Ideal) (V c main_arg0) (V c main_arg4) (V c main_arg5) (V c main_v35) (V c main_v51) (V c main_v67) (V c main_v69) (V c main_v71) (V c main_v73)) ?_
  funext a; apply Fin.ext
  match a with
  | ⟨0, _⟩ => show 5000 * (pt0 t).val + p.val = win0_9.index t (0 : Fin 2) * 5000 + 1 * p.val; show 5000 * t.val + p.val = _; omega
  | ⟨1, _⟩ => show q.val = win0_9.index t (1 : Fin 2) * 64 + 1 * q.val; omega

theorem mem_blk0 (t : Fin cfg0.N) (i : S50000x64.Idx) :
    i ∈ ((cfg0.win 9).blk t).view.set ↔ ∀ a : Fin 2, win0_9.index t a * S5000x64.size a ≤ (i a).val ∧ (i a).val < win0_9.index t a * S5000x64.size a + S5000x64.size a := by
  show i ∈ ((View.whole main_v74).slice (win0_9.rect t)).set ↔ _
  rw [View.set_slice_whole, Rect.mem_set_unit]
  exact Iff.rfl

/-- Every row of the result array lies in the block of the point that is its block row. -/
theorem cover0 (i : S50000x64.Idx) : ∃ t : Fin cfg0.N, (cfg0.win 9).flush t = true ∧ i ∈ ((cfg0.win 9).blk t).view.set := by
  have hi0 : (i 0).val < 50000 := (i 0).isLt
  have hi1 : (i 1).val < 64 := (i 1).isLt
  have hN : cfg0.N = 10 := N_0
  let t : Fin cfg0.N := ⟨(i 0).val / 5000, by rw [hN]; omega⟩
  have e := idx_facts0 t
  refine ⟨t, flush0_9 t, ?_⟩
  rw [mem_blk0]
  intro a
  have ht : t.val = (i 0).val / 5000 := rfl
  match a with
  | ⟨0, _⟩ => show win0_9.index t (0 : Fin 2) * 5000 ≤ (i 0).val ∧ (i 0).val < win0_9.index t (0 : Fin 2) * 5000 + 5000; omega
  | ⟨1, _⟩ => show win0_9.index t (1 : Fin 2) * 64 ≤ (i 1).val ∧ (i 1).val < win0_9.index t (1 : Fin 2) * 64 + 64; omega

/-- The region's result array after the region: the layer of the arrays as the region finds them. -/
theorem region0_val (c : Dev nD) :
    (dat0 V c).arrAt 9 cfg0.N = Cert.Spec.layer3 (F := Ideal) (V c main_arg0) (V c main_arg4) (V c main_arg5) (V c main_v35) (V c main_v51) (V c main_v67) (V c main_v69) (V c main_v71) (V c main_v73) :=
  (dat0 V c).arrAt_eq_of_cover 9 _ (fun t _ => flushed0_eq V c t) cover0

end Cert.KernelIdeal.HandVal0

end
-- ==== Proof.KI.RegionVal1.lean ====
/-
  Region 1 of the program, read as a value at the extended reals: the array the region's result window ends holding
  is one graph-convolution layer (Cert.Spec.layer64) of the arrays the region finds.

  A grid point's block of a row-blocked operand is the operand's rows of that point's block row, and a weight or bias
  window's block is the whole operand; the body's stored value at a row of its block is therefore the whole-array
  function at the corresponding row of the array (the block lemma of the mathematics module). The blocks of the result
  window tile the result array by block rows, so the array ends holding that function everywhere.
-/
import proofs.«100455_j65352222376641_1_alg».proof.Proof.KI.Body1
import proofs.«100455_j65352222376641_1_alg».proof.Proof.Spec
import proofs.«100455_j65352222376641_1_alg».proof.Proof.BlockMath
import Idealize.ShloMosaic.Lib.Pipeline.Value
import Idealize.ShloMosaic.Lib.ValueIdx

set_option maxRecDepth 16384

noncomputable section

namespace Cert.KernelIdeal.HandVal1

open Cert.KernelIdeal Cert.KernelIdeal.Gen Cert.KernelIdeal.Hand
open Idealize.ShloMosaic Idealize.ShloMosaic.TcCoe Idealize.ShloMosaic.ValueIdx
open Idealize.SL.Sem
open Cert.BlockMath
open Idealize.ShloMosaic.Pipeline (Dat Cfg Window)

theorem hz2 : (![0, 0] : Fin 2 → Nat) = fun _ => 0 := funext fun a => by fin_cases a <;> rfl
theorem hz1 : (![0] : Fin 1 → Nat) = fun _ => 0 := funext fun a => by fin_cases a <;> rfl

variable (V : (c : Dev nD) → (b : Ref sig .tc) → Buf (Elt Ideal) ((c : Thread nD τ).loc b))

/-- The printed index maps over the grid: the row-blocked windows sit at block row `t`, the others at their whole array. -/
theorem idx_facts1 : ∀ t : Fin cfg1.N,
    (win1_0.index t (0 : Fin 2) = t.val ∧ win1_0.index t (1 : Fin 2) = 0)
    ∧ (win1_3.index t (0 : Fin 2) = t.val ∧ win1_3.index t (1 : Fin 2) = 0)
    ∧ (win1_4.index t (0 : Fin 2) = t.val ∧ win1_4.index t (1 : Fin 2) = 0)
    ∧ (win1_5.index t (0 : Fin 2) = t.val ∧ win1_5.index t (1 : Fin 2) = 0)
    ∧ (win1_9.index t (0 : Fin 2) = t.val ∧ win1_9.index t (1 : Fin 2) = 0)
    ∧ (win1_1.index t (0 : Fin 2) = 0 ∧ win1_1.index t (1 : Fin 2) = 0)
    ∧ win1_2.index t (0 : Fin 1) = 0
    ∧ (win1_6.index t (0 : Fin 2) = 0 ∧ win1_6.index t (1 : Fin 2) = 0)
    ∧ (win1_7.index t (0 : Fin 2) = 0 ∧ win1_7.index t (1 : Fin 2) = 0)
    ∧ (win1_8.index t (0 : Fin 2) = 0 ∧ win1_8.index t (1 : Fin 2) = 0) :=
  (by decide +kernel : ∀ t : Fin grid1.N, _)

/-- The number of a grid point, as a number below the grid's size. -/
def pt1 (t : Fin cfg1.N) : Fin 10 := ⟨t.val, by have h := t.isLt; have hN : cfg1.N = 10 := N_1; omega⟩

/-! A window whose block is its whole array: the block read off the array is the array. -/
theorem iblk1_1 (c : Dev nD) (t : Fin cfg1.N) : iblk1 V c 1 t = V c main_arg7 := by
  have e := idx_facts1 t
  unfold iblk1
  funext y
  rw [View.read_apply]
  refine congrArg (V c main_arg7) ?_
  funext a; apply Fin.ext
  match a with
  | ⟨0, _⟩ => show win1_1.index t (0 : Fin 2) * 64 + 1 * (y 0).val = (y 0).val; omega
  | ⟨1, _⟩ => show win1_1.index t (1 : Fin 2) * 64 + 1 * (y 1).val = (y 1).val; omega
theorem iblk1_2 (c : Dev nD) (t : Fin cfg1.N) : iblk1 V c 2 t = V c main_arg8 := by
  have e := idx_facts1 t
  unfold iblk1
  funext y
  rw [View.read_apply]
  refine congrArg (V c main_arg8) ?_
  funext a; apply Fin.ext
  match a with
  | ⟨0, _⟩ => show win1_2.index t (0 : Fin 1) * 64 + 1 * (y 0).val = (y 0).val; omega
theorem iblk1_6 (c : Dev nD) (t : Fin cfg1.N) : iblk1 V c 6 t = V c main_v131 := by
  have e := idx_facts1 t
  unfold iblk1
  funext y
  rw [View.read_apply]
  refine congrArg (V c main_v131) ?_
  funext a; apply Fin.ext
  match a with
  | ⟨0, _⟩ => show win1_6.index t (0 : Fin 2) * 64 + 1 * (y 0).val = (y 0).val; omega
  | ⟨1, _⟩ => show win1_6.index t (1 : Fin 2) * 64 + 1 * (y 1).val = (y 1).val; omega
theorem iblk1_7 (c : Dev nD) (t : Fin cfg1.N) : iblk1 V c 7 t = V c main_v133 := by
  have e := idx_facts1 t
  unfold iblk1
  funext y
  rw [View.read_apply]
  refine congrArg (V c main_v133) ?_
  funext a; apply Fin.ext
  match a with
  | ⟨0, _⟩ => show win1_7.index t (0 : Fin 2) * 64 + 1 * (y 0).val = (y 0).val; omega
  | ⟨1, _⟩ => show win1_7.index t (1 : Fin 2) * 64 + 1 * (y 1).val = (y 1).val; omega
theorem iblk1_8 (c : Dev nD) (t : Fin cfg1.N) : iblk1 V c 8 t = V c main_v135 := by
  have e := idx_facts1 t
  unfold iblk1
  funext y
  rw [View.read_apply]
  refine congrArg (V c main_v135) ?_
  funext a; apply Fin.ext
  match a with
  | ⟨0, _⟩ => show win1_8.index t (0 : Fin 2) * 64 + 1 * (y 0).val = (y 0).val; omega
  | ⟨1, _⟩ => show win1_8.index t (1 : Fin 2) * 64 + 1 * (y 1).val = (y 1).val; omega

/-! A row-blocked window: the block's rows are the array's rows of block row `t`. -/
theorem iblk1_0 (c : Dev nD) (t : Fin cfg1.N) (r : Fin 5000) (k : Fin 64) :
    iblk1 V c 0 t (ix2 r k) = V c main_v74 (ix2 (row5k (pt1 t) r) k) := by
  have e := idx_facts1 t
  unfold iblk1
  rw [View.read_apply]
  refine congrArg (V c main_v74) ?_
  funext a; apply Fin.ext
  match a with
  | ⟨0, _⟩ => show win1_0.index t (0 : Fin 2) * 5000 + 1 * r.val = 5000 * (pt1 t).val + r.val; show _ = 5000 * t.val + r.val; omega
  | ⟨1, _⟩ => show win1_0.index t (1 : Fin 2) * 64 + 1 * k.val = k.val; omega
theorem iblk1_3 (c : Dev nD) (t : Fin cfg1.N) (r : Fin 5000) (k : Fin 64) :
    iblk1 V c 3 t (ix2 r k) = V c main_v97 (ix2 (row5k (pt1 t) r) k) := by
  have e := idx_facts1 t
  unfold iblk1
  rw [View.read_apply]
  refine congrArg (V c main_v97) ?_
  funext a; apply Fin.ext
  match a with
  | ⟨0, _⟩ => show win1_3.index t (0 : Fin 2) * 5000 + 1 * r.val = 5000 * (pt1 t).val + r.val; show _ = 5000 * t.val + r.val; omega
  | ⟨1, _⟩ => show win1_3.index t (1 : Fin 2) * 64 + 1 * k.val = k.val; omega
theorem iblk1_4 (c : Dev nD) (t : Fin cfg1.N) (r : Fin 5000) (k : Fin 64) :
    iblk1 V c 4 t (ix2 r k) = V c main_v113 (ix2 (row5k (pt1 t) r) k) := by
  have e := idx_facts1 t
  unfold iblk1
  rw [View.read_apply]
  refine congrArg (V c main_v113) ?_
  funext a; apply Fin.ext
  match a with
  | ⟨0, _⟩ => show win1_4.index t (0 : Fin 2) * 5000 + 1 * r.val = 5000 * (pt1 t).val + r.val; show _ = 5000 * t.val + r.val; omega
  | ⟨1, _⟩ => show win1_4.index t (1 : Fin 2) * 64 + 1 * k.val = k.val; omega
theorem iblk1_5 (c : Dev nD) (t : Fin cfg1.N) (r : Fin 5000) (k : Fin 64) :
    iblk1 V c 5 t (ix2 r k) = V c main_v129 (ix2 (row5k (pt1 t) r) k) := by
  have e := idx_facts1 t
  unfold iblk1
  rw [View.read_apply]
  refine congrArg (V c main_v129) ?_
  funext a; apply Fin.ext
  match a with
  | ⟨0, _⟩ => show win1_5.index t (0 : Fin 2) * 5000 + 1 * r.val = 5000 * (pt1 t).val + r.val; show _ = 5000 * t.val + r.val; omega
  | ⟨1, _⟩ => show win1_5.index t (1 : Fin 2) * 64 + 1 * k.val = k.val; omega

/-- What point `t` writes back is block `t` of the layer applied to the whole arrays. -/
theorem flushed1_eq (c : Dev nD) (t : Fin cfg1.N) :
    (dat1 V c).flushed 9 t = ((cfg1.win 9).blk t).view.read (Elt Ideal)
      (Cert.Spec.layer64 (F := Ideal) (V c main_v74) (V c main_arg7) (V c main_arg8) (V c main_v97) (V c main_v113) (V c main_v129) (V c main_v131) (V c main_v133) (V c main_v135)) := by
  show (cfg1.win 9).cut (grid1.coords t) ((dat1 V c).after 9 t) = _
  rw [after1_9]
  unfold out1_9
  rw [View.canon_unit_zero hz2]
  simp only [View.ld_unit_zero (S := S5000x64) hz2, View.ld_unit_zero (S := S64x64) hz2, View.ld_unit_zero (S := S64) hz1]
  rw [iblk1_1, iblk1_2, iblk1_6, iblk1_7, iblk1_8]
  have e := idx_facts1 t
  funext j
  obtain ⟨p, q, rfl⟩ : ∃ (p : Fin 5000) (q : Fin 64), j = ix2 p q := ⟨j 0, j 1, eq_ix2 j⟩
  rw [View.read_apply]
  refine (pay1_eq (V c main_v74) (V c main_v97) (V c main_v113) (V c main_v129) (V c main_arg7) (V c main_v131) (V c main_v133) (V c main_v135) (V c main_arg8)
    (iblk1 V c 0 t) (iblk1 V c 3 t) (iblk1 V c 4 t) (iblk1 V c 5 t) (pt1 t)
    (fun r k => iblk1_0 V c t r k) (fun r k => iblk1_3 V c t r k) (fun r k => iblk1_4 V c t r k) (fun r k => iblk1_5 V c t r k) p q).trans ?_
  refine congrArg (Cert.Spec.layer64 (F := Ideal) (V c main_v74) (V c main_arg7) (V c main_arg8) (V c main_v97) (V c main_v113) (V c main_v129) (V c main_v131) (V c main_v133) (V c main_v135)) ?_
  funext a; apply Fin.ext
  match a with
  | ⟨0, _⟩ => show 5000 * (pt1 t).val + p.val = win1_9.index t (0 : Fin 2) * 5000 + 1 * p.val; show 5000 * t.val + p.val = _; omega
  | ⟨1, _⟩ => show q.val = win1_9.index t (1 : Fin 2) * 64 + 1 * q.val; omega

theorem mem_blk1 (t : Fin cfg1.N) (i : S50000x64.Idx) :
    i ∈ ((cfg1.win 9).blk t).view.set ↔ ∀ a : Fin 2, win1_9.index t a * S5000x64.size a ≤ (i a).val ∧ (i a).val < win1_9.index t a * S5000x64.size a + S5000x64.size a := by
  show i ∈ ((View.whole main_v136).slice (win1_9.rect t)).set ↔ _
  rw [View.set_slice_whole, Rect.mem_set_unit]
  exact Iff.rfl

/-- Every row of the result array lies in the block of the point that is its block row. -/
theorem cover1 (i : S50000x64.Idx) : ∃ t : Fin cfg1.N, (cfg1.win 9).flush t = true ∧ i ∈ ((cfg1.win 9).blk t).view.set := by
  have hi0 : (i 0).val < 50000 := (i 0).isLt
  have hi1 : (i 1).val < 64 := (i 1).isLt
  have hN : cfg1.N = 10 := N_1
  let t : Fin cfg1.N := ⟨(i 0).val / 5000, by rw [hN]; omega⟩
  have e := idx_facts1 t
  refine ⟨t, flush1_9 t, ?_⟩
  rw [mem_blk1]
  intro a
  have ht : t.val = (i 0).val / 5000 := rfl
  match a with
  | ⟨0, _⟩ => show win1_9.index t (0 : Fin 2) * 5000 ≤ (i 0).val ∧ (i 0).val < win1_9.index t (0 : Fin 2) * 5000 + 5000; omega
  | ⟨1, _⟩ => show win1_9.index t (1 : Fin 2) * 64 ≤ (i 1).val ∧ (i 1).val < win1_9.index t (1 : Fin 2) * 64 + 64; omega

/-- The region's result array after the region: the layer of the arrays as the region finds them. -/
theorem region1_val (c : Dev nD) :
    (dat1 V c).arrAt 9 cfg1.N = Cert.Spec.layer64 (F := Ideal) (V c main_v74) (V c main_arg7) (V c main_arg8) (V c main_v97) (V c main_v113) (V c main_v129) (V c main_v131) (V c main_v133) (V c main_v135) :=
  (dat1 V c).arrAt_eq_of_cover 9 _ (fun t _ => flushed1_eq V c t) cover1

end Cert.KernelIdeal.HandVal1

end
-- ==== Proof.KI.RegionVal2.lean ====
/-
  Region 2 of the program, read as a value at the extended reals: the array the region's result window ends holding
  is one graph-convolution layer (Cert.Spec.layer64) of the arrays the region finds.

  A grid point's block of a row-blocked operand is the operand's rows of that point's block row, and a weight or bias
  window's block is the whole operand; the body's stored value at a row of its block is therefore the whole-array
  function at the corresponding row of the array (the block lemma of the mathematics module). The blocks of the result
  window tile the result array by block rows, so the array ends holding that function everywhere.
-/
import proofs.«100455_j65352222376641_1_alg».proof.Proof.KI.Body2
import proofs.«100455_j65352222376641_1_alg».proof.Proof.Spec
import proofs.«100455_j65352222376641_1_alg».proof.Proof.BlockMath
import Idealize.ShloMosaic.Lib.Pipeline.Value
import Idealize.ShloMosaic.Lib.ValueIdx

set_option maxRecDepth 16384

noncomputable section

namespace Cert.KernelIdeal.HandVal2

open Cert.KernelIdeal Cert.KernelIdeal.Gen Cert.KernelIdeal.Hand
open Idealize.ShloMosaic Idealize.ShloMosaic.TcCoe Idealize.ShloMosaic.ValueIdx
open Idealize.SL.Sem
open Cert.BlockMath
open Idealize.ShloMosaic.Pipeline (Dat Cfg Window)

theorem hz2 : (![0, 0] : Fin 2 → Nat) = fun _ => 0 := funext fun a => by fin_cases a <;> rfl
theorem hz1 : (![0] : Fin 1 → Nat) = fun _ => 0 := funext fun a => by fin_cases a <;> rfl

variable (V : (c : Dev nD) → (b : Ref sig .tc) → Buf (Elt Ideal) ((c : Thread nD τ).loc b))

/-- The printed index maps over the grid: the row-blocked windows sit at block row `t`, the others at their whole array. -/
theorem idx_facts2 : ∀ t : Fin cfg2.N,
    (win2_0.index t (0 : Fin 2) = t.val ∧ win2_0.index t (1 : Fin 2) = 0)
    ∧ (win2_3.index t (0 : Fin 2) = t.val ∧ win2_3.index t (1 : Fin 2) = 0)
    ∧ (win2_4.index t (0 : Fin 2) = t.val ∧ win2_4.index t (1 : Fin 2) = 0)
    ∧ (win2_5.index t (0 : Fin 2) = t.val ∧ win2_5.index t (1 : Fin 2) = 0)
    ∧ (win2_9.index t (0 : Fin 2) = t.val ∧ win2_9.index t (1 : Fin 2) = 0)
    ∧ (win2_1.index t (0 : Fin 2) = 0 ∧ win2_1.index t (1 : Fin 2) = 0)
    ∧ win2_2.index t (0 : Fin 1) = 0
    ∧ (win2_6.index t (0 : Fin 2) = 0 ∧ win2_6.index t (1 : Fin 2) = 0)
    ∧ (win2_7.index t (0 : Fin 2) = 0 ∧ win2_7.index t (1 : Fin 2) = 0)
    ∧ (win2_8.index t (0 : Fin 2) = 0 ∧ win2_8.index t (1 : Fin 2) = 0) :=
  (by decide +kernel : ∀ t : Fin grid2.N, _)

/-- The number of a grid point, as a number below the grid's size. -/
def pt2 (t : Fin cfg2.N) : Fin 10 := ⟨t.val, by have h := t.isLt; have hN : cfg2.N = 10 := N_2; omega⟩

/-! A window whose block is its whole array: the block read off the array is the array. -/
theorem iblk2_1 (c : Dev nD) (t : Fin cfg2.N) : iblk2 V c 1 t = V c main_arg10 := by
  have e := idx_facts2 t
  unfold iblk2
  funext y
  rw [View.read_apply]
  refine congrArg (V c main_arg10) ?_
  funext a; apply Fin.ext
  match a with
  | ⟨0, _⟩ => show win2_1.index t (0 : Fin 2) * 64 + 1 * (y 0).val = (y 0).val; omega
  | ⟨1, _⟩ => show win2_1.index t (1 : Fin 2) * 64 + 1 * (y 1).val = (y 1).val; omega
theorem iblk2_2 (c : Dev nD) (t : Fin cfg2.N) : iblk2 V c 2 t = V c main_arg11 := by
  have e := idx_facts2 t
  unfold iblk2
  funext y
  rw [View.read_apply]
  refine congrArg (V c main_arg11) ?_
  funext a; apply Fin.ext
  match a with
  | ⟨0, _⟩ => show win2_2.index t (0 : Fin 1) * 64 + 1 * (y 0).val = (y 0).val; omega
theorem iblk2_6 (c : Dev nD) (t : Fin cfg2.N) : iblk2 V c 6 t = V c main_v193 := by
  have e := idx_facts2 t
  unfold iblk2
  funext y
  rw [View.read_apply]
  refine congrArg (V c main_v193) ?_
  funext a; apply Fin.ext
  match a with
  | ⟨0, _⟩ => show win2_6.index t (0 : Fin 2) * 64 + 1 * (y 0).val = (y 0).val; omega
  | ⟨1, _⟩ => show win2_6.index t (1 : Fin 2) * 64 + 1 * (y 1).val = (y 1).val; omega
theorem iblk2_7 (c : Dev nD) (t : Fin cfg2.N) : iblk2 V c 7 t = V c main_v195 := by
  have e := idx_facts2 t
  unfold iblk2
  funext y
  rw [View.read_apply]
  refine congrArg (V c main_v195) ?_
  funext a; apply Fin.ext
  match a with
  | ⟨0, _⟩ => show win2_7.index t (0 : Fin 2) * 64 + 1 * (y 0).val = (y 0).val; omega
  | ⟨1, _⟩ => show win2_7.index t (1 : Fin 2) * 64 + 1 * (y 1).val = (y 1).val; omega
theorem iblk2_8 (c : Dev nD) (t : Fin cfg2.N) : iblk2 V c 8 t = V c main_v197 := by
  have e := idx_facts2 t
  unfold iblk2
  funext y
  rw [View.read_apply]
  refine congrArg (V c main_v197) ?_
  funext a; apply Fin.ext
  match a with
  | ⟨0, _⟩ => show win2_8.index t (0 : Fin 2) * 64 + 1 * (y 0).val = (y 0).val; omega
  | ⟨1, _⟩ => show win2_8.index t (1 : Fin 2) * 64 + 1 * (y 1).val = (y 1).val; omega

/-! A row-blocked window: the block's rows are the array's rows of block row `t`. -/
theorem iblk2_0 (c : Dev nD) (t : Fin cfg2.N) (r : Fin 5000) (k : Fin 64) :
    iblk2 V c 0 t (ix2 r k) = V c main_v136 (ix2 (row5k (pt2 t) r) k) := by
  have e := idx_facts2 t
  unfold iblk2
  rw [View.read_apply]
  refine congrArg (V c main_v136) ?_
  funext a; apply Fin.ext
  match a with
  | ⟨0, _⟩ => show win2_0.index t (0 : Fin 2) * 5000 + 1 * r.val = 5000 * (pt2 t).val + r.val; show _ = 5000 * t.val + r.val; omega
  | ⟨1, _⟩ => show win2_0.index t (1 : Fin 2) * 64 + 1 * k.val = k.val; omega
theorem iblk2_3 (c : Dev nD) (t : Fin cfg2.N) (r : Fin 5000) (k : Fin 64) :
    iblk2 V c 3 t (ix2 r k) = V c main_v159 (ix2 (row5k (pt2 t) r) k) := by
  have e := idx_facts2 t
  unfold iblk2
  rw [View.read_apply]
  refine congrArg (V c main_v159) ?_
  funext a; apply Fin.ext
  match a with
  | ⟨0, _⟩ => show win2_3.index t (0 : Fin 2) * 5000 + 1 * r.val = 5000 * (pt2 t).val + r.val; show _ = 5000 * t.val + r.val; omega
  | ⟨1, _⟩ => show win2_3.index t (1 : Fin 2) * 64 + 1 * k.val = k.val; omega
theorem iblk2_4 (c : Dev nD) (t : Fin cfg2.N) (r : Fin 5000) (k : Fin 64) :
    iblk2 V c 4 t (ix2 r k) = V c main_v175 (ix2 (row5k (pt2 t) r) k) := by
  have e := idx_facts2 t
  unfold iblk2
  rw [View.read_apply]
  refine congrArg (V c main_v175) ?_
  funext a; apply Fin.ext
  match a with
  | ⟨0, _⟩ => show win2_4.index t (0 : Fin 2) * 5000 + 1 * r.val = 5000 * (pt2 t).val + r.val; show _ = 5000 * t.val + r.val; omega
  | ⟨1, _⟩ => show win2_4.index t (1 : Fin 2) * 64 + 1 * k.val = k.val; omega
theorem iblk2_5 (c : Dev nD) (t : Fin cfg2.N) (r : Fin 5000) (k : Fin 64) :
    iblk2 V c 5 t (ix2 r k) = V c main_v191 (ix2 (row5k (pt2 t) r) k) := by
  have e := idx_facts2 t
  unfold iblk2
  rw [View.read_apply]
  refine congrArg (V c main_v191) ?_
  funext a; apply Fin.ext
  match a with
  | ⟨0, _⟩ => show win2_5.index t (0 : Fin 2) * 5000 + 1 * r.val = 5000 * (pt2 t).val + r.val; show _ = 5000 * t.val + r.val; omega
  | ⟨1, _⟩ => show win2_5.index t (1 : Fin 2) * 64 + 1 * k.val = k.val; omega

/-- What point `t` writes back is block `t` of the layer applied to the whole arrays. -/
theorem flushed2_eq (c : Dev nD) (t : Fin cfg2.N) :
    (dat2 V c).flushed 9 t = ((cfg2.win 9).blk t).view.read (Elt Ideal)
      (Cert.Spec.layer64 (F := Ideal) (V c main_v136) (V c main_arg10) (V c main_arg11) (V c main_v159) (V c main_v175) (V c main_v191) (V c main_v193) (V c main_v195) (V c main_v197)) := by
  show (cfg2.win 9).cut (grid2.coords t) ((dat2 V c).after 9 t) = _
  rw [after2_9]
  unfold out2_9
  rw [View.canon_unit_zero hz2]
  simp only [View.ld_unit_zero (S := S5000x64) hz2, View.ld_unit_zero (S := S64x64) hz2, View.ld_unit_zero (S := S64) hz1]
  rw [iblk2_1, iblk2_2, iblk2_6, iblk2_7, iblk2_8]
  have e := idx_facts2 t
  funext j
  obtain ⟨p, q, rfl⟩ : ∃ (p : Fin 5000) (q : Fin 64), j = ix2 p q := ⟨j 0, j 1, eq_ix2 j⟩
  rw [View.read_apply]
  refine (pay2_eq (V c main_v136) (V c main_v159) (V c main_v175) (V c main_v191) (V c main_arg10) (V c main_v193) (V c main_v195) (V c main_v197) (V c main_arg11)
    (iblk2 V c 0 t) (iblk2 V c 3 t) (iblk2 V c 4 t) (iblk2 V c 5 t) (pt2 t)
    (fun r k => iblk2_0 V c t r k) (fun r k => iblk2_3 V c t r k) (fun r k => iblk2_4 V c t r k) (fun r k => iblk2_5 V c t r k) p q).trans ?_
  refine congrArg (Cert.Spec.layer64 (F := Ideal) (V c main_v136) (V c main_arg10) (V c main_arg11) (V c main_v159) (V c main_v175) (V c main_v191) (V c main_v193) (V c main_v195) (V c main_v197)) ?_
  funext a; apply Fin.ext
  match a with
  | ⟨0, _⟩ => show 5000 * (pt2 t).val + p.val = win2_9.index t (0 : Fin 2) * 5000 + 1 * p.val; show 5000 * t.val + p.val = _; omega
  | ⟨1, _⟩ => show q.val = win2_9.index t (1 : Fin 2) * 64 + 1 * q.val; omega

theorem mem_blk2 (t : Fin cfg2.N) (i : S50000x64.Idx) :
    i ∈ ((cfg2.win 9).blk t).view.set ↔ ∀ a : Fin 2, win2_9.index t a * S5000x64.size a ≤ (i a).val ∧ (i a).val < win2_9.index t a * S5000x64.size a + S5000x64.size a := by
  show i ∈ ((View.whole main_v198).slice (win2_9.rect t)).set ↔ _
  rw [View.set_slice_whole, Rect.mem_set_unit]
  exact Iff.rfl

/-- Every row of the result array lies in the block of the point that is its block row. -/
theorem cover2 (i : S50000x64.Idx) : ∃ t : Fin cfg2.N, (cfg2.win 9).flush t = true ∧ i ∈ ((cfg2.win 9).blk t).view.set := by
  have hi0 : (i 0).val < 50000 := (i 0).isLt
  have hi1 : (i 1).val < 64 := (i 1).isLt
  have hN : cfg2.N = 10 := N_2
  let t : Fin cfg2.N := ⟨(i 0).val / 5000, by rw [hN]; omega⟩
  have e := idx_facts2 t
  refine ⟨t, flush2_9 t, ?_⟩
  rw [mem_blk2]
  intro a
  have ht : t.val = (i 0).val / 5000 := rfl
  match a with
  | ⟨0, _⟩ => show win2_9.index t (0 : Fin 2) * 5000 ≤ (i 0).val ∧ (i 0).val < win2_9.index t (0 : Fin 2) * 5000 + 5000; omega
  | ⟨1, _⟩ => show win2_9.index t (1 : Fin 2) * 64 ≤ (i 1).val ∧ (i 1).val < win2_9.index t (1 : Fin 2) * 64 + 64; omega

/-- The region's result array after the region: the layer of the arrays as the region finds them. -/
theorem region2_val (c : Dev nD) :
    (dat2 V c).arrAt 9 cfg2.N = Cert.Spec.layer64 (F := Ideal) (V c main_v136) (V c main_arg10) (V c main_arg11) (V c main_v159) (V c main_v175) (V c main_v191) (V c main_v193) (V c main_v195) (V c main_v197) :=
  (dat2 V c).arrAt_eq_of_cover 9 _ (fun t _ => flushed2_eq V c t) cover2

end Cert.KernelIdeal.HandVal2

end
-- ==== Proof.KI.RegionVal3.lean ====
/-
  Region 3 of the program, read as a value at the extended reals: the array the region's result window ends holding
  is the edge decoder (Cert.Spec.decode) of the arrays the region finds.

  A grid point's block of a row-blocked operand is the operand's rows of that point's block row, and a weight or bias
  window's block is the whole operand; the body's stored value at a row of its block is therefore the whole-array
  function at the corresponding row of the array (the block lemma of the mathematics module). The blocks of the result
  window tile the result array by block rows, so the array ends holding that function everywhere.
-/
import proofs.«100455_j65352222376641_1_alg».proof.Proof.KI.Body3
import proofs.«100455_j65352222376641_1_alg».proof.Proof.Spec
import proofs.«100455_j65352222376641_1_alg».proof.Proof.BlockMath
import Idealize.ShloMosaic.Lib.Pipeline.Value
import Idealize.ShloMosaic.Lib.ValueIdx

set_option maxRecDepth 16384

noncomputable section

namespace Cert.KernelIdeal.HandVal3

open Cert.KernelIdeal Cert.KernelIdeal.Gen Cert.KernelIdeal.Hand
open Idealize.ShloMosaic Idealize.ShloMosaic.TcCoe Idealize.ShloMosaic.ValueIdx
open Idealize.SL.Sem
open Cert.BlockMath
open Idealize.ShloMosaic.Pipeline (Dat Cfg Window)

theorem hz2 : (![0, 0] : Fin 2 → Nat) = fun _ => 0 := funext fun a => by fin_cases a <;> rfl
theorem hz1 : (![0] : Fin 1 → Nat) = fun _ => 0 := funext fun a => by fin_cases a <;> rfl

variable (V : (c : Dev nD) → (b : Ref sig .tc) → Buf (Elt Ideal) ((c : Thread nD τ).loc b))

theorem idx_facts3 : ∀ t : Fin cfg3.N, win3_0.index t (0 : Fin 2) = t.val ∧ win3_0.index t (1 : Fin 2) = 0
    ∧ win3_7.index t (0 : Fin 2) = t.val ∧ win3_7.index t (1 : Fin 2) = 0
    ∧ win3_1.index t (0 : Fin 2) = 0 ∧ win3_1.index t (1 : Fin 2) = 0
    ∧ win3_2.index t (0 : Fin 1) = 0
    ∧ win3_3.index t (0 : Fin 2) = 0 ∧ win3_3.index t (1 : Fin 2) = 0
    ∧ win3_4.index t (0 : Fin 1) = 0
    ∧ win3_5.index t (0 : Fin 2) = 0 ∧ win3_5.index t (1 : Fin 2) = 0
    ∧ win3_6.index t (0 : Fin 1) = 0 :=
  (by decide +kernel : ∀ t : Fin grid3.N, _)

/-- A window whose block is its whole array: the block read off the array is the array. -/
theorem iblk3_1 (c : Dev nD) (t : Fin cfg3.N) : iblk3 V c 1 t = V c main_arg12 := by
  obtain ⟨-, -, -, -, e0, e1, -⟩ := idx_facts3 t
  unfold iblk3
  funext y
  rw [View.read_apply]
  refine congrArg (V c main_arg12) ?_
  funext a; apply Fin.ext
  match a with
  | ⟨0, _⟩ => show win3_1.index t (0 : Fin 2) * 134 + 1 * (y 0).val = (y 0).val; omega
  | ⟨1, _⟩ => show win3_1.index t (1 : Fin 2) * 32 + 1 * (y 1).val = (y 1).val; omega

theorem iblk3_2 (c : Dev nD) (t : Fin cfg3.N) : iblk3 V c 2 t = V c main_arg13 := by
  obtain ⟨-, -, -, -, -, -, e0, -⟩ := idx_facts3 t
  unfold iblk3
  funext y
  rw [View.read_apply]
  refine congrArg (V c main_arg13) ?_
  funext a; apply Fin.ext
  match a with
  | ⟨0, _⟩ => show win3_2.index t (0 : Fin 1) * 32 + 1 * (y 0).val = (y 0).val; omega
theorem iblk3_3 (c : Dev nD) (t : Fin cfg3.N) : iblk3 V c 3 t = V c main_arg14 := by
  obtain ⟨-, -, -, -, -, -, -, e0, e1, -⟩ := idx_facts3 t
  unfold iblk3
  funext y
  rw [View.read_apply]
  refine congrArg (V c main_arg14) ?_
  funext a; apply Fin.ext
  match a with
  | ⟨0, _⟩ => show win3_3.index t (0 : Fin 2) * 32 + 1 * (y 0).val = (y 0).val; omega
  | ⟨1, _⟩ => show win3_3.index t (1 : Fin 2) * 16 + 1 * (y 1).val = (y 1).val; omega
theorem iblk3_4 (c : Dev nD) (t : Fin cfg3.N) : iblk3 V c 4 t = V c main_arg15 := by
  obtain ⟨-, -, -, -, -, -, -, -, -, e0, -⟩ := idx_facts3 t
  unfold iblk3
  funext y
  rw [View.read_apply]
  refine congrArg (V c main_arg15) ?_
  funext a; apply Fin.ext
  match a with
  | ⟨0, _⟩ => show win3_4.index t (0 : Fin 1) * 16 + 1 * (y 0).val = (y 0).val; omega
theorem iblk3_5 (c : Dev nD) (t : Fin cfg3.N) : iblk3 V c 5 t = V c main_arg16 := by
  obtain ⟨-, -, -, -, -, -, -, -, -, -, e0, e1, -⟩ := idx_facts3 t
  unfold iblk3
  funext y
  rw [View.read_apply]
  refine congrArg (V c main_arg16) ?_
  funext a; apply Fin.ext
  match a with
  | ⟨0, _⟩ => show win3_5.index t (0 : Fin 2) * 16 + 1 * (y 0).val = (y 0).val; omega
  | ⟨1, _⟩ => show win3_5.index t (1 : Fin 2) * 1 + 1 * (y 1).val = (y 1).val; omega
theorem iblk3_6 (c : Dev nD) (t : Fin cfg3.N) : iblk3 V c 6 t = V c main_arg17 := by
  obtain ⟨-, -, -, -, -, -, -, -, -, -, -, -, e0⟩ := idx_facts3 t
  unfold iblk3
  funext y
  rw [View.read_apply]
  refine congrArg (V c main_arg17) ?_
  funext a; apply Fin.ext
  match a with
  | ⟨0, _⟩ => show win3_6.index t (0 : Fin 1) * 1 + 1 * (y 0).val = (y 0).val; omega

/-- The number of a grid point, as a number below the grid's size. -/
def pt3 (t : Fin cfg3.N) : Fin 100 := ⟨t.val, by have h := t.isLt; have hN : cfg3.N = 100 := N_3; omega⟩

/-- The rows of the moving input block are the array's rows of the same block. -/
theorem iblk3_0 (c : Dev nD) (t : Fin cfg3.N) (r : Fin 16000) (k : Fin 134) :
    iblk3 V c 0 t (ix2 r k) = V c main_v213 (ix2 (row16k (pt3 t) r) k) := by
  obtain ⟨e0, e1, -⟩ := idx_facts3 t
  unfold iblk3
  rw [View.read_apply]
  refine congrArg (V c main_v213) ?_
  funext a; apply Fin.ext
  match a with
  | ⟨0, _⟩ => show win3_0.index t (0 : Fin 2) * 16000 + 1 * r.val = 16000 * (pt3 t).val + r.val; show _ = 16000 * t.val + r.val; omega
  | ⟨1, _⟩ => show win3_0.index t (1 : Fin 2) * 134 + 1 * k.val = k.val; omega

/-- What point `t` writes back is block `t` of the decoder applied to the whole arrays. -/
theorem flushed3_eq (c : Dev nD) (t : Fin cfg3.N) :
    (dat3 V c).flushed 7 t = ((cfg3.win 7).blk t).view.read (Elt Ideal)
      (Cert.Spec.decode (F := Ideal) (V c main_v213) (V c main_arg12) (V c main_arg13) (V c main_arg14) (V c main_arg15) (V c main_arg16) (V c main_arg17)) := by
  show (cfg3.win 7).cut (grid3.coords t) ((dat3 V c).after 7 t) = _
  rw [after3_7]
  unfold out3_7
  rw [View.canon_unit_zero hz2]
  simp only [View.ld_unit_zero (S := S16000x134) hz2, View.ld_unit_zero (S := S134x32) hz2, View.ld_unit_zero (S := S32) hz1,
    View.ld_unit_zero (S := S32x16) hz2, View.ld_unit_zero (S := S16) hz1, View.ld_unit_zero (S := S16x1) hz2, View.ld_unit_zero (S := S1) hz1]
  rw [iblk3_1, iblk3_2, iblk3_3, iblk3_4, iblk3_5, iblk3_6]
  obtain ⟨-, -, e0, e1, -⟩ := idx_facts3 t
  funext j
  obtain ⟨p, q, rfl⟩ : ∃ (p : Fin 16000) (q : Fin 1), j = ix2 p q := ⟨j 0, j 1, eq_ix2 j⟩
  rw [View.read_apply]
  refine (pay3_eq (V c main_v213) (V c main_arg12) (V c main_arg13) (V c main_arg14) (V c main_arg15) (V c main_arg16) (V c main_arg17)
    (iblk3 V c 0 t) (pt3 t) (fun r k => iblk3_0 V c t r k) p q).trans ?_
  refine congrArg (Cert.Spec.decode (F := Ideal) (V c main_v213) (V c main_arg12) (V c main_arg13) (V c main_arg14) (V c main_arg15) (V c main_arg16) (V c main_arg17)) ?_
  funext a; apply Fin.ext
  match a with
  | ⟨0, _⟩ => show 16000 * (pt3 t).val + p.val = win3_7.index t (0 : Fin 2) * 16000 + 1 * p.val; show 16000 * t.val + p.val = _; omega
  | ⟨1, _⟩ => show q.val = win3_7.index t (1 : Fin 2) * 1 + 1 * q.val; omega

theorem mem_blk3 (t : Fin cfg3.N) (i : S1600000x1.Idx) :
    i ∈ ((cfg3.win 7).blk t).view.set ↔ ∀ a : Fin 2, win3_7.index t a * S16000x1.size a ≤ (i a).val ∧ (i a).val < win3_7.index t a * S16000x1.size a + S16000x1.size a := by
  show i ∈ ((View.whole main_v214).slice (win3_7.rect t)).set ↔ _
  rw [View.set_slice_whole, Rect.mem_set_unit]
  exact Iff.rfl

theorem cover3 (i : S1600000x1.Idx) : ∃ t : Fin cfg3.N, (cfg3.win 7).flush t = true ∧ i ∈ ((cfg3.win 7).blk t).view.set := by
  have hi0 : (i 0).val < 1600000 := (i 0).isLt
  have hi1 : (i 1).val < 1 := (i 1).isLt
  have hN : cfg3.N = 100 := N_3
  let t : Fin cfg3.N := ⟨(i 0).val / 16000, by rw [hN]; omega⟩
  obtain ⟨-, -, e0, e1, -⟩ := idx_facts3 t
  refine ⟨t, flush3_7 t, ?_⟩
  rw [mem_blk3]
  intro a
  have ht : t.val = (i 0).val / 16000 := rfl
  match a with
  | ⟨0, _⟩ => show win3_7.index t (0 : Fin 2) * 16000 ≤ (i 0).val ∧ (i 0).val < win3_7.index t (0 : Fin 2) * 16000 + 16000; omega
  | ⟨1, _⟩ => show win3_7.index t (1 : Fin 2) * 1 ≤ (i 1).val ∧ (i 1).val < win3_7.index t (1 : Fin 2) * 1 + 1; omega

/-- The region's result array after the region: the decoder of the arrays as the region finds them. -/
theorem region3_val (c : Dev nD) :
    (dat3 V c).arrAt 7 cfg3.N = Cert.Spec.decode (F := Ideal) (V c main_v213) (V c main_arg12) (V c main_arg13) (V c main_arg14) (V c main_arg15) (V c main_arg16) (V c main_arg17) :=
  (dat3 V c).arrAt_eq_of_cover 7 _ (fun t _ => flushed3_eq V c t) cover3

end Cert.KernelIdeal.HandVal3

end
-- ==== Proof.Rop.lean ====
/-
  Each of the program's four pipelined regions, read as one more host operation: an operation that writes the
  region's result array only, with a given function of the region's input arrays. With these the program's run,
  buffer by buffer, is a fold of one straight line of operations.
-/
import proofs.«100455_j65352222376641_1_alg».proof.Proof.Gen.KernelIdeal
import Idealize.ShloMosaic.Lib.StableHlo.Run

noncomputable section

namespace Cert.Rop

open Cert.KernelIdeal Cert.KernelIdeal.Gen Idealize.ShloMosaic Idealize.ShloMosaic.TcCoe Idealize.ShloMosaic.StableHlo Idealize.SL.Sem

variable {F : FTy → Type} [FloatOps F]

/-- Region 0 read as one operation: it writes `main_v74` only, with `f` of the region's input arrays. -/
def rop0 (f : FVec F S50000x3 .f32 → FVec F S3x64 .f32 → FVec F S64 .f32 → FVec F S50000x3 .f32 → FVec F S50000x3 .f32 → FVec F S50000x3 .f32 → FVec F S3x64 .f32 → FVec F S3x64 .f32 → FVec F S3x64 .f32 → FVec F S50000x64 .f32) : HloOp τ sig (Elt F) :=
  nary ![main_arg0, main_arg4, main_arg5, main_v35, main_v51, main_v67, main_v69, main_v71, main_v73] main_v74 (fun u => f (u 0) (u 1) (u 2) (u 3) (u 4) (u 5) (u 6) (u 7) (u 8))

theorem rop0_writes (f : FVec F S50000x3 .f32 → FVec F S3x64 .f32 → FVec F S64 .f32 → FVec F S50000x3 .f32 → FVec F S50000x3 .f32 → FVec F S50000x3 .f32 → FVec F S3x64 .f32 → FVec F S3x64 .f32 → FVec F S3x64 .f32 → FVec F S50000x64 .f32) : (rop0 f).writes = {Proc.devRef .tc main_v74} := rfl

theorem rop0_at (f : FVec F S50000x3 .f32 → FVec F S3x64 .f32 → FVec F S64 .f32 → FVec F S50000x3 .f32 → FVec F S50000x3 .f32 → FVec F S50000x3 .f32 → FVec F S3x64 .f32 → FVec F S3x64 .f32 → FVec F S3x64 .f32 → FVec F S50000x64 .f32) (W : Valuation τ sig (Elt F)) :
    (rop0 f).result W (no_index (Proc.devRef .tc main_v74)) = f (W (Proc.devRef .tc main_arg0)) (W (Proc.devRef .tc main_arg4)) (W (Proc.devRef .tc main_arg5)) (W (Proc.devRef .tc main_v35)) (W (Proc.devRef .tc main_v51)) (W (Proc.devRef .tc main_v67)) (W (Proc.devRef .tc main_v69)) (W (Proc.devRef .tc main_v71)) (W (Proc.devRef .tc main_v73)) := by
  unfold rop0; rw [nary_result]; rfl

theorem rop0_ne (f : FVec F S50000x3 .f32 → FVec F S3x64 .f32 → FVec F S64 .f32 → FVec F S50000x3 .f32 → FVec F S50000x3 .f32 → FVec F S50000x3 .f32 → FVec F S3x64 .f32 → FVec F S3x64 .f32 → FVec F S3x64 .f32 → FVec F S50000x64 .f32) (W : Valuation τ sig (Elt F)) {r : Ref sig .tc} (h : r ≠ main_v74) :
    (rop0 f).result W (no_index (Proc.devRef .tc r)) = W (Proc.devRef .tc r) := by
  unfold rop0; rw [nary_result_ne]; exact h

theorem rop0_bufs_sub (f : FVec F S50000x3 .f32 → FVec F S3x64 .f32 → FVec F S64 .f32 → FVec F S50000x3 .f32 → FVec F S50000x3 .f32 → FVec F S50000x3 .f32 → FVec F S3x64 .f32 → FVec F S3x64 .f32 → FVec F S3x64 .f32 → FVec F S50000x64 .f32) : (rop0 f).bufs ⊆ tcRefs τ sig := by
  unfold rop0; exact nary_bufs_sub ..

/-- Region 1 read as one operation: it writes `main_v136` only, with `f` of the region's input arrays. -/
def rop1 (f : FVec F S50000x64 .f32 → FVec F S64x64 .f32 → FVec F S64 .f32 → FVec F S50000x64 .f32 → FVec F S50000x64 .f32 → FVec F S50000x64 .f32 → FVec F S64x64 .f32 → FVec F S64x64 .f32 → FVec F S64x64 .f32 → FVec F S50000x64 .f32) : HloOp τ sig (Elt F) :=
  nary ![main_v74, main_arg7, main_arg8, main_v97, main_v113, main_v129, main_v131, main_v133, main_v135] main_v136 (fun u => f (u 0) (u 1) (u 2) (u 3) (u 4) (u 5) (u 6) (u 7) (u 8))

theorem rop1_writes (f : FVec F S50000x64 .f32 → FVec F S64x64 .f32 → FVec F S64 .f32 → FVec F S50000x64 .f32 → FVec F S50000x64 .f32 → FVec F S50000x64 .f32 → FVec F S64x64 .f32 → FVec F S64x64 .f32 → FVec F S64x64 .f32 → FVec F S50000x64 .f32) : (rop1 f).writes = {Proc.devRef .tc main_v136} := rfl

theorem rop1_at (f : FVec F S50000x64 .f32 → FVec F S64x64 .f32 → FVec F S64 .f32 → FVec F S50000x64 .f32 → FVec F S50000x64 .f32 → FVec F S50000x64 .f32 → FVec F S64x64 .f32 → FVec F S64x64 .f32 → FVec F S64x64 .f32 → FVec F S50000x64 .f32) (W : Valuation τ sig (Elt F)) :
    (rop1 f).result W (no_index (Proc.devRef .tc main_v136)) = f (W (Proc.devRef .tc main_v74)) (W (Proc.devRef .tc main_arg7)) (W (Proc.devRef .tc main_arg8)) (W (Proc.devRef .tc main_v97)) (W (Proc.devRef .tc main_v113)) (W (Proc.devRef .tc main_v129)) (W (Proc.devRef .tc main_v131)) (W (Proc.devRef .tc main_v133)) (W (Proc.devRef .tc main_v135)) := by
  unfold rop1; rw [nary_result]; rfl

theorem rop1_ne (f : FVec F S50000x64 .f32 → FVec F S64x64 .f32 → FVec F S64 .f32 → FVec F S50000x64 .f32 → FVec F S50000x64 .f32 → FVec F S50000x64 .f32 → FVec F S64x64 .f32 → FVec F S64x64 .f32 → FVec F S64x64 .f32 → FVec F S50000x64 .f32) (W : Valuation τ sig (Elt F)) {r : Ref sig .tc} (h : r ≠ main_v136) :
    (rop1 f).result W (no_index (Proc.devRef .tc r)) = W (Proc.devRef .tc r) := by
  unfold rop1; rw [nary_result_ne]; exact h

theorem rop1_bufs_sub (f : FVec F S50000x64 .f32 → FVec F S64x64 .f32 → FVec F S64 .f32 → FVec F S50000x64 .f32 → FVec F S50000x64 .f32 → FVec F S50000x64 .f32 → FVec F S64x64 .f32 → FVec F S64x64 .f32 → FVec F S64x64 .f32 → FVec F S50000x64 .f32) : (rop1 f).bufs ⊆ tcRefs τ sig := by
  unfold rop1; exact nary_bufs_sub ..

/-- Region 2 read as one operation: it writes `main_v198` only, with `f` of the region's input arrays. -/
def rop2 (f : FVec F S50000x64 .f32 → FVec F S64x64 .f32 → FVec F S64 .f32 → FVec F S50000x64 .f32 → FVec F S50000x64 .f32 → FVec F S50000x64 .f32 → FVec F S64x64 .f32 → FVec F S64x64 .f32 → FVec F S64x64 .f32 → FVec F S50000x64 .f32) : HloOp τ sig (Elt F) :=
  nary ![main_v136, main_arg10, main_arg11, main_v159, main_v175, main_v191, main_v193, main_v195, main_v197] main_v198 (fun u => f (u 0) (u 1) (u 2) (u 3) (u 4) (u 5) (u 6) (u 7) (u 8))

theorem rop2_writes (f : FVec F S50000x64 .f32 → FVec F S64x64 .f32 → FVec F S64 .f32 → FVec F S50000x64 .f32 → FVec F S50000x64 .f32 → FVec F S50000x64 .f32 → FVec F S64x64 .f32 → FVec F S64x64 .f32 → FVec F S64x64 .f32 → FVec F S50000x64 .f32) : (rop2 f).writes = {Proc.devRef .tc main_v198} := rfl

theorem rop2_at (f : FVec F S50000x64 .f32 → FVec F S64x64 .f32 → FVec F S64 .f32 → FVec F S50000x64 .f32 → FVec F S50000x64 .f32 → FVec F S50000x64 .f32 → FVec F S64x64 .f32 → FVec F S64x64 .f32 → FVec F S64x64 .f32 → FVec F S50000x64 .f32) (W : Valuation τ sig (Elt F)) :
    (rop2 f).result W (no_index (Proc.devRef .tc main_v198)) = f (W (Proc.devRef .tc main_v136)) (W (Proc.devRef .tc main_arg10)) (W (Proc.devRef .tc main_arg11)) (W (Proc.devRef .tc main_v159)) (W (Proc.devRef .tc main_v175)) (W (Proc.devRef .tc main_v191)) (W (Proc.devRef .tc main_v193)) (W (Proc.devRef .tc main_v195)) (W (Proc.devRef .tc main_v197)) := by
  unfold rop2; rw [nary_result]; rfl

theorem rop2_ne (f : FVec F S50000x64 .f32 → FVec F S64x64 .f32 → FVec F S64 .f32 → FVec F S50000x64 .f32 → FVec F S50000x64 .f32 → FVec F S50000x64 .f32 → FVec F S64x64 .f32 → FVec F S64x64 .f32 → FVec F S64x64 .f32 → FVec F S50000x64 .f32) (W : Valuation τ sig (Elt F)) {r : Ref sig .tc} (h : r ≠ main_v198) :
    (rop2 f).result W (no_index (Proc.devRef .tc r)) = W (Proc.devRef .tc r) := by
  unfold rop2; rw [nary_result_ne]; exact h

theorem rop2_bufs_sub (f : FVec F S50000x64 .f32 → FVec F S64x64 .f32 → FVec F S64 .f32 → FVec F S50000x64 .f32 → FVec F S50000x64 .f32 → FVec F S50000x64 .f32 → FVec F S64x64 .f32 → FVec F S64x64 .f32 → FVec F S64x64 .f32 → FVec F S50000x64 .f32) : (rop2 f).bufs ⊆ tcRefs τ sig := by
  unfold rop2; exact nary_bufs_sub ..

/-- Region 3 read as one operation: it writes `main_v214` only, with `f` of the region's input arrays. -/
def rop3 (f : FVec F S1600000x134 .f32 → FVec F S134x32 .f32 → FVec F S32 .f32 → FVec F S32x16 .f32 → FVec F S16 .f32 → FVec F S16x1 .f32 → FVec F S1 .f32 → FVec F S1600000x1 .f32) : HloOp τ sig (Elt F) :=
  nary ![main_v213, main_arg12, main_arg13, main_arg14, main_arg15, main_arg16, main_arg17] main_v214 (fun u => f (u 0) (u 1) (u 2) (u 3) (u 4) (u 5) (u 6))

theorem rop3_writes (f : FVec F S1600000x134 .f32 → FVec F S134x32 .f32 → FVec F S32 .f32 → FVec F S32x16 .f32 → FVec F S16 .f32 → FVec F S16x1 .f32 → FVec F S1 .f32 → FVec F S1600000x1 .f32) : (rop3 f).writes = {Proc.devRef .tc main_v214} := rfl

theorem rop3_at (f : FVec F S1600000x134 .f32 → FVec F S134x32 .f32 → FVec F S32 .f32 → FVec F S32x16 .f32 → FVec F S16 .f32 → FVec F S16x1 .f32 → FVec F S1 .f32 → FVec F S1600000x1 .f32) (W : Valuation τ sig (Elt F)) :
    (rop3 f).result W (no_index (Proc.devRef .tc main_v214)) = f (W (Proc.devRef .tc main_v213)) (W (Proc.devRef .tc main_arg12)) (W (Proc.devRef .tc main_arg13)) (W (Proc.devRef .tc main_arg14)) (W (Proc.devRef .tc main_arg15)) (W (Proc.devRef .tc main_arg16)) (W (Proc.devRef .tc main_arg17)) := by
  unfold rop3; rw [nary_result]; rfl

theorem rop3_ne (f : FVec F S1600000x134 .f32 → FVec F S134x32 .f32 → FVec F S32 .f32 → FVec F S32x16 .f32 → FVec F S16 .f32 → FVec F S16x1 .f32 → FVec F S1 .f32 → FVec F S1600000x1 .f32) (W : Valuation τ sig (Elt F)) {r : Ref sig .tc} (h : r ≠ main_v214) :
    (rop3 f).result W (no_index (Proc.devRef .tc r)) = W (Proc.devRef .tc r) := by
  unfold rop3; rw [nary_result_ne]; exact h

theorem rop3_bufs_sub (f : FVec F S1600000x134 .f32 → FVec F S134x32 .f32 → FVec F S32 .f32 → FVec F S32x16 .f32 → FVec F S16 .f32 → FVec F S16x1 .f32 → FVec F S1 .f32 → FVec F S1600000x1 .f32) : (rop3 f).bufs ⊆ tcRefs τ sig := by
  unfold rop3; exact nary_bufs_sub ..

end Cert.Rop

end
-- ==== Proof.LibRegionOp.lean ====
/-
  A pipelined region with one output array, read as one more line of the host program around it.

  A region's exit contents are its entry contents with the pipeline's arrays replaced by what the pipeline leaves in
  them. When every array but one is left as the region found it, and that one holds the value a host operation
  writing only that array would have computed from the entry contents, the exit contents ARE that operation's
  result on the entry contents. A program of several regions among host lines then reads, buffer by buffer, as one
  straight line of operations.
-/
import Idealize.ShloMosaic.Lib.Pipeline.FrameSuffix

noncomputable section

namespace Cert.RegionOp

open Idealize.ShloMosaic Idealize.ShloMosaic.Pipeline Idealize.ShloMosaic.TcCoe

variable {nD : Nat} {τ : Topo} {sig : RefSig} {Val : EltTy → Type}

/-- The exit contents of a region whose arrays `A` agree with the entry contents `V` except at window `o`'s array,
    where they hold what `op` — an operation writing that array only — computes from `V`: they are `op.result V`,
    at every buffer of the device. -/
theorem withArrays_eq_result {gr W : Nat} (win : Fin W → WinSpec sig gr) (hinj : Function.Injective (arrRef win))
    (c : Dev nD) (V : Valuation τ sig Val) (A : (w : Fin W) → Buf Val ((win w).arr.view.loc (c.tc : Thread nD τ)))
    (o : Fin W) (op : HloOp τ sig Val)
    (hw : op.writes = {Proc.devRef .tc (arrRef win o)})
    (hin : ∀ w, w ≠ o → A w = V (Proc.devRef .tc (arrRef win w)))
    (hout : A o = op.result V (Proc.devRef .tc (arrRef win o))) :
    withArrays win c V A = op.result V := by
  funext b
  by_cases h : ∃ w, Proc.devRef .tc (arrRef win w) = b
  · obtain ⟨w, rfl⟩ := h
    rw [withArrays_arr win hinj c V A w]
    by_cases hwo : w = o
    · subst hwo; exact hout
    · rw [hin w hwo]
      refine (op.result_of_not_mem V ?_).symm
      rw [hw, Finset.mem_singleton]
      exact fun e => hwo (hinj (Proc.devRef_injective _ e))
  · have hb : withArrays win c V A b = V b := by unfold withArrays; rw [dif_neg h]
    rw [hb]
    refine (op.result_of_not_mem V ?_).symm
    rw [hw, Finset.mem_singleton]
    exact fun e => h ⟨o, e.symm⟩

end Cert.RegionOp

end
-- ==== Proof.KI.Fold.lean ====
/- The program's run read as one straight line of operations, at the ideal float model.
   The run's contents at the boundaries between its segments are a fold from the launch memory: a stretch of host
   operations takes the contents to the stretch's result, and a pipelined region replaces its windows' arrays by
   what the pipeline leaves in them. Here each region's step is shown to be one more operation applied to the
   region's entry contents: the region leaves every input window's array as it found it (an input is never written
   back), and leaves in its one output window's array the region's function of the input arrays (a graph-convolution
   layer for regions 0, 1, 2; the edge decoder for region 3). Since the operation writes that array only, the two
   valuations agree at every buffer. Chaining the four, the contents at the program's end are the launch memory
   taken through five stretches of host operations with one such operation between each two. -/
import proofs.«100455_j65352222376641_1_alg».proof.Proof.KI.Run
import proofs.«100455_j65352222376641_1_alg».proof.Proof.KI.RegionVal0
import proofs.«100455_j65352222376641_1_alg».proof.Proof.KI.RegionVal1
import proofs.«100455_j65352222376641_1_alg».proof.Proof.KI.RegionVal2
import proofs.«100455_j65352222376641_1_alg».proof.Proof.KI.RegionVal3
import proofs.«100455_j65352222376641_1_alg».proof.Proof.Rop
import proofs.«100455_j65352222376641_1_alg».proof.Proof.LibRegionOp
import Idealize.ShloMosaic.Lib.Pipeline.FrameSuffix

noncomputable section

namespace Cert.KernelIdeal.Fold

open Cert.KernelIdeal Cert.KernelIdeal.Gen Cert.KernelIdeal.Hand
open Idealize.ShloMosaic Idealize.ShloMosaic.TcCoe
open Idealize.SL.Sem
open Idealize.ShloMosaic.Pipeline (Dat Cfg Window)

/-! ## Each region as one operation, from any entry contents -/

section Regions
variable (Wx : Dev nD → Valuation τ sig (Elt Ideal))

/-- Contents of all the device's buffers, read at the TensorCore's references. -/
abbrev Vof : (c : Dev nD) → (b : Ref sig .tc) → Buf (Elt Ideal) ((c : Thread nD τ).loc b) := fun c b => Wx c b

/-- Every window of region 0 but the output window is an input. -/
theorem isIn0 : ∀ w : Fin cfg0.W, w ≠ 9 → (cfg0.win w).isOut = false := by decide

/-- Region 0, entered from any contents `Wx`: the contents it leaves are `Wx` after one operation writing the output
    window's array only. Every input window's array is left as found (an input is never written back), and the
    output window's array holds the region's function of the input arrays. -/
theorem region0_eq (c : Dev nD) :
    Pipeline.withArrays spec0 c (Wx c) (fun w => (dat0 (Vof Wx) c).arrAt w cfg0.N)
      = (Cert.Rop.rop0 (Cert.Spec.layer3 (F := Ideal))).result (Wx c) :=
  Cert.RegionOp.withArrays_eq_result spec0 launch0.win.arr_inj c (Wx c) _ 9 (Cert.Rop.rop0 _) (Cert.Rop.rop0_writes _)
    (fun w hw => ((dat0 (Vof Wx) c).arrAt_in w (isIn0 w hw) _).trans (A_eq0 (Vof Wx) c w))
    ((Cert.KernelIdeal.HandVal0.region0_val (Vof Wx) c).trans (Cert.Rop.rop0_at _ _).symm)

/-- Every window of region 1 but the output window is an input. -/
theorem isIn1 : ∀ w : Fin cfg1.W, w ≠ 9 → (cfg1.win w).isOut = false := by decide

/-- Region 1, entered from any contents `Wx`: the contents it leaves are `Wx` after one operation writing the output
    window's array only. Every input window's array is left as found (an input is never written back), and the
    output window's array holds the region's function of the input arrays. -/
theorem region1_eq (c : Dev nD) :
    Pipeline.withArrays spec1 c (Wx c) (fun w => (dat1 (Vof Wx) c).arrAt w cfg1.N)
      = (Cert.Rop.rop1 (Cert.Spec.layer64 (F := Ideal))).result (Wx c) :=
  Cert.RegionOp.withArrays_eq_result spec1 launch1.win.arr_inj c (Wx c) _ 9 (Cert.Rop.rop1 _) (Cert.Rop.rop1_writes _)
    (fun w hw => ((dat1 (Vof Wx) c).arrAt_in w (isIn1 w hw) _).trans (A_eq1 (Vof Wx) c w))
    ((Cert.KernelIdeal.HandVal1.region1_val (Vof Wx) c).trans (Cert.Rop.rop1_at _ _).symm)

/-- Every window of region 2 but the output window is an input. -/
theorem isIn2 : ∀ w : Fin cfg2.W, w ≠ 9 → (cfg2.win w).isOut = false := by decide

/-- Region 2, entered from any contents `Wx`: the contents it leaves are `Wx` after one operation writing the output
    window's array only. Every input window's array is left as found (an input is never written back), and the
    output window's array holds the region's function of the input arrays. -/
theorem region2_eq (c : Dev nD) :
    Pipeline.withArrays spec2 c (Wx c) (fun w => (dat2 (Vof Wx) c).arrAt w cfg2.N)
      = (Cert.Rop.rop2 (Cert.Spec.layer64 (F := Ideal))).result (Wx c) :=
  Cert.RegionOp.withArrays_eq_result spec2 launch2.win.arr_inj c (Wx c) _ 9 (Cert.Rop.rop2 _) (Cert.Rop.rop2_writes _)
    (fun w hw => ((dat2 (Vof Wx) c).arrAt_in w (isIn2 w hw) _).trans (A_eq2 (Vof Wx) c w))
    ((Cert.KernelIdeal.HandVal2.region2_val (Vof Wx) c).trans (Cert.Rop.rop2_at _ _).symm)

/-- Every window of region 3 but the output window is an input. -/
theorem isIn3 : ∀ w : Fin cfg3.W, w ≠ 7 → (cfg3.win w).isOut = false := by decide

/-- Region 3, entered from any contents `Wx`: the contents it leaves are `Wx` after one operation writing the output
    window's array only. Every input window's array is left as found (an input is never written back), and the
    output window's array holds the region's function of the input arrays. -/
theorem region3_eq (c : Dev nD) :
    Pipeline.withArrays spec3 c (Wx c) (fun w => (dat3 (Vof Wx) c).arrAt w cfg3.N)
      = (Cert.Rop.rop3 (Cert.Spec.decode (F := Ideal))).result (Wx c) :=
  Cert.RegionOp.withArrays_eq_result spec3 launch3.win.arr_inj c (Wx c) _ 7 (Cert.Rop.rop3 _) (Cert.Rop.rop3_writes _)
    (fun w hw => ((dat3 (Vof Wx) c).arrAt_in w (isIn3 w hw) _).trans (A_eq3 (Vof Wx) c w))
    ((Cert.KernelIdeal.HandVal3.region3_val (Vof Wx) c).trans (Cert.Rop.rop3_at _ _).symm)

end Regions

/-! ## The run's contents, boundary by boundary -/

variable (m : (ℓ : Loc nD τ sig) → Buf (Elt Ideal) ℓ) (ρ : Dev nD → PrngReg)

/-- Region 0's exit contents in the run: its entry contents after the region's one operation. -/
theorem W2_eq (c : Dev nD) : W2 m ρ c = (Cert.Rop.rop0 (Cert.Spec.layer3 (F := Ideal))).result (W1 m ρ c) := by
  unfold W2
  exact region0_eq (W1 m ρ) c

/-- Region 1's exit contents in the run: its entry contents after the region's one operation. -/
theorem W4_eq (c : Dev nD) : W4 m ρ c = (Cert.Rop.rop1 (Cert.Spec.layer64 (F := Ideal))).result (W3 m ρ c) := by
  unfold W4
  exact region1_eq (W3 m ρ) c

/-- Region 2's exit contents in the run: its entry contents after the region's one operation. -/
theorem W6_eq (c : Dev nD) : W6 m ρ c = (Cert.Rop.rop2 (Cert.Spec.layer64 (F := Ideal))).result (W5 m ρ c) := by
  unfold W6
  exact region2_eq (W5 m ρ) c

/-- Region 3's exit contents in the run: its entry contents after the region's one operation. -/
theorem W8_eq (c : Dev nD) : W8 m ρ c = (Cert.Rop.rop3 (Cert.Spec.decode (F := Ideal))).result (W7 m ρ c) := by
  unfold W8
  exact region3_eq (W7 m ρ) c

/-- The contents at the program's end, on each core: the launch memory taken through the five stretches of host
    operations with, between them, one operation per region. -/
theorem W9_eq (c : Dev nD) : W9 m ρ c = StableHlo.after hostOps4 ((Cert.Rop.rop3 (Cert.Spec.decode (F := Ideal))).result (StableHlo.after hostOps3 ((Cert.Rop.rop2 (Cert.Spec.layer64 (F := Ideal))).result (StableHlo.after hostOps2 ((Cert.Rop.rop1 (Cert.Spec.layer64 (F := Ideal))).result (StableHlo.after hostOps1 ((Cert.Rop.rop0 (Cert.Spec.layer3 (F := Ideal))).result (StableHlo.after hostOps0 (W0 m ρ c))))))))) := by
  show StableHlo.after hostOps4 (W8 m ρ c) = _
  rw [W8_eq]
  show StableHlo.after hostOps4 ((Cert.Rop.rop3 _).result (StableHlo.after hostOps3 (W6 m ρ c))) = _
  rw [W6_eq]
  show StableHlo.after hostOps4 ((Cert.Rop.rop3 _).result (StableHlo.after hostOps3 ((Cert.Rop.rop2 _).result (StableHlo.after hostOps2 (W4 m ρ c))))) = _
  rw [W4_eq]
  show StableHlo.after hostOps4 ((Cert.Rop.rop3 _).result (StableHlo.after hostOps3 ((Cert.Rop.rop2 _).result (StableHlo.after hostOps2 ((Cert.Rop.rop1 _).result (StableHlo.after hostOps1 (W2 m ρ c))))))) = _
  rw [W2_eq]

end Cert.KernelIdeal.Fold

end
-- ==== Proof.LibCat.lean ====
/-
  Reading a concatenation of two or of three buffers back from a run of host operations: the result holds the
  operation's function of each operand's contents at that operand's own reference, so that the operands' contents can
  in turn be read back. (The family of operand references is literal; under the operation's binder it is not, and the
  contents of "the k-th operand" could not be rewritten further.)
-/
import Idealize.ShloMosaic.Lib.StableHlo.Run

noncomputable section

namespace Cert.Lib

open Idealize.ShloMosaic Idealize.ShloMosaic.StableHlo Idealize.SL.Sem

variable {τ : Topo} {sig : RefSig} {Val : EltTy → Type}

/-- A two-operand concatenation's result, each operand's contents at its own reference. -/
theorem nary2_result' {x a y : Ref sig .tc}
    (f : ((k : Fin 2) → ((![x, a] : Fin 2 → Ref sig .tc) k).ty.Contents Val) → y.ty.Contents Val) (hxs hy)
    (F : Valuation τ sig Val) :
    (nary (τ := τ) ![x, a] y f hxs hy).result F (no_index (Proc.devRef .tc y))
      = f (Fin.cons (F (Proc.devRef .tc x)) (Fin.cons (F (Proc.devRef .tc a)) (fun i => i.elim0))) := by
  rw [nary_result]; congr 1; funext k; fin_cases k <;> rfl

/-- A three-operand concatenation's result, each operand's contents at its own reference. -/
theorem nary3_result' {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) := by
  rw [nary_result]; congr 1; funext k; fin_cases k <;> rfl

/-- Contents carried to a typed reference's buffer type and back are the contents. -/
theorem ofBuf_toBuf {T : BufTy} (x : TRef sig T) (v : T.Contents Val) : x.ofBuf (x.toBuf v) = v := by
  obtain ⟨r, h, h2, h3⟩ := x
  subst h
  rfl
/-- Contents carried from a typed reference's buffer type and back are the contents. -/
theorem toBuf_ofBuf {T : BufTy} (x : TRef sig T) (v : x.ref.ty.Contents Val) : x.toBuf (x.ofBuf v) = v := by
  obtain ⟨r, h, h2, h3⟩ := x
  subst h
  rfl

/-- Folding a list of host operations cut in two: first the head part, then the tail part from what it leaves. -/
theorem after_append (l1 l2 : List (HloOp τ sig Val)) (V : Valuation τ sig Val) :
    after (l1 ++ l2) V = after l2 (after l1 V) := by
  induction l1 generalizing V with
  | nil => rfl
  | cons op l ih => exact ih (op.result V)

/-- The same two facts in rewriting form. -/
theorem nary2_result {x a y : Ref sig .tc}
    (f : ((k : Fin 2) → ((![x, a] : Fin 2 → Ref sig .tc) k).ty.Contents Val) → y.ty.Contents Val) (hxs hy)
    (F : Valuation τ sig Val) :
    (nary (τ := τ) ![x, a] y f hxs hy).result F (Proc.devRef .tc y)
      = f (Fin.cons (F (Proc.devRef .tc x)) (Fin.cons (F (Proc.devRef .tc a)) (fun i => i.elim0))) :=
  nary2_result' f hxs hy F
theorem nary3_result {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) :=
  nary3_result' f hxs hy F

end Cert.Lib

/-- The results of a literal list of host operations by one simp pass, two- and three-operand concatenations included. -/
macro "after_results_cat" : tactic =>
  `(tactic| (simp (disch := decide) only [Idealize.ShloMosaic.StableHlo.after_cons, Idealize.ShloMosaic.StableHlo.after_nil,
      Idealize.ShloMosaic.StableHlo.nullary_result', Idealize.ShloMosaic.StableHlo.unary_result', Idealize.ShloMosaic.StableHlo.binary_result',
      Idealize.ShloMosaic.StableHlo.ternary_result', Idealize.ShloMosaic.StableHlo.quaternary_result', Idealize.ShloMosaic.StableHlo.reshape_result',
      Cert.Lib.nary2_result', Cert.Lib.nary3_result', Idealize.ShloMosaic.StableHlo.nary4_result',
      Idealize.ShloMosaic.StableHlo.unaryIndexed_result', Idealize.ShloMosaic.StableHlo.binaryIndexed_result',
      Idealize.ShloMosaic.StableHlo.nullary_result_ne', Idealize.ShloMosaic.StableHlo.unary_result_ne', Idealize.ShloMosaic.StableHlo.binary_result_ne',
      Idealize.ShloMosaic.StableHlo.ternary_result_ne', Idealize.ShloMosaic.StableHlo.quaternary_result_ne', Idealize.ShloMosaic.StableHlo.reshape_result_ne',
      Idealize.ShloMosaic.StableHlo.nary_result_ne', Idealize.ShloMosaic.StableHlo.unaryIndexed_result_ne', Idealize.ShloMosaic.StableHlo.binaryIndexed_result_ne']))

/-- Goes on reading inside a concatenation's operands, one rewrite per operation (the one-pass form does not enter them). -/
macro "finish_results_rw" : tactic =>
  `(tactic| (repeat (first
      | rw [Idealize.ShloMosaic.StableHlo.nullary_result] | rw [Idealize.ShloMosaic.StableHlo.unary_result] | rw [Idealize.ShloMosaic.StableHlo.binary_result]
      | rw [Idealize.ShloMosaic.StableHlo.ternary_result] | rw [Idealize.ShloMosaic.StableHlo.quaternary_result] | rw [Idealize.ShloMosaic.StableHlo.reshape_result]
      | rw [Cert.Lib.nary2_result] | rw [Cert.Lib.nary3_result]
      | (rw [Idealize.ShloMosaic.StableHlo.nullary_result_ne]; rotate_left; decide)
      | (rw [Idealize.ShloMosaic.StableHlo.unary_result_ne]; rotate_left; decide)
      | (rw [Idealize.ShloMosaic.StableHlo.binary_result_ne]; rotate_left; decide)
      | (rw [Idealize.ShloMosaic.StableHlo.ternary_result_ne]; rotate_left; decide)
      | (rw [Idealize.ShloMosaic.StableHlo.quaternary_result_ne]; rotate_left; decide)
      | (rw [Idealize.ShloMosaic.StableHlo.reshape_result_ne]; rotate_left; decide)
      | (rw [Idealize.ShloMosaic.StableHlo.nary_result_ne]; rotate_left; decide))))

end
-- ==== Proof.StretchDefs.lean ====
/-
  The two programs' argument arrays, paired by position: what it means for a valuation of the kernel's
  buffers and a valuation of the reference's buffers to hold the same eighteen arguments.
-/
import proofs.«100455_j65352222376641_1_alg».proof.KernelIdeal
import proofs.«100455_j65352222376641_1_alg».proof.ReferenceIdeal
import Idealize.ShloMosaic.Lib.StableHlo.Run

noncomputable section

namespace Cert.Stretch

open Idealize.ShloMosaic Idealize.SL.Sem

variable {F : FTy → Type} [FloatOps F]

set_option maxHeartbeats 2000000 in
/-- The kernel's and the reference's argument arrays hold the same contents, argument by argument
    (each equation stated at the argument's array type, which the two programs' buffer tables both give it). -/
structure Agree (Wk : Valuation Cert.KernelIdeal.τ Cert.KernelIdeal.sig (Elt F))
    (Wr : Valuation Cert.ReferenceIdeal.τ Cert.ReferenceIdeal.sig (Elt F)) : Prop where
  a0 : @Eq ((⟨Cert.KernelIdeal.S50000x3, .f32⟩ : BufTy).Contents (Elt F)) (Wk (Proc.devRef .tc Cert.KernelIdeal.main_arg0)) (Wr (Proc.devRef .tc Cert.ReferenceIdeal.main_arg0))
  a1 : @Eq ((⟨Cert.KernelIdeal.S2x1600000, .i32⟩ : BufTy).Contents (Elt F)) (Wk (Proc.devRef .tc Cert.KernelIdeal.main_arg1)) (Wr (Proc.devRef .tc Cert.ReferenceIdeal.main_arg1))
  a2 : @Eq ((⟨Cert.KernelIdeal.S1600000x6, .f32⟩ : BufTy).Contents (Elt F)) (Wk (Proc.devRef .tc Cert.KernelIdeal.main_arg2)) (Wr (Proc.devRef .tc Cert.ReferenceIdeal.main_arg2))
  a3 : @Eq ((⟨Cert.KernelIdeal.S3x3x64, .f32⟩ : BufTy).Contents (Elt F)) (Wk (Proc.devRef .tc Cert.KernelIdeal.main_arg3)) (Wr (Proc.devRef .tc Cert.ReferenceIdeal.main_arg3))
  a4 : @Eq ((⟨Cert.KernelIdeal.S3x64, .f32⟩ : BufTy).Contents (Elt F)) (Wk (Proc.devRef .tc Cert.KernelIdeal.main_arg4)) (Wr (Proc.devRef .tc Cert.ReferenceIdeal.main_arg4))
  a5 : @Eq ((⟨Cert.KernelIdeal.S64, .f32⟩ : BufTy).Contents (Elt F)) (Wk (Proc.devRef .tc Cert.KernelIdeal.main_arg5)) (Wr (Proc.devRef .tc Cert.ReferenceIdeal.main_arg5))
  a6 : @Eq ((⟨Cert.KernelIdeal.S3x64x64, .f32⟩ : BufTy).Contents (Elt F)) (Wk (Proc.devRef .tc Cert.KernelIdeal.main_arg6)) (Wr (Proc.devRef .tc Cert.ReferenceIdeal.main_arg6))
  a7 : @Eq ((⟨Cert.KernelIdeal.S64x64, .f32⟩ : BufTy).Contents (Elt F)) (Wk (Proc.devRef .tc Cert.KernelIdeal.main_arg7)) (Wr (Proc.devRef .tc Cert.ReferenceIdeal.main_arg7))
  a8 : @Eq ((⟨Cert.KernelIdeal.S64, .f32⟩ : BufTy).Contents (Elt F)) (Wk (Proc.devRef .tc Cert.KernelIdeal.main_arg8)) (Wr (Proc.devRef .tc Cert.ReferenceIdeal.main_arg8))
  a9 : @Eq ((⟨Cert.KernelIdeal.S3x64x64, .f32⟩ : BufTy).Contents (Elt F)) (Wk (Proc.devRef .tc Cert.KernelIdeal.main_arg9)) (Wr (Proc.devRef .tc Cert.ReferenceIdeal.main_arg9))
  a10 : @Eq ((⟨Cert.KernelIdeal.S64x64, .f32⟩ : BufTy).Contents (Elt F)) (Wk (Proc.devRef .tc Cert.KernelIdeal.main_arg10)) (Wr (Proc.devRef .tc Cert.ReferenceIdeal.main_arg10))
  a11 : @Eq ((⟨Cert.KernelIdeal.S64, .f32⟩ : BufTy).Contents (Elt F)) (Wk (Proc.devRef .tc Cert.KernelIdeal.main_arg11)) (Wr (Proc.devRef .tc Cert.ReferenceIdeal.main_arg11))
  a12 : @Eq ((⟨Cert.KernelIdeal.S134x32, .f32⟩ : BufTy).Contents (Elt F)) (Wk (Proc.devRef .tc Cert.KernelIdeal.main_arg12)) (Wr (Proc.devRef .tc Cert.ReferenceIdeal.main_arg12))
  a13 : @Eq ((⟨Cert.KernelIdeal.S32, .f32⟩ : BufTy).Contents (Elt F)) (Wk (Proc.devRef .tc Cert.KernelIdeal.main_arg13)) (Wr (Proc.devRef .tc Cert.ReferenceIdeal.main_arg13))
  a14 : @Eq ((⟨Cert.KernelIdeal.S32x16, .f32⟩ : BufTy).Contents (Elt F)) (Wk (Proc.devRef .tc Cert.KernelIdeal.main_arg14)) (Wr (Proc.devRef .tc Cert.ReferenceIdeal.main_arg14))
  a15 : @Eq ((⟨Cert.KernelIdeal.S16, .f32⟩ : BufTy).Contents (Elt F)) (Wk (Proc.devRef .tc Cert.KernelIdeal.main_arg15)) (Wr (Proc.devRef .tc Cert.ReferenceIdeal.main_arg15))
  a16 : @Eq ((⟨Cert.KernelIdeal.S16x1, .f32⟩ : BufTy).Contents (Elt F)) (Wk (Proc.devRef .tc Cert.KernelIdeal.main_arg16)) (Wr (Proc.devRef .tc Cert.ReferenceIdeal.main_arg16))
  a17 : @Eq ((⟨Cert.KernelIdeal.S1, .f32⟩ : BufTy).Contents (Elt F)) (Wk (Proc.devRef .tc Cert.KernelIdeal.main_arg17)) (Wr (Proc.devRef .tc Cert.ReferenceIdeal.main_arg17))

set_option maxHeartbeats 2000000 in
/-- The two programs' edge arrays hold the same contents: the edge type (`%8` of both programs), the source node
    (`%10`) and the destination node (`%12`) of every edge. -/
structure Edges (Wk : Valuation Cert.KernelIdeal.τ Cert.KernelIdeal.sig (Elt F))
    (Wr : Valuation Cert.ReferenceIdeal.τ Cert.ReferenceIdeal.sig (Elt F)) : Prop where
  e8 : @Eq ((⟨Cert.KernelIdeal.S1600000, .i32⟩ : BufTy).Contents (Elt F)) (Wk (Proc.devRef .tc Cert.KernelIdeal.main_v8)) (Wr (Proc.devRef .tc Cert.ReferenceIdeal.main_v8))
  e10 : @Eq ((⟨Cert.KernelIdeal.S1600000, .i32⟩ : BufTy).Contents (Elt F)) (Wk (Proc.devRef .tc Cert.KernelIdeal.main_v10)) (Wr (Proc.devRef .tc Cert.ReferenceIdeal.main_v10))
  e12 : @Eq ((⟨Cert.KernelIdeal.S1600000, .i32⟩ : BufTy).Contents (Elt F)) (Wk (Proc.devRef .tc Cert.KernelIdeal.main_v12)) (Wr (Proc.devRef .tc Cert.ReferenceIdeal.main_v12))

end Cert.Stretch

end
-- ==== Proof.Stretch0.lean ====
/-
  The first layer. The kernel's host operations up to its first region are operations of the reference, with the same
  operands, in another order: both compute the edge type from the first edge feature, the source and destination
  node of every edge, the gathered source features, and for each of the three relations the mean of the gathered
  features over the edges of that relation arriving at a node; the kernel then slices the three relation weights and
  leaves every product to its region, where the reference multiplies and adds as it goes. The region is read as the
  one operation that writes the layer's value, written with the reference's own operations. Every buffer that
  crosses to the next layer is compared by reading both folds back at that buffer.
-/
import proofs.«100455_j65352222376641_1_alg».proof.Proof.Gen.KernelIdeal.Launch
import proofs.«100455_j65352222376641_1_alg».proof.Proof.RefRun
import proofs.«100455_j65352222376641_1_alg».proof.Proof.Rop
import proofs.«100455_j65352222376641_1_alg».proof.Proof.Spec
import proofs.«100455_j65352222376641_1_alg».proof.Proof.LibCat
import proofs.«100455_j65352222376641_1_alg».proof.Proof.StretchDefs

noncomputable section

namespace Cert.Stretch

open Idealize.ShloMosaic Idealize.ShloMosaic.StableHlo Idealize.SL.Sem

variable {F : FTy → Type} [FloatOps F]

set_option maxHeartbeats 4000000 in
set_option maxRecDepth 16384 in
/-- No operation of the first layer writes an argument. -/
theorem args0 (Vk : Valuation Cert.KernelIdeal.τ Cert.KernelIdeal.sig (Elt F)) (Vr : Valuation Cert.ReferenceIdeal.τ Cert.ReferenceIdeal.sig (Elt F)) (hA : Agree Vk Vr) : Agree ((Cert.Rop.rop0 Cert.Spec.layer3).result (after Cert.KernelIdeal.Gen.hostOps0 Vk)) (after Cert.ReferenceIdeal.RefRun.opsR0 Vr) := by
  obtain ⟨a0, a1, a2, a3, a4, a5, a6, a7, a8, a9, a10, a11, a12, a13, a14, a15, a16, a17⟩ := hA
  refine ⟨?_, ?_, ?_, ?_, ?_, ?_, ?_, ?_, ?_, ?_, ?_, ?_, ?_, ?_, ?_, ?_, ?_, ?_⟩ <;>
    (simp (disch := decide) only [after_cons, after_nil, nullary_result', unary_result', binary_result', ternary_result', quaternary_result', reshape_result', nullary_result_ne', unary_result_ne', binary_result_ne', ternary_result_ne', quaternary_result_ne', reshape_result_ne', nary_result_ne', Cert.Lib.ofBuf_toBuf, Cert.Rop.rop0_ne]) <;> assumption

set_option maxHeartbeats 4000000 in
set_option maxRecDepth 16384 in
/-- The edge type, from the first edge feature. -/
theorem type0 (Vk : Valuation Cert.KernelIdeal.τ Cert.KernelIdeal.sig (Elt F)) (Vr : Valuation Cert.ReferenceIdeal.τ Cert.ReferenceIdeal.sig (Elt F))
    (h2 : @Eq ((⟨Cert.KernelIdeal.S1600000x6, .f32⟩ : BufTy).Contents (Elt F)) (Vk (Proc.devRef .tc Cert.KernelIdeal.main_arg2)) (Vr (Proc.devRef .tc Cert.ReferenceIdeal.main_arg2))) :
    @Eq ((⟨Cert.KernelIdeal.S1600000, .i32⟩ : BufTy).Contents (Elt F)) (((Cert.Rop.rop0 Cert.Spec.layer3).result (after Cert.KernelIdeal.Gen.hostOps0 Vk)) (Proc.devRef .tc Cert.KernelIdeal.main_v8)) ((after Cert.ReferenceIdeal.RefRun.opsR0 Vr) (Proc.devRef .tc Cert.ReferenceIdeal.main_v8)) := by
  simp (disch := decide) only [after_cons, after_nil, nullary_result', unary_result', binary_result', ternary_result', quaternary_result', reshape_result', nullary_result_ne', unary_result_ne', binary_result_ne', ternary_result_ne', quaternary_result_ne', reshape_result_ne', nary_result_ne', Cert.Lib.ofBuf_toBuf, Cert.Rop.rop0_ne]
  rw [h2]
  rfl

set_option maxHeartbeats 4000000 in
set_option maxRecDepth 16384 in
/-- The source node of every edge. -/
theorem src0 (Vk : Valuation Cert.KernelIdeal.τ Cert.KernelIdeal.sig (Elt F)) (Vr : Valuation Cert.ReferenceIdeal.τ Cert.ReferenceIdeal.sig (Elt F))
    (h1 : @Eq ((⟨Cert.KernelIdeal.S2x1600000, .i32⟩ : BufTy).Contents (Elt F)) (Vk (Proc.devRef .tc Cert.KernelIdeal.main_arg1)) (Vr (Proc.devRef .tc Cert.ReferenceIdeal.main_arg1))) :
    @Eq ((⟨Cert.KernelIdeal.S1600000, .i32⟩ : BufTy).Contents (Elt F)) (((Cert.Rop.rop0 Cert.Spec.layer3).result (after Cert.KernelIdeal.Gen.hostOps0 Vk)) (Proc.devRef .tc Cert.KernelIdeal.main_v10)) ((after Cert.ReferenceIdeal.RefRun.opsR0 Vr) (Proc.devRef .tc Cert.ReferenceIdeal.main_v10)) := by
  simp (disch := decide) only [after_cons, after_nil, nullary_result', unary_result', binary_result', ternary_result', quaternary_result', reshape_result', nullary_result_ne', unary_result_ne', binary_result_ne', ternary_result_ne', quaternary_result_ne', reshape_result_ne', nary_result_ne', Cert.Lib.ofBuf_toBuf, Cert.Rop.rop0_ne]
  rw [h1]
  rfl

set_option maxHeartbeats 4000000 in
set_option maxRecDepth 16384 in
/-- The destination node of every edge. -/
theorem dst0 (Vk : Valuation Cert.KernelIdeal.τ Cert.KernelIdeal.sig (Elt F)) (Vr : Valuation Cert.ReferenceIdeal.τ Cert.ReferenceIdeal.sig (Elt F))
    (h1 : @Eq ((⟨Cert.KernelIdeal.S2x1600000, .i32⟩ : BufTy).Contents (Elt F)) (Vk (Proc.devRef .tc Cert.KernelIdeal.main_arg1)) (Vr (Proc.devRef .tc Cert.ReferenceIdeal.main_arg1))) :
    @Eq ((⟨Cert.KernelIdeal.S1600000, .i32⟩ : BufTy).Contents (Elt F)) (((Cert.Rop.rop0 Cert.Spec.layer3).result (after Cert.KernelIdeal.Gen.hostOps0 Vk)) (Proc.devRef .tc Cert.KernelIdeal.main_v12)) ((after Cert.ReferenceIdeal.RefRun.opsR0 Vr) (Proc.devRef .tc Cert.ReferenceIdeal.main_v12)) := by
  simp (disch := decide) only [after_cons, after_nil, nullary_result', unary_result', binary_result', ternary_result', quaternary_result', reshape_result', nullary_result_ne', unary_result_ne', binary_result_ne', ternary_result_ne', quaternary_result_ne', reshape_result_ne', nary_result_ne', Cert.Lib.ofBuf_toBuf, Cert.Rop.rop0_ne]
  rw [h1]
  rfl

set_option maxHeartbeats 4000000 in
set_option maxRecDepth 16384 in
/-- The first layer's node features: the region's value against the reference's running sum and relu. -/
theorem out0 (Vk : Valuation Cert.KernelIdeal.τ Cert.KernelIdeal.sig (Elt F)) (Vr : Valuation Cert.ReferenceIdeal.τ Cert.ReferenceIdeal.sig (Elt F)) (hA : Agree Vk Vr) :
    @Eq ((⟨Cert.KernelIdeal.S50000x64, .f32⟩ : BufTy).Contents (Elt F)) (((Cert.Rop.rop0 Cert.Spec.layer3).result (after Cert.KernelIdeal.Gen.hostOps0 Vk)) (Proc.devRef .tc Cert.KernelIdeal.main_v74)) ((after Cert.ReferenceIdeal.RefRun.opsR0 Vr) (Proc.devRef .tc Cert.ReferenceIdeal.main_v84)) := by
  obtain ⟨a0, a1, a2, a3, a4, a5, a6, a7, a8, a9, a10, a11, a12, a13, a14, a15, a16, a17⟩ := hA
  rw [Cert.Rop.rop0_at]
  simp (disch := decide) only [after_cons, after_nil, nullary_result', unary_result', binary_result', ternary_result', quaternary_result', reshape_result', nullary_result_ne', unary_result_ne', binary_result_ne', ternary_result_ne', quaternary_result_ne', reshape_result_ne', nary_result_ne', Cert.Lib.ofBuf_toBuf]
  rw [a0, a1, a2, a3, a4, a5]
  rfl

/-- The first layer: from contents that agree on the arguments, the two programs agree, after it, on the arguments,
    on the three edge arrays and on the layer's node features. -/
theorem layer0 (Wk : Valuation Cert.KernelIdeal.τ Cert.KernelIdeal.sig (Elt F)) (Wr : Valuation Cert.ReferenceIdeal.τ Cert.ReferenceIdeal.sig (Elt F)) (hA : Agree Wk Wr) :
    Agree ((Cert.Rop.rop0 Cert.Spec.layer3).result (after Cert.KernelIdeal.Gen.hostOps0 Wk)) (after Cert.ReferenceIdeal.RefRun.opsR0 Wr)
    ∧ Edges ((Cert.Rop.rop0 Cert.Spec.layer3).result (after Cert.KernelIdeal.Gen.hostOps0 Wk)) (after Cert.ReferenceIdeal.RefRun.opsR0 Wr)
    ∧ @Eq ((⟨Cert.KernelIdeal.S50000x64, .f32⟩ : BufTy).Contents (Elt F)) (((Cert.Rop.rop0 Cert.Spec.layer3).result (after Cert.KernelIdeal.Gen.hostOps0 Wk)) (Proc.devRef .tc Cert.KernelIdeal.main_v74)) ((after Cert.ReferenceIdeal.RefRun.opsR0 Wr) (Proc.devRef .tc Cert.ReferenceIdeal.main_v84)) :=
  ⟨args0 Wk Wr hA, ⟨type0 Wk Wr hA.a2, src0 Wk Wr hA.a1, dst0 Wk Wr hA.a1⟩, out0 Wk Wr hA⟩

end Cert.Stretch

end
-- ==== Proof.Stretch1.lean ====
/-
  Layer 1 of the graph network, the kernel's host stretch followed by its region read as one operation, against
  the reference's window of operations for the same layer.

  Both compute, from the previous layer's node features `h`, the edge type, source and destination arrays and the
  layer's weights, the three per-relation neighbour means (gather the source rows, mask by relation, scatter-add to
  the destination rows, divide by the clamped count) and the three slices of the relation weights, and then
  `relu ((((h · root + b) + a0 · w0) + a1 · w1) + a2 · w2)`. The reference interleaves the products with the
  aggregation; the kernel computes the aggregates and slices first and leaves all products to the region. Read back
  at the layer's output buffer, both folds are the same term of the live-in buffers, operation for operation; the
  arguments and the three edge arrays are written by neither.
-/
import proofs.«100455_j65352222376641_1_alg».proof.Proof.Gen.KernelIdeal.Launch
import proofs.«100455_j65352222376641_1_alg».proof.Proof.RefRun
import proofs.«100455_j65352222376641_1_alg».proof.Proof.Rop
import proofs.«100455_j65352222376641_1_alg».proof.Proof.Spec
import proofs.«100455_j65352222376641_1_alg».proof.Proof.LibCat
import proofs.«100455_j65352222376641_1_alg».proof.Proof.StretchDefs

noncomputable section

namespace Cert.Stretch

open Idealize.ShloMosaic Idealize.SL.Sem Idealize.ShloMosaic.StableHlo

variable {F : FTy → Type} [FloatOps F]

/-- Reads a buffer back through both folds and through the region's operation, one pass: each operation's result at
    its own buffer is its function's value, at any other buffer what was there. -/
local macro "keeps_simp" : tactic =>
  `(tactic| (simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', Cert.Rop.rop1_at, Cert.Rop.rop1_ne]))

set_option maxHeartbeats 16000000 in
/-- Layer 1: from valuations that agree on the arguments, the edge arrays and the previous layer's output, the
    kernel's stretch and region and the reference's window leave valuations that agree on the arguments, the edge
    arrays and this layer's output. -/
theorem layer1 (Wk : Valuation Cert.KernelIdeal.τ Cert.KernelIdeal.sig (Elt F)) (Wr : Valuation Cert.ReferenceIdeal.τ Cert.ReferenceIdeal.sig (Elt F))
    (hA : Agree Wk Wr) (hE : Edges Wk Wr)
    (hh : @Eq ((⟨Cert.KernelIdeal.S50000x64, .f32⟩ : BufTy).Contents (Elt F)) (Wk (Proc.devRef .tc Cert.KernelIdeal.main_v74)) (Wr (Proc.devRef .tc Cert.ReferenceIdeal.main_v84))) :
    Agree ((Cert.Rop.rop1 Cert.Spec.layer64).result (after Cert.KernelIdeal.Gen.hostOps1 Wk)) (after Cert.ReferenceIdeal.RefRun.opsR1 Wr)
    ∧ Edges ((Cert.Rop.rop1 Cert.Spec.layer64).result (after Cert.KernelIdeal.Gen.hostOps1 Wk)) (after Cert.ReferenceIdeal.RefRun.opsR1 Wr)
    ∧ @Eq ((⟨Cert.KernelIdeal.S50000x64, .f32⟩ : BufTy).Contents (Elt F)) (((Cert.Rop.rop1 Cert.Spec.layer64).result (after Cert.KernelIdeal.Gen.hostOps1 Wk)) (Proc.devRef .tc Cert.KernelIdeal.main_v136)) ((after Cert.ReferenceIdeal.RefRun.opsR1 Wr) (Proc.devRef .tc Cert.ReferenceIdeal.main_v156)) := by
  refine ⟨⟨?_, ?_, ?_, ?_, ?_, ?_, ?_, ?_, ?_, ?_, ?_, ?_, ?_, ?_, ?_, ?_, ?_, ?_⟩, ⟨?_, ?_, ?_⟩, ?_⟩
  · keeps_simp; exact hA.a0
  · keeps_simp; exact hA.a1
  · keeps_simp; exact hA.a2
  · keeps_simp; exact hA.a3
  · keeps_simp; exact hA.a4
  · keeps_simp; exact hA.a5
  · keeps_simp; exact hA.a6
  · keeps_simp; exact hA.a7
  · keeps_simp; exact hA.a8
  · keeps_simp; exact hA.a9
  · keeps_simp; exact hA.a10
  · keeps_simp; exact hA.a11
  · keeps_simp; exact hA.a12
  · keeps_simp; exact hA.a13
  · keeps_simp; exact hA.a14
  · keeps_simp; exact hA.a15
  · keeps_simp; exact hA.a16
  · keeps_simp; exact hA.a17
  · keeps_simp; exact hE.e8
  · keeps_simp; exact hE.e10
  · keeps_simp; exact hE.e12
  · rw [Cert.Rop.rop1_at]
    after_results_simp
    simp only [Cert.Lib.ofBuf_toBuf]
    rw [hh, hA.a7, hA.a8, hA.a6, hE.e8, hE.e10, hE.e12]
    rfl

end Cert.Stretch

end
-- ==== Proof.Stretch2.lean ====
/-
  Layer 2 of the graph network, the kernel's host stretch followed by its region read as one operation, against
  the reference's window of operations for the same layer.

  Both compute, from the previous layer's node features `h`, the edge type, source and destination arrays and the
  layer's weights, the three per-relation neighbour means (gather the source rows, mask by relation, scatter-add to
  the destination rows, divide by the clamped count) and the three slices of the relation weights, and then
  `relu ((((h · root + b) + a0 · w0) + a1 · w1) + a2 · w2)`. The reference interleaves the products with the
  aggregation; the kernel computes the aggregates and slices first and leaves all products to the region. Read back
  at the layer's output buffer, both folds are the same term of the live-in buffers, operation for operation; the
  arguments and the three edge arrays are written by neither.
-/
import proofs.«100455_j65352222376641_1_alg».proof.Proof.Gen.KernelIdeal.Launch
import proofs.«100455_j65352222376641_1_alg».proof.Proof.RefRun
import proofs.«100455_j65352222376641_1_alg».proof.Proof.Rop
import proofs.«100455_j65352222376641_1_alg».proof.Proof.Spec
import proofs.«100455_j65352222376641_1_alg».proof.Proof.LibCat
import proofs.«100455_j65352222376641_1_alg».proof.Proof.StretchDefs

noncomputable section

namespace Cert.Stretch

open Idealize.ShloMosaic Idealize.SL.Sem Idealize.ShloMosaic.StableHlo

variable {F : FTy → Type} [FloatOps F]

/-- Reads a buffer back through both folds and through the region's operation, one pass: each operation's result at
    its own buffer is its function's value, at any other buffer what was there. -/
local macro "keeps_simp" : tactic =>
  `(tactic| (simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', Cert.Rop.rop2_at, Cert.Rop.rop2_ne]))

set_option maxHeartbeats 16000000 in
/-- Layer 2: from valuations that agree on the arguments, the edge arrays and the previous layer's output, the
    kernel's stretch and region and the reference's window leave valuations that agree on the arguments, the edge
    arrays and this layer's output. -/
theorem layer2 (Wk : Valuation Cert.KernelIdeal.τ Cert.KernelIdeal.sig (Elt F)) (Wr : Valuation Cert.ReferenceIdeal.τ Cert.ReferenceIdeal.sig (Elt F))
    (hA : Agree Wk Wr) (hE : Edges Wk Wr)
    (hh : @Eq ((⟨Cert.KernelIdeal.S50000x64, .f32⟩ : BufTy).Contents (Elt F)) (Wk (Proc.devRef .tc Cert.KernelIdeal.main_v136)) (Wr (Proc.devRef .tc Cert.ReferenceIdeal.main_v156))) :
    Agree ((Cert.Rop.rop2 Cert.Spec.layer64).result (after Cert.KernelIdeal.Gen.hostOps2 Wk)) (after Cert.ReferenceIdeal.RefRun.opsR2 Wr)
    ∧ Edges ((Cert.Rop.rop2 Cert.Spec.layer64).result (after Cert.KernelIdeal.Gen.hostOps2 Wk)) (after Cert.ReferenceIdeal.RefRun.opsR2 Wr)
    ∧ @Eq ((⟨Cert.KernelIdeal.S50000x64, .f32⟩ : BufTy).Contents (Elt F)) (((Cert.Rop.rop2 Cert.Spec.layer64).result (after Cert.KernelIdeal.Gen.hostOps2 Wk)) (Proc.devRef .tc Cert.KernelIdeal.main_v198)) ((after Cert.ReferenceIdeal.RefRun.opsR2 Wr) (Proc.devRef .tc Cert.ReferenceIdeal.main_v228)) := by
  refine ⟨⟨?_, ?_, ?_, ?_, ?_, ?_, ?_, ?_, ?_, ?_, ?_, ?_, ?_, ?_, ?_, ?_, ?_, ?_⟩, ⟨?_, ?_, ?_⟩, ?_⟩
  · keeps_simp; exact hA.a0
  · keeps_simp; exact hA.a1
  · keeps_simp; exact hA.a2
  · keeps_simp; exact hA.a3
  · keeps_simp; exact hA.a4
  · keeps_simp; exact hA.a5
  · keeps_simp; exact hA.a6
  · keeps_simp; exact hA.a7
  · keeps_simp; exact hA.a8
  · keeps_simp; exact hA.a9
  · keeps_simp; exact hA.a10
  · keeps_simp; exact hA.a11
  · keeps_simp; exact hA.a12
  · keeps_simp; exact hA.a13
  · keeps_simp; exact hA.a14
  · keeps_simp; exact hA.a15
  · keeps_simp; exact hA.a16
  · keeps_simp; exact hA.a17
  · keeps_simp; exact hE.e8
  · keeps_simp; exact hE.e10
  · keeps_simp; exact hE.e12
  · rw [Cert.Rop.rop2_at]
    after_results_simp
    simp only [Cert.Lib.ofBuf_toBuf]
    rw [hh, hA.a10, hA.a11, hA.a9, hE.e8, hE.e10, hE.e12]
    rfl

end Cert.Stretch

end
-- ==== Proof.Stretch3.lean ====
/-
  The decoder and the tail of the two programs. Both gather the last layer's node features at every edge's source
  and destination node, concatenate the two gathered arrays with the edge features, run the three-layer decoder
  on the rows and reshape the one column to a vector. The kernel's host operations are the reference's, operation
  for operation, up to the concatenation; its last region is read as the one operation that writes the decoder's
  value. The lists are cut at the concatenation: before it the two programs are compared buffer by buffer, the
  concatenation is compared on arbitrary contents that agree on its three operands, and so is what follows it.
-/
import proofs.«100455_j65352222376641_1_alg».proof.Proof.Gen.KernelIdeal.Launch
import proofs.«100455_j65352222376641_1_alg».proof.Proof.RefRun
import proofs.«100455_j65352222376641_1_alg».proof.Proof.Rop
import proofs.«100455_j65352222376641_1_alg».proof.Proof.Spec
import proofs.«100455_j65352222376641_1_alg».proof.Proof.LibCat
import proofs.«100455_j65352222376641_1_alg».proof.Proof.StretchDefs

noncomputable section

namespace Cert.Stretch

open Idealize.ShloMosaic Idealize.ShloMosaic.StableHlo Idealize.SL.Sem

variable {F : FTy → Type} [FloatOps F]

set_option maxHeartbeats 1000000 in
set_option maxRecDepth 8192 in
/-- Before the concatenation: the features gathered at the source nodes. -/
theorem pre3_src (Vk : Valuation Cert.KernelIdeal.τ Cert.KernelIdeal.sig (Elt F)) (Vr : Valuation Cert.ReferenceIdeal.τ Cert.ReferenceIdeal.sig (Elt F))
    (hs : @Eq ((⟨Cert.KernelIdeal.S1600000, .i32⟩ : BufTy).Contents (Elt F)) (Vk (Proc.devRef .tc Cert.KernelIdeal.main_v10)) (Vr (Proc.devRef .tc Cert.ReferenceIdeal.main_v10)))
    (hh : @Eq ((⟨Cert.KernelIdeal.S50000x64, .f32⟩ : BufTy).Contents (Elt F)) (Vk (Proc.devRef .tc Cert.KernelIdeal.main_v198)) (Vr (Proc.devRef .tc Cert.ReferenceIdeal.main_v228))) :
    @Eq ((⟨Cert.KernelIdeal.S1600000x64, .f32⟩ : BufTy).Contents (Elt F)) (after (List.take 18 Cert.KernelIdeal.Gen.hostOps3) Vk (Proc.devRef .tc Cert.KernelIdeal.main_v205)) (after (List.take 18 Cert.ReferenceIdeal.RefRun.opsR3) Vr (Proc.devRef .tc Cert.ReferenceIdeal.main_v235)) := by
  simp (disch := decide) only [List.take_succ_cons, List.take_zero, List.drop_succ_cons, List.drop_zero, after_cons, after_nil, nullary_result', unary_result', binary_result', ternary_result', quaternary_result', reshape_result', nullary_result_ne', unary_result_ne', binary_result_ne', ternary_result_ne', quaternary_result_ne', reshape_result_ne', nary_result_ne', Cert.Lib.ofBuf_toBuf]
  rw [hs, hh]
  rfl

set_option maxHeartbeats 1000000 in
set_option maxRecDepth 8192 in
/-- Before the concatenation: the features gathered at the destination nodes. -/
theorem pre3_dst (Vk : Valuation Cert.KernelIdeal.τ Cert.KernelIdeal.sig (Elt F)) (Vr : Valuation Cert.ReferenceIdeal.τ Cert.ReferenceIdeal.sig (Elt F))
    (hd : @Eq ((⟨Cert.KernelIdeal.S1600000, .i32⟩ : BufTy).Contents (Elt F)) (Vk (Proc.devRef .tc Cert.KernelIdeal.main_v12)) (Vr (Proc.devRef .tc Cert.ReferenceIdeal.main_v12)))
    (hh : @Eq ((⟨Cert.KernelIdeal.S50000x64, .f32⟩ : BufTy).Contents (Elt F)) (Vk (Proc.devRef .tc Cert.KernelIdeal.main_v198)) (Vr (Proc.devRef .tc Cert.ReferenceIdeal.main_v228))) :
    @Eq ((⟨Cert.KernelIdeal.S1600000x64, .f32⟩ : BufTy).Contents (Elt F)) (after (List.take 18 Cert.KernelIdeal.Gen.hostOps3) Vk (Proc.devRef .tc Cert.KernelIdeal.main_v212)) (after (List.take 18 Cert.ReferenceIdeal.RefRun.opsR3) Vr (Proc.devRef .tc Cert.ReferenceIdeal.main_v242)) := by
  simp (disch := decide) only [List.take_succ_cons, List.take_zero, List.drop_succ_cons, List.drop_zero, after_cons, after_nil, nullary_result', unary_result', binary_result', ternary_result', quaternary_result', reshape_result', nullary_result_ne', unary_result_ne', binary_result_ne', ternary_result_ne', quaternary_result_ne', reshape_result_ne', nary_result_ne', Cert.Lib.ofBuf_toBuf]
  rw [hd, hh]
  rfl

set_option maxHeartbeats 1000000 in
set_option maxRecDepth 8192 in
/-- Before the concatenation: the edge features, an argument no operation writes. -/
theorem pre3_arg2 (Vk : Valuation Cert.KernelIdeal.τ Cert.KernelIdeal.sig (Elt F)) (Vr : Valuation Cert.ReferenceIdeal.τ Cert.ReferenceIdeal.sig (Elt F))
    (h2 : @Eq ((⟨Cert.KernelIdeal.S1600000x6, .f32⟩ : BufTy).Contents (Elt F)) (Vk (Proc.devRef .tc Cert.KernelIdeal.main_arg2)) (Vr (Proc.devRef .tc Cert.ReferenceIdeal.main_arg2))) :
    @Eq ((⟨Cert.KernelIdeal.S1600000x6, .f32⟩ : BufTy).Contents (Elt F)) (after (List.take 18 Cert.KernelIdeal.Gen.hostOps3) Vk (Proc.devRef .tc Cert.KernelIdeal.main_arg2)) (after (List.take 18 Cert.ReferenceIdeal.RefRun.opsR3) Vr (Proc.devRef .tc Cert.ReferenceIdeal.main_arg2)) := by
  simp (disch := decide) only [List.take_succ_cons, List.take_zero, List.drop_succ_cons, List.drop_zero, after_cons, after_nil, nullary_result', unary_result', binary_result', ternary_result', quaternary_result', reshape_result', nullary_result_ne', unary_result_ne', binary_result_ne', ternary_result_ne', quaternary_result_ne', reshape_result_ne', nary_result_ne', Cert.Lib.ofBuf_toBuf]
  exact h2

set_option maxHeartbeats 1000000 in
set_option maxRecDepth 8192 in
/-- The concatenation, on contents that agree on its three operands. -/
theorem cat3 (Vk : Valuation Cert.KernelIdeal.τ Cert.KernelIdeal.sig (Elt F)) (Vr : Valuation Cert.ReferenceIdeal.τ Cert.ReferenceIdeal.sig (Elt F))
    (e1 : @Eq ((⟨Cert.KernelIdeal.S1600000x64, .f32⟩ : BufTy).Contents (Elt F)) (Vk (Proc.devRef .tc Cert.KernelIdeal.main_v205)) (Vr (Proc.devRef .tc Cert.ReferenceIdeal.main_v235)))
    (e2 : @Eq ((⟨Cert.KernelIdeal.S1600000x64, .f32⟩ : BufTy).Contents (Elt F)) (Vk (Proc.devRef .tc Cert.KernelIdeal.main_v212)) (Vr (Proc.devRef .tc Cert.ReferenceIdeal.main_v242)))
    (e3 : @Eq ((⟨Cert.KernelIdeal.S1600000x6, .f32⟩ : BufTy).Contents (Elt F)) (Vk (Proc.devRef .tc Cert.KernelIdeal.main_arg2)) (Vr (Proc.devRef .tc Cert.ReferenceIdeal.main_arg2))) :
    @Eq ((⟨Cert.KernelIdeal.S1600000x134, .f32⟩ : BufTy).Contents (Elt F)) (after (List.drop 18 Cert.KernelIdeal.Gen.hostOps3) Vk (Proc.devRef .tc Cert.KernelIdeal.main_v213)) (after (List.take 1 (List.drop 18 Cert.ReferenceIdeal.RefRun.opsR3)) Vr (Proc.devRef .tc Cert.ReferenceIdeal.main_v243)) := by
  simp only [List.take_succ_cons, List.take_zero, List.drop_succ_cons, List.drop_zero, after_cons, after_nil]
  rw [Cert.Lib.nary3_result, Cert.Lib.nary3_result]
  rw [e1, e2, e3]
  rfl

set_option maxHeartbeats 1000000 in
set_option maxRecDepth 8192 in
/-- The decoder's weights and biases, arguments no operation writes, up to and including the concatenation. -/
theorem mid3_args (Vk : Valuation Cert.KernelIdeal.τ Cert.KernelIdeal.sig (Elt F)) (Vr : Valuation Cert.ReferenceIdeal.τ Cert.ReferenceIdeal.sig (Elt F))
    (h12 : @Eq ((⟨Cert.KernelIdeal.S134x32, .f32⟩ : BufTy).Contents (Elt F)) (Vk (Proc.devRef .tc Cert.KernelIdeal.main_arg12)) (Vr (Proc.devRef .tc Cert.ReferenceIdeal.main_arg12)))
    (h13 : @Eq ((⟨Cert.KernelIdeal.S32, .f32⟩ : BufTy).Contents (Elt F)) (Vk (Proc.devRef .tc Cert.KernelIdeal.main_arg13)) (Vr (Proc.devRef .tc Cert.ReferenceIdeal.main_arg13)))
    (h14 : @Eq ((⟨Cert.KernelIdeal.S32x16, .f32⟩ : BufTy).Contents (Elt F)) (Vk (Proc.devRef .tc Cert.KernelIdeal.main_arg14)) (Vr (Proc.devRef .tc Cert.ReferenceIdeal.main_arg14)))
    (h15 : @Eq ((⟨Cert.KernelIdeal.S16, .f32⟩ : BufTy).Contents (Elt F)) (Vk (Proc.devRef .tc Cert.KernelIdeal.main_arg15)) (Vr (Proc.devRef .tc Cert.ReferenceIdeal.main_arg15)))
    (h16 : @Eq ((⟨Cert.KernelIdeal.S16x1, .f32⟩ : BufTy).Contents (Elt F)) (Vk (Proc.devRef .tc Cert.KernelIdeal.main_arg16)) (Vr (Proc.devRef .tc Cert.ReferenceIdeal.main_arg16)))
    (h17 : @Eq ((⟨Cert.KernelIdeal.S1, .f32⟩ : BufTy).Contents (Elt F)) (Vk (Proc.devRef .tc Cert.KernelIdeal.main_arg17)) (Vr (Proc.devRef .tc Cert.ReferenceIdeal.main_arg17))) :
    @Eq ((⟨Cert.KernelIdeal.S134x32, .f32⟩ : BufTy).Contents (Elt F)) (after (List.drop 18 Cert.KernelIdeal.Gen.hostOps3) (after (List.take 18 Cert.KernelIdeal.Gen.hostOps3) Vk) (Proc.devRef .tc Cert.KernelIdeal.main_arg12)) (after (List.take 1 (List.drop 18 Cert.ReferenceIdeal.RefRun.opsR3)) (after (List.take 18 Cert.ReferenceIdeal.RefRun.opsR3) Vr) (Proc.devRef .tc Cert.ReferenceIdeal.main_arg12))
    ∧ @Eq ((⟨Cert.KernelIdeal.S32, .f32⟩ : BufTy).Contents (Elt F)) (after (List.drop 18 Cert.KernelIdeal.Gen.hostOps3) (after (List.take 18 Cert.KernelIdeal.Gen.hostOps3) Vk) (Proc.devRef .tc Cert.KernelIdeal.main_arg13)) (after (List.take 1 (List.drop 18 Cert.ReferenceIdeal.RefRun.opsR3)) (after (List.take 18 Cert.ReferenceIdeal.RefRun.opsR3) Vr) (Proc.devRef .tc Cert.ReferenceIdeal.main_arg13))
    ∧ @Eq ((⟨Cert.KernelIdeal.S32x16, .f32⟩ : BufTy).Contents (Elt F)) (after (List.drop 18 Cert.KernelIdeal.Gen.hostOps3) (after (List.take 18 Cert.KernelIdeal.Gen.hostOps3) Vk) (Proc.devRef .tc Cert.KernelIdeal.main_arg14)) (after (List.take 1 (List.drop 18 Cert.ReferenceIdeal.RefRun.opsR3)) (after (List.take 18 Cert.ReferenceIdeal.RefRun.opsR3) Vr) (Proc.devRef .tc Cert.ReferenceIdeal.main_arg14))
    ∧ @Eq ((⟨Cert.KernelIdeal.S16, .f32⟩ : BufTy).Contents (Elt F)) (after (List.drop 18 Cert.KernelIdeal.Gen.hostOps3) (after (List.take 18 Cert.KernelIdeal.Gen.hostOps3) Vk) (Proc.devRef .tc Cert.KernelIdeal.main_arg15)) (after (List.take 1 (List.drop 18 Cert.ReferenceIdeal.RefRun.opsR3)) (after (List.take 18 Cert.ReferenceIdeal.RefRun.opsR3) Vr) (Proc.devRef .tc Cert.ReferenceIdeal.main_arg15))
    ∧ @Eq ((⟨Cert.KernelIdeal.S16x1, .f32⟩ : BufTy).Contents (Elt F)) (after (List.drop 18 Cert.KernelIdeal.Gen.hostOps3) (after (List.take 18 Cert.KernelIdeal.Gen.hostOps3) Vk) (Proc.devRef .tc Cert.KernelIdeal.main_arg16)) (after (List.take 1 (List.drop 18 Cert.ReferenceIdeal.RefRun.opsR3)) (after (List.take 18 Cert.ReferenceIdeal.RefRun.opsR3) Vr) (Proc.devRef .tc Cert.ReferenceIdeal.main_arg16))
    ∧ @Eq ((⟨Cert.KernelIdeal.S1, .f32⟩ : BufTy).Contents (Elt F)) (after (List.drop 18 Cert.KernelIdeal.Gen.hostOps3) (after (List.take 18 Cert.KernelIdeal.Gen.hostOps3) Vk) (Proc.devRef .tc Cert.KernelIdeal.main_arg17)) (after (List.take 1 (List.drop 18 Cert.ReferenceIdeal.RefRun.opsR3)) (after (List.take 18 Cert.ReferenceIdeal.RefRun.opsR3) Vr) (Proc.devRef .tc Cert.ReferenceIdeal.main_arg17)) := by
  simp (disch := decide) only [List.take_succ_cons, List.take_zero, List.drop_succ_cons, List.drop_zero, after_cons, after_nil, nullary_result', unary_result', binary_result', ternary_result', quaternary_result', reshape_result', nullary_result_ne', unary_result_ne', binary_result_ne', ternary_result_ne', quaternary_result_ne', reshape_result_ne', nary_result_ne', Cert.Lib.ofBuf_toBuf]
  exact ⟨h12, h13, h14, h15, h16, h17⟩

set_option maxHeartbeats 1000000 in
set_option maxRecDepth 8192 in
/-- After the concatenation: the kernel's last region, read as the decoder of the reference's own operations, against
    the reference's decoder, on contents that agree on the concatenated rows and on the weights and biases. -/
theorem dec3 (Vk : Valuation Cert.KernelIdeal.τ Cert.KernelIdeal.sig (Elt F)) (Vr : Valuation Cert.ReferenceIdeal.τ Cert.ReferenceIdeal.sig (Elt F))
    (hx : @Eq ((⟨Cert.KernelIdeal.S1600000x134, .f32⟩ : BufTy).Contents (Elt F)) (Vk (Proc.devRef .tc Cert.KernelIdeal.main_v213)) (Vr (Proc.devRef .tc Cert.ReferenceIdeal.main_v243)))
    (h12 : @Eq ((⟨Cert.KernelIdeal.S134x32, .f32⟩ : BufTy).Contents (Elt F)) (Vk (Proc.devRef .tc Cert.KernelIdeal.main_arg12)) (Vr (Proc.devRef .tc Cert.ReferenceIdeal.main_arg12)))
    (h13 : @Eq ((⟨Cert.KernelIdeal.S32, .f32⟩ : BufTy).Contents (Elt F)) (Vk (Proc.devRef .tc Cert.KernelIdeal.main_arg13)) (Vr (Proc.devRef .tc Cert.ReferenceIdeal.main_arg13)))
    (h14 : @Eq ((⟨Cert.KernelIdeal.S32x16, .f32⟩ : BufTy).Contents (Elt F)) (Vk (Proc.devRef .tc Cert.KernelIdeal.main_arg14)) (Vr (Proc.devRef .tc Cert.ReferenceIdeal.main_arg14)))
    (h15 : @Eq ((⟨Cert.KernelIdeal.S16, .f32⟩ : BufTy).Contents (Elt F)) (Vk (Proc.devRef .tc Cert.KernelIdeal.main_arg15)) (Vr (Proc.devRef .tc Cert.ReferenceIdeal.main_arg15)))
    (h16 : @Eq ((⟨Cert.KernelIdeal.S16x1, .f32⟩ : BufTy).Contents (Elt F)) (Vk (Proc.devRef .tc Cert.KernelIdeal.main_arg16)) (Vr (Proc.devRef .tc Cert.ReferenceIdeal.main_arg16)))
    (h17 : @Eq ((⟨Cert.KernelIdeal.S1, .f32⟩ : BufTy).Contents (Elt F)) (Vk (Proc.devRef .tc Cert.KernelIdeal.main_arg17)) (Vr (Proc.devRef .tc Cert.ReferenceIdeal.main_arg17))) :
    @Eq ((⟨Cert.KernelIdeal.S1600000x1, .f32⟩ : BufTy).Contents (Elt F)) ((Cert.Rop.rop3 Cert.Spec.decode).result Vk (Proc.devRef .tc Cert.KernelIdeal.main_v214)) (after (List.drop 1 (List.drop 18 Cert.ReferenceIdeal.RefRun.opsR3)) Vr (Proc.devRef .tc Cert.ReferenceIdeal.main_v257)) := by
  rw [Cert.Rop.rop3_at]
  simp (disch := decide) only [List.take_succ_cons, List.take_zero, List.drop_succ_cons, List.drop_zero, after_cons, after_nil, nullary_result', unary_result', binary_result', ternary_result', quaternary_result', reshape_result', nullary_result_ne', unary_result_ne', binary_result_ne', ternary_result_ne', quaternary_result_ne', reshape_result_ne', nary_result_ne', Cert.Lib.ofBuf_toBuf]
  rw [hx, h12, h13, h14, h15, h16, h17]
  rfl

set_option maxHeartbeats 1000000 in
set_option maxRecDepth 8192 in
/-- The final reshape of the one column to a vector. -/
theorem resh3 (Vk : Valuation Cert.KernelIdeal.τ Cert.KernelIdeal.sig (Elt F)) (Vr : Valuation Cert.ReferenceIdeal.τ Cert.ReferenceIdeal.sig (Elt F))
    (hy : @Eq ((⟨Cert.KernelIdeal.S1600000x1, .f32⟩ : BufTy).Contents (Elt F)) (Vk (Proc.devRef .tc Cert.KernelIdeal.main_v214)) (Vr (Proc.devRef .tc Cert.ReferenceIdeal.main_v257))) :
    @Eq ((⟨Cert.KernelIdeal.S1600000, .f32⟩ : BufTy).Contents (Elt F)) (after Cert.KernelIdeal.Gen.hostOps4 Vk (Proc.devRef .tc Cert.KernelIdeal.main_v215)) (after Cert.ReferenceIdeal.RefRun.opsR4 Vr (Proc.devRef .tc Cert.ReferenceIdeal.main_v258)) := by
  simp (disch := decide) only [List.take_succ_cons, List.take_zero, List.drop_succ_cons, List.drop_zero, after_cons, after_nil, nullary_result', unary_result', binary_result', ternary_result', quaternary_result', reshape_result', nullary_result_ne', unary_result_ne', binary_result_ne', ternary_result_ne', quaternary_result_ne', reshape_result_ne', nary_result_ne', Cert.Lib.ofBuf_toBuf]
  rw [hy]
  rfl

set_option maxHeartbeats 1000000 in
set_option maxRecDepth 8192 in
/-- The decoder and the tail: from contents that agree on the arguments, on the edges' source and destination nodes
    and on the last layer's node features, the two programs end with the same result vector. -/
theorem decoder (Wk : Valuation Cert.KernelIdeal.τ Cert.KernelIdeal.sig (Elt F)) (Wr : Valuation Cert.ReferenceIdeal.τ Cert.ReferenceIdeal.sig (Elt F)) (hA : Agree Wk Wr) (hE : Edges Wk Wr)
    (hh : @Eq ((⟨Cert.KernelIdeal.S50000x64, .f32⟩ : BufTy).Contents (Elt F)) (Wk (Proc.devRef .tc Cert.KernelIdeal.main_v198)) (Wr (Proc.devRef .tc Cert.ReferenceIdeal.main_v228))) :
    @Eq ((⟨Cert.KernelIdeal.S1600000, .f32⟩ : BufTy).Contents (Elt F)) (after Cert.KernelIdeal.Gen.hostOps4 ((Cert.Rop.rop3 Cert.Spec.decode).result (after Cert.KernelIdeal.Gen.hostOps3 Wk)) (Proc.devRef .tc Cert.KernelIdeal.main_v215)) (after Cert.ReferenceIdeal.RefRun.opsR4 (after Cert.ReferenceIdeal.RefRun.opsR3 Wr) (Proc.devRef .tc Cert.ReferenceIdeal.main_v258)) := by
  have sk : after Cert.KernelIdeal.Gen.hostOps3 Wk = after (List.drop 18 Cert.KernelIdeal.Gen.hostOps3) (after (List.take 18 Cert.KernelIdeal.Gen.hostOps3) Wk) := by
    rw [← Cert.Lib.after_append, List.take_append_drop]
  have sr : after Cert.ReferenceIdeal.RefRun.opsR3 Wr = after (List.drop 1 (List.drop 18 Cert.ReferenceIdeal.RefRun.opsR3)) (after (List.take 1 (List.drop 18 Cert.ReferenceIdeal.RefRun.opsR3)) (after (List.take 18 Cert.ReferenceIdeal.RefRun.opsR3) Wr)) := by
    rw [← Cert.Lib.after_append, ← Cert.Lib.after_append, List.take_append_drop, List.take_append_drop]
  rw [sk, sr]
  obtain ⟨m12, m13, m14, m15, m16, m17⟩ := mid3_args Wk Wr hA.a12 hA.a13 hA.a14 hA.a15 hA.a16 hA.a17
  exact resh3 _ _ (dec3 _ _
    (cat3 _ _ (pre3_src Wk Wr hE.e10 hh) (pre3_dst Wk Wr hE.e12 hh) (pre3_arg2 Wk Wr hA.a2))
    m12 m13 m14 m15 m16 m17)

end Cert.Stretch

end
-- ==== Proof.StretchAll.lean ====
/-
  The four parts chained: the three layers and the decoder, each from what the one before leaves, against the
  reference's straight line cut into its five consecutive windows.
-/
import proofs.«100455_j65352222376641_1_alg».proof.Proof.Gen.KernelIdeal.Launch
import proofs.«100455_j65352222376641_1_alg».proof.Proof.RefRun
import proofs.«100455_j65352222376641_1_alg».proof.Proof.Rop
import proofs.«100455_j65352222376641_1_alg».proof.Proof.Spec
import proofs.«100455_j65352222376641_1_alg».proof.Proof.LibCat
import proofs.«100455_j65352222376641_1_alg».proof.Proof.StretchDefs
import proofs.«100455_j65352222376641_1_alg».proof.Proof.Stretch0
import proofs.«100455_j65352222376641_1_alg».proof.Proof.Stretch1
import proofs.«100455_j65352222376641_1_alg».proof.Proof.Stretch2
import proofs.«100455_j65352222376641_1_alg».proof.Proof.Stretch3

noncomputable section

namespace Cert.Stretch

open Idealize.ShloMosaic Idealize.ShloMosaic.StableHlo Idealize.SL.Sem

variable {F : FTy → Type} [FloatOps F]

set_option maxHeartbeats 1000000 in
/-- The whole run: from contents that agree on the arguments, the kernel's host stretches with its four regions read as
    single operations, and the reference's straight line, end with the same result vector. -/
theorem whole (Wk : Valuation Cert.KernelIdeal.τ Cert.KernelIdeal.sig (Elt F)) (Wr : Valuation Cert.ReferenceIdeal.τ Cert.ReferenceIdeal.sig (Elt F)) (h : Agree Wk Wr) :
    @Eq ((⟨Cert.KernelIdeal.S1600000, .f32⟩ : BufTy).Contents (Elt F))
      (after Cert.KernelIdeal.Gen.hostOps4 ((Cert.Rop.rop3 Cert.Spec.decode).result (after Cert.KernelIdeal.Gen.hostOps3 ((Cert.Rop.rop2 Cert.Spec.layer64).result (after Cert.KernelIdeal.Gen.hostOps2 ((Cert.Rop.rop1 Cert.Spec.layer64).result (after Cert.KernelIdeal.Gen.hostOps1 ((Cert.Rop.rop0 Cert.Spec.layer3).result (after Cert.KernelIdeal.Gen.hostOps0 Wk)))))))) (Proc.devRef .tc Cert.KernelIdeal.main_v215))
      (after Cert.ReferenceIdeal.RefRun.ops Wr (Proc.devRef .tc Cert.ReferenceIdeal.main_v258)) := by
  have hr : after Cert.ReferenceIdeal.RefRun.ops Wr
      = after Cert.ReferenceIdeal.RefRun.opsR4 (after Cert.ReferenceIdeal.RefRun.opsR3 (after Cert.ReferenceIdeal.RefRun.opsR2 (after Cert.ReferenceIdeal.RefRun.opsR1 (after Cert.ReferenceIdeal.RefRun.opsR0 Wr)))) := by
    show after (Cert.ReferenceIdeal.RefRun.opsR0 ++ (Cert.ReferenceIdeal.RefRun.opsR1 ++ (Cert.ReferenceIdeal.RefRun.opsR2 ++ (Cert.ReferenceIdeal.RefRun.opsR3 ++ Cert.ReferenceIdeal.RefRun.opsR4)))) Wr = _
    rw [Cert.Lib.after_append, Cert.Lib.after_append, Cert.Lib.after_append, Cert.Lib.after_append]
  rw [hr]
  obtain ⟨A1, E1, H1⟩ := layer0 Wk Wr h
  obtain ⟨A2, E2, H2⟩ := layer1 _ _ A1 E1 H1
  obtain ⟨A3, E3, H3⟩ := layer2 _ _ A2 E2 H2
  exact decoder _ _ A3 E3 H3

end Cert.Stretch

end
-- ==== Proof.RefKept.lean ====
/-
  The reference program leaves its 18 argument arrays as they were.

  @main of the reference is a straight line of 317 host operations, each of which writes exactly one buffer; the
  18 arguments are the HBM buffers of index 0..17, and every written buffer has index at least 18. A buffer that no
  operation of a line writes holds, after the line, what it held before (`StableHlo.after_of_forall_not_mem`), so
  the fold of the operations over any contents agrees with those contents at each argument; with the run of the line
  (`RefRun.run`: every buffer ends at that fold over the launch contents) this is the frame claim.

  The one fact about the operations — "writes one buffer, of index ≥ 18" — is stated once per operation
  (`WritesFrom 18`), from the builder's own write set and a comparison of two literals, so the 18 arguments
  share one pass over the line.
-/
import proofs.«100455_j65352222376641_1_alg».proof.Proof.RefRun

noncomputable section

namespace Cert.ReferenceIdeal.RefKept

open Idealize.ShloMosaic Idealize.ShloMosaic.TcCoe Idealize.SL.Sem Idealize.ShloMosaic.StableHlo

/-! ## Operations that write one buffer of index at least `n` -/

section General

variable {τ₀ : Topo} {sg : RefSig} {Val : EltTy → Type}

/-- The operation writes exactly one buffer: a TensorCore reference whose index (in its memory space) is at least `n`. -/
def WritesFrom (n : ℕ) (op : HloOp τ₀ sg Val) : Prop :=
  ∃ y : Ref sg .tc, op.writes = {Proc.devRef (τ := τ₀) .tc y} ∧ n ≤ y.idx.val

/-- A reference of index below `n` is written by no operation of a line whose operations all write from `n` on:
    it keeps its contents through the line. -/
theorem after_of_writesFrom {n : ℕ} (ops : List (HloOp τ₀ sg Val)) (h : ops.Forall (WritesFrom n))
    (V : Valuation τ₀ sg Val) (b : Ref sg .tc) (hb : b.idx.val < n) :
    after ops V (Proc.devRef .tc b) = V (Proc.devRef .tc b) :=
  after_of_forall_not_mem ops V fun op hop hmem => by
    obtain ⟨y, hw, hy⟩ := List.forall_iff_forall_mem.mp h op hop
    rw [hw, Finset.mem_singleton] at hmem
    have e : b = y := Proc.devRef_injective _ hmem
    subst e
    omega

variable {n : ℕ}

/-- Each builder writes its result buffer `y` and nothing else. -/
theorem wNul {y : Ref sg .tc} {v : y.ty.Contents Val} {hy} (h : n ≤ y.idx.val) :
    WritesFrom n (nullary (τ := τ₀) y v hy) := ⟨y, rfl, h⟩
theorem wUna {x y : Ref sg .tc} {f : x.ty.Contents Val → y.ty.Contents Val} {hx hy} (h : n ≤ y.idx.val) :
    WritesFrom n (unary (τ := τ₀) x y f hx hy) := ⟨y, rfl, h⟩
theorem wBin {a b y : Ref sg .tc} {f : a.ty.Contents Val → b.ty.Contents Val → y.ty.Contents Val} {ha hb hy}
    (h : n ≤ y.idx.val) : WritesFrom n (binary (τ := τ₀) a b y f ha hb hy) := ⟨y, rfl, h⟩
theorem wTer {c a b y : Ref sg .tc} {f : c.ty.Contents Val → a.ty.Contents Val → b.ty.Contents Val → y.ty.Contents Val}
    {hc ha hb hy} (h : n ≤ y.idx.val) : WritesFrom n (ternary (τ := τ₀) c a b y f hc ha hb hy) := ⟨y, rfl, h⟩
theorem wRsh {x y : Ref sg .tc} {he hn hx hy} (h : n ≤ y.idx.val) :
    WritesFrom n (reshape (τ := τ₀) (Val := Val) x y he hn hx hy) := ⟨y, rfl, h⟩
theorem wNar {k : ℕ} {xs : Fin k → Ref sg .tc} {y : Ref sg .tc}
    {f : ((i : Fin k) → (xs i).ty.Contents Val) → y.ty.Contents Val} {hxs hy} (h : n ≤ y.idx.val) :
    WritesFrom n (nary (τ := τ₀) xs y f hxs hy) := ⟨y, rfl, h⟩

end General

/-! ## The reference's line -/

open Cert.ReferenceIdeal Cert.ReferenceIdeal.Gen

variable {F : FTy → Type} [FloatOps F]

/-- The comparison of the literal 18 with a literal reference's index. -/
local macro "d!" : term => `(by decide)

set_option maxRecDepth 8192 in
/-- Every operation of window 0 writes one buffer, of index at least 18. -/
theorem opsR0_writes : (RefRun.opsR0 : List (HloOp τ sig (Elt F))).Forall (WritesFrom 18) :=
  ⟨
    wUna d!, wRsh d!, wNul d!, wUna d!, wBin d!, wUna d!, wNul d!, wUna d!,
    wBin d!, wUna d!, wBin d!, wUna d!, wRsh d!, wUna d!, wRsh d!, wNul d!,
    wUna d!, wBin d!, wNul d!, wUna d!, wBin d!, wTer d!, wUna d!, wBin d!,
    wBin d!, wUna d!, wUna d!, wBin d!, wNul d!, wUna d!, wBin d!, wUna d!,
    wUna d!, wUna d!, wBin d!, wNul d!, wUna d!, wUna d!, wTer d!, wNul d!,
    wUna d!, wUna d!, wTer d!, wNul d!, wUna d!, wBin d!, wUna d!, wBin d!,
    wUna d!, wRsh d!, wBin d!, wBin d!, wNul d!, wUna d!, wBin d!, wUna d!,
    wUna d!, wUna d!, wBin d!, wNul d!, wUna d!, wUna d!, wTer d!, wNul d!,
    wUna d!, wUna d!, wTer d!, wNul d!, wUna d!, wBin d!, wUna d!, wBin d!,
    wUna d!, wRsh d!, wBin d!, wBin d!, wNul d!, wUna d!, wBin d!, wUna d!,
    wUna d!, wUna d!, wBin d!, wNul d!, wUna d!, wUna d!, wTer d!, wNul d!,
    wUna d!, wUna d!, wTer d!, wNul d!, wUna d!, wBin d!, wUna d!, wBin d!,
    wUna d!, wRsh d!, wBin d!, wBin d!, wNul d!, wUna d!, wBin d!⟩

set_option maxRecDepth 8192 in
/-- Every operation of window 1 writes one buffer, of index at least 18. -/
theorem opsR1_writes : (RefRun.opsR1 : List (HloOp τ sig (Elt F))).Forall (WritesFrom 18) :=
  ⟨
    wNul d!, wUna d!, wBin d!, wNul d!, wUna d!, wBin d!, wTer d!, wUna d!,
    wBin d!, wBin d!, wUna d!, wUna d!, wBin d!, wNul d!, wUna d!, wBin d!,
    wUna d!, wUna d!, wUna d!, wBin d!, wNul d!, wUna d!, wUna d!, wTer d!,
    wNul d!, wUna d!, wUna d!, wTer d!, wNul d!, wUna d!, wBin d!, wUna d!,
    wBin d!, wUna d!, wRsh d!, wBin d!, wBin d!, wNul d!, wUna d!, wBin d!,
    wUna d!, wUna d!, wUna d!, wBin d!, wNul d!, wUna d!, wUna d!, wTer d!,
    wNul d!, wUna d!, wUna d!, wTer d!, wNul d!, wUna d!, wBin d!, wUna d!,
    wBin d!, wUna d!, wRsh d!, wBin d!, wBin d!, wNul d!, wUna d!, wBin d!,
    wUna d!, wUna d!, wUna d!, wBin d!, wNul d!, wUna d!, wUna d!, wTer d!,
    wNul d!, wUna d!, wUna d!, wTer d!, wNul d!, wUna d!, wBin d!, wUna d!,
    wBin d!, wUna d!, wRsh d!, wBin d!, wBin d!, wNul d!, wUna d!, wBin d!⟩

set_option maxRecDepth 8192 in
/-- Every operation of window 2 writes one buffer, of index at least 18. -/
theorem opsR2_writes : (RefRun.opsR2 : List (HloOp τ sig (Elt F))).Forall (WritesFrom 18) :=
  ⟨
    wNul d!, wUna d!, wBin d!, wNul d!, wUna d!, wBin d!, wTer d!, wUna d!,
    wBin d!, wBin d!, wUna d!, wUna d!, wBin d!, wNul d!, wUna d!, wBin d!,
    wUna d!, wUna d!, wUna d!, wBin d!, wNul d!, wUna d!, wUna d!, wTer d!,
    wNul d!, wUna d!, wUna d!, wTer d!, wNul d!, wUna d!, wBin d!, wUna d!,
    wBin d!, wUna d!, wRsh d!, wBin d!, wBin d!, wNul d!, wUna d!, wBin d!,
    wUna d!, wUna d!, wUna d!, wBin d!, wNul d!, wUna d!, wUna d!, wTer d!,
    wNul d!, wUna d!, wUna d!, wTer d!, wNul d!, wUna d!, wBin d!, wUna d!,
    wBin d!, wUna d!, wRsh d!, wBin d!, wBin d!, wNul d!, wUna d!, wBin d!,
    wUna d!, wUna d!, wUna d!, wBin d!, wNul d!, wUna d!, wUna d!, wTer d!,
    wNul d!, wUna d!, wUna d!, wTer d!, wNul d!, wUna d!, wBin d!, wUna d!,
    wBin d!, wUna d!, wRsh d!, wBin d!, wBin d!, wNul d!, wUna d!, wBin d!⟩

set_option maxRecDepth 8192 in
/-- Every operation of window 3 writes one buffer, of index at least 18. -/
theorem opsR3_writes : (RefRun.opsR3 : List (HloOp τ sig (Elt F))).Forall (WritesFrom 18) :=
  ⟨
    wNul d!, wUna d!, wBin d!, wNul d!, wUna d!, wBin d!, wTer d!, wUna d!,
    wBin d!, wNul d!, wUna d!, wBin d!, wNul d!, wUna d!, wBin d!, wTer d!,
    wUna d!, wBin d!, wNar d!, wBin d!, wUna d!, wUna d!, wBin d!, wNul d!,
    wUna d!, wBin d!, wBin d!, wUna d!, wUna d!, wBin d!, wNul d!, wUna d!,
    wBin d!, wBin d!, wUna d!, wUna d!, wBin d!⟩

set_option maxRecDepth 8192 in
/-- Every operation of window 4 writes one buffer, of index at least 18. -/
theorem opsR4_writes : (RefRun.opsR4 : List (HloOp τ sig (Elt F))).Forall (WritesFrom 18) :=
  wRsh d!

/-- Every operation of @main writes one buffer, of index at least 18. -/
theorem ops_writes : (RefRun.ops : List (HloOp τ sig (Elt F))).Forall (WritesFrom 18) :=
  RefRun.forall_append opsR0_writes (RefRun.forall_append opsR1_writes (RefRun.forall_append opsR2_writes
    (RefRun.forall_append opsR3_writes opsR4_writes)))

/-- A buffer of index below 18 — an argument — holds after @main's operations what it held before them. -/
theorem kept (W : Valuation τ sig (Elt F)) (b : Ref sig .tc) (hb : b.idx.val < 18) :
    StableHlo.after RefRun.ops W (Proc.devRef .tc b) = W (Proc.devRef .tc b) :=
  after_of_writesFrom RefRun.ops ops_writes W b hb

theorem kept_arg0 (W : Valuation τ sig (Elt F)) :
    StableHlo.after RefRun.ops W (Proc.devRef .tc main_arg0) = W (Proc.devRef .tc main_arg0) := kept W main_arg0 (by decide)
theorem kept_arg1 (W : Valuation τ sig (Elt F)) :
    StableHlo.after RefRun.ops W (Proc.devRef .tc main_arg1) = W (Proc.devRef .tc main_arg1) := kept W main_arg1 (by decide)
theorem kept_arg2 (W : Valuation τ sig (Elt F)) :
    StableHlo.after RefRun.ops W (Proc.devRef .tc main_arg2) = W (Proc.devRef .tc main_arg2) := kept W main_arg2 (by decide)
theorem kept_arg3 (W : Valuation τ sig (Elt F)) :
    StableHlo.after RefRun.ops W (Proc.devRef .tc main_arg3) = W (Proc.devRef .tc main_arg3) := kept W main_arg3 (by decide)
theorem kept_arg4 (W : Valuation τ sig (Elt F)) :
    StableHlo.after RefRun.ops W (Proc.devRef .tc main_arg4) = W (Proc.devRef .tc main_arg4) := kept W main_arg4 (by decide)
theorem kept_arg5 (W : Valuation τ sig (Elt F)) :
    StableHlo.after RefRun.ops W (Proc.devRef .tc main_arg5) = W (Proc.devRef .tc main_arg5) := kept W main_arg5 (by decide)
theorem kept_arg6 (W : Valuation τ sig (Elt F)) :
    StableHlo.after RefRun.ops W (Proc.devRef .tc main_arg6) = W (Proc.devRef .tc main_arg6) := kept W main_arg6 (by decide)
theorem kept_arg7 (W : Valuation τ sig (Elt F)) :
    StableHlo.after RefRun.ops W (Proc.devRef .tc main_arg7) = W (Proc.devRef .tc main_arg7) := kept W main_arg7 (by decide)
theorem kept_arg8 (W : Valuation τ sig (Elt F)) :
    StableHlo.after RefRun.ops W (Proc.devRef .tc main_arg8) = W (Proc.devRef .tc main_arg8) := kept W main_arg8 (by decide)
theorem kept_arg9 (W : Valuation τ sig (Elt F)) :
    StableHlo.after RefRun.ops W (Proc.devRef .tc main_arg9) = W (Proc.devRef .tc main_arg9) := kept W main_arg9 (by decide)
theorem kept_arg10 (W : Valuation τ sig (Elt F)) :
    StableHlo.after RefRun.ops W (Proc.devRef .tc main_arg10) = W (Proc.devRef .tc main_arg10) := kept W main_arg10 (by decide)
theorem kept_arg11 (W : Valuation τ sig (Elt F)) :
    StableHlo.after RefRun.ops W (Proc.devRef .tc main_arg11) = W (Proc.devRef .tc main_arg11) := kept W main_arg11 (by decide)
theorem kept_arg12 (W : Valuation τ sig (Elt F)) :
    StableHlo.after RefRun.ops W (Proc.devRef .tc main_arg12) = W (Proc.devRef .tc main_arg12) := kept W main_arg12 (by decide)
theorem kept_arg13 (W : Valuation τ sig (Elt F)) :
    StableHlo.after RefRun.ops W (Proc.devRef .tc main_arg13) = W (Proc.devRef .tc main_arg13) := kept W main_arg13 (by decide)
theorem kept_arg14 (W : Valuation τ sig (Elt F)) :
    StableHlo.after RefRun.ops W (Proc.devRef .tc main_arg14) = W (Proc.devRef .tc main_arg14) := kept W main_arg14 (by decide)
theorem kept_arg15 (W : Valuation τ sig (Elt F)) :
    StableHlo.after RefRun.ops W (Proc.devRef .tc main_arg15) = W (Proc.devRef .tc main_arg15) := kept W main_arg15 (by decide)
theorem kept_arg16 (W : Valuation τ sig (Elt F)) :
    StableHlo.after RefRun.ops W (Proc.devRef .tc main_arg16) = W (Proc.devRef .tc main_arg16) := kept W main_arg16 (by decide)
theorem kept_arg17 (W : Valuation τ sig (Elt F)) :
    StableHlo.after RefRun.ops W (Proc.devRef .tc main_arg17) = W (Proc.devRef .tc main_arg17) := kept W main_arg17 (by decide)

/-- The frame of the reference: from any memory with zero counters, every weakly fair execution of @main terminates
    and leaves each of the 18 argument arrays, on every device, as the initial memory had it. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun _ h c =>
    ⟨(h c main_arg0).trans (kept_arg0 _),
     (h c main_arg1).trans (kept_arg1 _),
     (h c main_arg2).trans (kept_arg2 _),
     (h c main_arg3).trans (kept_arg3 _),
     (h c main_arg4).trans (kept_arg4 _),
     (h c main_arg5).trans (kept_arg5 _),
     (h c main_arg6).trans (kept_arg6 _),
     (h c main_arg7).trans (kept_arg7 _),
     (h c main_arg8).trans (kept_arg8 _),
     (h c main_arg9).trans (kept_arg9 _),
     (h c main_arg10).trans (kept_arg10 _),
     (h c main_arg11).trans (kept_arg11 _),
     (h c main_arg12).trans (kept_arg12 _),
     (h c main_arg13).trans (kept_arg13 _),
     (h c main_arg14).trans (kept_arg14 _),
     (h c main_arg15).trans (kept_arg15 _),
     (h c main_arg16).trans (kept_arg16 _),
     (h c main_arg17).trans (kept_arg17 _)⟩) (RefRun.run m ρ)

end Cert.ReferenceIdeal.RefKept

end
-- ==== Proof.Bridge.lean ====
/-
  The hypothesis of the equivalence claim, read on the two programs' launch contents: memories that hold the same
  eighteen argument arrays give valuations of the two programs' buffers that agree on the arguments.
-/
import proofs.«100455_j65352222376641_1_alg».proof.Defs
import proofs.«100455_j65352222376641_1_alg».proof.Proof.StretchDefs
import Idealize.ShloMosaic.Adequacy
import Idealize.ShloMosaic.Init
import Idealize.ShloMosaic.Lib.Pipeline.Kit

noncomputable section
namespace Cert.Proof.Bridge
open Idealize.ShloMosaic Idealize.ShloMosaic.TcCoe Idealize.SL.Sem

set_option maxHeartbeats 4000000 in
/-- Memories that agree on the eighteen arguments give launch valuations that agree on them. -/
theorem agree_of (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) :
    Cert.Stretch.Agree (F := Ideal) (fun b => (s₀ m ρ).mem ((c : Dev Cert.KernelIdeal.nD), b)) (StableHlo.launchContents m' c) where
    a0 := ((h).1).symm
    a1 := ((h.2).1).symm
    a2 := ((h.2.2).1).symm
    a3 := ((h.2.2.2).1).symm
    a4 := ((h.2.2.2.2).1).symm
    a5 := ((h.2.2.2.2.2).1).symm
    a6 := ((h.2.2.2.2.2.2).1).symm
    a7 := ((h.2.2.2.2.2.2.2).1).symm
    a8 := ((h.2.2.2.2.2.2.2.2).1).symm
    a9 := ((h.2.2.2.2.2.2.2.2.2).1).symm
    a10 := ((h.2.2.2.2.2.2.2.2.2.2).1).symm
    a11 := ((h.2.2.2.2.2.2.2.2.2.2.2).1).symm
    a12 := ((h.2.2.2.2.2.2.2.2.2.2.2.2).1).symm
    a13 := ((h.2.2.2.2.2.2.2.2.2.2.2.2.2).1).symm
    a14 := ((h.2.2.2.2.2.2.2.2.2.2.2.2.2.2).1).symm
    a15 := ((h.2.2.2.2.2.2.2.2.2.2.2.2.2.2.2).1).symm
    a16 := ((h.2.2.2.2.2.2.2.2.2.2.2.2.2.2.2.2).1).symm
    a17 := (h.2.2.2.2.2.2.2.2.2.2.2.2.2.2.2.2.2).symm

end Cert.Proof.Bridge
end
-- ==== Proof.Claims.lean ====
/-
  The five claims.

  Frames. Each of the two kernel programs runs as nine segments — five stretches of host operations and four
  pipelined regions — over the thread state "every unscoped buffer at the contents the segments before it leave";
  no operation and no region writes an argument array. The reference is one straight line of host operations,
  none of which writes an argument.

  Equivalence at the extended reals. Each region's result array ends holding one whole-array function of the arrays
  the region finds (a graph-convolution layer, or the edge decoder), because a block of rows of the body's stored
  value is the same rows of that function; a region is therefore one more operation of a straight line, and the
  kernel program's line and the reference's, which apply the same gathers, masks, scatter-additions and divisions to the
  same arrays in a different order, leave the same result from arguments that agree. The two programs share every
  constant, and the sums and products on the two sides are the same sums and products in the same order, so no
  finiteness of the inputs is used.
-/
import proofs.«100455_j65352222376641_1_alg».proof.Defs
import proofs.«100455_j65352222376641_1_alg».proof.Proof.Gen.Kernel
import proofs.«100455_j65352222376641_1_alg».proof.Proof.Gen.KernelIdeal
import proofs.«100455_j65352222376641_1_alg».proof.Proof.Gen.ReferenceIdeal
import proofs.«100455_j65352222376641_1_alg».proof.Proof.Gen.Pre_finite_inputs
import proofs.«100455_j65352222376641_1_alg».proof.Proof.KB.Run
import proofs.«100455_j65352222376641_1_alg».proof.Proof.KI.Run
import proofs.«100455_j65352222376641_1_alg».proof.Proof.KI.Fold
import proofs.«100455_j65352222376641_1_alg».proof.Proof.StretchAll
import proofs.«100455_j65352222376641_1_alg».proof.Proof.RefKept
import proofs.«100455_j65352222376641_1_alg».proof.Proof.Bridge
import Idealize.ShloMosaic.Adequacy
import Idealize.ShloMosaic.Init

noncomputable section

namespace Cert.Proof.Claims

open Idealize.ShloMosaic Idealize.ShloMosaic.TcCoe Idealize.SL.Sem

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ => Cert.ReferenceIdeal.RefKept.frame (F := Ideal) m ρ
theorem preserves : Cert.preserves_Kernel_KernelIdeal := trivial

set_option maxHeartbeats 4000000 in
/-- The kernel's result buffer ends at the last boundary's contents, which are the fold of the straight line with the
    regions read as operations; the reference's ends at the fold of its own line; the two folds agree. -/
theorem algebraic : Cert.algebraic_KernelIdeal_ReferenceIdeal := by
  intro m ρ m' ρ' _ hagree
  refine ⟨fun c => Cert.KernelIdeal.Hand.W9 m ρ c (Proc.devRef .tc Cert.KernelIdeal.main_v215), Cert.KernelIdeal.Hand.run_val m ρ, ?_⟩
  refine (θ_run Cert.ReferenceIdeal.defs _ _).mono (fun r h c => ⟨?_,
      (h c Cert.ReferenceIdeal.main_arg0).trans (Cert.ReferenceIdeal.RefKept.kept_arg0 _),
      (h c Cert.ReferenceIdeal.main_arg1).trans (Cert.ReferenceIdeal.RefKept.kept_arg1 _),
      (h c Cert.ReferenceIdeal.main_arg2).trans (Cert.ReferenceIdeal.RefKept.kept_arg2 _),
      (h c Cert.ReferenceIdeal.main_arg3).trans (Cert.ReferenceIdeal.RefKept.kept_arg3 _),
      (h c Cert.ReferenceIdeal.main_arg4).trans (Cert.ReferenceIdeal.RefKept.kept_arg4 _),
      (h c Cert.ReferenceIdeal.main_arg5).trans (Cert.ReferenceIdeal.RefKept.kept_arg5 _),
      (h c Cert.ReferenceIdeal.main_arg6).trans (Cert.ReferenceIdeal.RefKept.kept_arg6 _),
      (h c Cert.ReferenceIdeal.main_arg7).trans (Cert.ReferenceIdeal.RefKept.kept_arg7 _),
      (h c Cert.ReferenceIdeal.main_arg8).trans (Cert.ReferenceIdeal.RefKept.kept_arg8 _),
      (h c Cert.ReferenceIdeal.main_arg9).trans (Cert.ReferenceIdeal.RefKept.kept_arg9 _),
      (h c Cert.ReferenceIdeal.main_arg10).trans (Cert.ReferenceIdeal.RefKept.kept_arg10 _),
      (h c Cert.ReferenceIdeal.main_arg11).trans (Cert.ReferenceIdeal.RefKept.kept_arg11 _),
      (h c Cert.ReferenceIdeal.main_arg12).trans (Cert.ReferenceIdeal.RefKept.kept_arg12 _),
      (h c Cert.ReferenceIdeal.main_arg13).trans (Cert.ReferenceIdeal.RefKept.kept_arg13 _),
      (h c Cert.ReferenceIdeal.main_arg14).trans (Cert.ReferenceIdeal.RefKept.kept_arg14 _),
      (h c Cert.ReferenceIdeal.main_arg15).trans (Cert.ReferenceIdeal.RefKept.kept_arg15 _),
      (h c Cert.ReferenceIdeal.main_arg16).trans (Cert.ReferenceIdeal.RefKept.kept_arg16 _),
      (h c Cert.ReferenceIdeal.main_arg17).trans (Cert.ReferenceIdeal.RefKept.kept_arg17 _)⟩)
    (Cert.ReferenceIdeal.RefRun.run (F := Ideal) m' ρ')
  refine (h c Cert.ReferenceIdeal.main_v258).trans ?_
  have hw := Cert.Stretch.whole (F := Ideal) (Cert.KernelIdeal.Hand.W0 m ρ c) (StableHlo.launchContents m' c)
    (Cert.Proof.Bridge.agree_of m ρ m' c (hagree c))
  have hf := congrFun (Cert.KernelIdeal.Fold.W9_eq m ρ c) (Proc.devRef .tc Cert.KernelIdeal.main_v215)
  exact hw.symm.trans hf.symm

end Cert.Proof.Claims

end
-- ==== Proof.lean ====
/-
  The certificate of a three-layer relational graph convolution with an edge decoder.

  The kernel program gathers each node's neighbour features, forms the three per-relation neighbour means by
  scatter-additions and divisions on the host, and computes each layer's dense part
      relu ((((h · root + b) + a0 · w0) + a1 · w1) + a2 · w2)
  in one pipelined region over blocks of 5000 rows; after the third layer it concatenates, per edge, the two end nodes'
  features with the edge's attributes and runs the decoder (two affine maps each followed by relu, then a third) in a
  fourth region over blocks of 16000 rows. The reference does the same on the host alone, interleaving each layer's
  products with the aggregation. The claims: the three programs run to the end, fault nowhere and leave their
  arguments as found; the idealized kernel is the kernel's own text (nothing was rewritten); and at the extended
  reals the idealized kernel and the idealized reference, from memories that agree on the arguments, end with equal
  results. The proofs are in Proof/Claims.lean and the modules it imports; here they are put together under the
  programs' stated side conditions.
-/
import proofs.«100455_j65352222376641_1_alg».proof.Defs
import proofs.«100455_j65352222376641_1_alg».proof.Proof.Gen.Kernel
import proofs.«100455_j65352222376641_1_alg».proof.Proof.Gen.KernelIdeal
import proofs.«100455_j65352222376641_1_alg».proof.Proof.Gen.ReferenceIdeal
import proofs.«100455_j65352222376641_1_alg».proof.Proof.Gen.Pre_finite_inputs
import proofs.«100455_j65352222376641_1_alg».proof.Proof.Claims
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  Cert.Proof.Claims.frame_k, Cert.Proof.Claims.frame_ki, Cert.Proof.Claims.frame_ri, Cert.Proof.Claims.preserves, Cert.Proof.Claims.algebraic⟩

end Cert.Proof

end
